-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v48)) (v2 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_v49) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S4096x32 : Shape := ⟨2, ![4096, 32]⟩
abbrev S16x846914 : Shape := ⟨2, ![16, 846914]⟩
abbrev S64 : Shape := ⟨1, ![64]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S16x846914 : S_.BroadcastsInDim S16x846914 (![] : Fin 0 → Fin S16x846914.rank)
  reducesTo_S16x846914_S_d0_1 : S16x846914.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S4096x64 .f32) (main_arg1 : FVec F S4096x32 .f32) (main_arg2 : FVec F S16x846914 .f32) (main_arg3 : FVec F S64 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S4096x32 .f32 := Host.absf main_arg1
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S16x846914 .f32 := Host.absf main_arg2
  let main_cst_2 : FVec F S_ .f32 := constant S_ .f32 0x7F800000#32
  let main_v10 : FVec F S16x846914 .f32 := broadcastInDim S16x846914 ![] bcast_S_S16x846914 main_cst_2
  let main_v11 : IVec S16x846914 1 := cmpf .olt main_v9 main_v10
  let main_c_3 : IVec S_ 1 := constantI S_ 1 1#1
  let main_v12 : IVec S_ 1 := (fun x v => Host.reduce IntOp.andi x v reducesTo_S16x846914_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S4096x64 : Shape := ⟨2, ![4096, 64]⟩
abbrev S4096x32 : Shape := ⟨2, ![4096, 32]⟩
abbrev S16x846914 : Shape := ⟨2, ![16, 846914]⟩
abbrev S64 : Shape := ⟨1, ![64]⟩
abbrev S16x16384 : Shape := ⟨2, ![16, 16384]⟩
abbrev S16x256x64 : Shape := ⟨3, ![16, 256, 64]⟩
abbrev S16x256 : Shape := ⟨2, ![16, 256]⟩
abbrev S16x8192 : Shape := ⟨2, ![16, 8192]⟩
abbrev S16x256x32 : Shape := ⟨3, ![16, 256, 32]⟩
abbrev S16x262144 : Shape := ⟨2, ![16, 262144]⟩
abbrev S16x512x512 : Shape := ⟨3, ![16, 512, 512]⟩
abbrev S16x512 : Shape := ⟨2, ![16, 512]⟩
abbrev S16x32768 : Shape := ⟨2, ![16, 32768]⟩
abbrev S16x64x512 : Shape := ⟨3, ![16, 64, 512]⟩
abbrev S16x64 : Shape := ⟨2, ![16, 64]⟩
abbrev S16x1x512 : Shape := ⟨3, ![16, 1, 512]⟩
abbrev S16x1 : Shape := ⟨2, ![16, 1]⟩
abbrev S16x64x256 : Shape := ⟨3, ![16, 64, 256]⟩
abbrev S16x32x256 : Shape := ⟨3, ![16, 32, 256]⟩
abbrev S16x512x64 : Shape := ⟨3, ![16, 512, 64]⟩
abbrev S16x512x1 : Shape := ⟨3, ![16, 512, 1]⟩
abbrev S16x512x66 : Shape := ⟨3, ![16, 512, 66]⟩
abbrev S16x66 : Shape := ⟨2, ![16, 66]⟩
abbrev S16x4096x66 : Shape := ⟨3, ![16, 4096, 66]⟩
abbrev S512x64 : Shape := ⟨2, ![512, 64]⟩
abbrev S512x32 : Shape := ⟨2, ![512, 32]⟩
abbrev S1x64 : Shape := ⟨2, ![1, 64]⟩
abbrev S1x64x256 : Shape := ⟨3, ![1, 64, 256]⟩
abbrev S64x256 : Shape := ⟨2, ![64, 256]⟩
abbrev S1x256 : Shape := ⟨2, ![1, 256]⟩
abbrev S256 : Shape := ⟨1, ![256]⟩
abbrev S512x256 : Shape := ⟨2, ![512, 256]⟩
abbrev S1x32x256 : Shape := ⟨3, ![1, 32, 256]⟩
abbrev S32x256 : Shape := ⟨2, ![32, 256]⟩
abbrev S512x512 : Shape := ⟨2, ![512, 512]⟩
abbrev S1x512x512 : Shape := ⟨3, ![1, 512, 512]⟩
abbrev S1x512 : Shape := ⟨2, ![1, 512]⟩
abbrev S512 : Shape := ⟨1, ![512]⟩
abbrev S1x512x66 : Shape := ⟨3, ![1, 512, 66]⟩
abbrev S512x66 : Shape := ⟨2, ![512, 66]⟩
abbrev S1x66 : Shape := ⟨2, ![1, 66]⟩
abbrev S66 : Shape := ⟨1, ![66]⟩
abbrev S512x1 : Shape := ⟨2, ![512, 1]⟩
abbrev S16x4096x64 : Shape := ⟨3, ![16, 4096, 64]⟩
abbrev S16x4096x1 : Shape := ⟨3, ![16, 4096, 1]⟩
abbrev S4096x16x64 : Shape := ⟨3, ![4096, 16, 64]⟩
abbrev S1x1x64 : Shape := ⟨3, ![1, 1, 64]⟩
abbrev S4096x16x1 : Shape := ⟨3, ![4096, 16, 1]⟩

abbrev nBuf : Space → Nat
  | .hbm => 54
  | .vmem => 19
  | .smem => 0
  | _ => 0

abbrev bufTy : (tb : Table) → Fin (tcTables nBuf tb) → BufTy
  | .hbm, ⟨0, _⟩ => ⟨S4096x64, .f32⟩
  | .hbm, ⟨1, _⟩ => ⟨S4096x32, .f32⟩
  | .hbm, ⟨2, _⟩ => ⟨S16x846914, .f32⟩
  | .hbm, ⟨3, _⟩ => ⟨S64, .f32⟩
  | .hbm, ⟨4, _⟩ => ⟨S16x16384, .f32⟩
  | .hbm, ⟨5, _⟩ => ⟨S16x256x64, .f32⟩
  | .hbm, ⟨6, _⟩ => ⟨S16x256, .f32⟩
  | .hbm, ⟨7, _⟩ => ⟨S16x8192, .f32⟩
  | .hbm, ⟨8, _⟩ => ⟨S16x256x32, .f32⟩
  | .hbm, ⟨9, _⟩ => ⟨S16x256, .f32⟩
  | .hbm, ⟨10, _⟩ => ⟨S16x262144, .f32⟩
  | .hbm, ⟨11, _⟩ => ⟨S16x512x512, .f32⟩
  | .hbm, ⟨12, _⟩ => ⟨S16x512, .f32⟩
  | .hbm, ⟨13, _⟩ => ⟨S16x262144, .f32⟩
  | .hbm, ⟨14, _⟩ => ⟨S16x512x512, .f32⟩
  | .hbm, ⟨15, _⟩ => ⟨S16x512, .f32⟩
  | .hbm, ⟨16, _⟩ => ⟨S16x262144, .f32⟩
  | .hbm, ⟨17, _⟩ => ⟨S16x512x512, .f32⟩
  | .hbm, ⟨18, _⟩ => ⟨S16x512, .f32⟩
  | .hbm, ⟨19, _⟩ => ⟨S16x32768, .f32⟩
  | .hbm, ⟨20, _⟩ => ⟨S16x64x512, .f32⟩
  | .hbm, ⟨21, _⟩ => ⟨S16x64, .f32⟩
  | .hbm, ⟨22, _⟩ => ⟨S16x512, .f32⟩
  | .hbm, ⟨23, _⟩ => ⟨S16x1x512, .f32⟩
  | .hbm, ⟨24, _⟩ => ⟨S16x1, .f32⟩
  | .hbm, ⟨25, _⟩ => ⟨S16x512, .f32⟩
  | .hbm, ⟨26, _⟩ => ⟨S16x1x512, .f32⟩
  | .hbm, ⟨27, _⟩ => ⟨S16x1, .f32⟩
  | .hbm, ⟨28, _⟩ => ⟨S16x64x256, .f32⟩
  | .hbm, ⟨29, _⟩ => ⟨S16x64x256, .bf16⟩
  | .hbm, ⟨30, _⟩ => ⟨S16x32x256, .f32⟩
  | .hbm, ⟨31, _⟩ => ⟨S16x32x256, .bf16⟩
  | .hbm, ⟨32, _⟩ => ⟨S16x512x512, .f32⟩
  | .hbm, ⟨33, _⟩ => ⟨S16x512x512, .bf16⟩
  | .hbm, ⟨34, _⟩ => ⟨S16x512x512, .f32⟩
  | .hbm, ⟨35, _⟩ => ⟨S16x512x512, .bf16⟩
  | .hbm, ⟨36, _⟩ => ⟨S16x512x512, .f32⟩
  | .hbm, ⟨37, _⟩ => ⟨S16x512x512, .bf16⟩
  | .hbm, ⟨38, _⟩ => ⟨S16x512x64, .f32⟩
  | .hbm, ⟨39, _⟩ => ⟨S16x512x1, .f32⟩
  | .hbm, ⟨40, _⟩ => ⟨S16x512x1, .f32⟩
  | .hbm, ⟨41, _⟩ => ⟨S16x512x66, .f32⟩
  | .hbm, ⟨42, _⟩ => ⟨S16x512x66, .bf16⟩
  | .hbm, ⟨43, _⟩ => ⟨S16x66, .f32⟩
  | .hbm, ⟨44, _⟩ => ⟨S16x4096x66, .f32⟩
  | .hbm, ⟨45, _⟩ => ⟨S16x4096x64, .f32⟩
  | .hbm, ⟨46, _⟩ => ⟨S16x4096x1, .f32⟩
  | .hbm, ⟨47, _⟩ => ⟨S16x4096x1, .f32⟩
  | .hbm, ⟨48, _⟩ => ⟨S4096x16x64, .f32⟩
  | .hbm, ⟨49, _⟩ => ⟨S1x1x64, .f32⟩
  | .hbm, ⟨50, _⟩ => ⟨S4096x16x64, .f32⟩
  | .hbm, ⟨51, _⟩ => ⟨S4096x16x64, .f32⟩
  | .hbm, ⟨52, _⟩ => ⟨S4096x16x1, .f32⟩
  | .hbm, ⟨53, _⟩ => ⟨S4096x16x1, .f32⟩
  | .local _ .vmem, ⟨0, _⟩ => ⟨S512x64, .f32⟩
  | .local _ .vmem, ⟨1, _⟩ => ⟨S512x64, .f32⟩
  | .local _ .vmem, ⟨2, _⟩ => ⟨S512x32, .f32⟩
  | .local _ .vmem, ⟨3, _⟩ => ⟨S512x32, .f32⟩
  | .local _ .vmem, ⟨4, _⟩ => ⟨S64, .f32⟩
  | .local _ .vmem, ⟨5, _⟩ => ⟨S16x64x256, .bf16⟩
  | .local _ .vmem, ⟨6, _⟩ => ⟨S16x256, .f32⟩
  | .local _ .vmem, ⟨7, _⟩ => ⟨S16x32x256, .bf16⟩
  | .local _ .vmem, ⟨8, _⟩ => ⟨S16x256, .f32⟩
  | .local _ .vmem, ⟨9, _⟩ => ⟨S16x512x512, .bf16⟩
  | .local _ .vmem, ⟨10, _⟩ => ⟨S16x512, .f32⟩
  | .local _ .vmem, ⟨11, _⟩ => ⟨S16x512x512, .bf16⟩
  | .local _ .vmem, ⟨12, _⟩ => ⟨S16x512, .f32⟩
  | .local _ .vmem, ⟨13, _⟩ => ⟨S16x512x512, .bf16⟩
  | .local _ .vmem, ⟨14, _⟩ => ⟨S16x512, .f32⟩
  | .local _ .vmem, ⟨15, _⟩ => ⟨S16x512x66, .bf16⟩
  | .local _ .vmem, ⟨16, _⟩ => ⟨S16x66, .f32⟩
  | .local _ .vmem, ⟨17, _⟩ => ⟨S16x512x66, .f32⟩
  | .local _ .vmem, ⟨18, _⟩ => ⟨S16x512x66, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v8 : BitVec 32 := Scalar.addi c0_i32 c16_i32
  let c1_i32 : BitVec 32 := 1#32
  ⟨c0_i32, v8, c1_i32⟩
def k0_off1 (k0_t1 : Fin k0_t1_loop.trips) : Fin 3 → Nat :=
  let c0_i32 : BitVec 32 := 0#32
  let c1_i32 : BitVec 32 := 1#32
  let arg17 : BitVec 32 := Scf.iv c0_i32 c1_i32 k0_t1
  let v9 : Index := Scalar.indexCast arg17
  let c0_5 : Index := 0#32
  let c0_6 : Index := 0#32
  ![v9.toNat, 0, 0]
def k0_off2 (k0_t1 : Fin k0_t1_loop.trips) : Fin 2 → Nat :=
  let c0_i32 : BitVec 32 := 0#32
  let c1_i32 : BitVec 32 := 1#32
  let arg17 : BitVec 32 := Scf.iv c0_i32 c1_i32 k0_t1
  let v12 : Index := Scalar.indexCast arg17
  let c0_7 : Index := 0#32
  ![v12.toNat, 0]
def k0_off3 (k0_t1 : Fin k0_t1_loop.trips) : Fin 3 → Nat :=
  let c0_i32 : BitVec 32 := 0#32
  let c1_i32 : BitVec 32 := 1#32
  let arg17 : BitVec 32 := Scf.iv c0_i32 c1_i32 k0_t1
  let v19 : Index := Scalar.indexCast arg17
  let c0_8 : Index := 0#32
  let c0_9 : Index := 0#32
  ![v19.toNat, 0, 0]
def k0_off4 (k0_t1 : Fin k0_t1_loop.trips) : Fin 3 → Nat :=
  let c0_i32 : BitVec 32 := 0#32
  let c1_i32 : BitVec 32 := 1#32
  let arg17 : BitVec 32 := Scf.iv c0_i32 c1_i32 k0_t1
  let v35 : Index := Scalar.indexCast arg17
  let c0_14 : Index := 0#32
  let c0_15 : Index := 0#32
  ![v35.toNat, 0, 0]
def k0_off5 (k0_t1 : Fin k0_t1_loop.trips) : Fin 2 → Nat :=
  let c0_i32 : BitVec 32 := 0#32
  let c1_i32 : BitVec 32 := 1#32
  let arg17 : BitVec 32 := Scf.iv c0_i32 c1_i32 k0_t1
  let v38 : Index := Scalar.indexCast arg17
  let c0_16 : Index := 0#32
  ![v38.toNat, 0]
def k0_off6 (k0_t1 : Fin k0_t1_loop.trips) : Fin 3 → Nat :=
  let c0_i32 : BitVec 32 := 0#32
  let c1_i32 : BitVec 32 := 1#32
  let arg17 : BitVec 32 := Scf.iv c0_i32 c1_i32 k0_t1
  let v84 : Index := Scalar.indexCast arg17
  let c0_32 : Index := 0#32
  let c0_33 : Index := 0#32
  ![v84.toNat, 0, 0]
def k0_off7 (k0_t1 : Fin k0_t1_loop.trips) : Fin 2 → Nat :=
  let c0_i32 : BitVec 32 := 0#32
  let c1_i32 : BitVec 32 := 1#32
  let arg17 : BitVec 32 := Scf.iv c0_i32 c1_i32 k0_t1
  let v87 : Index := Scalar.indexCast arg17
  let c0_34 : Index := 0#32
  ![v87.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x32x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x512x66 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16x66 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S16x512x66 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  slices_S16x846914_S16x16384_0_0 : S16x846914.Slices ![0, 0] S16x16384
  shapeCasts_S16x16384_S16x256x64 : S16x16384.ShapeCasts S16x256x64
  slices_S16x846914_S16x256_0_16384 : S16x846914.Slices ![0, 16384] S16x256
  slices_S16x846914_S16x8192_0_16640 : S16x846914.Slices ![0, 16640] S16x8192
  shapeCasts_S16x8192_S16x256x32 : S16x8192.ShapeCasts S16x256x32
  slices_S16x846914_S16x256_0_24832 : S16x846914.Slices ![0, 24832] S16x256
  slices_S16x846914_S16x262144_0_25088 : S16x846914.Slices ![0, 25088] S16x262144
  shapeCasts_S16x262144_S16x512x512 : S16x262144.ShapeCasts S16x512x512
  slices_S16x846914_S16x512_0_287232 : S16x846914.Slices ![0, 287232] S16x512
  slices_S16x846914_S16x262144_0_287744 : S16x846914.Slices ![0, 287744] S16x262144
  slices_S16x846914_S16x512_0_549888 : S16x846914.Slices ![0, 549888] S16x512
  slices_S16x846914_S16x262144_0_550400 : S16x846914.Slices ![0, 550400] S16x262144
  slices_S16x846914_S16x512_0_812544 : S16x846914.Slices ![0, 812544] S16x512
  slices_S16x846914_S16x32768_0_813056 : S16x846914.Slices ![0, 813056] S16x32768
  shapeCasts_S16x32768_S16x64x512 : S16x32768.ShapeCasts S16x64x512
  slices_S16x846914_S16x64_0_845824 : S16x846914.Slices ![0, 845824] S16x64
  slices_S16x846914_S16x512_0_845888 : S16x846914.Slices ![0, 845888] S16x512
  shapeCasts_S16x512_S16x1x512 : S16x512.ShapeCasts S16x1x512
  slices_S16x846914_S16x1_0_846400 : S16x846914.Slices ![0, 846400] S16x1
  slices_S16x846914_S16x512_0_846401 : S16x846914.Slices ![0, 846401] S16x512
  slices_S16x846914_S16x1_0_846913 : S16x846914.Slices ![0, 846913] S16x1
  transposes_S16x256x64_S16x64x256_0_2_1 : S16x256x64.Transposes [0, 2, 1] S16x64x256
  bitsLt_bf16_f32 : FTy.bits .bf16 < FTy.bits .f32
  transposes_S16x256x32_S16x32x256_0_2_1 : S16x256x32.Transposes [0, 2, 1] S16x32x256
  transposes_S16x512x512_S16x512x512_0_2_1 : S16x512x512.Transposes [0, 2, 1] S16x512x512
  transposes_S16x64x512_S16x512x64_0_2_1 : S16x64x512.Transposes [0, 2, 1] S16x512x64
  transposes_S16x1x512_S16x512x1_0_2_1 : S16x1x512.Transposes [0, 2, 1] S16x512x1
  concatenates_S16x512x64_S16x512x1_S16x512x1_S16x512x66_d2 : Shape.Concatenates [S16x512x64, S16x512x1, S16x512x1] S16x512x66 2
  concatenates_S16x64_S16x1_S16x1_S16x66_d1 : Shape.Concatenates [S16x64, S16x1, S16x1] S16x66 1
  inb_S512x64_S512x64_0_0 : ∀ a, (![0, 0] : Fin 2 → Nat) a + S512x64.size a ≤ S512x64.size a
  h_S512x64 : 0 < S512x64.numel
  inb_S64_S64_0 : ∀ a, (![0] : Fin 1 → Nat) a + S64.size a ≤ S64.size a
  h_S64 : 0 < S64.numel
  shapeCasts_S64_S1x64 : S64.ShapeCasts S1x64
  broadcasts_S1x64_S512x64 : S1x64.Broadcasts S512x64
  inb_S512x32_S512x32_0_0 : ∀ a, (![0, 0] : Fin 2 → Nat) a + S512x32.size a ≤ S512x32.size a
  h_S512x32 : 0 < S512x32.numel
  h_S1x64x256 : 0 < S1x64x256.numel
  shapeCasts_S1x64x256_S64x256 : S1x64x256.ShapeCasts S64x256
  h_S1x256 : 0 < S1x256.numel
  shapeCasts_S1x256_S256 : S1x256.ShapeCasts S256
  shapeCasts_S256_S1x256 : S256.ShapeCasts S1x256
  broadcasts_S1x256_S512x256 : S1x256.Broadcasts S512x256
  h_S1x32x256 : 0 < S1x32x256.numel
  shapeCasts_S1x32x256_S32x256 : S1x32x256.ShapeCasts S32x256
  concatenates_S512x256_S512x256_S512x512_d1 : Shape.Concatenates [S512x256, S512x256] S512x512 1
  h_S1x512x512 : 0 < S1x512x512.numel
  shapeCasts_S1x512x512_S512x512 : S1x512x512.ShapeCasts S512x512
  h_S1x512 : 0 < S1x512.numel
  shapeCasts_S1x512_S512 : S1x512.ShapeCasts S512
  shapeCasts_S512_S1x512 : S512.ShapeCasts S1x512
  broadcasts_S1x512_S512x512 : S1x512.Broadcasts S512x512
  h_S1x512x66 : 0 < S1x512x66.numel
  shapeCasts_S1x512x66_S512x66 : S1x512x66.ShapeCasts S512x66
  h_S1x66 : 0 < S1x66.numel
  shapeCasts_S1x66_S66 : S1x66.ShapeCasts S66
  shapeCasts_S66_S1x66 : S66.ShapeCasts S1x66
  broadcasts_S1x66_S512x66 : S1x66.Broadcasts S512x66
  slices_S512x66_o0_0_S512x64 : S512x66.Slices ![0, 0] S512x64
  slices_S512x66_o0_64_S512x1 : S512x66.Slices ![0, 64] S512x1
  slices_S512x66_o0_65_S512x1 : S512x66.Slices ![0, 65] S512x1
  concatenates_S512x64_S512x1_S512x1_S512x66_d1 : Shape.Concatenates [S512x64, S512x1, S512x1] S512x66 1
  shapeCasts_S512x66_S1x512x66 : S512x66.ShapeCasts S1x512x66
  slices_S16x4096x66_S16x4096x64_0_0_0 : S16x4096x66.Slices ![0, 0, 0] S16x4096x64
  slices_S16x4096x66_S16x4096x1_0_0_64 : S16x4096x66.Slices ![0, 0, 64] S16x4096x1
  slices_S16x4096x66_S16x4096x1_0_0_65 : S16x4096x66.Slices ![0, 0, 65] S16x4096x1
  transposes_S16x4096x64_S4096x16x64_1_0_2 : S16x4096x64.Transposes [1, 0, 2] S4096x16x64
  bcast_S64_S1x1x64_2 : S64.BroadcastsInDim S1x1x64 (![2] : Fin 1 → Fin S1x1x64.rank)
  bcast_S1x1x64_S4096x16x64_0_1_2 : S1x1x64.BroadcastsInDim S4096x16x64 (![0, 1, 2] : Fin 3 → Fin S4096x16x64.rank)
  transposes_S16x4096x1_S4096x16x1_1_0_2 : S16x4096x1.Transposes [1, 0, 2] S4096x16x1
  dot_S512x64_S64x256_S512x256_1_0_0_1_n_n_wf : DotDims.WF S512x64 S64x256 S512x256 [1] [0] [0] [1] [] []
  dot_S512x32_S32x256_S512x256_1_0_0_1_n_n_wf : DotDims.WF S512x32 S32x256 S512x256 [1] [0] [0] [1] [] []
  dot_S512x512_S512x512_S512x512_1_0_0_1_n_n_wf : DotDims.WF S512x512 S512x512 S512x512 [1] [0] [0] [1] [] []
  dot_S512x512_S512x66_S512x66_1_0_0_1_n_n_wf : DotDims.WF S512x512 S512x66 S512x66 [1] [0] [0] [1] [] []
  hrank0 : 0 < grid0.rank
  k0_t1_ok : k0_t1_loop.OK
  k0_off1_inb : ∀ k0_t1 : Fin k0_t1_loop.trips, ∀ a, (k0_off1 k0_t1) a + S1x64x256.size a ≤ S16x64x256.size a
  k0_off2_inb : ∀ k0_t1 : Fin k0_t1_loop.trips, ∀ a, (k0_off2 k0_t1) a + S1x256.size a ≤ S16x256.size a
  k0_off3_inb : ∀ k0_t1 : Fin k0_t1_loop.trips, ∀ a, (k0_off3 k0_t1) a + S1x32x256.size a ≤ S16x32x256.size a
  k0_off4_inb : ∀ k0_t1 : Fin k0_t1_loop.trips, ∀ a, (k0_off4 k0_t1) a + S1x512x512.size a ≤ S16x512x512.size a
  k0_off5_inb : ∀ k0_t1 : Fin k0_t1_loop.trips, ∀ a, (k0_off5 k0_t1) a + S1x512.size a ≤ S16x512.size a
  k0_off6_inb : ∀ k0_t1 : Fin k0_t1_loop.trips, ∀ a, (k0_off6 k0_t1) a + S1x512x66.size a ≤ S16x512x66.size a
  k0_off7_inb : ∀ k0_t1 : Fin k0_t1_loop.trips, ∀ a, (k0_off7 k0_t1) a + S1x66.size a ≤ S16x66.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S4096x64.size a
  hwx0_0 : ∀ i : grid0.Coords, EltTy.bits .f32 = 32 ∨ (Rect.block (s := S4096x64) S512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S4096x32.size a
  hwx0_1 : ∀ i : grid0.Coords, EltTy.bits .f32 = 32 ∨ (Rect.block (s := S4096x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64x256.size a ≤ S16x64x256.size a
  hwx0_3 : ∀ i : grid0.Coords, EltTy.bits .bf16 = 32 ∨ (Rect.block (s := S16x64x256) S16x64x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x256.size a ≤ S16x256.size a
  hwx0_4 : ∀ i : grid0.Coords, EltTy.bits .f32 = 32 ∨ (Rect.block (s := S16x256) S16x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x32x256.size a ≤ S16x32x256.size a
  hwx0_5 : ∀ i : grid0.Coords, EltTy.bits .bf16 = 32 ∨ (Rect.block (s := S16x32x256) S16x32x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x256.size a ≤ S16x256.size a
  hwx0_6 : ∀ i : grid0.Coords, EltTy.bits .f32 = 32 ∨ (Rect.block (s := S16x256) S16x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x512x512.size a ≤ S16x512x512.size a
  hwx0_7 : ∀ i : grid0.Coords, EltTy.bits .bf16 = 32 ∨ (Rect.block (s := S16x512x512) S16x512x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16x512.size a ≤ S16x512.size a
  hwx0_8 : ∀ i : grid0.Coords, EltTy.bits .f32 = 32 ∨ (Rect.block (s := S16x512) S16x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x512x512.size a ≤ S16x512x512.size a
  hwx0_9 : ∀ i : grid0.Coords, EltTy.bits .bf16 = 32 ∨ (Rect.block (s := S16x512x512) S16x512x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S16x512.size a ≤ S16x512.size a
  hwx0_10 : ∀ i : grid0.Coords, EltTy.bits .f32 = 32 ∨ (Rect.block (s := S16x512) S16x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S16x512x512.size a ≤ S16x512x512.size a
  hwx0_11 : ∀ i : grid0.Coords, EltTy.bits .bf16 = 32 ∨ (Rect.block (s := S16x512x512) S16x512x512.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S16x512.size a ≤ S16x512.size a
  hwx0_12 : ∀ i : grid0.Coords, EltTy.bits .f32 = 32 ∨ (Rect.block (s := S16x512) S16x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S16x512x66.size a ≤ S16x512x66.size a
  hwx0_13 : ∀ i : grid0.Coords, EltTy.bits .bf16 = 32 ∨ (Rect.block (s := S16x512x66) S16x512x66.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S16x66.size a ≤ S16x66.size a
  hwx0_14 : ∀ i : grid0.Coords, EltTy.bits .f32 = 32 ∨ (Rect.block (s := S16x66) S16x66.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S16x512x66.size a ≤ S16x4096x66.size a
  hwx0_15 : ∀ i : grid0.Coords, EltTy.bits .f32 = 32 ∨ (Rect.block (s := S16x4096x66) S16x512x66.size (cc0_transform_15 i) (hinb0_15 i)).WholeWords (EltTy.packing .f32)

variable [Facts₀]

def dot_S512x64_S64x256_S512x256_1_0_0_1_n_n : DotDims S512x64 S64x256 S512x256 where
  lhsContracting := [1]
  rhsContracting := [0]
  lhsNonContracting := [0]
  rhsNonContracting := [1]
  lhsBatch := []
  rhsBatch := []
  wf := dot_S512x64_S64x256_S512x256_1_0_0_1_n_n_wf
def dot_S512x32_S32x256_S512x256_1_0_0_1_n_n : DotDims S512x32 S32x256 S512x256 where
  lhsContracting := [1]
  rhsContracting := [0]
  lhsNonContracting := [0]
  rhsNonContracting := [1]
  lhsBatch := []
  rhsBatch := []
  wf := dot_S512x32_S32x256_S512x256_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x66_S512x66_1_0_0_1_n_n : DotDims S512x512 S512x66 S512x66 where
  lhsContracting := [1]
  rhsContracting := [0]
  lhsNonContracting := [0]
  rhsNonContracting := [1]
  lhsBatch := []
  rhsBatch := []
  wf := dot_S512x512_S512x66_S512x66_1_0_0_1_n_n_wf

abbrev win0_0 : Pipeline.Window sig grid0 :=
  Pipeline.Window.ofSpec (Memref.whole main_arg0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S16x64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S16x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S16x32x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S16x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S16x512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S16x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v31) S16x512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S16x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v33) S16x512x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14) S16x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v38) S16x512x66.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v39) S16x66.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v40) S16x512x66.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S4096x64 : Shape := ⟨2, ![4096, 64]⟩
abbrev S4096x32 : Shape := ⟨2, ![4096, 32]⟩
abbrev S16x846914 : Shape := ⟨2, ![16, 846914]⟩
abbrev S64 : Shape := ⟨1, ![64]⟩
abbrev S16x16384 : Shape := ⟨2, ![16, 16384]⟩
abbrev S16x256x64 : Shape := ⟨3, ![16, 256, 64]⟩
abbrev S16x256 : Shape := ⟨2, ![16, 256]⟩
abbrev S16x8192 : Shape := ⟨2, ![16, 8192]⟩
abbrev S16x256x32 : Shape := ⟨3, ![16, 256, 32]⟩
abbrev S16x262144 : Shape := ⟨2, ![16, 262144]⟩
abbrev S16x512x512 : Shape := ⟨3, ![16, 512, 512]⟩
abbrev S16x512 : Shape := ⟨2, ![16, 512]⟩
abbrev S16x32768 : Shape := ⟨2, ![16, 32768]⟩
abbrev S16x64x512 : Shape := ⟨3, ![16, 64, 512]⟩
abbrev S16x64 : Shape := ⟨2, ![16, 64]⟩
abbrev S16x1x512 : Shape := ⟨3, ![16, 1, 512]⟩
abbrev S16x1 : Shape := ⟨2, ![16, 1]⟩
abbrev S1x64 : Shape := ⟨2, ![1, 64]⟩
abbrev S16x256x4096 : Shape := ⟨3, ![16, 256, 4096]⟩
abbrev S16x4096x256 : Shape := ⟨3, ![16, 4096, 256]⟩
abbrev S16x1x256 : Shape := ⟨3, ![16, 1, 256]⟩
abbrev S16x4096x512 : Shape := ⟨3, ![16, 4096, 512]⟩
abbrev S_ : Shape := ⟨0, ![]⟩
abbrev S16x4096x64 : Shape := ⟨3, ![16, 4096, 64]⟩
abbrev S16x1x64 : Shape := ⟨3, ![16, 1, 64]⟩
abbrev S1x4096x64 : Shape := ⟨3, ![1, 4096, 64]⟩
abbrev S16x4096x1 : Shape := ⟨3, ![16, 4096, 1]⟩
abbrev S16x1x1 : Shape := ⟨3, ![16, 1, 1]⟩
abbrev S4096x16x64 : Shape := ⟨3, ![4096, 16, 64]⟩
abbrev S1x1x64 : Shape := ⟨3, ![1, 1, 64]⟩
abbrev S4096x16x1 : Shape := ⟨3, ![4096, 16, 1]⟩

abbrev nBuf : Space → Nat
  | .hbm => 111
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x32, .f32⟩
  | .hbm, ⟨2, _⟩ => ⟨S16x846914, .f32⟩
  | .hbm, ⟨3, _⟩ => ⟨S64, .f32⟩
  | .hbm, ⟨4, _⟩ => ⟨S16x16384, .f32⟩
  | .hbm, ⟨5, _⟩ => ⟨S16x256x64, .f32⟩
  | .hbm, ⟨6, _⟩ => ⟨S16x256, .f32⟩
  | .hbm, ⟨7, _⟩ => ⟨S16x8192, .f32⟩
  | .hbm, ⟨8, _⟩ => ⟨S16x256x32, .f32⟩
  | .hbm, ⟨9, _⟩ => ⟨S16x256, .f32⟩
  | .hbm, ⟨10, _⟩ => ⟨S16x262144, .f32⟩
  | .hbm, ⟨11, _⟩ => ⟨S16x512x512, .f32⟩
  | .hbm, ⟨12, _⟩ => ⟨S16x512, .f32⟩
  | .hbm, ⟨13, _⟩ => ⟨S16x262144, .f32⟩
  | .hbm, ⟨14, _⟩ => ⟨S16x512x512, .f32⟩
  | .hbm, ⟨15, _⟩ => ⟨S16x512, .f32⟩
  | .hbm, ⟨16, _⟩ => ⟨S16x262144, .f32⟩
  | .hbm, ⟨17, _⟩ => ⟨S16x512x512, .f32⟩
  | .hbm, ⟨18, _⟩ => ⟨S16x512, .f32⟩
  | .hbm, ⟨19, _⟩ => ⟨S16x32768, .f32⟩
  | .hbm, ⟨20, _⟩ => ⟨S16x64x512, .f32⟩
  | .hbm, ⟨21, _⟩ => ⟨S16x64, .f32⟩
  | .hbm, ⟨22, _⟩ => ⟨S16x512, .f32⟩
  | .hbm, ⟨23, _⟩ => ⟨S16x1x512, .f32⟩
  | .hbm, ⟨24, _⟩ => ⟨S16x1, .f32⟩
  | .hbm, ⟨25, _⟩ => ⟨S16x512, .f32⟩
  | .hbm, ⟨26, _⟩ => ⟨S16x1x512, .f32⟩
  | .hbm, ⟨27, _⟩ => ⟨S16x1, .f32⟩
  | .hbm, ⟨28, _⟩ => ⟨S1x64, .f32⟩
  | .hbm, ⟨29, _⟩ => ⟨S4096x64, .f32⟩
  | .hbm, ⟨30, _⟩ => ⟨S4096x64, .f32⟩
  | .hbm, ⟨31, _⟩ => ⟨S16x256x4096, .f32⟩
  | .hbm, ⟨32, _⟩ => ⟨S16x4096x256, .f32⟩
  | .hbm, ⟨33, _⟩ => ⟨S16x1x256, .f32⟩
  | .hbm, ⟨34, _⟩ => ⟨S16x4096x256, .f32⟩
  | .hbm, ⟨35, _⟩ => ⟨S16x4096x256, .f32⟩
  | .hbm, ⟨36, _⟩ => ⟨S16x256x4096, .f32⟩
  | .hbm, ⟨37, _⟩ => ⟨S16x4096x256, .f32⟩
  | .hbm, ⟨38, _⟩ => ⟨S16x1x256, .f32⟩
  | .hbm, ⟨39, _⟩ => ⟨S16x4096x256, .f32⟩
  | .hbm, ⟨40, _⟩ => ⟨S16x4096x256, .f32⟩
  | .hbm, ⟨41, _⟩ => ⟨S16x4096x512, .f32⟩
  | .hbm, ⟨42, _⟩ => ⟨S_, .f32⟩
  | .hbm, ⟨43, _⟩ => ⟨S16x4096x512, .f32⟩
  | .hbm, ⟨44, _⟩ => ⟨S16x4096x512, .i1⟩
  | .hbm, ⟨45, _⟩ => ⟨S_, .f32⟩
  | .hbm, ⟨46, _⟩ => ⟨S16x4096x512, .f32⟩
  | .hbm, ⟨47, _⟩ => ⟨S16x4096x512, .f32⟩
  | .hbm, ⟨48, _⟩ => ⟨S16x4096x512, .f32⟩
  | .hbm, ⟨49, _⟩ => ⟨S16x4096x512, .f32⟩
  | .hbm, ⟨50, _⟩ => ⟨S16x1x512, .f32⟩
  | .hbm, ⟨51, _⟩ => ⟨S16x4096x512, .f32⟩
  | .hbm, ⟨52, _⟩ => ⟨S16x4096x512, .f32⟩
  | .hbm, ⟨53, _⟩ => ⟨S_, .f32⟩
  | .hbm, ⟨54, _⟩ => ⟨S16x4096x512, .f32⟩
  | .hbm, ⟨55, _⟩ => ⟨S16x4096x512, .i1⟩
  | .hbm, ⟨56, _⟩ => ⟨S_, .f32⟩
  | .hbm, ⟨57, _⟩ => ⟨S16x4096x512, .f32⟩
  | .hbm, ⟨58, _⟩ => ⟨S16x4096x512, .f32⟩
  | .hbm, ⟨59, _⟩ => ⟨S16x4096x512, .f32⟩
  | .hbm, ⟨60, _⟩ => ⟨S16x4096x512, .f32⟩
  | .hbm, ⟨61, _⟩ => ⟨S16x1x512, .f32⟩
  | .hbm, ⟨62, _⟩ => ⟨S16x4096x512, .f32⟩
  | .hbm, ⟨63, _⟩ => ⟨S16x4096x512, .f32⟩
  | .hbm, ⟨64, _⟩ => ⟨S_, .f32⟩
  | .hbm, ⟨65, _⟩ => ⟨S16x4096x512, .f32⟩
  | .hbm, ⟨66, _⟩ => ⟨S16x4096x512, .i1⟩
  | .hbm, ⟨67, _⟩ => ⟨S_, .f32⟩
  | .hbm, ⟨68, _⟩ => ⟨S16x4096x512, .f32⟩
  | .hbm, ⟨69, _⟩ => ⟨S16x4096x512, .f32⟩
  | .hbm, ⟨70, _⟩ => ⟨S16x4096x512, .f32⟩
  | .hbm, ⟨71, _⟩ => ⟨S16x4096x512, .f32⟩
  | .hbm, ⟨72, _⟩ => ⟨S16x1x512, .f32⟩
  | .hbm, ⟨73, _⟩ => ⟨S16x4096x512, .f32⟩
  | .hbm, ⟨74, _⟩ => ⟨S16x4096x512, .f32⟩
  | .hbm, ⟨75, _⟩ => ⟨S_, .f32⟩
  | .hbm, ⟨76, _⟩ => ⟨S16x4096x512, .f32⟩
  | .hbm, ⟨77, _⟩ => ⟨S16x4096x512, .i1⟩
  | .hbm, ⟨78, _⟩ => ⟨S_, .f32⟩
  | .hbm, ⟨79, _⟩ => ⟨S16x4096x512, .f32⟩
  | .hbm, ⟨80, _⟩ => ⟨S16x4096x512, .f32⟩
  | .hbm, ⟨81, _⟩ => ⟨S16x4096x512, .f32⟩
  | .hbm, ⟨82, _⟩ => ⟨S16x4096x64, .f32⟩
  | .hbm, ⟨83, _⟩ => ⟨S16x1x64, .f32⟩
  | .hbm, ⟨84, _⟩ => ⟨S16x4096x64, .f32⟩
  | .hbm, ⟨85, _⟩ => ⟨S16x4096x64, .f32⟩
  | .hbm, ⟨86, _⟩ => ⟨S1x4096x64, .f32⟩
  | .hbm, ⟨87, _⟩ => ⟨S16x4096x64, .f32⟩
  | .hbm, ⟨88, _⟩ => ⟨S16x4096x64, .f32⟩
  | .hbm, ⟨89, _⟩ => ⟨S16x4096x1, .f32⟩
  | .hbm, ⟨90, _⟩ => ⟨S16x1x1, .f32⟩
  | .hbm, ⟨91, _⟩ => ⟨S16x4096x1, .f32⟩
  | .hbm, ⟨92, _⟩ => ⟨S16x4096x1, .f32⟩
  | .hbm, ⟨93, _⟩ => ⟨S16x4096x1, .f32⟩
  | .hbm, ⟨94, _⟩ => ⟨S16x1x1, .f32⟩
  | .hbm, ⟨95, _⟩ => ⟨S16x4096x1, .f32⟩
  | .hbm, ⟨96, _⟩ => ⟨S16x4096x1, .f32⟩
  | .hbm, ⟨97, _⟩ => ⟨S16x4096x1, .f32⟩
  | .hbm, ⟨98, _⟩ => ⟨S16x4096x1, .f32⟩
  | .hbm, ⟨99, _⟩ => ⟨S_, .f32⟩
  | .hbm, ⟨100, _⟩ => ⟨S16x4096x1, .f32⟩
  | .hbm, ⟨101, _⟩ => ⟨S16x4096x1, .f32⟩
  | .hbm, ⟨102, _⟩ => ⟨S_, .f32⟩
  | .hbm, ⟨103, _⟩ => ⟨S16x4096x1, .f32⟩
  | .hbm, ⟨104, _⟩ => ⟨S16x4096x1, .f32⟩
  | .hbm, ⟨105, _⟩ => ⟨S4096x16x64, .f32⟩
  | .hbm, ⟨106, _⟩ => ⟨S1x1x64, .f32⟩
  | .hbm, ⟨107, _⟩ => ⟨S4096x16x64, .f32⟩
  | .hbm, ⟨108, _⟩ => ⟨S4096x16x64, .f32⟩
  | .hbm, ⟨109, _⟩ => ⟨S4096x16x1, .f32⟩
  | .hbm, ⟨110, _⟩ => ⟨S4096x16x1, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_call0_cst : Ref sig .tc := ⟨.hbm, 42, rfl⟩
abbrev main_call0_v0 : Ref sig .tc := ⟨.hbm, 43, rfl⟩
abbrev main_call0_v1 : Ref sig .tc := ⟨.hbm, 44, rfl⟩
abbrev main_call0_cst_0 : Ref sig .tc := ⟨.hbm, 45, rfl⟩
abbrev main_call0_v2 : Ref sig .tc := ⟨.hbm, 46, rfl⟩
abbrev main_call0_v3 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_call1_cst : Ref sig .tc := ⟨.hbm, 53, rfl⟩
abbrev main_call1_v0 : Ref sig .tc := ⟨.hbm, 54, rfl⟩
abbrev main_call1_v1 : Ref sig .tc := ⟨.hbm, 55, rfl⟩
abbrev main_call1_cst_0 : Ref sig .tc := ⟨.hbm, 56, rfl⟩
abbrev main_call1_v2 : Ref sig .tc := ⟨.hbm, 57, rfl⟩
abbrev main_call1_v3 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call2_cst : Ref sig .tc := ⟨.hbm, 64, rfl⟩
abbrev main_call2_v0 : Ref sig .tc := ⟨.hbm, 65, rfl⟩
abbrev main_call2_v1 : Ref sig .tc := ⟨.hbm, 66, rfl⟩
abbrev main_call2_cst_0 : Ref sig .tc := ⟨.hbm, 67, rfl⟩
abbrev main_call2_v2 : Ref sig .tc := ⟨.hbm, 68, rfl⟩
abbrev main_call2_v3 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call3_cst : Ref sig .tc := ⟨.hbm, 75, rfl⟩
abbrev main_call3_v0 : Ref sig .tc := ⟨.hbm, 76, rfl⟩
abbrev main_call3_v1 : Ref sig .tc := ⟨.hbm, 77, rfl⟩
abbrev main_call3_cst_0 : Ref sig .tc := ⟨.hbm, 78, rfl⟩
abbrev main_call3_v2 : Ref sig .tc := ⟨.hbm, 79, rfl⟩
abbrev main_call3_v3 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst : Ref sig .tc := ⟨.hbm, 99, rfl⟩
abbrev main_v71 : Ref sig .tc := ⟨.hbm, 100, rfl⟩
abbrev main_v72 : Ref sig .tc := ⟨.hbm, 101, rfl⟩
abbrev main_cst_0 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩

abbrev nD : Nat := 1
abbrev τ : Topo := Topo.v7x

variable {F : FTy → Type} [FloatOps F]

class Facts₀ : Prop where
  slices_S16x846914_S16x16384_0_0 : S16x846914.Slices ![0, 0] S16x16384
  shapeCasts_S16x16384_S16x256x64 : S16x16384.ShapeCasts S16x256x64
  slices_S16x846914_S16x256_0_16384 : S16x846914.Slices ![0, 16384] S16x256
  slices_S16x846914_S16x8192_0_16640 : S16x846914.Slices ![0, 16640] S16x8192
  shapeCasts_S16x8192_S16x256x32 : S16x8192.ShapeCasts S16x256x32
  slices_S16x846914_S16x256_0_24832 : S16x846914.Slices ![0, 24832] S16x256
  slices_S16x846914_S16x262144_0_25088 : S16x846914.Slices ![0, 25088] S16x262144
  shapeCasts_S16x262144_S16x512x512 : S16x262144.ShapeCasts S16x512x512
  slices_S16x846914_S16x512_0_287232 : S16x846914.Slices ![0, 287232] S16x512
  slices_S16x846914_S16x262144_0_287744 : S16x846914.Slices ![0, 287744] S16x262144
  slices_S16x846914_S16x512_0_549888 : S16x846914.Slices ![0, 549888] S16x512
  slices_S16x846914_S16x262144_0_550400 : S16x846914.Slices ![0, 550400] S16x262144
  slices_S16x846914_S16x512_0_812544 : S16x846914.Slices ![0, 812544] S16x512
  slices_S16x846914_S16x32768_0_813056 : S16x846914.Slices ![0, 813056] S16x32768
  shapeCasts_S16x32768_S16x64x512 : S16x32768.ShapeCasts S16x64x512
  slices_S16x846914_S16x64_0_845824 : S16x846914.Slices ![0, 845824] S16x64
  slices_S16x846914_S16x512_0_845888 : S16x846914.Slices ![0, 845888] S16x512
  shapeCasts_S16x512_S16x1x512 : S16x512.ShapeCasts S16x1x512
  slices_S16x846914_S16x1_0_846400 : S16x846914.Slices ![0, 846400] S16x1
  slices_S16x846914_S16x512_0_846401 : S16x846914.Slices ![0, 846401] S16x512
  slices_S16x846914_S16x1_0_846913 : S16x846914.Slices ![0, 846913] S16x1
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  transposes_S16x256x4096_S16x4096x256_0_2_1 : S16x256x4096.Transposes [0, 2, 1] S16x4096x256
  bcast_S16x256_S16x1x256_0_2 : S16x256.BroadcastsInDim S16x1x256 (![0, 2] : Fin 2 → Fin S16x1x256.rank)
  bcast_S16x1x256_S16x4096x256_0_1_2 : S16x1x256.BroadcastsInDim S16x4096x256 (![0, 1, 2] : Fin 3 → Fin S16x4096x256.rank)
  concatenates_S16x4096x256_S16x4096x256_S16x4096x512_d2 : Shape.Concatenates [S16x4096x256, S16x4096x256] S16x4096x512 2
  bcast_S_S16x4096x512 : S_.BroadcastsInDim S16x4096x512 (![] : Fin 0 → Fin S16x4096x512.rank)
  bcast_S16x512_S16x1x512_0_2 : S16x512.BroadcastsInDim S16x1x512 (![0, 2] : Fin 2 → Fin S16x1x512.rank)
  bcast_S16x1x512_S16x4096x512_0_1_2 : S16x1x512.BroadcastsInDim S16x4096x512 (![0, 1, 2] : Fin 3 → Fin S16x4096x512.rank)
  bcast_S16x64_S16x1x64_0_2 : S16x64.BroadcastsInDim S16x1x64 (![0, 2] : Fin 2 → Fin S16x1x64.rank)
  bcast_S16x1x64_S16x4096x64_0_1_2 : S16x1x64.BroadcastsInDim S16x4096x64 (![0, 1, 2] : Fin 3 → Fin S16x4096x64.rank)
  bcast_S4096x64_S1x4096x64_1_2 : S4096x64.BroadcastsInDim S1x4096x64 (![1, 2] : Fin 2 → Fin S1x4096x64.rank)
  bcast_S1x4096x64_S16x4096x64_0_1_2 : S1x4096x64.BroadcastsInDim S16x4096x64 (![0, 1, 2] : Fin 3 → Fin S16x4096x64.rank)
  bcast_S16x1_S16x1x1_0_2 : S16x1.BroadcastsInDim S16x1x1 (![0, 2] : Fin 2 → Fin S16x1x1.rank)
  bcast_S16x1x1_S16x4096x1_0_1_2 : S16x1x1.BroadcastsInDim S16x4096x1 (![0, 1, 2] : Fin 3 → Fin S16x4096x1.rank)
  bcast_S_S16x4096x1 : S_.BroadcastsInDim S16x4096x1 (![] : Fin 0 → Fin S16x4096x1.rank)
  transposes_S16x4096x64_S4096x16x64_1_0_2 : S16x4096x64.Transposes [1, 0, 2] S4096x16x64
  bcast_S64_S1x1x64_2 : S64.BroadcastsInDim S1x1x64 (![2] : Fin 1 → Fin S1x1x64.rank)
  bcast_S1x1x64_S4096x16x64_0_1_2 : S1x1x64.BroadcastsInDim S4096x16x64 (![0, 1, 2] : Fin 3 → Fin S4096x16x64.rank)
  transposes_S16x4096x1_S4096x16x1_1_0_2 : S16x4096x1.Transposes [1, 0, 2] S4096x16x1
  dot_S16x256x64_S4096x64_S16x256x4096_2_1_01_0_n_n_wf : DotDims.WF S16x256x64 S4096x64 S16x256x4096 [2] [1] [0, 1] [0] [] []
  dot_S16x256x32_S4096x32_S16x256x4096_2_1_01_0_n_n_wf : DotDims.WF S16x256x32 S4096x32 S16x256x4096 [2] [1] [0, 1] [0] [] []
  dot_S16x4096x512_S16x512x512_S16x4096x512_2_2_1_1_0_0_wf : DotDims.WF S16x4096x512 S16x512x512 S16x4096x512 [2] [2] [1] [1] [0] [0]
  dot_S16x4096x512_S16x64x512_S16x4096x64_2_2_1_1_0_0_wf : DotDims.WF S16x4096x512 S16x64x512 S16x4096x64 [2] [2] [1] [1] [0] [0]
  dot_S16x4096x512_S16x1x512_S16x4096x1_2_2_1_1_0_0_wf : DotDims.WF S16x4096x512 S16x1x512 S16x4096x1 [2] [2] [1] [1] [0] [0]

variable [Facts₀]

def dot_S16x256x64_S4096x64_S16x256x4096_2_1_01_0_n_n : DotDims S16x256x64 S4096x64 S16x256x4096 where
  lhsContracting := [2]
  rhsContracting := [1]
  lhsNonContracting := [0, 1]
  rhsNonContracting := [0]
  lhsBatch := []
  rhsBatch := []
  wf := dot_S16x256x64_S4096x64_S16x256x4096_2_1_01_0_n_n_wf
def dot_S16x256x32_S4096x32_S16x256x4096_2_1_01_0_n_n : DotDims S16x256x32 S4096x32 S16x256x4096 where
  lhsContracting := [2]
  rhsContracting := [1]
  lhsNonContracting := [0, 1]
  rhsNonContracting := [0]
  lhsBatch := []
  rhsBatch := []
  wf := dot_S16x256x32_S4096x32_S16x256x4096_2_1_01_0_n_n_wf
def dot_S16x4096x512_S16x512x512_S16x4096x512_2_2_1_1_0_0 : DotDims S16x4096x512 S16x512x512 S16x4096x512 where
  lhsContracting := [2]
  rhsContracting := [2]
  lhsNonContracting := [1]
  rhsNonContracting := [1]
  lhsBatch := [0]
  rhsBatch := [0]
  wf := dot_S16x4096x512_S16x512x512_S16x4096x512_2_2_1_1_0_0_wf
def dot_S16x4096x512_S16x64x512_S16x4096x64_2_2_1_1_0_0 : DotDims S16x4096x512 S16x64x512 S16x4096x64 where
  lhsContracting := [2]
  rhsContracting := [2]
  lhsNonContracting := [1]
  rhsNonContracting := [1]
  lhsBatch := [0]
  rhsBatch := [0]
  wf := dot_S16x4096x512_S16x64x512_S16x4096x64_2_2_1_1_0_0_wf
def dot_S16x4096x512_S16x1x512_S16x4096x1_2_2_1_1_0_0 : DotDims S16x4096x512 S16x1x512 S16x4096x1 where
  lhsContracting := [2]
  rhsContracting := [2]
  lhsNonContracting := [1]
  rhsNonContracting := [1]
  lhsBatch := [0]
  rhsBatch := [0]
  wf := dot_S16x4096x512_S16x1x512_S16x4096x1_2_2_1_1_0_0_wf

class Facts : Prop extends Facts₀ where

variable [Facts]
-- ==== Proof.KBitsKit.lean ====
/- The frame of the kernel program, first part: what the grid's run is stated over.

   @main is forty host operations (slices of the flat weight array, reshapes, transposes, roundings to bf16, two
   concatenations), one pallas_call, and nine host operations after it. This module fixes the buffer contents
   the region is entered with (`entry`: the fold of the forty operations over the launch memory), each
   window's block read off those contents (`blockAt`), and proves: @main reduces to the region continued by
   the nine later operations; those nine touch only unscoped TensorCore buffers, allocate nothing and write no
   array of the pipeline; no host operation writes an argument array; every input window's staging buffer holds
   its block at every grid point, fetched there or not; and the frame claim follows from the pipeline's run. -/
import proofs.«150989_j51316269252874_2_alg».proof.Proof.Gen.Kernel.Launch
import proofs.«150989_j51316269252874_2_alg».proof.Proof.Gen.Kernel.Skeleton
import proofs.«150989_j51316269252874_2_alg».proof.Proof.Gen.Kernel.Loops
import proofs.«150989_j51316269252874_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffers when the region is entered: the launch memory after the forty host operations. -/
abbrev entry (c : Dev nD) : Valuation τ sig (Elt F) := StableHlo.after (List.flatten [hostOps0]) (fun b => m (c, b))
/-- The same, read at a TensorCore reference. -/
abbrev entryAt (c : Dev nD) (b : Ref sig .tc) : Buf (Elt F) ((c : Thread nD τ).loc b) := entry m c (Proc.devRef .tc b)

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the forty operations, the region, the nine operations: it reduces to the region continued by the nine,
    at the contents `entry`. -/
theorem hmain (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The nine operations touch unscoped TensorCore buffers only; nothing being prefetched, each of those is an array
    of the pipeline or a buffer that bypasses it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- Each writes its own result buffer, which is no array of the pipeline. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem entryAt_main_arg0 (c : Dev nD) : entryAt m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem entryAt_main_arg1 (c : Dev nD) : entryAt m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem entryAt_main_arg2 (c : Dev nD) : entryAt m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem entryAt_main_arg3 (c : Dev nD) : entryAt m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Argument 2 (the flat weight array) is staged by no window, and no operation after the region writes it: it ends
    as launched. -/
theorem tailAt_main_arg2 (dats : (p : Fin _) → (c : Dev nD) → Dat τ (Elt F) Unit ℕ (UR sig nD τ) ℕ (cfgs p) c) (c : Dev nD) :
    Pipeline.afterTail₀ cfgs dats 0 (entry m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entry m c) _ main_arg2 (by exact (by decide : ∀ w, Pipeline.arrRef spec0 w ≠ main_arg2))]
  exact entryAt_main_arg2 m c

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- Input window 0's current staging buffer holds its block at every point, fetched there or not (unfetched, its
    block index has not moved), for any proof data whose array is the entry contents and whose body leaves the block. -/
theorem before_0_of {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's current staging buffer holds its block at every point, fetched there or not (unfetched, its
    block index has not moved), for any proof data whose array is the entry contents and whose body leaves the block. -/
theorem before_1_of {c : Dev nD} (dat : Dat τ (Elt F) Unit ℕ (UR sig nD τ) ℕ cfg0 c) (hA : dat.A 1 = entryAt m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's current staging buffer holds its block at every point, fetched there or not (unfetched, its
    block index has not moved), for any proof data whose array is the entry contents and whose body leaves the block. -/
theorem before_2_of {c : Dev nD} (dat : Dat τ (Elt F) Unit ℕ (UR sig nD τ) ℕ cfg0 c) (hA : dat.A 2 = entryAt m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's current staging buffer holds its block at every point, fetched there or not (unfetched, its
    block index has not moved), for any proof data whose array is the entry contents and whose body leaves the block. -/
theorem before_3_of {c : Dev nD} (dat : Dat τ (Elt F) Unit ℕ (UR sig nD τ) ℕ cfg0 c) (hA : dat.A 3 = entryAt m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's current staging buffer holds its block at every point, fetched there or not (unfetched, its
    block index has not moved), for any proof data whose array is the entry contents and whose body leaves the block. -/
theorem before_4_of {c : Dev nD} (dat : Dat τ (Elt F) Unit ℕ (UR sig nD τ) ℕ cfg0 c) (hA : dat.A 4 = entryAt m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's current staging buffer holds its block at every point, fetched there or not (unfetched, its
    block index has not moved), for any proof data whose array is the entry contents and whose body leaves the block. -/
theorem before_5_of {c : Dev nD} (dat : Dat τ (Elt F) Unit ℕ (UR sig nD τ) ℕ cfg0 c) (hA : dat.A 5 = entryAt m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
/-- Input window 6's current staging buffer holds its block at every point, fetched there or not (unfetched, its
    block index has not moved), for any proof data whose array is the entry contents and whose body leaves the block. -/
theorem before_6_of {c : Dev nD} (dat : Dat τ (Elt F) Unit ℕ (UR sig nD τ) ℕ cfg0 c) (hA : dat.A 6 = entryAt m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
/-- Input window 7's current staging buffer holds its block at every point, fetched there or not (unfetched, its
    block index has not moved), for any proof data whose array is the entry contents and whose body leaves the block. -/
theorem before_7_of {c : Dev nD} (dat : Dat τ (Elt F) Unit ℕ (UR sig nD τ) ℕ cfg0 c) (hA : dat.A 7 = entryAt m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)
/-- Input window 8's current staging buffer holds its block at every point, fetched there or not (unfetched, its
    block index has not moved), for any proof data whose array is the entry contents and whose body leaves the block. -/
theorem before_8_of {c : Dev nD} (dat : Dat τ (Elt F) Unit ℕ (UR sig nD τ) ℕ cfg0 c) (hA : dat.A 8 = entryAt m c (Pipeline.arrRef spec0 8))
    (hafter : ∀ t, dat.after 8 t = blockAt m c 8 t) (t : Fin cfg0.N) (d) : dat.before 8 t d = blockAt m c 8 t :=
  (dat.before_in_eq_fetched 8 rfl (fun _ => rfl) (fun _ _ _ => rfl) (fun t => by rw [hafter]; unfold Dat.blockOf blockAt; rw [hA]; try rfl) t d).trans
    (by unfold Dat.fetched Dat.blockOf blockAt; rw [hA]; try rfl)
/-- Input window 9's current staging buffer holds its block at every point, fetched there or not (unfetched, its
    block index has not moved), for any proof data whose array is the entry contents and whose body leaves the block. -/
theorem before_9_of {c : Dev nD} (dat : Dat τ (Elt F) Unit ℕ (UR sig nD τ) ℕ cfg0 c) (hA : dat.A 9 = entryAt m c (Pipeline.arrRef spec0 9))
    (hafter : ∀ t, dat.after 9 t = blockAt m c 9 t) (t : Fin cfg0.N) (d) : dat.before 9 t d = blockAt m c 9 t :=
  (dat.before_in_eq_fetched 9 rfl (fun _ => rfl) (fun _ _ _ => rfl) (fun t => by rw [hafter]; unfold Dat.blockOf blockAt; rw [hA]; try rfl) t d).trans
    (by unfold Dat.fetched Dat.blockOf blockAt; rw [hA]; try rfl)
/-- Input window 10's current staging buffer holds its block at every point, fetched there or not (unfetched, its
    block index has not moved), for any proof data whose array is the entry contents and whose body leaves the block. -/
theorem before_10_of {c : Dev nD} (dat : Dat τ (Elt F) Unit ℕ (UR sig nD τ) ℕ cfg0 c) (hA : dat.A 10 = entryAt m c (Pipeline.arrRef spec0 10))
    (hafter : ∀ t, dat.after 10 t = blockAt m c 10 t) (t : Fin cfg0.N) (d) : dat.before 10 t d = blockAt m c 10 t :=
  (dat.before_in_eq_fetched 10 rfl (fun _ => rfl) (fun _ _ _ => rfl) (fun t => by rw [hafter]; unfold Dat.blockOf blockAt; rw [hA]; try rfl) t d).trans
    (by unfold Dat.fetched Dat.blockOf blockAt; rw [hA]; try rfl)
/-- Input window 11's current staging buffer holds its block at every point, fetched there or not (unfetched, its
    block index has not moved), for any proof data whose array is the entry contents and whose body leaves the block. -/
theorem before_11_of {c : Dev nD} (dat : Dat τ (Elt F) Unit ℕ (UR sig nD τ) ℕ cfg0 c) (hA : dat.A 11 = entryAt m c (Pipeline.arrRef spec0 11))
    (hafter : ∀ t, dat.after 11 t = blockAt m c 11 t) (t : Fin cfg0.N) (d) : dat.before 11 t d = blockAt m c 11 t :=
  (dat.before_in_eq_fetched 11 rfl (fun _ => rfl) (fun _ _ _ => rfl) (fun t => by rw [hafter]; unfold Dat.blockOf blockAt; rw [hA]; try rfl) t d).trans
    (by unfold Dat.fetched Dat.blockOf blockAt; rw [hA]; try rfl)
/-- Input window 12's current staging buffer holds its block at every point, fetched there or not (unfetched, its
    block index has not moved), for any proof data whose array is the entry contents and whose body leaves the block. -/
theorem before_12_of {c : Dev nD} (dat : Dat τ (Elt F) Unit ℕ (UR sig nD τ) ℕ cfg0 c) (hA : dat.A 12 = entryAt m c (Pipeline.arrRef spec0 12))
    (hafter : ∀ t, dat.after 12 t = blockAt m c 12 t) (t : Fin cfg0.N) (d) : dat.before 12 t d = blockAt m c 12 t :=
  (dat.before_in_eq_fetched 12 rfl (fun _ => rfl) (fun _ _ _ => rfl) (fun t => by rw [hafter]; unfold Dat.blockOf blockAt; rw [hA]; try rfl) t d).trans
    (by unfold Dat.fetched Dat.blockOf blockAt; rw [hA]; try rfl)
/-- Input window 13's current staging buffer holds its block at every point, fetched there or not (unfetched, its
    block index has not moved), for any proof data whose array is the entry contents and whose body leaves the block. -/
theorem before_13_of {c : Dev nD} (dat : Dat τ (Elt F) Unit ℕ (UR sig nD τ) ℕ cfg0 c) (hA : dat.A 13 = entryAt m c (Pipeline.arrRef spec0 13))
    (hafter : ∀ t, dat.after 13 t = blockAt m c 13 t) (t : Fin cfg0.N) (d) : dat.before 13 t d = blockAt m c 13 t :=
  (dat.before_in_eq_fetched 13 rfl (fun _ => rfl) (fun _ _ _ => rfl) (fun t => by rw [hafter]; unfold Dat.blockOf blockAt; rw [hA]; try rfl) t d).trans
    (by unfold Dat.fetched Dat.blockOf blockAt; rw [hA]; try rfl)
/-- Input window 14's current staging buffer holds its block at every point, fetched there or not (unfetched, its
    block index has not moved), for any proof data whose array is the entry contents and whose body leaves the block. -/
theorem before_14_of {c : Dev nD} (dat : Dat τ (Elt F) Unit ℕ (UR sig nD τ) ℕ cfg0 c) (hA : dat.A 14 = entryAt m c (Pipeline.arrRef spec0 14))
    (hafter : ∀ t, dat.after 14 t = blockAt m c 14 t) (t : Fin cfg0.N) (d) : dat.before 14 t d = blockAt m c 14 t :=
  (dat.before_in_eq_fetched 14 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim from the pipeline's run -/

/-- For any proof data whose arrays are the entry contents, a run of @main to the pipeline's post — every array at what
    the proof data compute, every other unscoped buffer as the nine later operations leave it — leaves the four
    argument arrays as launched: arguments 0, 1 and 3 are arrays of input windows (0, 1, 2), which the region only
    reads; argument 2 is staged by no window and written by no operation. -/
theorem frame_of (dats : (p : Fin 1) → (c : Dev nD) → Dat τ (Elt F) Unit ℕ (UR sig nD τ) ℕ (cfgs p) c)
    (hA : ∀ c w, (dats 0 c).A w = entryAt m c (Pipeline.arrRef spec0 w))
    (h : θ_run defs (onTc (τ := τ) (main (F := F))) (s₀ m ρ) (Pipeline.FramePost cfgs dats 0 (Pipeline.afterTail₀ cfgs dats 0 (entry m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats 0 c).arrAt_in 0 rfl _).trans ((hA c 0).trans (entryAt_main_arg0 m c))),
     ((h c).1 1).trans (((dats 0 c).arrAt_in 1 rfl _).trans ((hA c 1).trans (entryAt_main_arg1 m c))),
     ((h c).2 main_arg2 (Pipeline.mem_restRefs_of main_arg2 (by decide) (by decide))).trans (tailAt_main_arg2 m dats c),
     ((h c).1 2).trans (((dats 0 c).arrAt_in 2 rfl _).trans ((hA c 2).trans (entryAt_main_arg3 m c)))⟩) h

/-! ## The staging memrefs the pipeline passes the body at a point -/

abbrev stageAt_0 (t : Fin cfg0.N) : Memref sig .tc .vmem S512x64 .f32 := win0_0.stage (cfg0.slots t 0)
abbrev stageWhole_0 (t : Fin cfg0.N) : (stageAt_0 t).IsWhole := hstage0_0 ((cfg0.slots t 0).cast nbuf0_0)
abbrev stageAt_1 (t : Fin cfg0.N) : Memref sig .tc .vmem S512x32 .f32 := win0_1.stage (cfg0.slots t 1)
abbrev stageWhole_1 (t : Fin cfg0.N) : (stageAt_1 t).IsWhole := hstage0_1 ((cfg0.slots t 1).cast nbuf0_1)
abbrev stageAt_2 (t : Fin cfg0.N) : Memref sig .tc .vmem S64 .f32 := win0_2.stage (cfg0.slots t 2)
abbrev stageWhole_2 (t : Fin cfg0.N) : (stageAt_2 t).IsWhole := hstage0_2 ((cfg0.slots t 2).cast nbuf0_2)
abbrev stageAt_3 (t : Fin cfg0.N) : Memref sig .tc .vmem S16x64x256 .bf16 := win0_3.stage (cfg0.slots t 3)
abbrev stageWhole_3 (t : Fin cfg0.N) : (stageAt_3 t).IsWhole := hstage0_3 ((cfg0.slots t 3).cast nbuf0_3)
abbrev stageAt_4 (t : Fin cfg0.N) : Memref sig .tc .vmem S16x256 .f32 := win0_4.stage (cfg0.slots t 4)
abbrev stageWhole_4 (t : Fin cfg0.N) : (stageAt_4 t).IsWhole := hstage0_4 ((cfg0.slots t 4).cast nbuf0_4)
abbrev stageAt_5 (t : Fin cfg0.N) : Memref sig .tc .vmem S16x32x256 .bf16 := win0_5.stage (cfg0.slots t 5)
abbrev stageWhole_5 (t : Fin cfg0.N) : (stageAt_5 t).IsWhole := hstage0_5 ((cfg0.slots t 5).cast nbuf0_5)
abbrev stageAt_6 (t : Fin cfg0.N) : Memref sig .tc .vmem S16x256 .f32 := win0_6.stage (cfg0.slots t 6)
abbrev stageWhole_6 (t : Fin cfg0.N) : (stageAt_6 t).IsWhole := hstage0_6 ((cfg0.slots t 6).cast nbuf0_6)
abbrev stageAt_7 (t : Fin cfg0.N) : Memref sig .tc .vmem S16x512x512 .bf16 := win0_7.stage (cfg0.slots t 7)
abbrev stageWhole_7 (t : Fin cfg0.N) : (stageAt_7 t).IsWhole := hstage0_7 ((cfg0.slots t 7).cast nbuf0_7)
abbrev stageAt_8 (t : Fin cfg0.N) : Memref sig .tc .vmem S16x512 .f32 := win0_8.stage (cfg0.slots t 8)
abbrev stageWhole_8 (t : Fin cfg0.N) : (stageAt_8 t).IsWhole := hstage0_8 ((cfg0.slots t 8).cast nbuf0_8)
abbrev stageAt_9 (t : Fin cfg0.N) : Memref sig .tc .vmem S16x512x512 .bf16 := win0_9.stage (cfg0.slots t 9)
abbrev stageWhole_9 (t : Fin cfg0.N) : (stageAt_9 t).IsWhole := hstage0_9 ((cfg0.slots t 9).cast nbuf0_9)
abbrev stageAt_10 (t : Fin cfg0.N) : Memref sig .tc .vmem S16x512 .f32 := win0_10.stage (cfg0.slots t 10)
abbrev stageWhole_10 (t : Fin cfg0.N) : (stageAt_10 t).IsWhole := hstage0_10 ((cfg0.slots t 10).cast nbuf0_10)
abbrev stageAt_11 (t : Fin cfg0.N) : Memref sig .tc .vmem S16x512x512 .bf16 := win0_11.stage (cfg0.slots t 11)
abbrev stageWhole_11 (t : Fin cfg0.N) : (stageAt_11 t).IsWhole := hstage0_11 ((cfg0.slots t 11).cast nbuf0_11)
abbrev stageAt_12 (t : Fin cfg0.N) : Memref sig .tc .vmem S16x512 .f32 := win0_12.stage (cfg0.slots t 12)
abbrev stageWhole_12 (t : Fin cfg0.N) : (stageAt_12 t).IsWhole := hstage0_12 ((cfg0.slots t 12).cast nbuf0_12)
abbrev stageAt_13 (t : Fin cfg0.N) : Memref sig .tc .vmem S16x512x66 .bf16 := win0_13.stage (cfg0.slots t 13)
abbrev stageWhole_13 (t : Fin cfg0.N) : (stageAt_13 t).IsWhole := hstage0_13 ((cfg0.slots t 13).cast nbuf0_13)
abbrev stageAt_14 (t : Fin cfg0.N) : Memref sig .tc .vmem S16x66 .f32 := win0_14.stage (cfg0.slots t 14)
abbrev stageWhole_14 (t : Fin cfg0.N) : (stageAt_14 t).IsWhole := hstage0_14 ((cfg0.slots t 14).cast nbuf0_14)
abbrev stageAt_15 (t : Fin cfg0.N) : Memref sig .tc .vmem S16x512x66 .f32 := win0_15.stage (cfg0.slots t 15)
abbrev stageWhole_15 (t : Fin cfg0.N) : (stageAt_15 t).IsWhole := hstage0_15 ((cfg0.slots t 15).cast nbuf0_15)

/-- One staging buffer of the output window, through which its contents after the body are stated (the pieces cover
    the block, so the choice does not matter). -/
abbrev outView : View sig .tc .vmem S16x512x66 .f32 := (Memref.whole cc0_stg15_0 : Memref sig .tc .vmem S16x512x66 .f32).view

end Cert.Kernel.Frame

end
-- ==== Proof.KBitsBody.lean ====
/- The frame of the kernel program, second part: the kernel body run once, on any whole staging memrefs.

   The body loads the observation block, the scaling vector and the action block, then for each of the sixteen
   population members loads that member's slices of the twelve weight and bias arrays, computes the five layers, and
   stores one [1,512,66] slab of the output block at the member's offset. Run symbolically — the counted loop by its
   invariant (the slabs of the members before the current one written over whatever the buffer held) — the body
   leaves every input buffer as it found it and the output buffer at its start contents overwritten by the sixteen
   members' slabs. The list of slabs is what the run finds; its covering the block is shown in the next part. -/
import proofs.«150989_j51316269252874_2_alg».proof.Proof.KBitsKit

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large: the definition's epilogue walks it past the default budget
set_option maxHeartbeats 1000000 in
/-- What the body's stores leave in the output's staging memref, as pieces (last first), with the proof that on whole
    staging memrefs — the fifteen inputs' at contents `x0 … x14`, the output's at anything — the body runs to a
    continuation that holds the inputs as they were and the output's buffer with the pieces written. -/
noncomputable def bodyRun (c : Dev nD) (i : grid0.Coords) (arg1 : Memref sig .tc .vmem S512x64 .f32) (harg1 : arg1.IsWhole) (arg2 : Memref sig .tc .vmem S512x32 .f32) (harg2 : arg2.IsWhole) (arg3 : Memref sig .tc .vmem S64 .f32) (harg3 : arg3.IsWhole) (arg4 : Memref sig .tc .vmem S16x64x256 .bf16) (harg4 : arg4.IsWhole) (arg5 : Memref sig .tc .vmem S16x256 .f32) (harg5 : arg5.IsWhole) (arg6 : Memref sig .tc .vmem S16x32x256 .bf16) (harg6 : arg6.IsWhole) (arg7 : Memref sig .tc .vmem S16x256 .f32) (harg7 : arg7.IsWhole) (arg8 : Memref sig .tc .vmem S16x512x512 .bf16) (harg8 : arg8.IsWhole) (arg9 : Memref sig .tc .vmem S16x512 .f32) (harg9 : arg9.IsWhole) (arg10 : Memref sig .tc .vmem S16x512x512 .bf16) (harg10 : arg10.IsWhole) (arg11 : Memref sig .tc .vmem S16x512 .f32) (harg11 : arg11.IsWhole) (arg12 : Memref sig .tc .vmem S16x512x512 .bf16) (harg12 : arg12.IsWhole) (arg13 : Memref sig .tc .vmem S16x512 .f32) (harg13 : arg13.IsWhole) (arg14 : Memref sig .tc .vmem S16x512x66 .bf16) (harg14 : arg14.IsWhole) (arg15 : Memref sig .tc .vmem S16x66 .f32) (harg15 : arg15.IsWhole) (arg16 : Memref sig .tc .vmem S16x512x66 .f32) (harg16 : arg16.IsWhole)
    (x0 : Vec F S512x64 .f32) (x1 : Vec F S512x32 .f32) (x2 : Vec F S64 .f32) (x3 : Vec F S16x64x256 .bf16) (x4 : Vec F S16x256 .f32) (x5 : Vec F S16x32x256 .bf16) (x6 : Vec F S16x256 .f32) (x7 : Vec F S16x512x512 .bf16) (x8 : Vec F S16x512 .f32) (x9 : Vec F S16x512x512 .bf16) (x10 : Vec F S16x512 .f32) (x11 : Vec F S16x512x512 .bf16) (x12 : Vec F S16x512 .f32) (x13 : Vec F S16x512x66 .bf16) (x14 : Vec F S16x66 .f32) :
    { L : List (View.Piece (Elt F) S16x512x66 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L)) -∗ K ⟨⟩))
          ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    obtain rfl := harg12.eq_unread hf11
    obtain rfl := harg13.eq_unread hf12
    obtain rfl := harg14.eq_unread hf13
    obtain rfl := harg15.eq_unread hf14
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    iexists _; iexact H15

end Cert.Kernel.Frame

end
-- ==== Proof.KBitsFrame.lean ====
/- The frame of the kernel program, last part: the proof data of the pipeline, the body obligation, the run.

   The sixteen members' slabs tile the output block, so what the body leaves in the output's staging buffer is one
   function of the input blocks (`outLeft`: the slabs read back, whatever the buffer held before). The proof data
   say: the arrays are the contents the region is entered with; after the body at a grid point each input's buffer
   holds its block and the output's holds `outAfter`; nothing is owed. The body obligation at a point is the body's
   run on the point's staging memrefs; the pipeline's run theorem then gives @main's run, and with it the frame
   claim: the four argument arrays end as launched. -/
import proofs.«150989_j51316269252874_2_alg».proof.Proof.KBitsBody

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The sixteen slabs the body stores tile the output block (each a [1,512,66] slab at its member's offset), so they
    cover it. -/
theorem bodyRun_cover (c : Dev nD) (i : grid0.Coords) (arg1 : Memref sig .tc .vmem S512x64 .f32) (harg1 : arg1.IsWhole) (arg2 : Memref sig .tc .vmem S512x32 .f32) (harg2 : arg2.IsWhole) (arg3 : Memref sig .tc .vmem S64 .f32) (harg3 : arg3.IsWhole) (arg4 : Memref sig .tc .vmem S16x64x256 .bf16) (harg4 : arg4.IsWhole) (arg5 : Memref sig .tc .vmem S16x256 .f32) (harg5 : arg5.IsWhole) (arg6 : Memref sig .tc .vmem S16x32x256 .bf16) (harg6 : arg6.IsWhole) (arg7 : Memref sig .tc .vmem S16x256 .f32) (harg7 : arg7.IsWhole) (arg8 : Memref sig .tc .vmem S16x512x512 .bf16) (harg8 : arg8.IsWhole) (arg9 : Memref sig .tc .vmem S16x512 .f32) (harg9 : arg9.IsWhole) (arg10 : Memref sig .tc .vmem S16x512x512 .bf16) (harg10 : arg10.IsWhole) (arg11 : Memref sig .tc .vmem S16x512 .f32) (harg11 : arg11.IsWhole) (arg12 : Memref sig .tc .vmem S16x512x512 .bf16) (harg12 : arg12.IsWhole) (arg13 : Memref sig .tc .vmem S16x512 .f32) (harg13 : arg13.IsWhole) (arg14 : Memref sig .tc .vmem S16x512x66 .bf16) (harg14 : arg14.IsWhole) (arg15 : Memref sig .tc .vmem S16x66 .f32) (harg15 : arg15.IsWhole) (arg16 : Memref sig .tc .vmem S16x512x66 .f32) (harg16 : arg16.IsWhole)
    (x0 : Vec F S512x64 .f32) (x1 : Vec F S512x32 .f32) (x2 : Vec F S64 .f32) (x3 : Vec F S16x64x256 .bf16) (x4 : Vec F S16x256 .f32) (x5 : Vec F S16x32x256 .bf16) (x6 : Vec F S16x256 .f32) (x7 : Vec F S16x512x512 .bf16) (x8 : Vec F S16x512 .f32) (x9 : Vec F S16x512x512 .bf16) (x10 : Vec F S16x512 .f32) (x11 : Vec F S16x512x512 .bf16) (x12 : Vec F S16x512 .f32) (x13 : Vec F S16x512x66 .bf16) (x14 : Vec F S16x66 .f32) (y : S16x512x66.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14).1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14).1 S1x512x66.size (by sl_kernel_rfl) y

/-- What the body leaves in the output's staging buffer: its slabs read back over arbitrary contents. -/
def outLeft (c : Dev nD) (i : grid0.Coords) (arg1 : Memref sig .tc .vmem S512x64 .f32) (harg1 : arg1.IsWhole) (arg2 : Memref sig .tc .vmem S512x32 .f32) (harg2 : arg2.IsWhole) (arg3 : Memref sig .tc .vmem S64 .f32) (harg3 : arg3.IsWhole) (arg4 : Memref sig .tc .vmem S16x64x256 .bf16) (harg4 : arg4.IsWhole) (arg5 : Memref sig .tc .vmem S16x256 .f32) (harg5 : arg5.IsWhole) (arg6 : Memref sig .tc .vmem S16x32x256 .bf16) (harg6 : arg6.IsWhole) (arg7 : Memref sig .tc .vmem S16x256 .f32) (harg7 : arg7.IsWhole) (arg8 : Memref sig .tc .vmem S16x512x512 .bf16) (harg8 : arg8.IsWhole) (arg9 : Memref sig .tc .vmem S16x512 .f32) (harg9 : arg9.IsWhole) (arg10 : Memref sig .tc .vmem S16x512x512 .bf16) (harg10 : arg10.IsWhole) (arg11 : Memref sig .tc .vmem S16x512 .f32) (harg11 : arg11.IsWhole) (arg12 : Memref sig .tc .vmem S16x512x512 .bf16) (harg12 : arg12.IsWhole) (arg13 : Memref sig .tc .vmem S16x512 .f32) (harg13 : arg13.IsWhole) (arg14 : Memref sig .tc .vmem S16x512x66 .bf16) (harg14 : arg14.IsWhole) (arg15 : Memref sig .tc .vmem S16x66 .f32) (harg15 : arg15.IsWhole) (arg16 : Memref sig .tc .vmem S16x512x66 .f32) (harg16 : arg16.IsWhole)
    (x0 : Vec F S512x64 .f32) (x1 : Vec F S512x32 .f32) (x2 : Vec F S64 .f32) (x3 : Vec F S16x64x256 .bf16) (x4 : Vec F S16x256 .f32) (x5 : Vec F S16x32x256 .bf16) (x6 : Vec F S16x256 .f32) (x7 : Vec F S16x512x512 .bf16) (x8 : Vec F S16x512 .f32) (x9 : Vec F S16x512x512 .bf16) (x10 : Vec F S16x512 .f32) (x11 : Vec F S16x512x512 .bf16) (x12 : Vec F S16x512 .f32) (x13 : Vec F S16x512x66 .bf16) (x14 : Vec F S16x66 .f32) : Vec F S16x512x66 .f32 :=
  outView.read (Elt F) (outView.writes (Elt F) outView.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14).1)

/-- What the output's staging buffer holds after the body at grid point `t`: `outLeft` at the point's staging memrefs
    and the fifteen input blocks. -/
def outAfter (c : Dev nD) (t : Fin cfg0.N) : Vec F S16x512x66 .f32 :=
  outLeft c (grid0.coords t) (stageAt_0 t) (stageWhole_0 t) (stageAt_1 t) (stageWhole_1 t) (stageAt_2 t) (stageWhole_2 t) (stageAt_3 t) (stageWhole_3 t) (stageAt_4 t) (stageWhole_4 t) (stageAt_5 t) (stageWhole_5 t) (stageAt_6 t) (stageWhole_6 t) (stageAt_7 t) (stageWhole_7 t) (stageAt_8 t) (stageWhole_8 t) (stageAt_9 t) (stageWhole_9 t) (stageAt_10 t) (stageWhole_10 t) (stageAt_11 t) (stageWhole_11 t) (stageAt_12 t) (stageWhole_12 t) (stageAt_13 t) (stageWhole_13 t) (stageAt_14 t) (stageWhole_14 t) (stageAt_15 t) (stageWhole_15 t) (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t) (blockAt m c 13 t) (blockAt m c 14 t)

/-! ## The pipeline's proof data -/

/-- The proof data of the pipeline on core `c`: the arrays as the region finds them; after the body at point `t` each
    input's buffer at its block and the output's at `outAfter`; the invariant the scoped rest and the generator
    register, which the body does not touch; nothing owed; full shares. -/
def pdata (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => blockAt m c 9 t
    | ⟨10, _⟩ => blockAt m c 10 t
    | ⟨11, _⟩ => blockAt m c 11 t
    | ⟨12, _⟩ => blockAt m c 12 t
    | ⟨13, _⟩ => blockAt m c 13 t
    | ⟨14, _⟩ => blockAt m c 14 t
    | ⟨15, _⟩ => outAfter m c t
    | ⟨_ + 16, h⟩ => absurd h (Nat.not_lt.2 (Nat.le_add_left _ _))
  Φ _ := Pipeline.ΦA spec0 c
  q _ := fullShare
  owed _ := 0

/-- The proof data's arrays are the entry contents (the definition projected; the fold over the host operations is
    never unfolded). -/
theorem pdata_A (c : Dev nD) (w : Fin cfg0.W) : (pdata m 0 c).A w = entryAt m c (Pipeline.arrRef spec0 w) := by
  dsimp only [pdata]

/-- What the body leaves, window by window. -/
theorem pdata_after_0 (c : Dev nD) (t : Fin cfg0.N) : (pdata m 0 c).after 0 t = blockAt m c 0 t := by dsimp only [pdata]
theorem pdata_after_1 (c : Dev nD) (t : Fin cfg0.N) : (pdata m 0 c).after 1 t = blockAt m c 1 t := by dsimp only [pdata]
theorem pdata_after_2 (c : Dev nD) (t : Fin cfg0.N) : (pdata m 0 c).after 2 t = blockAt m c 2 t := by dsimp only [pdata]
theorem pdata_after_3 (c : Dev nD) (t : Fin cfg0.N) : (pdata m 0 c).after 3 t = blockAt m c 3 t := by dsimp only [pdata]
theorem pdata_after_4 (c : Dev nD) (t : Fin cfg0.N) : (pdata m 0 c).after 4 t = blockAt m c 4 t := by dsimp only [pdata]
theorem pdata_after_5 (c : Dev nD) (t : Fin cfg0.N) : (pdata m 0 c).after 5 t = blockAt m c 5 t := by dsimp only [pdata]
theorem pdata_after_6 (c : Dev nD) (t : Fin cfg0.N) : (pdata m 0 c).after 6 t = blockAt m c 6 t := by dsimp only [pdata]
theorem pdata_after_7 (c : Dev nD) (t : Fin cfg0.N) : (pdata m 0 c).after 7 t = blockAt m c 7 t := by dsimp only [pdata]
theorem pdata_after_8 (c : Dev nD) (t : Fin cfg0.N) : (pdata m 0 c).after 8 t = blockAt m c 8 t := by dsimp only [pdata]
theorem pdata_after_9 (c : Dev nD) (t : Fin cfg0.N) : (pdata m 0 c).after 9 t = blockAt m c 9 t := by dsimp only [pdata]
theorem pdata_after_10 (c : Dev nD) (t : Fin cfg0.N) : (pdata m 0 c).after 10 t = blockAt m c 10 t := by dsimp only [pdata]
theorem pdata_after_11 (c : Dev nD) (t : Fin cfg0.N) : (pdata m 0 c).after 11 t = blockAt m c 11 t := by dsimp only [pdata]
theorem pdata_after_12 (c : Dev nD) (t : Fin cfg0.N) : (pdata m 0 c).after 12 t = blockAt m c 12 t := by dsimp only [pdata]
theorem pdata_after_13 (c : Dev nD) (t : Fin cfg0.N) : (pdata m 0 c).after 13 t = blockAt m c 13 t := by dsimp only [pdata]
theorem pdata_after_14 (c : Dev nD) (t : Fin cfg0.N) : (pdata m 0 c).after 14 t = blockAt m c 14 t := by dsimp only [pdata]
theorem pdata_after_out (c : Dev nD) (t : Fin cfg0.N) : (pdata m 0 c).after 15 t = outAfter m c t := by dsimp only [pdata]

/-- Each input's current staging buffer holds its block at every point, fetched there or not. -/
theorem pdata_before_0 (c : Dev nD) (t : Fin cfg0.N) (d) : (pdata m 0 c).before 0 t d = blockAt m c 0 t :=
  before_0_of m (pdata m 0 c) (pdata_A m c 0) (pdata_after_0 m c) t d
theorem pdata_before_1 (c : Dev nD) (t : Fin cfg0.N) (d) : (pdata m 0 c).before 1 t d = blockAt m c 1 t :=
  before_1_of m (pdata m 0 c) (pdata_A m c 1) (pdata_after_1 m c) t d
theorem pdata_before_2 (c : Dev nD) (t : Fin cfg0.N) (d) : (pdata m 0 c).before 2 t d = blockAt m c 2 t :=
  before_2_of m (pdata m 0 c) (pdata_A m c 2) (pdata_after_2 m c) t d
theorem pdata_before_3 (c : Dev nD) (t : Fin cfg0.N) (d) : (pdata m 0 c).before 3 t d = blockAt m c 3 t :=
  before_3_of m (pdata m 0 c) (pdata_A m c 3) (pdata_after_3 m c) t d
theorem pdata_before_4 (c : Dev nD) (t : Fin cfg0.N) (d) : (pdata m 0 c).before 4 t d = blockAt m c 4 t :=
  before_4_of m (pdata m 0 c) (pdata_A m c 4) (pdata_after_4 m c) t d
theorem pdata_before_5 (c : Dev nD) (t : Fin cfg0.N) (d) : (pdata m 0 c).before 5 t d = blockAt m c 5 t :=
  before_5_of m (pdata m 0 c) (pdata_A m c 5) (pdata_after_5 m c) t d
theorem pdata_before_6 (c : Dev nD) (t : Fin cfg0.N) (d) : (pdata m 0 c).before 6 t d = blockAt m c 6 t :=
  before_6_of m (pdata m 0 c) (pdata_A m c 6) (pdata_after_6 m c) t d
theorem pdata_before_7 (c : Dev nD) (t : Fin cfg0.N) (d) : (pdata m 0 c).before 7 t d = blockAt m c 7 t :=
  before_7_of m (pdata m 0 c) (pdata_A m c 7) (pdata_after_7 m c) t d
theorem pdata_before_8 (c : Dev nD) (t : Fin cfg0.N) (d) : (pdata m 0 c).before 8 t d = blockAt m c 8 t :=
  before_8_of m (pdata m 0 c) (pdata_A m c 8) (pdata_after_8 m c) t d
theorem pdata_before_9 (c : Dev nD) (t : Fin cfg0.N) (d) : (pdata m 0 c).before 9 t d = blockAt m c 9 t :=
  before_9_of m (pdata m 0 c) (pdata_A m c 9) (pdata_after_9 m c) t d
theorem pdata_before_10 (c : Dev nD) (t : Fin cfg0.N) (d) : (pdata m 0 c).before 10 t d = blockAt m c 10 t :=
  before_10_of m (pdata m 0 c) (pdata_A m c 10) (pdata_after_10 m c) t d
theorem pdata_before_11 (c : Dev nD) (t : Fin cfg0.N) (d) : (pdata m 0 c).before 11 t d = blockAt m c 11 t :=
  before_11_of m (pdata m 0 c) (pdata_A m c 11) (pdata_after_11 m c) t d
theorem pdata_before_12 (c : Dev nD) (t : Fin cfg0.N) (d) : (pdata m 0 c).before 12 t d = blockAt m c 12 t :=
  before_12_of m (pdata m 0 c) (pdata_A m c 12) (pdata_after_12 m c) t d
theorem pdata_before_13 (c : Dev nD) (t : Fin cfg0.N) (d) : (pdata m 0 c).before 13 t d = blockAt m c 13 t :=
  before_13_of m (pdata m 0 c) (pdata_A m c 13) (pdata_after_13 m c) t d
theorem pdata_before_14 (c : Dev nD) (t : Fin cfg0.N) (d) : (pdata m 0 c).before 14 t d = blockAt m c 14 t :=
  before_14_of m (pdata m 0 c) (pdata_A m c 14) (pdata_after_14 m c) t d

/-! ## The body obligation, at a generic point -/

/-- What the body is called with at point `t`, the windows one by one, -/
def bodyPre (c : Dev nD) (t : Fin cfg0.N) : sProp 𝕄 :=
  iprop((pdata m 0 c).Φ t.castSucc ∗ (pdata m 0 c).owesAt () t.castSucc
    ∗ (∃ d, owns (c : Thread nD τ) (stageAt_0 t) fullShare ((pdata m 0 c).before 0 t d))
    ∗ (∃ d, owns (c : Thread nD τ) (stageAt_1 t) fullShare ((pdata m 0 c).before 1 t d))
    ∗ (∃ d, owns (c : Thread nD τ) (stageAt_2 t) fullShare ((pdata m 0 c).before 2 t d))
    ∗ (∃ d, owns (c : Thread nD τ) (stageAt_3 t) fullShare ((pdata m 0 c).before 3 t d))
    ∗ (∃ d, owns (c : Thread nD τ) (stageAt_4 t) fullShare ((pdata m 0 c).before 4 t d))
    ∗ (∃ d, owns (c : Thread nD τ) (stageAt_5 t) fullShare ((pdata m 0 c).before 5 t d))
    ∗ (∃ d, owns (c : Thread nD τ) (stageAt_6 t) fullShare ((pdata m 0 c).before 6 t d))
    ∗ (∃ d, owns (c : Thread nD τ) (stageAt_7 t) fullShare ((pdata m 0 c).before 7 t d))
    ∗ (∃ d, owns (c : Thread nD τ) (stageAt_8 t) fullShare ((pdata m 0 c).before 8 t d))
    ∗ (∃ d, owns (c : Thread nD τ) (stageAt_9 t) fullShare ((pdata m 0 c).before 9 t d))
    ∗ (∃ d, owns (c : Thread nD τ) (stageAt_10 t) fullShare ((pdata m 0 c).before 10 t d))
    ∗ (∃ d, owns (c : Thread nD τ) (stageAt_11 t) fullShare ((pdata m 0 c).before 11 t d))
    ∗ (∃ d, owns (c : Thread nD τ) (stageAt_12 t) fullShare ((pdata m 0 c).before 12 t d))
    ∗ (∃ d, owns (c : Thread nD τ) (stageAt_13 t) fullShare ((pdata m 0 c).before 13 t d))
    ∗ (∃ d, owns (c : Thread nD τ) (stageAt_14 t) fullShare ((pdata m 0 c).before 14 t d))
    ∗ (∃ d, owns (c : Thread nD τ) (stageAt_15 t) fullShare ((pdata m 0 c).before 15 t d)))

/-- and what it returns. -/
def bodyPost (c : Dev nD) (t : Fin cfg0.N) : sProp 𝕄 :=
  iprop((pdata m 0 c).Φ t.succ ∗ (pdata m 0 c).owesAt () t.succ
    ∗ owns (c : Thread nD τ) (stageAt_0 t) fullShare ((pdata m 0 c).after 0 t)
    ∗ owns (c : Thread nD τ) (stageAt_1 t) fullShare ((pdata m 0 c).after 1 t)
    ∗ owns (c : Thread nD τ) (stageAt_2 t) fullShare ((pdata m 0 c).after 2 t)
    ∗ owns (c : Thread nD τ) (stageAt_3 t) fullShare ((pdata m 0 c).after 3 t)
    ∗ owns (c : Thread nD τ) (stageAt_4 t) fullShare ((pdata m 0 c).after 4 t)
    ∗ owns (c : Thread nD τ) (stageAt_5 t) fullShare ((pdata m 0 c).after 5 t)
    ∗ owns (c : Thread nD τ) (stageAt_6 t) fullShare ((pdata m 0 c).after 6 t)
    ∗ owns (c : Thread nD τ) (stageAt_7 t) fullShare ((pdata m 0 c).after 7 t)
    ∗ owns (c : Thread nD τ) (stageAt_8 t) fullShare ((pdata m 0 c).after 8 t)
    ∗ owns (c : Thread nD τ) (stageAt_9 t) fullShare ((pdata m 0 c).after 9 t)
    ∗ owns (c : Thread nD τ) (stageAt_10 t) fullShare ((pdata m 0 c).after 10 t)
    ∗ owns (c : Thread nD τ) (stageAt_11 t) fullShare ((pdata m 0 c).after 11 t)
    ∗ owns (c : Thread nD τ) (stageAt_12 t) fullShare ((pdata m 0 c).after 12 t)
    ∗ owns (c : Thread nD τ) (stageAt_13 t) fullShare ((pdata m 0 c).after 13 t)
    ∗ owns (c : Thread nD τ) (stageAt_14 t) fullShare ((pdata m 0 c).after 14 t)
    ∗ owns (c : Thread nD τ) (stageAt_15 t) fullShare ((pdata m 0 c).after 15 t))

/-- The body at any point: the inputs' memrefs hold their blocks, so the run applies; the invariant passes through
    unread; the output's buffer ends at the slabs read back, which cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [pdata_before_0, pdata_before_1, pdata_before_2, pdata_before_3, pdata_before_4, pdata_before_5, pdata_before_6, pdata_before_7, pdata_before_8, pdata_before_9, pdata_before_10, pdata_before_11, pdata_before_12, pdata_before_13, pdata_before_14]
  rw [show (pdata m 0 c).Φ t.succ = (pdata m 0 c).Φ t.castSucc from rfl,
    show (pdata m 0 c).owesAt () t.succ = (pdata m 0 c).owesAt () t.castSucc from rfl,
    pdata_after_0, pdata_after_1, pdata_after_2, pdata_after_3, pdata_after_4, pdata_after_5, pdata_after_6, pdata_after_7, pdata_after_8, pdata_after_9, pdata_after_10, pdata_after_11, pdata_after_12, pdata_after_13, pdata_after_14, pdata_after_out]
  unfold outAfter
  unfold outLeft
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((bodyRun c (grid0.coords t) _ _ _ _ _ _ _ _ _ _ _ _ _ _ _ _ _ _ _ _ _ _ _ _ _ _ _ _ _ _ _ _ (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t) (blockAt m c 13 t) (blockAt m c 14 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, ⟨%e15, H15⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  unfold owns; iexists _; isplitr
  swap; · iexact H15
  ipureintro; exact View.read_writes_of_cover _ _ _ _ _ (bodyRun_cover c _ _ _ _ _ _ _ _ _ _ _ _ _ _ _ _ _ _ _ _ _ _ _ _ _ _ _ _ _ _ _ _ _ _ _ _ _ _ _ _ _ _ _ _ _ _ _ _)

/-- The pipeline's body obligation, at every point. -/
theorem body_obligation (c : Dev nD) : BodyObligation (pdata (F := F) m 0 c) (defs₀ (F := F)) Variants.none () Set.univ := fun t => by
  rw [bigSep_W0, bigSep_W0]
  exact sound_body m c t

/-! ## The run and the frame -/

-- the run theorem's implicit arguments are found by unifying its conclusion with this one, which takes unfolding
-- plain definitions in a metavariable's type
set_option backward.isDefEq.respectTransparency.types false in
/-- From any memory with zero counters every weakly fair execution of @main on the TensorCores terminates, and every
    final state has every array of the pipeline at what the proof data compute and every other unscoped buffer as
    the nine operations after the region leave it. -/
theorem run_main : θ_run defs (onTc (τ := τ) (main (F := F))) (s₀ m ρ) (Pipeline.FramePost cfgs (pdata m) 0 (Pipeline.afterTail₀ cfgs (pdata m) 0 (entry m) [hostOps1])) :=
  Pipeline.θ_run_frame_around cfgs (pdata m) (0 : Fin 1) launch0 defs₀ Variants.none m ρ main
    (hbody := fun c => (body_obligation m c).loose) (hshare := fun c => (pdata m 0 c).share_full fun _ => rfl)
    (howed := fun _ _ => rfl) (V₀ := entry m) (opss := [hostOps1]) (hsub := tail_sub) (hfresh := tail_fresh) (hkeep := tail_keeps)
    (hmain := hmain m Variants.none) (hA := pdata_A m) (hΦ := fun _ _ => rfl)

/-- The frame claim, at any `F`: @main runs and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (pdata m) (pdata_A m) (run_main m ρ)

end Cert.Kernel.Frame

end
-- ==== Proof.KIdealKit.lean ====
/- The frame of the kernel program, first part: what the grid's run is stated over.

   @main is forty host operations (slices of the flat weight array, reshapes, transposes, roundings to bf16, two
   concatenations), one pallas_call, and nine host operations after it. This module fixes the buffer contents
   the region is entered with (`entry`: the fold of the forty operations over the launch memory), each
   window's block read off those contents (`blockAt`), and proves: @main reduces to the region continued by
   the nine later operations; those nine touch only unscoped TensorCore buffers, allocate nothing and write no
   array of the pipeline; no host operation writes an argument array; every input window's staging buffer holds
   its block at every grid point, fetched there or not; and the frame claim follows from the pipeline's run. -/
import proofs.«150989_j51316269252874_2_alg».proof.Proof.Gen.KernelIdeal.Launch
import proofs.«150989_j51316269252874_2_alg».proof.Proof.Gen.KernelIdeal.Skeleton
import proofs.«150989_j51316269252874_2_alg».proof.Proof.Gen.KernelIdeal.Loops
import proofs.«150989_j51316269252874_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffers when the region is entered: the launch memory after the forty host operations. -/
abbrev entry (c : Dev nD) : Valuation τ sig (Elt F) := StableHlo.after (List.flatten [hostOps0]) (fun b => m (c, b))
/-- The same, read at a TensorCore reference. -/
abbrev entryAt (c : Dev nD) (b : Ref sig .tc) : Buf (Elt F) ((c : Thread nD τ).loc b) := entry m c (Proc.devRef .tc b)

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the forty operations, the region, the nine operations: it reduces to the region continued by the nine,
    at the contents `entry`. -/
theorem hmain (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The nine operations touch unscoped TensorCore buffers only; nothing being prefetched, each of those is an array
    of the pipeline or a buffer that bypasses it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- Each writes its own result buffer, which is no array of the pipeline. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem entryAt_main_arg0 (c : Dev nD) : entryAt m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem entryAt_main_arg1 (c : Dev nD) : entryAt m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem entryAt_main_arg2 (c : Dev nD) : entryAt m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem entryAt_main_arg3 (c : Dev nD) : entryAt m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Argument 2 (the flat weight array) is staged by no window, and no operation after the region writes it: it ends
    as launched. -/
theorem tailAt_main_arg2 (dats : (p : Fin _) → (c : Dev nD) → Dat τ (Elt F) Unit ℕ (UR sig nD τ) ℕ (cfgs p) c) (c : Dev nD) :
    Pipeline.afterTail₀ cfgs dats 0 (entry m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entry m c) _ main_arg2 (by exact (by decide : ∀ w, Pipeline.arrRef spec0 w ≠ main_arg2))]
  exact entryAt_main_arg2 m c

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- Input window 0's current staging buffer holds its block at every point, fetched there or not (unfetched, its
    block index has not moved), for any proof data whose array is the entry contents and whose body leaves the block. -/
theorem before_0_of {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's current staging buffer holds its block at every point, fetched there or not (unfetched, its
    block index has not moved), for any proof data whose array is the entry contents and whose body leaves the block. -/
theorem before_1_of {c : Dev nD} (dat : Dat τ (Elt F) Unit ℕ (UR sig nD τ) ℕ cfg0 c) (hA : dat.A 1 = entryAt m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's current staging buffer holds its block at every point, fetched there or not (unfetched, its
    block index has not moved), for any proof data whose array is the entry contents and whose body leaves the block. -/
theorem before_2_of {c : Dev nD} (dat : Dat τ (Elt F) Unit ℕ (UR sig nD τ) ℕ cfg0 c) (hA : dat.A 2 = entryAt m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's current staging buffer holds its block at every point, fetched there or not (unfetched, its
    block index has not moved), for any proof data whose array is the entry contents and whose body leaves the block. -/
theorem before_3_of {c : Dev nD} (dat : Dat τ (Elt F) Unit ℕ (UR sig nD τ) ℕ cfg0 c) (hA : dat.A 3 = entryAt m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's current staging buffer holds its block at every point, fetched there or not (unfetched, its
    block index has not moved), for any proof data whose array is the entry contents and whose body leaves the block. -/
theorem before_4_of {c : Dev nD} (dat : Dat τ (Elt F) Unit ℕ (UR sig nD τ) ℕ cfg0 c) (hA : dat.A 4 = entryAt m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's current staging buffer holds its block at every point, fetched there or not (unfetched, its
    block index has not moved), for any proof data whose array is the entry contents and whose body leaves the block. -/
theorem before_5_of {c : Dev nD} (dat : Dat τ (Elt F) Unit ℕ (UR sig nD τ) ℕ cfg0 c) (hA : dat.A 5 = entryAt m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
/-- Input window 6's current staging buffer holds its block at every point, fetched there or not (unfetched, its
    block index has not moved), for any proof data whose array is the entry contents and whose body leaves the block. -/
theorem before_6_of {c : Dev nD} (dat : Dat τ (Elt F) Unit ℕ (UR sig nD τ) ℕ cfg0 c) (hA : dat.A 6 = entryAt m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
/-- Input window 7's current staging buffer holds its block at every point, fetched there or not (unfetched, its
    block index has not moved), for any proof data whose array is the entry contents and whose body leaves the block. -/
theorem before_7_of {c : Dev nD} (dat : Dat τ (Elt F) Unit ℕ (UR sig nD τ) ℕ cfg0 c) (hA : dat.A 7 = entryAt m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)
/-- Input window 8's current staging buffer holds its block at every point, fetched there or not (unfetched, its
    block index has not moved), for any proof data whose array is the entry contents and whose body leaves the block. -/
theorem before_8_of {c : Dev nD} (dat : Dat τ (Elt F) Unit ℕ (UR sig nD τ) ℕ cfg0 c) (hA : dat.A 8 = entryAt m c (Pipeline.arrRef spec0 8))
    (hafter : ∀ t, dat.after 8 t = blockAt m c 8 t) (t : Fin cfg0.N) (d) : dat.before 8 t d = blockAt m c 8 t :=
  (dat.before_in_eq_fetched 8 rfl (fun _ => rfl) (fun _ _ _ => rfl) (fun t => by rw [hafter]; unfold Dat.blockOf blockAt; rw [hA]; try rfl) t d).trans
    (by unfold Dat.fetched Dat.blockOf blockAt; rw [hA]; try rfl)
/-- Input window 9's current staging buffer holds its block at every point, fetched there or not (unfetched, its
    block index has not moved), for any proof data whose array is the entry contents and whose body leaves the block. -/
theorem before_9_of {c : Dev nD} (dat : Dat τ (Elt F) Unit ℕ (UR sig nD τ) ℕ cfg0 c) (hA : dat.A 9 = entryAt m c (Pipeline.arrRef spec0 9))
    (hafter : ∀ t, dat.after 9 t = blockAt m c 9 t) (t : Fin cfg0.N) (d) : dat.before 9 t d = blockAt m c 9 t :=
  (dat.before_in_eq_fetched 9 rfl (fun _ => rfl) (fun _ _ _ => rfl) (fun t => by rw [hafter]; unfold Dat.blockOf blockAt; rw [hA]; try rfl) t d).trans
    (by unfold Dat.fetched Dat.blockOf blockAt; rw [hA]; try rfl)
/-- Input window 10's current staging buffer holds its block at every point, fetched there or not (unfetched, its
    block index has not moved), for any proof data whose array is the entry contents and whose body leaves the block. -/
theorem before_10_of {c : Dev nD} (dat : Dat τ (Elt F) Unit ℕ (UR sig nD τ) ℕ cfg0 c) (hA : dat.A 10 = entryAt m c (Pipeline.arrRef spec0 10))
    (hafter : ∀ t, dat.after 10 t = blockAt m c 10 t) (t : Fin cfg0.N) (d) : dat.before 10 t d = blockAt m c 10 t :=
  (dat.before_in_eq_fetched 10 rfl (fun _ => rfl) (fun _ _ _ => rfl) (fun t => by rw [hafter]; unfold Dat.blockOf blockAt; rw [hA]; try rfl) t d).trans
    (by unfold Dat.fetched Dat.blockOf blockAt; rw [hA]; try rfl)
/-- Input window 11's current staging buffer holds its block at every point, fetched there or not (unfetched, its
    block index has not moved), for any proof data whose array is the entry contents and whose body leaves the block. -/
theorem before_11_of {c : Dev nD} (dat : Dat τ (Elt F) Unit ℕ (UR sig nD τ) ℕ cfg0 c) (hA : dat.A 11 = entryAt m c (Pipeline.arrRef spec0 11))
    (hafter : ∀ t, dat.after 11 t = blockAt m c 11 t) (t : Fin cfg0.N) (d) : dat.before 11 t d = blockAt m c 11 t :=
  (dat.before_in_eq_fetched 11 rfl (fun _ => rfl) (fun _ _ _ => rfl) (fun t => by rw [hafter]; unfold Dat.blockOf blockAt; rw [hA]; try rfl) t d).trans
    (by unfold Dat.fetched Dat.blockOf blockAt; rw [hA]; try rfl)
/-- Input window 12's current staging buffer holds its block at every point, fetched there or not (unfetched, its
    block index has not moved), for any proof data whose array is the entry contents and whose body leaves the block. -/
theorem before_12_of {c : Dev nD} (dat : Dat τ (Elt F) Unit ℕ (UR sig nD τ) ℕ cfg0 c) (hA : dat.A 12 = entryAt m c (Pipeline.arrRef spec0 12))
    (hafter : ∀ t, dat.after 12 t = blockAt m c 12 t) (t : Fin cfg0.N) (d) : dat.before 12 t d = blockAt m c 12 t :=
  (dat.before_in_eq_fetched 12 rfl (fun _ => rfl) (fun _ _ _ => rfl) (fun t => by rw [hafter]; unfold Dat.blockOf blockAt; rw [hA]; try rfl) t d).trans
    (by unfold Dat.fetched Dat.blockOf blockAt; rw [hA]; try rfl)
/-- Input window 13's current staging buffer holds its block at every point, fetched there or not (unfetched, its
    block index has not moved), for any proof data whose array is the entry contents and whose body leaves the block. -/
theorem before_13_of {c : Dev nD} (dat : Dat τ (Elt F) Unit ℕ (UR sig nD τ) ℕ cfg0 c) (hA : dat.A 13 = entryAt m c (Pipeline.arrRef spec0 13))
    (hafter : ∀ t, dat.after 13 t = blockAt m c 13 t) (t : Fin cfg0.N) (d) : dat.before 13 t d = blockAt m c 13 t :=
  (dat.before_in_eq_fetched 13 rfl (fun _ => rfl) (fun _ _ _ => rfl) (fun t => by rw [hafter]; unfold Dat.blockOf blockAt; rw [hA]; try rfl) t d).trans
    (by unfold Dat.fetched Dat.blockOf blockAt; rw [hA]; try rfl)
/-- Input window 14's current staging buffer holds its block at every point, fetched there or not (unfetched, its
    block index has not moved), for any proof data whose array is the entry contents and whose body leaves the block. -/
theorem before_14_of {c : Dev nD} (dat : Dat τ (Elt F) Unit ℕ (UR sig nD τ) ℕ cfg0 c) (hA : dat.A 14 = entryAt m c (Pipeline.arrRef spec0 14))
    (hafter : ∀ t, dat.after 14 t = blockAt m c 14 t) (t : Fin cfg0.N) (d) : dat.before 14 t d = blockAt m c 14 t :=
  (dat.before_in_eq_fetched 14 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim from the pipeline's run -/

/-- For any proof data whose arrays are the entry contents, a run of @main to the pipeline's post — every array at what
    the proof data compute, every other unscoped buffer as the nine later operations leave it — leaves the four
    argument arrays as launched: arguments 0, 1 and 3 are arrays of input windows (0, 1, 2), which the region only
    reads; argument 2 is staged by no window and written by no operation. -/
theorem frame_of (dats : (p : Fin 1) → (c : Dev nD) → Dat τ (Elt F) Unit ℕ (UR sig nD τ) ℕ (cfgs p) c)
    (hA : ∀ c w, (dats 0 c).A w = entryAt m c (Pipeline.arrRef spec0 w))
    (h : θ_run defs (onTc (τ := τ) (main (F := F))) (s₀ m ρ) (Pipeline.FramePost cfgs dats 0 (Pipeline.afterTail₀ cfgs dats 0 (entry m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats 0 c).arrAt_in 0 rfl _).trans ((hA c 0).trans (entryAt_main_arg0 m c))),
     ((h c).1 1).trans (((dats 0 c).arrAt_in 1 rfl _).trans ((hA c 1).trans (entryAt_main_arg1 m c))),
     ((h c).2 main_arg2 (Pipeline.mem_restRefs_of main_arg2 (by decide) (by decide))).trans (tailAt_main_arg2 m dats c),
     ((h c).1 2).trans (((dats 0 c).arrAt_in 2 rfl _).trans ((hA c 2).trans (entryAt_main_arg3 m c)))⟩) h

/-! ## The staging memrefs the pipeline passes the body at a point -/

abbrev stageAt_0 (t : Fin cfg0.N) : Memref sig .tc .vmem S512x64 .f32 := win0_0.stage (cfg0.slots t 0)
abbrev stageWhole_0 (t : Fin cfg0.N) : (stageAt_0 t).IsWhole := hstage0_0 ((cfg0.slots t 0).cast nbuf0_0)
abbrev stageAt_1 (t : Fin cfg0.N) : Memref sig .tc .vmem S512x32 .f32 := win0_1.stage (cfg0.slots t 1)
abbrev stageWhole_1 (t : Fin cfg0.N) : (stageAt_1 t).IsWhole := hstage0_1 ((cfg0.slots t 1).cast nbuf0_1)
abbrev stageAt_2 (t : Fin cfg0.N) : Memref sig .tc .vmem S64 .f32 := win0_2.stage (cfg0.slots t 2)
abbrev stageWhole_2 (t : Fin cfg0.N) : (stageAt_2 t).IsWhole := hstage0_2 ((cfg0.slots t 2).cast nbuf0_2)
abbrev stageAt_3 (t : Fin cfg0.N) : Memref sig .tc .vmem S16x64x256 .bf16 := win0_3.stage (cfg0.slots t 3)
abbrev stageWhole_3 (t : Fin cfg0.N) : (stageAt_3 t).IsWhole := hstage0_3 ((cfg0.slots t 3).cast nbuf0_3)
abbrev stageAt_4 (t : Fin cfg0.N) : Memref sig .tc .vmem S16x256 .f32 := win0_4.stage (cfg0.slots t 4)
abbrev stageWhole_4 (t : Fin cfg0.N) : (stageAt_4 t).IsWhole := hstage0_4 ((cfg0.slots t 4).cast nbuf0_4)
abbrev stageAt_5 (t : Fin cfg0.N) : Memref sig .tc .vmem S16x32x256 .bf16 := win0_5.stage (cfg0.slots t 5)
abbrev stageWhole_5 (t : Fin cfg0.N) : (stageAt_5 t).IsWhole := hstage0_5 ((cfg0.slots t 5).cast nbuf0_5)
abbrev stageAt_6 (t : Fin cfg0.N) : Memref sig .tc .vmem S16x256 .f32 := win0_6.stage (cfg0.slots t 6)
abbrev stageWhole_6 (t : Fin cfg0.N) : (stageAt_6 t).IsWhole := hstage0_6 ((cfg0.slots t 6).cast nbuf0_6)
abbrev stageAt_7 (t : Fin cfg0.N) : Memref sig .tc .vmem S16x512x512 .bf16 := win0_7.stage (cfg0.slots t 7)
abbrev stageWhole_7 (t : Fin cfg0.N) : (stageAt_7 t).IsWhole := hstage0_7 ((cfg0.slots t 7).cast nbuf0_7)
abbrev stageAt_8 (t : Fin cfg0.N) : Memref sig .tc .vmem S16x512 .f32 := win0_8.stage (cfg0.slots t 8)
abbrev stageWhole_8 (t : Fin cfg0.N) : (stageAt_8 t).IsWhole := hstage0_8 ((cfg0.slots t 8).cast nbuf0_8)
abbrev stageAt_9 (t : Fin cfg0.N) : Memref sig .tc .vmem S16x512x512 .bf16 := win0_9.stage (cfg0.slots t 9)
abbrev stageWhole_9 (t : Fin cfg0.N) : (stageAt_9 t).IsWhole := hstage0_9 ((cfg0.slots t 9).cast nbuf0_9)
abbrev stageAt_10 (t : Fin cfg0.N) : Memref sig .tc .vmem S16x512 .f32 := win0_10.stage (cfg0.slots t 10)
abbrev stageWhole_10 (t : Fin cfg0.N) : (stageAt_10 t).IsWhole := hstage0_10 ((cfg0.slots t 10).cast nbuf0_10)
abbrev stageAt_11 (t : Fin cfg0.N) : Memref sig .tc .vmem S16x512x512 .bf16 := win0_11.stage (cfg0.slots t 11)
abbrev stageWhole_11 (t : Fin cfg0.N) : (stageAt_11 t).IsWhole := hstage0_11 ((cfg0.slots t 11).cast nbuf0_11)
abbrev stageAt_12 (t : Fin cfg0.N) : Memref sig .tc .vmem S16x512 .f32 := win0_12.stage (cfg0.slots t 12)
abbrev stageWhole_12 (t : Fin cfg0.N) : (stageAt_12 t).IsWhole := hstage0_12 ((cfg0.slots t 12).cast nbuf0_12)
abbrev stageAt_13 (t : Fin cfg0.N) : Memref sig .tc .vmem S16x512x66 .bf16 := win0_13.stage (cfg0.slots t 13)
abbrev stageWhole_13 (t : Fin cfg0.N) : (stageAt_13 t).IsWhole := hstage0_13 ((cfg0.slots t 13).cast nbuf0_13)
abbrev stageAt_14 (t : Fin cfg0.N) : Memref sig .tc .vmem S16x66 .f32 := win0_14.stage (cfg0.slots t 14)
abbrev stageWhole_14 (t : Fin cfg0.N) : (stageAt_14 t).IsWhole := hstage0_14 ((cfg0.slots t 14).cast nbuf0_14)
abbrev stageAt_15 (t : Fin cfg0.N) : Memref sig .tc .vmem S16x512x66 .f32 := win0_15.stage (cfg0.slots t 15)
abbrev stageWhole_15 (t : Fin cfg0.N) : (stageAt_15 t).IsWhole := hstage0_15 ((cfg0.slots t 15).cast nbuf0_15)

/-- One staging buffer of the output window, through which its contents after the body are stated (the pieces cover
    the block, so the choice does not matter). -/
abbrev outView : View sig .tc .vmem S16x512x66 .f32 := (Memref.whole cc0_stg15_0 : Memref sig .tc .vmem S16x512x66 .f32).view

end Cert.KernelIdeal.Frame

end
-- ==== Proof.KIdealBody.lean ====
/- The frame of the kernel program, second part: the kernel body run once, on any whole staging memrefs.

   The body loads the observation block, the scaling vector and the action block, then for each of the sixteen
   population members loads that member's slices of the twelve weight and bias arrays, computes the five layers, and
   stores one [1,512,66] slab of the output block at the member's offset. Run symbolically — the counted loop by its
   invariant (the slabs of the members before the current one written over whatever the buffer held) — the body
   leaves every input buffer as it found it and the output buffer at its start contents overwritten by the sixteen
   members' slabs. The list of slabs is what the run finds; its covering the block is shown in the next part. -/
import proofs.«150989_j51316269252874_2_alg».proof.Proof.KIdealKit

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large: the definition's epilogue walks it past the default budget
set_option maxHeartbeats 1000000 in
/-- What the body's stores leave in the output's staging memref, as pieces (last first), with the proof that on whole
    staging memrefs — the fifteen inputs' at contents `x0 … x14`, the output's at anything — the body runs to a
    continuation that holds the inputs as they were and the output's buffer with the pieces written. -/
noncomputable def bodyRun (c : Dev nD) (i : grid0.Coords) (arg1 : Memref sig .tc .vmem S512x64 .f32) (harg1 : arg1.IsWhole) (arg2 : Memref sig .tc .vmem S512x32 .f32) (harg2 : arg2.IsWhole) (arg3 : Memref sig .tc .vmem S64 .f32) (harg3 : arg3.IsWhole) (arg4 : Memref sig .tc .vmem S16x64x256 .bf16) (harg4 : arg4.IsWhole) (arg5 : Memref sig .tc .vmem S16x256 .f32) (harg5 : arg5.IsWhole) (arg6 : Memref sig .tc .vmem S16x32x256 .bf16) (harg6 : arg6.IsWhole) (arg7 : Memref sig .tc .vmem S16x256 .f32) (harg7 : arg7.IsWhole) (arg8 : Memref sig .tc .vmem S16x512x512 .bf16) (harg8 : arg8.IsWhole) (arg9 : Memref sig .tc .vmem S16x512 .f32) (harg9 : arg9.IsWhole) (arg10 : Memref sig .tc .vmem S16x512x512 .bf16) (harg10 : arg10.IsWhole) (arg11 : Memref sig .tc .vmem S16x512 .f32) (harg11 : arg11.IsWhole) (arg12 : Memref sig .tc .vmem S16x512x512 .bf16) (harg12 : arg12.IsWhole) (arg13 : Memref sig .tc .vmem S16x512 .f32) (harg13 : arg13.IsWhole) (arg14 : Memref sig .tc .vmem S16x512x66 .bf16) (harg14 : arg14.IsWhole) (arg15 : Memref sig .tc .vmem S16x66 .f32) (harg15 : arg15.IsWhole) (arg16 : Memref sig .tc .vmem S16x512x66 .f32) (harg16 : arg16.IsWhole)
    (x0 : Vec F S512x64 .f32) (x1 : Vec F S512x32 .f32) (x2 : Vec F S64 .f32) (x3 : Vec F S16x64x256 .bf16) (x4 : Vec F S16x256 .f32) (x5 : Vec F S16x32x256 .bf16) (x6 : Vec F S16x256 .f32) (x7 : Vec F S16x512x512 .bf16) (x8 : Vec F S16x512 .f32) (x9 : Vec F S16x512x512 .bf16) (x10 : Vec F S16x512 .f32) (x11 : Vec F S16x512x512 .bf16) (x12 : Vec F S16x512 .f32) (x13 : Vec F S16x512x66 .bf16) (x14 : Vec F S16x66 .f32) :
    { L : List (View.Piece (Elt F) S16x512x66 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L)) -∗ K ⟨⟩))
          ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    obtain rfl := harg12.eq_unread hf11
    obtain rfl := harg13.eq_unread hf12
    obtain rfl := harg14.eq_unread hf13
    obtain rfl := harg15.eq_unread hf14
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    iexists _; iexact H15

end Cert.KernelIdeal.Frame

end
-- ==== Proof.KIdealFrame.lean ====
/- The frame of the kernel program, last part: the proof data of the pipeline, the body obligation, the run.

   The sixteen members' slabs tile the output block, so what the body leaves in the output's staging buffer is one
   function of the input blocks (`outLeft`: the slabs read back, whatever the buffer held before). The proof data
   say: the arrays are the contents the region is entered with; after the body at a grid point each input's buffer
   holds its block and the output's holds `outAfter`; nothing is owed. The body obligation at a point is the body's
   run on the point's staging memrefs; the pipeline's run theorem then gives @main's run, and with it the frame
   claim: the four argument arrays end as launched. -/
import proofs.«150989_j51316269252874_2_alg».proof.Proof.KIdealBody

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The sixteen slabs the body stores tile the output block (each a [1,512,66] slab at its member's offset), so they
    cover it. -/
theorem bodyRun_cover (c : Dev nD) (i : grid0.Coords) (arg1 : Memref sig .tc .vmem S512x64 .f32) (harg1 : arg1.IsWhole) (arg2 : Memref sig .tc .vmem S512x32 .f32) (harg2 : arg2.IsWhole) (arg3 : Memref sig .tc .vmem S64 .f32) (harg3 : arg3.IsWhole) (arg4 : Memref sig .tc .vmem S16x64x256 .bf16) (harg4 : arg4.IsWhole) (arg5 : Memref sig .tc .vmem S16x256 .f32) (harg5 : arg5.IsWhole) (arg6 : Memref sig .tc .vmem S16x32x256 .bf16) (harg6 : arg6.IsWhole) (arg7 : Memref sig .tc .vmem S16x256 .f32) (harg7 : arg7.IsWhole) (arg8 : Memref sig .tc .vmem S16x512x512 .bf16) (harg8 : arg8.IsWhole) (arg9 : Memref sig .tc .vmem S16x512 .f32) (harg9 : arg9.IsWhole) (arg10 : Memref sig .tc .vmem S16x512x512 .bf16) (harg10 : arg10.IsWhole) (arg11 : Memref sig .tc .vmem S16x512 .f32) (harg11 : arg11.IsWhole) (arg12 : Memref sig .tc .vmem S16x512x512 .bf16) (harg12 : arg12.IsWhole) (arg13 : Memref sig .tc .vmem S16x512 .f32) (harg13 : arg13.IsWhole) (arg14 : Memref sig .tc .vmem S16x512x66 .bf16) (harg14 : arg14.IsWhole) (arg15 : Memref sig .tc .vmem S16x66 .f32) (harg15 : arg15.IsWhole) (arg16 : Memref sig .tc .vmem S16x512x66 .f32) (harg16 : arg16.IsWhole)
    (x0 : Vec F S512x64 .f32) (x1 : Vec F S512x32 .f32) (x2 : Vec F S64 .f32) (x3 : Vec F S16x64x256 .bf16) (x4 : Vec F S16x256 .f32) (x5 : Vec F S16x32x256 .bf16) (x6 : Vec F S16x256 .f32) (x7 : Vec F S16x512x512 .bf16) (x8 : Vec F S16x512 .f32) (x9 : Vec F S16x512x512 .bf16) (x10 : Vec F S16x512 .f32) (x11 : Vec F S16x512x512 .bf16) (x12 : Vec F S16x512 .f32) (x13 : Vec F S16x512x66 .bf16) (x14 : Vec F S16x66 .f32) (y : S16x512x66.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14).1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14).1 S1x512x66.size (by sl_kernel_rfl) y

/-- What the body leaves in the output's staging buffer: its slabs read back over arbitrary contents. -/
def outLeft (c : Dev nD) (i : grid0.Coords) (arg1 : Memref sig .tc .vmem S512x64 .f32) (harg1 : arg1.IsWhole) (arg2 : Memref sig .tc .vmem S512x32 .f32) (harg2 : arg2.IsWhole) (arg3 : Memref sig .tc .vmem S64 .f32) (harg3 : arg3.IsWhole) (arg4 : Memref sig .tc .vmem S16x64x256 .bf16) (harg4 : arg4.IsWhole) (arg5 : Memref sig .tc .vmem S16x256 .f32) (harg5 : arg5.IsWhole) (arg6 : Memref sig .tc .vmem S16x32x256 .bf16) (harg6 : arg6.IsWhole) (arg7 : Memref sig .tc .vmem S16x256 .f32) (harg7 : arg7.IsWhole) (arg8 : Memref sig .tc .vmem S16x512x512 .bf16) (harg8 : arg8.IsWhole) (arg9 : Memref sig .tc .vmem S16x512 .f32) (harg9 : arg9.IsWhole) (arg10 : Memref sig .tc .vmem S16x512x512 .bf16) (harg10 : arg10.IsWhole) (arg11 : Memref sig .tc .vmem S16x512 .f32) (harg11 : arg11.IsWhole) (arg12 : Memref sig .tc .vmem S16x512x512 .bf16) (harg12 : arg12.IsWhole) (arg13 : Memref sig .tc .vmem S16x512 .f32) (harg13 : arg13.IsWhole) (arg14 : Memref sig .tc .vmem S16x512x66 .bf16) (harg14 : arg14.IsWhole) (arg15 : Memref sig .tc .vmem S16x66 .f32) (harg15 : arg15.IsWhole) (arg16 : Memref sig .tc .vmem S16x512x66 .f32) (harg16 : arg16.IsWhole)
    (x0 : Vec F S512x64 .f32) (x1 : Vec F S512x32 .f32) (x2 : Vec F S64 .f32) (x3 : Vec F S16x64x256 .bf16) (x4 : Vec F S16x256 .f32) (x5 : Vec F S16x32x256 .bf16) (x6 : Vec F S16x256 .f32) (x7 : Vec F S16x512x512 .bf16) (x8 : Vec F S16x512 .f32) (x9 : Vec F S16x512x512 .bf16) (x10 : Vec F S16x512 .f32) (x11 : Vec F S16x512x512 .bf16) (x12 : Vec F S16x512 .f32) (x13 : Vec F S16x512x66 .bf16) (x14 : Vec F S16x66 .f32) : Vec F S16x512x66 .f32 :=
  outView.read (Elt F) (outView.writes (Elt F) outView.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14).1)

/-- What the output's staging buffer holds after the body at grid point `t`: `outLeft` at the point's staging memrefs
    and the fifteen input blocks. -/
def outAfter (c : Dev nD) (t : Fin cfg0.N) : Vec F S16x512x66 .f32 :=
  outLeft c (grid0.coords t) (stageAt_0 t) (stageWhole_0 t) (stageAt_1 t) (stageWhole_1 t) (stageAt_2 t) (stageWhole_2 t) (stageAt_3 t) (stageWhole_3 t) (stageAt_4 t) (stageWhole_4 t) (stageAt_5 t) (stageWhole_5 t) (stageAt_6 t) (stageWhole_6 t) (stageAt_7 t) (stageWhole_7 t) (stageAt_8 t) (stageWhole_8 t) (stageAt_9 t) (stageWhole_9 t) (stageAt_10 t) (stageWhole_10 t) (stageAt_11 t) (stageWhole_11 t) (stageAt_12 t) (stageWhole_12 t) (stageAt_13 t) (stageWhole_13 t) (stageAt_14 t) (stageWhole_14 t) (stageAt_15 t) (stageWhole_15 t) (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t) (blockAt m c 13 t) (blockAt m c 14 t)

/-! ## The pipeline's proof data -/

/-- The proof data of the pipeline on core `c`: the arrays as the region finds them; after the body at point `t` each
    input's buffer at its block and the output's at `outAfter`; the invariant the scoped rest and the generator
    register, which the body does not touch; nothing owed; full shares. -/
def pdata (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => blockAt m c 9 t
    | ⟨10, _⟩ => blockAt m c 10 t
    | ⟨11, _⟩ => blockAt m c 11 t
    | ⟨12, _⟩ => blockAt m c 12 t
    | ⟨13, _⟩ => blockAt m c 13 t
    | ⟨14, _⟩ => blockAt m c 14 t
    | ⟨15, _⟩ => outAfter m c t
    | ⟨_ + 16, h⟩ => absurd h (Nat.not_lt.2 (Nat.le_add_left _ _))
  Φ _ := Pipeline.ΦA spec0 c
  q _ := fullShare
  owed _ := 0

/-- The proof data's arrays are the entry contents (the definition projected; the fold over the host operations is
    never unfolded). -/
theorem pdata_A (c : Dev nD) (w : Fin cfg0.W) : (pdata m 0 c).A w = entryAt m c (Pipeline.arrRef spec0 w) := by
  dsimp only [pdata]

/-- What the body leaves, window by window. -/
theorem pdata_after_0 (c : Dev nD) (t : Fin cfg0.N) : (pdata m 0 c).after 0 t = blockAt m c 0 t := by dsimp only [pdata]
theorem pdata_after_1 (c : Dev nD) (t : Fin cfg0.N) : (pdata m 0 c).after 1 t = blockAt m c 1 t := by dsimp only [pdata]
theorem pdata_after_2 (c : Dev nD) (t : Fin cfg0.N) : (pdata m 0 c).after 2 t = blockAt m c 2 t := by dsimp only [pdata]
theorem pdata_after_3 (c : Dev nD) (t : Fin cfg0.N) : (pdata m 0 c).after 3 t = blockAt m c 3 t := by dsimp only [pdata]
theorem pdata_after_4 (c : Dev nD) (t : Fin cfg0.N) : (pdata m 0 c).after 4 t = blockAt m c 4 t := by dsimp only [pdata]
theorem pdata_after_5 (c : Dev nD) (t : Fin cfg0.N) : (pdata m 0 c).after 5 t = blockAt m c 5 t := by dsimp only [pdata]
theorem pdata_after_6 (c : Dev nD) (t : Fin cfg0.N) : (pdata m 0 c).after 6 t = blockAt m c 6 t := by dsimp only [pdata]
theorem pdata_after_7 (c : Dev nD) (t : Fin cfg0.N) : (pdata m 0 c).after 7 t = blockAt m c 7 t := by dsimp only [pdata]
theorem pdata_after_8 (c : Dev nD) (t : Fin cfg0.N) : (pdata m 0 c).after 8 t = blockAt m c 8 t := by dsimp only [pdata]
theorem pdata_after_9 (c : Dev nD) (t : Fin cfg0.N) : (pdata m 0 c).after 9 t = blockAt m c 9 t := by dsimp only [pdata]
theorem pdata_after_10 (c : Dev nD) (t : Fin cfg0.N) : (pdata m 0 c).after 10 t = blockAt m c 10 t := by dsimp only [pdata]
theorem pdata_after_11 (c : Dev nD) (t : Fin cfg0.N) : (pdata m 0 c).after 11 t = blockAt m c 11 t := by dsimp only [pdata]
theorem pdata_after_12 (c : Dev nD) (t : Fin cfg0.N) : (pdata m 0 c).after 12 t = blockAt m c 12 t := by dsimp only [pdata]
theorem pdata_after_13 (c : Dev nD) (t : Fin cfg0.N) : (pdata m 0 c).after 13 t = blockAt m c 13 t := by dsimp only [pdata]
theorem pdata_after_14 (c : Dev nD) (t : Fin cfg0.N) : (pdata m 0 c).after 14 t = blockAt m c 14 t := by dsimp only [pdata]
theorem pdata_after_out (c : Dev nD) (t : Fin cfg0.N) : (pdata m 0 c).after 15 t = outAfter m c t := by dsimp only [pdata]

/-- Each input's current staging buffer holds its block at every point, fetched there or not. -/
theorem pdata_before_0 (c : Dev nD) (t : Fin cfg0.N) (d) : (pdata m 0 c).before 0 t d = blockAt m c 0 t :=
  before_0_of m (pdata m 0 c) (pdata_A m c 0) (pdata_after_0 m c) t d
theorem pdata_before_1 (c : Dev nD) (t : Fin cfg0.N) (d) : (pdata m 0 c).before 1 t d = blockAt m c 1 t :=
  before_1_of m (pdata m 0 c) (pdata_A m c 1) (pdata_after_1 m c) t d
theorem pdata_before_2 (c : Dev nD) (t : Fin cfg0.N) (d) : (pdata m 0 c).before 2 t d = blockAt m c 2 t :=
  before_2_of m (pdata m 0 c) (pdata_A m c 2) (pdata_after_2 m c) t d
theorem pdata_before_3 (c : Dev nD) (t : Fin cfg0.N) (d) : (pdata m 0 c).before 3 t d = blockAt m c 3 t :=
  before_3_of m (pdata m 0 c) (pdata_A m c 3) (pdata_after_3 m c) t d
theorem pdata_before_4 (c : Dev nD) (t : Fin cfg0.N) (d) : (pdata m 0 c).before 4 t d = blockAt m c 4 t :=
  before_4_of m (pdata m 0 c) (pdata_A m c 4) (pdata_after_4 m c) t d
theorem pdata_before_5 (c : Dev nD) (t : Fin cfg0.N) (d) : (pdata m 0 c).before 5 t d = blockAt m c 5 t :=
  before_5_of m (pdata m 0 c) (pdata_A m c 5) (pdata_after_5 m c) t d
theorem pdata_before_6 (c : Dev nD) (t : Fin cfg0.N) (d) : (pdata m 0 c).before 6 t d = blockAt m c 6 t :=
  before_6_of m (pdata m 0 c) (pdata_A m c 6) (pdata_after_6 m c) t d
theorem pdata_before_7 (c : Dev nD) (t : Fin cfg0.N) (d) : (pdata m 0 c).before 7 t d = blockAt m c 7 t :=
  before_7_of m (pdata m 0 c) (pdata_A m c 7) (pdata_after_7 m c) t d
theorem pdata_before_8 (c : Dev nD) (t : Fin cfg0.N) (d) : (pdata m 0 c).before 8 t d = blockAt m c 8 t :=
  before_8_of m (pdata m 0 c) (pdata_A m c 8) (pdata_after_8 m c) t d
theorem pdata_before_9 (c : Dev nD) (t : Fin cfg0.N) (d) : (pdata m 0 c).before 9 t d = blockAt m c 9 t :=
  before_9_of m (pdata m 0 c) (pdata_A m c 9) (pdata_after_9 m c) t d
theorem pdata_before_10 (c : Dev nD) (t : Fin cfg0.N) (d) : (pdata m 0 c).before 10 t d = blockAt m c 10 t :=
  before_10_of m (pdata m 0 c) (pdata_A m c 10) (pdata_after_10 m c) t d
theorem pdata_before_11 (c : Dev nD) (t : Fin cfg0.N) (d) : (pdata m 0 c).before 11 t d = blockAt m c 11 t :=
  before_11_of m (pdata m 0 c) (pdata_A m c 11) (pdata_after_11 m c) t d
theorem pdata_before_12 (c : Dev nD) (t : Fin cfg0.N) (d) : (pdata m 0 c).before 12 t d = blockAt m c 12 t :=
  before_12_of m (pdata m 0 c) (pdata_A m c 12) (pdata_after_12 m c) t d
theorem pdata_before_13 (c : Dev nD) (t : Fin cfg0.N) (d) : (pdata m 0 c).before 13 t d = blockAt m c 13 t :=
  before_13_of m (pdata m 0 c) (pdata_A m c 13) (pdata_after_13 m c) t d
theorem pdata_before_14 (c : Dev nD) (t : Fin cfg0.N) (d) : (pdata m 0 c).before 14 t d = blockAt m c 14 t :=
  before_14_of m (pdata m 0 c) (pdata_A m c 14) (pdata_after_14 m c) t d

/-! ## The body obligation, at a generic point -/

/-- What the body is called with at point `t`, the windows one by one, -/
def bodyPre (c : Dev nD) (t : Fin cfg0.N) : sProp 𝕄 :=
  iprop((pdata m 0 c).Φ t.castSucc ∗ (pdata m 0 c).owesAt () t.castSucc
    ∗ (∃ d, owns (c : Thread nD τ) (stageAt_0 t) fullShare ((pdata m 0 c).before 0 t d))
    ∗ (∃ d, owns (c : Thread nD τ) (stageAt_1 t) fullShare ((pdata m 0 c).before 1 t d))
    ∗ (∃ d, owns (c : Thread nD τ) (stageAt_2 t) fullShare ((pdata m 0 c).before 2 t d))
    ∗ (∃ d, owns (c : Thread nD τ) (stageAt_3 t) fullShare ((pdata m 0 c).before 3 t d))
    ∗ (∃ d, owns (c : Thread nD τ) (stageAt_4 t) fullShare ((pdata m 0 c).before 4 t d))
    ∗ (∃ d, owns (c : Thread nD τ) (stageAt_5 t) fullShare ((pdata m 0 c).before 5 t d))
    ∗ (∃ d, owns (c : Thread nD τ) (stageAt_6 t) fullShare ((pdata m 0 c).before 6 t d))
    ∗ (∃ d, owns (c : Thread nD τ) (stageAt_7 t) fullShare ((pdata m 0 c).before 7 t d))
    ∗ (∃ d, owns (c : Thread nD τ) (stageAt_8 t) fullShare ((pdata m 0 c).before 8 t d))
    ∗ (∃ d, owns (c : Thread nD τ) (stageAt_9 t) fullShare ((pdata m 0 c).before 9 t d))
    ∗ (∃ d, owns (c : Thread nD τ) (stageAt_10 t) fullShare ((pdata m 0 c).before 10 t d))
    ∗ (∃ d, owns (c : Thread nD τ) (stageAt_11 t) fullShare ((pdata m 0 c).before 11 t d))
    ∗ (∃ d, owns (c : Thread nD τ) (stageAt_12 t) fullShare ((pdata m 0 c).before 12 t d))
    ∗ (∃ d, owns (c : Thread nD τ) (stageAt_13 t) fullShare ((pdata m 0 c).before 13 t d))
    ∗ (∃ d, owns (c : Thread nD τ) (stageAt_14 t) fullShare ((pdata m 0 c).before 14 t d))
    ∗ (∃ d, owns (c : Thread nD τ) (stageAt_15 t) fullShare ((pdata m 0 c).before 15 t d)))

/-- and what it returns. -/
def bodyPost (c : Dev nD) (t : Fin cfg0.N) : sProp 𝕄 :=
  iprop((pdata m 0 c).Φ t.succ ∗ (pdata m 0 c).owesAt () t.succ
    ∗ owns (c : Thread nD τ) (stageAt_0 t) fullShare ((pdata m 0 c).after 0 t)
    ∗ owns (c : Thread nD τ) (stageAt_1 t) fullShare ((pdata m 0 c).after 1 t)
    ∗ owns (c : Thread nD τ) (stageAt_2 t) fullShare ((pdata m 0 c).after 2 t)
    ∗ owns (c : Thread nD τ) (stageAt_3 t) fullShare ((pdata m 0 c).after 3 t)
    ∗ owns (c : Thread nD τ) (stageAt_4 t) fullShare ((pdata m 0 c).after 4 t)
    ∗ owns (c : Thread nD τ) (stageAt_5 t) fullShare ((pdata m 0 c).after 5 t)
    ∗ owns (c : Thread nD τ) (stageAt_6 t) fullShare ((pdata m 0 c).after 6 t)
    ∗ owns (c : Thread nD τ) (stageAt_7 t) fullShare ((pdata m 0 c).after 7 t)
    ∗ owns (c : Thread nD τ) (stageAt_8 t) fullShare ((pdata m 0 c).after 8 t)
    ∗ owns (c : Thread nD τ) (stageAt_9 t) fullShare ((pdata m 0 c).after 9 t)
    ∗ owns (c : Thread nD τ) (stageAt_10 t) fullShare ((pdata m 0 c).after 10 t)
    ∗ owns (c : Thread nD τ) (stageAt_11 t) fullShare ((pdata m 0 c).after 11 t)
    ∗ owns (c : Thread nD τ) (stageAt_12 t) fullShare ((pdata m 0 c).after 12 t)
    ∗ owns (c : Thread nD τ) (stageAt_13 t) fullShare ((pdata m 0 c).after 13 t)
    ∗ owns (c : Thread nD τ) (stageAt_14 t) fullShare ((pdata m 0 c).after 14 t)
    ∗ owns (c : Thread nD τ) (stageAt_15 t) fullShare ((pdata m 0 c).after 15 t))

/-- The body at any point: the inputs' memrefs hold their blocks, so the run applies; the invariant passes through
    unread; the output's buffer ends at the slabs read back, which cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [pdata_before_0, pdata_before_1, pdata_before_2, pdata_before_3, pdata_before_4, pdata_before_5, pdata_before_6, pdata_before_7, pdata_before_8, pdata_before_9, pdata_before_10, pdata_before_11, pdata_before_12, pdata_before_13, pdata_before_14]
  rw [show (pdata m 0 c).Φ t.succ = (pdata m 0 c).Φ t.castSucc from rfl,
    show (pdata m 0 c).owesAt () t.succ = (pdata m 0 c).owesAt () t.castSucc from rfl,
    pdata_after_0, pdata_after_1, pdata_after_2, pdata_after_3, pdata_after_4, pdata_after_5, pdata_after_6, pdata_after_7, pdata_after_8, pdata_after_9, pdata_after_10, pdata_after_11, pdata_after_12, pdata_after_13, pdata_after_14, pdata_after_out]
  unfold outAfter
  unfold outLeft
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((bodyRun c (grid0.coords t) _ _ _ _ _ _ _ _ _ _ _ _ _ _ _ _ _ _ _ _ _ _ _ _ _ _ _ _ _ _ _ _ (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t) (blockAt m c 13 t) (blockAt m c 14 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, ⟨%e15, H15⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  unfold owns; iexists _; isplitr
  swap; · iexact H15
  ipureintro; exact View.read_writes_of_cover _ _ _ _ _ (bodyRun_cover c _ _ _ _ _ _ _ _ _ _ _ _ _ _ _ _ _ _ _ _ _ _ _ _ _ _ _ _ _ _ _ _ _ _ _ _ _ _ _ _ _ _ _ _ _ _ _ _)

/-- The pipeline's body obligation, at every point. -/
theorem body_obligation (c : Dev nD) : BodyObligation (pdata (F := F) m 0 c) (defs₀ (F := F)) Variants.none () Set.univ := fun t => by
  rw [bigSep_W0, bigSep_W0]
  exact sound_body m c t

/-! ## The run and the frame -/

-- the run theorem's implicit arguments are found by unifying its conclusion with this one, which takes unfolding
-- plain definitions in a metavariable's type
set_option backward.isDefEq.respectTransparency.types false in
/-- From any memory with zero counters every weakly fair execution of @main on the TensorCores terminates, and every
    final state has every array of the pipeline at what the proof data compute and every other unscoped buffer as
    the nine operations after the region leave it. -/
theorem run_main : θ_run defs (onTc (τ := τ) (main (F := F))) (s₀ m ρ) (Pipeline.FramePost cfgs (pdata m) 0 (Pipeline.afterTail₀ cfgs (pdata m) 0 (entry m) [hostOps1])) :=
  Pipeline.θ_run_frame_around cfgs (pdata m) (0 : Fin 1) launch0 defs₀ Variants.none m ρ main
    (hbody := fun c => (body_obligation m c).loose) (hshare := fun c => (pdata m 0 c).share_full fun _ => rfl)
    (howed := fun _ _ => rfl) (V₀ := entry m) (opss := [hostOps1]) (hsub := tail_sub) (hfresh := tail_fresh) (hkeep := tail_keeps)
    (hmain := hmain m Variants.none) (hA := pdata_A m) (hΦ := fun _ _ => rfl)

/-- The frame claim, at any `F`: @main runs and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (pdata m) (pdata_A m) (run_main m ρ)

end Cert.KernelIdeal.Frame

end
-- ==== Proof.KBlock.lean ====
/-
  What one trip of the member loop stores, and what the whole loop leaves in the output tile.  Trip k stores, into
  rows k of the tile, the network's pass on member k's slabs: each load of the trip reads slab k of a weight window.
  The loop's pieces are the trips' pieces, so the tile read back is, at (p, r, q), trip p's block at (0, r, q).
-/
import proofs.«150989_j51316269252874_2_alg».proof.Proof.KIdealFrame
import Idealize.ShloMosaic.Lib.ValueIdx
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The block a trip stores, from the tile's three direct inputs and the twelve slabs it loads. -/
def storedOf (V0 : Vec F S512x64 .f32) (V1 : Vec F S64 .f32) (V6 : Vec F S512x32 .f32)
    (l4 : Vec F S1x64x256 .bf16) (l5 : Vec F S1x256 .f32) (l6 : Vec F S1x32x256 .bf16) (l7 : Vec F S1x256 .f32)
    (l8 : Vec F S1x512x512 .bf16) (l9 : Vec F S1x512 .f32) (l10 : Vec F S1x512x512 .bf16) (l11 : Vec F S1x512 .f32)
    (l12 : Vec F S1x512x512 .bf16) (l13 : Vec F S1x512 .f32) (l14 : Vec F S1x512x66 .bf16) (l15 : Vec F S1x66 .f32) :
    FVec F S1x512x66 .f32 :=
  k0_pay4 (k0_pay6 (k0_pay5 (k0_pay2 V0 V1) (k0_pay3 V6) l4 l5 l6 l7 l8 l9) l10 l11 l12 l13 l14 l15)
    (k0_pay7 (k0_pay1 V0 V1) (k0_pay5 (k0_pay2 V0 V1) (k0_pay3 V6) l4 l5 l6 l7 l8 l9) l10 l11 l12 l13 l14 l15)

/-- Trip k's block: the slabs are rows k of the weight windows' contents. -/
def tripPay (V0 : Vec F S512x64 .f32) (V1 : Vec F S64 .f32) (V6 : Vec F S512x32 .f32) (x3 : Vec F S16x64x256 .bf16) (x4 : Vec F S16x256 .f32) (x5 : Vec F S16x32x256 .bf16) (x6 : Vec F S16x256 .f32) (x7 : Vec F S16x512x512 .bf16) (x8 : Vec F S16x512 .f32) (x9 : Vec F S16x512x512 .bf16) (x10 : Vec F S16x512 .f32) (x11 : Vec F S16x512x512 .bf16) (x12 : Vec F S16x512 .f32) (x13 : Vec F S16x512x66 .bf16) (x14 : Vec F S16x66 .f32)
    (k : Fin k0_t1_loop.trips) : FVec F S1x512x66 .f32 :=
  storedOf V0 V1 V6 (View.ld x3 (Rect.unit (s := S16x64x256) (k0_off1 k) S1x64x256.size (k0_off1_inb k))) (View.ld x4 (Rect.unit (s := S16x256) (k0_off2 k) S1x256.size (k0_off2_inb k))) (View.ld x5 (Rect.unit (s := S16x32x256) (k0_off3 k) S1x32x256.size (k0_off3_inb k))) (View.ld x6 (Rect.unit (s := S16x256) (k0_off2 k) S1x256.size (k0_off2_inb k))) (View.ld x7 (Rect.unit (s := S16x512x512) (k0_off4 k) S1x512x512.size (k0_off4_inb k))) (View.ld x8 (Rect.unit (s := S16x512) (k0_off5 k) S1x512.size (k0_off5_inb k))) (View.ld x9 (Rect.unit (s := S16x512x512) (k0_off4 k) S1x512x512.size (k0_off4_inb k))) (View.ld x10 (Rect.unit (s := S16x512) (k0_off5 k) S1x512.size (k0_off5_inb k))) (View.ld x11 (Rect.unit (s := S16x512x512) (k0_off4 k) S1x512x512.size (k0_off4_inb k))) (View.ld x12 (Rect.unit (s := S16x512) (k0_off5 k) S1x512.size (k0_off5_inb k))) (View.ld x13 (Rect.unit (s := S16x512x66) (k0_off6 k) S1x512x66.size (k0_off6_inb k))) (View.ld x14 (Rect.unit (s := S16x66) (k0_off7 k) S1x66.size (k0_off7_inb k)))

/-- A load through a whole buffer holding X reads X at the rectangle's indices. -/
theorem readAt_unread {s : Shape} {e : EltTy} (M : Memref sig .tc .vmem s e) (h : M.IsWhole) (X : s.Idx → Elt F e) (R : Rect s) :
    View.readAt (Elt F) M.view R.toLoadRect (h.unread X) = View.ld X R := by
  rw [View.readAt_eq_ld, h.read_unread]

unseal trip_k0_t1 in
/-- Trip k's list of pieces is its one store: rows k of the tile, the block computed from the trip's loads. -/
theorem tripL_raw (c : Dev nD) (i : grid0.Coords) (arg1 : Memref sig .tc .vmem S512x64 .f32) (harg1 : arg1.IsWhole) (arg2 : Memref sig .tc .vmem S512x32 .f32) (harg2 : arg2.IsWhole) (arg3 : Memref sig .tc .vmem S64 .f32) (harg3 : arg3.IsWhole) (arg4 : Memref sig .tc .vmem S16x64x256 .bf16) (harg4 : arg4.IsWhole) (arg5 : Memref sig .tc .vmem S16x256 .f32) (harg5 : arg5.IsWhole) (arg6 : Memref sig .tc .vmem S16x32x256 .bf16) (harg6 : arg6.IsWhole) (arg7 : Memref sig .tc .vmem S16x256 .f32) (harg7 : arg7.IsWhole) (arg8 : Memref sig .tc .vmem S16x512x512 .bf16) (harg8 : arg8.IsWhole) (arg9 : Memref sig .tc .vmem S16x512 .f32) (harg9 : arg9.IsWhole) (arg10 : Memref sig .tc .vmem S16x512x512 .bf16) (harg10 : arg10.IsWhole) (arg11 : Memref sig .tc .vmem S16x512 .f32) (harg11 : arg11.IsWhole) (arg12 : Memref sig .tc .vmem S16x512x512 .bf16) (harg12 : arg12.IsWhole) (arg13 : Memref sig .tc .vmem S16x512 .f32) (harg13 : arg13.IsWhole) (arg14 : Memref sig .tc .vmem S16x512x66 .bf16) (harg14 : arg14.IsWhole) (arg15 : Memref sig .tc .vmem S16x66 .f32) (harg15 : arg15.IsWhole) (arg16 : Memref sig .tc .vmem S16x512x66 .f32) (harg16 : arg16.IsWhole)
    (V0 : Vec F S512x64 .f32) (V1 : Vec F S64 .f32) (V6 : Vec F S512x32 .f32) (x3 : Vec F S16x64x256 .bf16) (x4 : Vec F S16x256 .f32) (x5 : Vec F S16x32x256 .bf16) (x6 : Vec F S16x256 .f32) (x7 : Vec F S16x512x512 .bf16) (x8 : Vec F S16x512 .f32) (x9 : Vec F S16x512x512 .bf16) (x10 : Vec F S16x512 .f32) (x11 : Vec F S16x512x512 .bf16) (x12 : Vec F S16x512 .f32) (x13 : Vec F S16x512x66 .bf16) (x14 : Vec F S16x66 .f32) (k : Fin k0_t1_loop.trips) :
    tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 V0 V1 V6 (harg4.unread x3) (harg5.unread x4) (harg6.unread x5) (harg7.unread x6) (harg8.unread x7) (harg9.unread x8) (harg10.unread x9) (harg11.unread x10) (harg12.unread x11) (harg13.unread x12) (harg14.unread x13) (harg15.unread x14) k
      = [⟨Rect.unit (s := S16x512x66) (k0_off6 k) S1x512x66.size (k0_off6_inb k),
          storedOf V0 V1 V6 (View.readAt (Elt F) arg4.view (Rect.unit (s := S16x64x256) (k0_off1 k) S1x64x256.size (k0_off1_inb k)).toLoadRect (harg4.unread x3)) (View.readAt (Elt F) arg5.view (Rect.unit (s := S16x256) (k0_off2 k) S1x256.size (k0_off2_inb k)).toLoadRect (harg5.unread x4)) (View.readAt (Elt F) arg6.view (Rect.unit (s := S16x32x256) (k0_off3 k) S1x32x256.size (k0_off3_inb k)).toLoadRect (harg6.unread x5)) (View.readAt (Elt F) arg7.view (Rect.unit (s := S16x256) (k0_off2 k) S1x256.size (k0_off2_inb k)).toLoadRect (harg7.unread x6)) (View.readAt (Elt F) arg8.view (Rect.unit (s := S16x512x512) (k0_off4 k) S1x512x512.size (k0_off4_inb k)).toLoadRect (harg8.unread x7)) (View.readAt (Elt F) arg9.view (Rect.unit (s := S16x512) (k0_off5 k) S1x512.size (k0_off5_inb k)).toLoadRect (harg9.unread x8)) (View.readAt (Elt F) arg10.view (Rect.unit (s := S16x512x512) (k0_off4 k) S1x512x512.size (k0_off4_inb k)).toLoadRect (harg10.unread x9)) (View.readAt (Elt F) arg11.view (Rect.unit (s := S16x512) (k0_off5 k) S1x512.size (k0_off5_inb k)).toLoadRect (harg11.unread x10)) (View.readAt (Elt F) arg12.view (Rect.unit (s := S16x512x512) (k0_off4 k) S1x512x512.size (k0_off4_inb k)).toLoadRect (harg12.unread x11)) (View.readAt (Elt F) arg13.view (Rect.unit (s := S16x512) (k0_off5 k) S1x512.size (k0_off5_inb k)).toLoadRect (harg13.unread x12)) (View.readAt (Elt F) arg14.view (Rect.unit (s := S16x512x66) (k0_off6 k) S1x512x66.size (k0_off6_inb k)).toLoadRect (harg14.unread x13)) (View.readAt (Elt F) arg15.view (Rect.unit (s := S16x66) (k0_off7 k) S1x66.size (k0_off7_inb k)).toLoadRect (harg15.unread x14))⟩] := by
  unfold tripL_k0_t1 trip_k0_t1
  dsimp only
  sl_unfold_run_names
  rfl

/-- The same with each load read as rows k of the window's contents. -/
theorem tripL_eq (c : Dev nD) (i : grid0.Coords) (arg1 : Memref sig .tc .vmem S512x64 .f32) (harg1 : arg1.IsWhole) (arg2 : Memref sig .tc .vmem S512x32 .f32) (harg2 : arg2.IsWhole) (arg3 : Memref sig .tc .vmem S64 .f32) (harg3 : arg3.IsWhole) (arg4 : Memref sig .tc .vmem S16x64x256 .bf16) (harg4 : arg4.IsWhole) (arg5 : Memref sig .tc .vmem S16x256 .f32) (harg5 : arg5.IsWhole) (arg6 : Memref sig .tc .vmem S16x32x256 .bf16) (harg6 : arg6.IsWhole) (arg7 : Memref sig .tc .vmem S16x256 .f32) (harg7 : arg7.IsWhole) (arg8 : Memref sig .tc .vmem S16x512x512 .bf16) (harg8 : arg8.IsWhole) (arg9 : Memref sig .tc .vmem S16x512 .f32) (harg9 : arg9.IsWhole) (arg10 : Memref sig .tc .vmem S16x512x512 .bf16) (harg10 : arg10.IsWhole) (arg11 : Memref sig .tc .vmem S16x512 .f32) (harg11 : arg11.IsWhole) (arg12 : Memref sig .tc .vmem S16x512x512 .bf16) (harg12 : arg12.IsWhole) (arg13 : Memref sig .tc .vmem S16x512 .f32) (harg13 : arg13.IsWhole) (arg14 : Memref sig .tc .vmem S16x512x66 .bf16) (harg14 : arg14.IsWhole) (arg15 : Memref sig .tc .vmem S16x66 .f32) (harg15 : arg15.IsWhole) (arg16 : Memref sig .tc .vmem S16x512x66 .f32) (harg16 : arg16.IsWhole)
    (V0 : Vec F S512x64 .f32) (V1 : Vec F S64 .f32) (V6 : Vec F S512x32 .f32) (x3 : Vec F S16x64x256 .bf16) (x4 : Vec F S16x256 .f32) (x5 : Vec F S16x32x256 .bf16) (x6 : Vec F S16x256 .f32) (x7 : Vec F S16x512x512 .bf16) (x8 : Vec F S16x512 .f32) (x9 : Vec F S16x512x512 .bf16) (x10 : Vec F S16x512 .f32) (x11 : Vec F S16x512x512 .bf16) (x12 : Vec F S16x512 .f32) (x13 : Vec F S16x512x66 .bf16) (x14 : Vec F S16x66 .f32) (k : Fin k0_t1_loop.trips) :
    tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 V0 V1 V6 (harg4.unread x3) (harg5.unread x4) (harg6.unread x5) (harg7.unread x6) (harg8.unread x7) (harg9.unread x8) (harg10.unread x9) (harg11.unread x10) (harg12.unread x11) (harg13.unread x12) (harg14.unread x13) (harg15.unread x14) k
      = [⟨Rect.unit (s := S16x512x66) (k0_off6 k) S1x512x66.size (k0_off6_inb k), tripPay V0 V1 V6 x3 x4 x5 x6 x7 x8 x9 x10 x11 x12 x13 x14 k⟩] := by
  rw [tripL_raw c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 V0 V1 V6 x3 x4 x5 x6 x7 x8 x9 x10 x11 x12 x13 x14 k]
  unfold tripPay
  rw [readAt_unread arg4 harg4 x3, readAt_unread arg5 harg5 x4, readAt_unread arg6 harg6 x5, readAt_unread arg7 harg7 x6,
    readAt_unread arg8 harg8 x7, readAt_unread arg9 harg9 x8, readAt_unread arg10 harg10 x9, readAt_unread arg11 harg11 x10,
    readAt_unread arg12 harg12 x11, readAt_unread arg13 harg13 x12, readAt_unread arg14 harg14 x13, readAt_unread arg15 harg15 x14]

/-- The loop runs sixteen trips. -/
theorem trips_eq : k0_t1_loop.trips = 16 := by decide +kernel

/-- Every piece left by the first n trips is some trip's one piece. -/
theorem pb_mem (c : Dev nD) (i : grid0.Coords) (arg1 : Memref sig .tc .vmem S512x64 .f32) (harg1 : arg1.IsWhole) (arg2 : Memref sig .tc .vmem S512x32 .f32) (harg2 : arg2.IsWhole) (arg3 : Memref sig .tc .vmem S64 .f32) (harg3 : arg3.IsWhole) (arg4 : Memref sig .tc .vmem S16x64x256 .bf16) (harg4 : arg4.IsWhole) (arg5 : Memref sig .tc .vmem S16x256 .f32) (harg5 : arg5.IsWhole) (arg6 : Memref sig .tc .vmem S16x32x256 .bf16) (harg6 : arg6.IsWhole) (arg7 : Memref sig .tc .vmem S16x256 .f32) (harg7 : arg7.IsWhole) (arg8 : Memref sig .tc .vmem S16x512x512 .bf16) (harg8 : arg8.IsWhole) (arg9 : Memref sig .tc .vmem S16x512 .f32) (harg9 : arg9.IsWhole) (arg10 : Memref sig .tc .vmem S16x512x512 .bf16) (harg10 : arg10.IsWhole) (arg11 : Memref sig .tc .vmem S16x512 .f32) (harg11 : arg11.IsWhole) (arg12 : Memref sig .tc .vmem S16x512x512 .bf16) (harg12 : arg12.IsWhole) (arg13 : Memref sig .tc .vmem S16x512 .f32) (harg13 : arg13.IsWhole) (arg14 : Memref sig .tc .vmem S16x512x66 .bf16) (harg14 : arg14.IsWhole) (arg15 : Memref sig .tc .vmem S16x66 .f32) (harg15 : arg15.IsWhole) (arg16 : Memref sig .tc .vmem S16x512x66 .f32) (harg16 : arg16.IsWhole)
    (V0 : Vec F S512x64 .f32) (V1 : Vec F S64 .f32) (V6 : Vec F S512x32 .f32) (x3 : Vec F S16x64x256 .bf16) (x4 : Vec F S16x256 .f32) (x5 : Vec F S16x32x256 .bf16) (x6 : Vec F S16x256 .f32) (x7 : Vec F S16x512x512 .bf16) (x8 : Vec F S16x512 .f32) (x9 : Vec F S16x512x512 .bf16) (x10 : Vec F S16x512 .f32) (x11 : Vec F S16x512x512 .bf16) (x12 : Vec F S16x512 .f32) (x13 : Vec F S16x512x66 .bf16) (x14 : Vec F S16x66 .f32) :
    ∀ (n : ℕ) (_ : n ≤ k0_t1_loop.trips) (pc : View.Piece (Elt F) S16x512x66 .f32),
      pc ∈ pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 V0 V1 V6 (harg4.unread x3) (harg5.unread x4) (harg6.unread x5) (harg7.unread x6) (harg8.unread x7) (harg9.unread x8) (harg10.unread x9) (harg11.unread x10) (harg12.unread x11) (harg13.unread x12) (harg14.unread x13) (harg15.unread x14) n →
      ∃ k : Fin k0_t1_loop.trips,
        pc = ⟨Rect.unit (s := S16x512x66) (k0_off6 k) S1x512x66.size (k0_off6_inb k), tripPay V0 V1 V6 x3 x4 x5 x6 x7 x8 x9 x10 x11 x12 x13 x14 k⟩
  | 0, _, pc, h => by
    rw [pb_k0_t1] at h
    exact absurd h List.not_mem_nil
  | n + 1, hn, pc, h => by
    have hs := pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 V0 V1 V6 (harg4.unread x3) (harg5.unread x4) (harg6.unread x5) (harg7.unread x6) (harg8.unread x7) (harg9.unread x8) (harg10.unread x9) (harg11.unread x10) (harg12.unread x11) (harg13.unread x12) (harg14.unread x13) (harg15.unread x14) (⟨n, hn⟩ : Fin k0_t1_loop.trips)
    rw [show (⟨n, hn⟩ : Fin k0_t1_loop.trips).val + 1 = n + 1 from rfl, show (⟨n, hn⟩ : Fin k0_t1_loop.trips).val = n from rfl] at hs
    rw [hs, tripL_eq] at h
    rcases List.mem_append.mp h with h | h
    · exact ⟨⟨n, hn⟩, List.mem_singleton.mp h⟩
    · exact pb_mem c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 V0 V1 V6 x3 x4 x5 x6 x7 x8 x9 x10 x11 x12 x13 x14 n (Nat.le_of_succ_le hn) pc h

/-- The run's list of pieces is the loop's: all sixteen trips'. -/
theorem bodyRun_pieces (c : Dev nD) (i : grid0.Coords) (arg1 : Memref sig .tc .vmem S512x64 .f32) (harg1 : arg1.IsWhole) (arg2 : Memref sig .tc .vmem S512x32 .f32) (harg2 : arg2.IsWhole) (arg3 : Memref sig .tc .vmem S64 .f32) (harg3 : arg3.IsWhole) (arg4 : Memref sig .tc .vmem S16x64x256 .bf16) (harg4 : arg4.IsWhole) (arg5 : Memref sig .tc .vmem S16x256 .f32) (harg5 : arg5.IsWhole) (arg6 : Memref sig .tc .vmem S16x32x256 .bf16) (harg6 : arg6.IsWhole) (arg7 : Memref sig .tc .vmem S16x256 .f32) (harg7 : arg7.IsWhole) (arg8 : Memref sig .tc .vmem S16x512x512 .bf16) (harg8 : arg8.IsWhole) (arg9 : Memref sig .tc .vmem S16x512 .f32) (harg9 : arg9.IsWhole) (arg10 : Memref sig .tc .vmem S16x512x512 .bf16) (harg10 : arg10.IsWhole) (arg11 : Memref sig .tc .vmem S16x512 .f32) (harg11 : arg11.IsWhole) (arg12 : Memref sig .tc .vmem S16x512x512 .bf16) (harg12 : arg12.IsWhole) (arg13 : Memref sig .tc .vmem S16x512 .f32) (harg13 : arg13.IsWhole) (arg14 : Memref sig .tc .vmem S16x512x66 .bf16) (harg14 : arg14.IsWhole) (arg15 : Memref sig .tc .vmem S16x66 .f32) (harg15 : arg15.IsWhole) (arg16 : Memref sig .tc .vmem S16x512x66 .f32) (harg16 : arg16.IsWhole) (x0 : Vec F S512x64 .f32) (x1 : Vec F S512x32 .f32) (x2 : Vec F S64 .f32) (x3 : Vec F S16x64x256 .bf16) (x4 : Vec F S16x256 .f32) (x5 : Vec F S16x32x256 .bf16) (x6 : Vec F S16x256 .f32) (x7 : Vec F S16x512x512 .bf16) (x8 : Vec F S16x512 .f32) (x9 : Vec F S16x512x512 .bf16) (x10 : Vec F S16x512 .f32) (x11 : Vec F S16x512x512 .bf16) (x12 : Vec F S16x512 .f32) (x13 : Vec F S16x512x66 .bf16) (x14 : Vec F S16x66 .f32) :
    (bodyRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14).1
      = pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (View.readAt (Elt F) arg1.view (Rect.unit (s := S512x64) ![0, 0] S512x64.size inb_S512x64_S512x64_0_0).toLoadRect (harg1.unread x0)) (View.readAt (Elt F) arg3.view (Rect.unit (s := S64) ![0] S64.size inb_S64_S64_0).toLoadRect (harg3.unread x2)) (View.readAt (Elt F) arg2.view (Rect.unit (s := S512x32) ![0, 0] S512x32.size inb_S512x32_S512x32_0_0).toLoadRect (harg2.unread x1)) (harg4.unread x3) (harg5.unread x4) (harg6.unread x5) (harg7.unread x6) (harg8.unread x7) (harg9.unread x8) (harg10.unread x9) (harg11.unread x10) (harg12.unread x11) (harg13.unread x12) (harg14.unread x13) (harg15.unread x14) k0_t1_loop.trips := by
  unfold bodyRun
  rfl

/-- The output tile the body leaves, at (p, r, q): trip p's block at (0, r, q). -/
theorem outLeft_apply (c : Dev nD) (i : grid0.Coords) (arg1 : Memref sig .tc .vmem S512x64 .f32) (harg1 : arg1.IsWhole) (arg2 : Memref sig .tc .vmem S512x32 .f32) (harg2 : arg2.IsWhole) (arg3 : Memref sig .tc .vmem S64 .f32) (harg3 : arg3.IsWhole) (arg4 : Memref sig .tc .vmem S16x64x256 .bf16) (harg4 : arg4.IsWhole) (arg5 : Memref sig .tc .vmem S16x256 .f32) (harg5 : arg5.IsWhole) (arg6 : Memref sig .tc .vmem S16x32x256 .bf16) (harg6 : arg6.IsWhole) (arg7 : Memref sig .tc .vmem S16x256 .f32) (harg7 : arg7.IsWhole) (arg8 : Memref sig .tc .vmem S16x512x512 .bf16) (harg8 : arg8.IsWhole) (arg9 : Memref sig .tc .vmem S16x512 .f32) (harg9 : arg9.IsWhole) (arg10 : Memref sig .tc .vmem S16x512x512 .bf16) (harg10 : arg10.IsWhole) (arg11 : Memref sig .tc .vmem S16x512 .f32) (harg11 : arg11.IsWhole) (arg12 : Memref sig .tc .vmem S16x512x512 .bf16) (harg12 : arg12.IsWhole) (arg13 : Memref sig .tc .vmem S16x512 .f32) (harg13 : arg13.IsWhole) (arg14 : Memref sig .tc .vmem S16x512x66 .bf16) (harg14 : arg14.IsWhole) (arg15 : Memref sig .tc .vmem S16x66 .f32) (harg15 : arg15.IsWhole) (arg16 : Memref sig .tc .vmem S16x512x66 .f32) (harg16 : arg16.IsWhole) (x0 : Vec F S512x64 .f32) (x1 : Vec F S512x32 .f32) (x2 : Vec F S64 .f32) (x3 : Vec F S16x64x256 .bf16) (x4 : Vec F S16x256 .f32) (x5 : Vec F S16x32x256 .bf16) (x6 : Vec F S16x256 .f32) (x7 : Vec F S16x512x512 .bf16) (x8 : Vec F S16x512 .f32) (x9 : Vec F S16x512x512 .bf16) (x10 : Vec F S16x512 .f32) (x11 : Vec F S16x512x512 .bf16) (x12 : Vec F S16x512 .f32) (x13 : Vec F S16x512x66 .bf16) (x14 : Vec F S16x66 .f32) (p : Fin 16) (r : Fin 512) (q : Fin 66) :
    outLeft (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 (ValueIdx.ix3 p r q)
      = tripPay (View.readAt (Elt F) arg1.view (Rect.unit (s := S512x64) ![0, 0] S512x64.size inb_S512x64_S512x64_0_0).toLoadRect (harg1.unread x0)) (View.readAt (Elt F) arg3.view (Rect.unit (s := S64) ![0] S64.size inb_S64_S64_0).toLoadRect (harg3.unread x2)) (View.readAt (Elt F) arg2.view (Rect.unit (s := S512x32) ![0, 0] S512x32.size inb_S512x32_S512x32_0_0).toLoadRect (harg2.unread x1)) x3 x4 x5 x6 x7 x8 x9 x10 x11 x12 x13 x14 (⟨p.val, by rw [trips_eq]; exact p.isLt⟩ : Fin k0_t1_loop.trips)
          (ValueIdx.ix3 (0 : Fin 1) r q) := by
  unfold outLeft
  rw [View.read_writes_eq_canon outView _ _ (bodyRun_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14)]
  let G : S16x512x66.Idx → Elt F .f32 := fun y =>
    tripPay (View.readAt (Elt F) arg1.view (Rect.unit (s := S512x64) ![0, 0] S512x64.size inb_S512x64_S512x64_0_0).toLoadRect (harg1.unread x0)) (View.readAt (Elt F) arg3.view (Rect.unit (s := S64) ![0] S64.size inb_S64_S64_0).toLoadRect (harg3.unread x2)) (View.readAt (Elt F) arg2.view (Rect.unit (s := S512x32) ![0, 0] S512x32.size inb_S512x32_S512x32_0_0).toLoadRect (harg2.unread x1)) x3 x4 x5 x6 x7 x8 x9 x10 x11 x12 x13 x14 (⟨(y 0).val, by rw [trips_eq]; exact (y 0).isLt⟩ : Fin k0_t1_loop.trips)
      (ValueIdx.ix3 (0 : Fin 1) (y 1) (y 2))
  refine (View.canon_apply_of_pieces G _ (fun pc hpc x => ?_) (ValueIdx.ix3 p r q)
    (bodyRun_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 (ValueIdx.ix3 p r q))).trans rfl
  rw [bodyRun_pieces] at hpc
  obtain ⟨k, rfl⟩ := pb_mem c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (View.readAt (Elt F) arg1.view (Rect.unit (s := S512x64) ![0, 0] S512x64.size inb_S512x64_S512x64_0_0).toLoadRect (harg1.unread x0)) (View.readAt (Elt F) arg3.view (Rect.unit (s := S64) ![0] S64.size inb_S64_S64_0).toLoadRect (harg3.unread x2)) (View.readAt (Elt F) arg2.view (Rect.unit (s := S512x32) ![0, 0] S512x32.size inb_S512x32_S512x32_0_0).toLoadRect (harg2.unread x1)) x3 x4 x5 x6 x7 x8 x9 x10 x11 x12 x13 x14 _ (Nat.le_refl _) pc hpc
  show tripPay _ _ _ x3 x4 x5 x6 x7 x8 x9 x10 x11 x12 x13 x14 k x = tripPay _ _ _ x3 x4 x5 x6 x7 x8 x9 x10 x11 x12 x13 x14 _ _
  have e0 : k0_off6 k 0 = k.val := by rw [k0_off6_eq k]; rfl
  have e1 : k0_off6 k 1 = 0 := by rw [k0_off6_eq k]; rfl
  have e2 : k0_off6 k 2 = 0 := by rw [k0_off6_eq k]; rfl
  have hx0 : (x 0).val < 1 := (x 0).isLt
  have h0 : ((Rect.unit (s := S16x512x66) (k0_off6 k) S1x512x66.size (k0_off6_inb k)).emb x 0).val = k.val := by
    rw [Rect.emb_apply]
    show k0_off6 k 0 + 1 * (x 0).val = k.val
    omega
  have hk : (⟨((Rect.unit (s := S16x512x66) (k0_off6 k) S1x512x66.size (k0_off6_inb k)).emb x 0).val, by rw [trips_eq]; exact ((Rect.unit (s := S16x512x66) (k0_off6 k) S1x512x66.size (k0_off6_inb k)).emb x 0).isLt⟩ : Fin k0_t1_loop.trips) = k := Fin.ext h0
  have hx : ValueIdx.ix3 (0 : Fin 1) ((Rect.unit (s := S16x512x66) (k0_off6 k) S1x512x66.size (k0_off6_inb k)).emb x 1) ((Rect.unit (s := S16x512x66) (k0_off6 k) S1x512x66.size (k0_off6_inb k)).emb x 2) = x := by
    funext a
    apply Fin.ext
    match a with
    | ⟨0, _⟩ => show 0 = (x 0).val; omega
    | ⟨1, _⟩ =>
      show ((Rect.unit (s := S16x512x66) (k0_off6 k) S1x512x66.size (k0_off6_inb k)).emb x 1).val = (x 1).val
      rw [Rect.emb_apply]; show k0_off6 k 1 + 1 * (x 1).val = (x 1).val; omega
    | ⟨2, _⟩ =>
      show ((Rect.unit (s := S16x512x66) (k0_off6 k) S1x512x66.size (k0_off6_inb k)).emb x 2).val = (x 2).val
      rw [Rect.emb_apply]; show k0_off6 k 2 + 1 * (x 2).val = (x 2).val; omega
  rw [hk]
  exact congrArg (tripPay (View.readAt (Elt F) arg1.view (Rect.unit (s := S512x64) ![0, 0] S512x64.size inb_S512x64_S512x64_0_0).toLoadRect (harg1.unread x0)) (View.readAt (Elt F) arg3.view (Rect.unit (s := S64) ![0] S64.size inb_S64_S64_0).toLoadRect (harg3.unread x2)) (View.readAt (Elt F) arg2.view (Rect.unit (s := S512x32) ![0, 0] S512x32.size inb_S512x32_S512x32_0_0).toLoadRect (harg2.unread x1)) x3 x4 x5 x6 x7 x8 x9 x10 x11 x12 x13 x14 k) hx.symm

end Cert.KernelIdeal.Frame

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.Spec.lean ====
/-
  The network both programs compute, as three functions of the four argument arrays, index by index, on the
  extended reals.  Sixteen members p, a batch of 4096 rows b.  Each member's weights lie one after another in
  its row of the flat array w : [16, 846914]:
      [0, 16384)            the observation layer's matrix, 256 rows of 64       entry (j, o) at  j·64 + o
      [16384, 16640)        its bias, 256
      [16640, 24832)        the action layer's matrix, 256 rows of 32            entry (j, a) at  16640 + j·32 + a
      [24832, 25088)        its bias, 256
      three hidden layers, each a 512 × 512 matrix (entry (k, h) at base + k·512 + h) followed by a bias of 512:
          bases 25088, 287744, 550400; biases 287232, 549888, 812544
      [813056, 845824)      the next-state head, 64 rows of 512                  entry (o, h) at  813056 + o·512 + h
      [845824, 845888)      its bias, 64
      [845888, 846400)      the reward head's row of 512;  846400 its bias
      [846401, 846913)      the done head's row of 512;    846913 its bias
  With xs(b, o) = x(b, o) · s(o) the scaled observation and lr the leaky rectifier
  lr(z) = z if z ≥ 0, else c · z (c the single-precision word nearest 1/100, the same word in both programs):
      y0(p, b, ·) = lr([ W_obs(p) · xs(b) + bias | W_act(p) · act(b) + bias ])
      y_{l+1}(p, b, k) = lr(Σ_h y_l(p, b, h) · W_l(p)(k, h) + bias_l(p)(k))
      next(b, p, o) = ((Σ_h y3(p, b, h) · W_state(p)(o, h) + bias) + xs(b, o)) / s(o)
      reward(b, p) = Σ_h y3(p, b, h) · W_rew(p)(h) + bias
      done(b, p) = 1 / (1 + exp(−(Σ_h y3(p, b, h) · W_done(p)(h) + bias)))
  Sums are finite sums in the extended reals (a commutative monoid: any order, any grouping); the quotient and the
  logistic function are the extended-real ones.
-/
import Idealize.ShloMosaic.PureOps.Ideal
import Idealize.ShloMosaic.Lib.ValueIdx

noncomputable section

open scoped BigOperators

namespace Cert.Spec

open Idealize.ShloMosaic Idealize.ShloMosaic.ValueIdx

/-- The argument arrays' types: observations, actions, the flat weights, the observation scalings. -/
abbrev Obs := (⟨2, ![4096, 64]⟩ : Shape).Idx → EReal
abbrev Act := (⟨2, ![4096, 32]⟩ : Shape).Idx → EReal
abbrev Wts := (⟨2, ![16, 846914]⟩ : Shape).Idx → EReal
abbrev Scl := (⟨1, ![64]⟩ : Shape).Idx → EReal

/-- Member p's weight at position n of its row; positions past the row read 0 (never used: every position the
    network asks for is inside the row). -/
def wt (w : Wts) (p : Fin 16) (n : ℕ) : EReal :=
  if h : n < 846914 then w (ix2 p ⟨n, h⟩) else 0

theorem wt_eq (w : Wts) (p : Fin 16) (n : ℕ) (h : n < 846914) : wt w p n = w (ix2 p ⟨n, h⟩) := dif_pos h

/-- The rectifier's slope: the single-precision word 0x3C23D70A, read as the programs read it. -/
def slope : EReal := Ideal.ofBits .f32 0x3C23D70A#32
/-- The rectifier's threshold: the zero word. -/
def zeroW : EReal := Ideal.ofBits .f32 0x00000000#32

/-- The leaky rectifier: z where zero ≤ z, the slope times z elsewhere. -/
def lr (z : EReal) : EReal := Scalar.select (Ideal.cmp .oge z zeroW) z (slope * z)

/-- The scaled observation. -/
def xs (x : Obs) (s : Scl) (b : Fin 4096) (o : Fin 64) : EReal := x (ix2 b o) * s (ix1 o)

/-- The observation layer before the rectifier, weight times input. -/
def hObs (x : Obs) (w : Wts) (s : Scl) (p : Fin 16) (b : Fin 4096) (j : Fin 256) : EReal :=
  (∑ o : Fin 64, wt w p (j.val * 64 + o.val) * xs x s b o) + wt w p (16384 + j.val)

/-- The action layer before the rectifier, weight times input. -/
def hAct (a : Act) (w : Wts) (p : Fin 16) (b : Fin 4096) (j : Fin 256) : EReal :=
  (∑ q : Fin 32, wt w p (16640 + j.val * 32 + q.val) * a (ix2 b q)) + wt w p (24832 + j.val)

/-- The first hidden activation: the two layers side by side, rectified. -/
def y0 (x : Obs) (a : Act) (w : Wts) (s : Scl) (p : Fin 16) (b : Fin 4096) (k : Fin 512) : EReal :=
  lr (if h : k.val < 256 then hObs x w s p b ⟨k.val, h⟩ else hAct a w p b ⟨k.val - 256, by omega⟩)

/-- One hidden layer on an activation: activation times weight, plus bias, rectified. -/
def layer (w : Wts) (base bias : ℕ) (y : Fin 512 → EReal) (p : Fin 16) (k : Fin 512) : EReal :=
  lr ((∑ h : Fin 512, y h * wt w p (base + k.val * 512 + h.val)) + wt w p (bias + k.val))

def y1 (x : Obs) (a : Act) (w : Wts) (s : Scl) (p : Fin 16) (b : Fin 4096) (k : Fin 512) : EReal :=
  layer w 25088 287232 (y0 x a w s p b) p k
def y2 (x : Obs) (a : Act) (w : Wts) (s : Scl) (p : Fin 16) (b : Fin 4096) (k : Fin 512) : EReal :=
  layer w 287744 549888 (y1 x a w s p b) p k
def y3 (x : Obs) (a : Act) (w : Wts) (s : Scl) (p : Fin 16) (b : Fin 4096) (k : Fin 512) : EReal :=
  layer w 550400 812544 (y2 x a w s p b) p k

/-- The next-state head before the final quotient. -/
def nsHead (x : Obs) (a : Act) (w : Wts) (s : Scl) (p : Fin 16) (b : Fin 4096) (o : Fin 64) : EReal :=
  ((∑ h : Fin 512, y3 x a w s p b h * wt w p (813056 + o.val * 512 + h.val)) + wt w p (845824 + o.val)) + xs x s b o
/-- The reward head. -/
def rwHead (x : Obs) (a : Act) (w : Wts) (s : Scl) (p : Fin 16) (b : Fin 4096) : EReal :=
  (∑ h : Fin 512, y3 x a w s p b h * wt w p (845888 + h.val)) + wt w p 846400
/-- The done head before the logistic function. -/
def dnHead (x : Obs) (a : Act) (w : Wts) (s : Scl) (p : Fin 16) (b : Fin 4096) : EReal :=
  (∑ h : Fin 512, y3 x a w s p b h * wt w p (846401 + h.val)) + wt w p 846913

/-- The three results, batch row first, member second. -/
def next (x : Obs) (a : Act) (w : Wts) (s : Scl) : (⟨3, ![4096, 16, 64]⟩ : Shape).Idx → EReal :=
  fun i => Ideal.div (nsHead x a w s (i 1) (i 0) (i 2)) (s (ix1 (i 2)))
def reward (x : Obs) (a : Act) (w : Wts) (s : Scl) : (⟨3, ![4096, 16, 1]⟩ : Shape).Idx → EReal :=
  fun i => rwHead x a w s (i 1) (i 0)
def done (x : Obs) (a : Act) (w : Wts) (s : Scl) : (⟨3, ![4096, 16, 1]⟩ : Shape).Idx → EReal :=
  fun i => Ideal.logistic (dnHead x a w s (i 1) (i 0))

theorem next_apply (x : Obs) (a : Act) (w : Wts) (s : Scl) (b : Fin 4096) (p : Fin 16) (o : Fin 64) :
    next x a w s (ix3 b p o) = Ideal.div (nsHead x a w s p b o) (s (ix1 o)) := rfl
theorem reward_apply (x : Obs) (a : Act) (w : Wts) (s : Scl) (b : Fin 4096) (p : Fin 16) (u : Fin 1) :
    reward x a w s (ix3 b p u) = rwHead x a w s p b := rfl
theorem done_apply (x : Obs) (a : Act) (w : Wts) (s : Scl) (b : Fin 4096) (p : Fin 16) (u : Fin 1) :
    done x a w s (ix3 b p u) = Ideal.logistic (dnHead x a w s p b) := rfl

end Cert.Spec

end
-- ==== Proof.KTrip.lean ====
/-
  One member's pass through the network on one batch tile, as the kernel computes it from the slabs it loads:
  every layer is a matrix product into the zero accumulator plus a bias row spread down the rows, rectified.
  Read at an output position (r, q) a layer is  Σ_k y(r, k) · W(0, k, q) + bias(0, q);  the changes of number
  format are identities on the extended reals.
-/
import proofs.«150989_j51316269252874_2_alg».proof.Proof.Gen.KernelIdeal.Skeleton
import proofs.«150989_j51316269252874_2_alg».proof.Proof.LibMatmul
import proofs.«150989_j51316269252874_2_alg».proof.Proof.Spec
import Idealize.ShloMosaic.Lib.ValueLayout
import Idealize.ShloMosaic.Lib.Pipeline.Value

noncomputable section

open scoped BigOperators

namespace Cert.KernelIdeal.Trip

open Idealize.ShloMosaic Idealize.ShloMosaic.ValueIdx Cert.KernelIdeal Cert.KernelIdeal.Gen Cert.LibMatmul

/-- The leaky rectifier on an array, as both programs spell it: keep z where 0 ≤ z, else slope · z. -/
def lrV {s : Shape} (z : FVec Ideal s .f32) : FVec Ideal s .f32 :=
  select (cmpf .oge z (broadcast s (Scalar.ofBits (F := Ideal) .f32 0x00000000#32))) z
    (mulf (broadcast s (Scalar.ofBits (F := Ideal) .f32 0x3C23D70A#32)) z)

theorem lrV_apply {s : Shape} (z : FVec Ideal s .f32) (i : s.Idx) : lrV z i = Cert.Spec.lr (z i) := rfl

/-- A dense layer as the kernel spells it: the product of the activation with the member's slab of the weight
    window (its leading unit axis dropped) into zero, plus the member's bias row spread down the rows. -/
def dense {A K B : ℕ} {φ : FTy} (d : DotDims ⟨2, ![A, K]⟩ ⟨2, ![K, B]⟩ ⟨2, ![A, B]⟩) (y : FVec Ideal ⟨2, ![A, K]⟩ φ)
    (W : FVec Ideal ⟨3, ![1, K, B]⟩ .bf16) (bias : FVec Ideal ⟨2, ![1, B]⟩ .f32)
    (h1 : (⟨3, ![1, K, B]⟩ : Shape).ShapeCasts ⟨2, ![K, B]⟩) (h2 : (⟨2, ![1, B]⟩ : Shape).ShapeCasts ⟨1, ![B]⟩)
    (h3 : (⟨1, ![B]⟩ : Shape).ShapeCasts ⟨2, ![1, B]⟩) (h4 : (⟨2, ![1, B]⟩ : Shape).Broadcasts ⟨2, ![A, B]⟩) :
    FVec Ideal ⟨2, ![A, B]⟩ .f32 :=
  addf (FloatOps.matmul (F := Ideal) d none y (shapeCast ⟨2, ![K, B]⟩ W h1) (constant ⟨2, ![A, B]⟩ .f32 0x00000000#32))
    (broadcastTo ⟨2, ![A, B]⟩ (shapeCast ⟨2, ![1, B]⟩ (shapeCast ⟨1, ![B]⟩ bias h2) h3) h4)

/-- The layer at an output position: the sum over the contracted axis plus the bias entry. -/
theorem dense_apply {A K B : ℕ} {φ : FTy} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (y : FVec Ideal ⟨2, ![A, K]⟩ φ) (W : FVec Ideal ⟨3, ![1, K, B]⟩ .bf16) (bias : FVec Ideal ⟨2, ![1, B]⟩ .f32)
    (h1 : (⟨3, ![1, K, B]⟩ : Shape).ShapeCasts ⟨2, ![K, B]⟩) (h2 : (⟨2, ![1, B]⟩ : Shape).ShapeCasts ⟨1, ![B]⟩)
    (h3 : (⟨1, ![B]⟩ : Shape).ShapeCasts ⟨2, ![1, B]⟩) (h4 : (⟨2, ![1, B]⟩ : Shape).Broadcasts ⟨2, ![A, B]⟩)
    (r : Fin A) (q : Fin B) :
    dense d y W bias h1 h2 h3 h4 (ix2 r q)
      = (∑ k : Fin K, y (ix2 r k) * W (ix3 (0 : Fin 1) k q)) + bias (ix2 (0 : Fin 1) q) := by
  unfold dense
  rw [addf_apply, matmul_zero_eq d hlb hln hlc hrb hrn hrc, MM_apply, broadcastTo_1b_ab_apply, shapeCast_a_1a_apply,
    shapeCast_1a_a_apply]
  refine congrArg (· + bias (ix2 (0 : Fin 1) q)) (Finset.sum_congr rfl fun k _ => ?_)
  rw [shapeCast_1ab_ab_apply]

/-- The first activation: the observation layer and the action layer side by side, rectified. -/
def firstAct (v5 : FVec Ideal S512x64 .bf16) (v7 : FVec Ideal S512x32 .bf16) (l4 : FVec Ideal S1x64x256 .bf16)
    (l5 : FVec Ideal S1x256 .f32) (l6 : FVec Ideal S1x32x256 .bf16) (l7 : FVec Ideal S1x256 .f32) :
    FVec Ideal S512x512 .f32 :=
  lrV (concatenate S512x512 1
    [⟨S512x256, dense dot_S512x64_S64x256_S512x256_1_0_0_1_n_n v5 l4 l5 shapeCasts_S1x64x256_S64x256 shapeCasts_S1x256_S256
        shapeCasts_S256_S1x256 broadcasts_S1x256_S512x256⟩,
     ⟨S512x256, dense dot_S512x32_S32x256_S512x256_1_0_0_1_n_n v7 l6 l7 shapeCasts_S1x32x256_S32x256 shapeCasts_S1x256_S256
        shapeCasts_S256_S1x256 broadcasts_S1x256_S512x256⟩]
    concatenates_S512x256_S512x256_S512x512_d1)

/-- One hidden layer: dense on the activation (its format change an identity), rectified. -/
def hidden (y : FVec Ideal S512x512 .f32) (W : FVec Ideal S1x512x512 .bf16) (b : FVec Ideal S1x512 .f32) :
    FVec Ideal S512x512 .f32 :=
  lrV (dense dot_S512x512_S512x512_S512x512_1_0_0_1_n_n (truncf .bf16 y bitsLt_bf16_f32) W b shapeCasts_S1x512x512_S512x512
    shapeCasts_S1x512_S512 shapeCasts_S512_S1x512 broadcasts_S1x512_S512x512)

/-- The fused head: dense, not rectified. -/
def head (y : FVec Ideal S512x512 .f32) (W : FVec Ideal S1x512x66 .bf16) (b : FVec Ideal S1x66 .f32) :
    FVec Ideal S512x66 .f32 :=
  dense dot_S512x512_S512x66_S512x66_1_0_0_1_n_n (truncf .bf16 y bitsLt_bf16_f32) W b shapeCasts_S1x512x66_S512x66
    shapeCasts_S1x66_S66 shapeCasts_S66_S1x66 broadcasts_S1x66_S512x66

theorem pay5_eq (v5 : FVec Ideal S512x64 .bf16) (v7 : FVec Ideal S512x32 .bf16) (l4 : FVec Ideal S1x64x256 .bf16)
    (l5 : FVec Ideal S1x256 .f32) (l6 : FVec Ideal S1x32x256 .bf16) (l7 : FVec Ideal S1x256 .f32)
    (l8 : FVec Ideal S1x512x512 .bf16) (l9 : FVec Ideal S1x512 .f32) :
    k0_pay5 (F := Ideal) v5 v7 l4 l5 l6 l7 l8 l9 = hidden (firstAct v5 v7 l4 l5 l6 l7) l8 l9 := rfl

theorem pay6_eq (v50 : FVec Ideal S512x512 .f32) (l10 : FVec Ideal S1x512x512 .bf16) (l11 : FVec Ideal S1x512 .f32)
    (l12 : FVec Ideal S1x512x512 .bf16) (l13 : FVec Ideal S1x512 .f32) (l14 : FVec Ideal S1x512x66 .bf16)
    (l15 : FVec Ideal S1x66 .f32) :
    k0_pay6 (F := Ideal) v50 l10 l11 l12 l13 l14 l15 = head (hidden (hidden v50 l10 l11) l12 l13) l14 l15 := rfl

end Cert.KernelIdeal.Trip

end
-- ==== Proof.SpecComb.lean ====
/-
  The kernel's one output before the host's last lines: for member p and batch row b a row of 66 numbers, the 64
  next-state entries (before the final quotient), then the reward, then the done probability.
-/
import proofs.«150989_j51316269252874_2_alg».proof.Proof.Spec

noncomputable section

namespace Cert.Spec

open Idealize.ShloMosaic Idealize.ShloMosaic.ValueIdx

/-- Entry q of the combined row of member p at batch row b. -/
def comb (x : Obs) (a : Act) (w : Wts) (s : Scl) (p : Fin 16) (b : Fin 4096) (q : Fin 66) : EReal :=
  if h : q.val < 64 then nsHead x a w s p b ⟨q.val, h⟩
  else if q.val = 64 then rwHead x a w s p b else Ideal.logistic (dnHead x a w s p b)

theorem comb_lt (x : Obs) (a : Act) (w : Wts) (s : Scl) (p : Fin 16) (b : Fin 4096) (q : Fin 66) (h : q.val < 64) :
    comb x a w s p b q = nsHead x a w s p b ⟨q.val, h⟩ := dif_pos h
theorem comb_64 (x : Obs) (a : Act) (w : Wts) (s : Scl) (p : Fin 16) (b : Fin 4096) (q : Fin 66) (h : q.val = 64) :
    comb x a w s p b q = rwHead x a w s p b := by
  unfold comb; rw [dif_neg (by omega), if_pos h]
theorem comb_65 (x : Obs) (a : Act) (w : Wts) (s : Scl) (p : Fin 16) (b : Fin 4096) (q : Fin 66) (h : q.val = 65) :
    comb x a w s p b q = Ideal.logistic (dnHead x a w s p b) := by
  unfold comb; rw [dif_neg (by omega), if_neg (by omega)]

/-- Where the fused head's weight for output column q and input h sits in the flat row: the next-state matrix's
    row q, the reward row, the done row. -/
def headW (q : Fin 66) (h : Fin 512) : ℕ :=
  if q.val < 64 then 813056 + q.val * 512 + h.val else if q.val = 64 then 845888 + h.val else 846401 + h.val
/-- Where the fused head's bias for output column q sits. -/
def headB (q : Fin 66) : ℕ := if q.val < 64 then 845824 + q.val else if q.val = 64 then 846400 else 846913

/-- The combined output as an array [16, 4096, 66]. -/
def combArr (x : Obs) (a : Act) (w : Wts) (s : Scl) : (⟨3, ![16, 4096, 66]⟩ : Shape).Idx → EReal :=
  fun i => comb x a w s (i 0) (i 1) (i 2)

theorem combArr_apply (x : Obs) (a : Act) (w : Wts) (s : Scl) (p : Fin 16) (b : Fin 4096) (q : Fin 66) :
    combArr x a w s (ix3 p b q) = comb x a w s p b q := rfl

end Cert.Spec

end
-- ==== Proof.KTrip2.lean ====
/-
  The layers of one member's pass, read at a position, and matched with the network's layers: a slab entry
  W(0, h, k) that is the flat row's entry at base + k·512 + h makes the kernel's hidden layer the network's.
-/
import proofs.«150989_j51316269252874_2_alg».proof.Proof.KTrip
import proofs.«150989_j51316269252874_2_alg».proof.Proof.SpecComb

noncomputable section

open scoped BigOperators

namespace Cert.KernelIdeal.Trip

open Idealize.ShloMosaic Idealize.ShloMosaic.ValueIdx Cert.KernelIdeal Cert.KernelIdeal.Gen Cert.LibMatmul Cert.Spec

/-- The scaled observation tile: entry (r, o) is the observation times the scaling of column o. -/
theorem pay1_apply (v0 : FVec Ideal S512x64 .f32) (v1 : FVec Ideal S64 .f32) (r : Fin 512) (o : Fin 64) :
    k0_pay1 (F := Ideal) v0 v1 (ix2 r o) = v0 (ix2 r o) * v1 (ix1 o) := by
  show mulf v0 (broadcastTo S512x64 (shapeCast S1x64 v1 shapeCasts_S64_S1x64) broadcasts_S1x64_S512x64) (ix2 r o) = _
  rw [mulf_apply, broadcastTo_1b_ab_apply, shapeCast_a_1a_apply]

/-- A hidden layer at a position. -/
theorem hidden_apply (y : FVec Ideal S512x512 .f32) (W : FVec Ideal S1x512x512 .bf16) (b : FVec Ideal S1x512 .f32)
    (r k : Fin 512) :
    hidden y W b (ix2 r k) = lr ((∑ h : Fin 512, y (ix2 r h) * W (ix3 (0 : Fin 1) h k)) + b (ix2 (0 : Fin 1) k)) := by
  unfold hidden
  rw [lrV_apply, dense_apply _ rfl rfl rfl rfl rfl rfl]
  rfl

/-- A hidden layer whose slab holds the flat row's entries at base + k·512 + h, and whose bias row holds those at
    bias + k, is the network's layer on the activation's row. -/
theorem hidden_layer (w : Wts) (p : Fin 16) (base bias : ℕ) (y : FVec Ideal S512x512 .f32)
    (W : FVec Ideal S1x512x512 .bf16) (b : FVec Ideal S1x512 .f32)
    (hW : ∀ h k : Fin 512, W (ix3 (0 : Fin 1) h k) = wt w p (base + k.val * 512 + h.val))
    (hb : ∀ k : Fin 512, b (ix2 (0 : Fin 1) k) = wt w p (bias + k.val)) (r k : Fin 512) :
    hidden y W b (ix2 r k) = layer w base bias (fun h => y (ix2 r h)) p k := by
  rw [hidden_apply]
  unfold layer
  rw [hb]
  exact congrArg (fun z => lr (z + wt w p (bias + k.val))) (Finset.sum_congr rfl fun h _ => by rw [hW])

/-- The fused head at a position. -/
theorem head_apply (y : FVec Ideal S512x512 .f32) (W : FVec Ideal S1x512x66 .bf16) (b : FVec Ideal S1x66 .f32)
    (r : Fin 512) (q : Fin 66) :
    head y W b (ix2 r q) = (∑ h : Fin 512, y (ix2 r h) * W (ix3 (0 : Fin 1) h q)) + b (ix2 (0 : Fin 1) q) := by
  unfold head
  rw [dense_apply _ rfl rfl rfl rfl rfl rfl]
  rfl

/-- The first activation at a column of the left half: the observation layer. -/
theorem firstAct_left (v5 : FVec Ideal S512x64 .bf16) (v7 : FVec Ideal S512x32 .bf16) (l4 : FVec Ideal S1x64x256 .bf16)
    (l5 : FVec Ideal S1x256 .f32) (l6 : FVec Ideal S1x32x256 .bf16) (l7 : FVec Ideal S1x256 .f32)
    (r k : Fin 512) (hk : k.val < 256) :
    firstAct v5 v7 l4 l5 l6 l7 (ix2 r k)
      = lr ((∑ o : Fin 64, v5 (ix2 r o) * l4 (ix3 (0 : Fin 1) o ⟨k.val, hk⟩)) + l5 (ix2 (0 : Fin 1) ⟨k.val, hk⟩)) := by
  unfold firstAct
  rw [lrV_apply]
  refine congrArg lr ?_
  refine (concatenate_pair_apply_left (t := S512x512) (s₁ := S512x256) (s₂ := S512x256) (1 : Fin 2) _ _ concatenates_S512x256_S512x256_S512x512_d1 (ix2 r k) rfl
    (ix2 r (⟨k.val, hk⟩ : Fin 256)) (fun b => by match b with | ⟨0, _⟩ => rfl | ⟨1, _⟩ => rfl)).trans ?_
  exact dense_apply _ rfl rfl rfl rfl rfl rfl _ _ _ _ _ _ _ r ⟨k.val, hk⟩

/-- The first activation at a column of the right half: the action layer. -/
theorem firstAct_right (v5 : FVec Ideal S512x64 .bf16) (v7 : FVec Ideal S512x32 .bf16) (l4 : FVec Ideal S1x64x256 .bf16)
    (l5 : FVec Ideal S1x256 .f32) (l6 : FVec Ideal S1x32x256 .bf16) (l7 : FVec Ideal S1x256 .f32)
    (r k : Fin 512) (hk : ¬ k.val < 256) :
    firstAct v5 v7 l4 l5 l6 l7 (ix2 r k)
      = lr ((∑ q : Fin 32, v7 (ix2 r q) * l6 (ix3 (0 : Fin 1) q ⟨k.val - 256, by omega⟩))
          + l7 (ix2 (0 : Fin 1) ⟨k.val - 256, by omega⟩)) := by
  unfold firstAct
  rw [lrV_apply]
  refine congrArg lr ?_
  refine (concatenate_pair_apply_right (t := S512x512) (s₁ := S512x256) (s₂ := S512x256) (1 : Fin 2) _ _ concatenates_S512x256_S512x256_S512x512_d1 (ix2 r k) rfl rfl
    (ix2 r (⟨k.val - 256, by omega⟩ : Fin 256))
    (fun b hb => by match b with | ⟨0, _⟩ => rfl | ⟨1, _⟩ => exact absurd rfl hb)
    (by show (k.val - 256) + 256 = k.val; omega)).trans ?_
  exact dense_apply _ rfl rfl rfl rfl rfl rfl _ _ _ _ _ _ _ r ⟨k.val - 256, by omega⟩

end Cert.KernelIdeal.Trip

end
-- ==== Proof.KTrip3.lean ====
/-
  One member's stored block is the network's combined row.  Hypotheses say what the tile and the member's slabs
  hold: the observation and action tiles are rows t·512 + r of the arguments, each weight slab entry is a position
  of the member's flat row.  The only algebra is commutativity of the product in the two input layers (the kernel
  multiplies input by weight, the network's statement weight by input).
-/
import proofs.«150989_j51316269252874_2_alg».proof.Proof.KTrip2

noncomputable section

open scoped BigOperators

namespace Cert.KernelIdeal.Trip

open Idealize.ShloMosaic Idealize.ShloMosaic.ValueIdx Cert.KernelIdeal Cert.KernelIdeal.Gen Cert.LibMatmul Cert.Spec

/-- The stored block over any head output v93 and any next-state tile v95: the three pieces side by side. -/
theorem pay4_apply_lt (v93 : FVec Ideal S512x66 .f32) (v95 : FVec Ideal S512x64 .f32) (u : Fin 1) (r : Fin 512) (q : Fin 66)
    (h : q.val < 64) : k0_pay4 (F := Ideal) v93 v95 (ix3 u r q) = v95 (ix2 r (⟨q.val, h⟩ : Fin 64)) := by
  show shapeCast S1x512x66 (concatenate S512x66 1
      [⟨S512x64, v95⟩, ⟨S512x1, extractStridedSlice S512x1 ![0, 64] v93 slices_S512x66_o0_64_S512x1⟩,
       ⟨S512x1, logistic (extractStridedSlice S512x1 ![0, 65] v93 slices_S512x66_o0_65_S512x1)⟩]
      concatenates_S512x64_S512x1_S512x1_S512x66_d1) shapeCasts_S512x66_S1x512x66 (ix3 u r q) = _
  rw [shapeCast_ab_1ab_apply]
  exact concatenate_apply_piece (t := S512x66) (1 : Fin 2)
    [⟨S512x64, v95⟩, ⟨S512x1, extractStridedSlice S512x1 ![0, 64] v93 slices_S512x66_o0_64_S512x1⟩,
     ⟨S512x1, logistic (extractStridedSlice S512x1 ![0, 65] v93 slices_S512x66_o0_65_S512x1)⟩]
    concatenates_S512x64_S512x1_S512x1_S512x66_d1 (ix2 r q) 0 (by show 0 < 3; omega) S512x64 v95 rfl rfl 0 rfl
    (ix2 r (⟨q.val, h⟩ : Fin 64))
    (fun b hb => by match b with | ⟨0, _⟩ => rfl | ⟨1, _⟩ => exact absurd rfl hb)
    (by show 0 + q.val = q.val; omega)

theorem pay4_apply_64 (v93 : FVec Ideal S512x66 .f32) (v95 : FVec Ideal S512x64 .f32) (u : Fin 1) (r : Fin 512) (q : Fin 66)
    (h : q.val = 64) : k0_pay4 (F := Ideal) v93 v95 (ix3 u r q) = v93 (ix2 r q) := by
  show shapeCast S1x512x66 (concatenate S512x66 1
      [⟨S512x64, v95⟩, ⟨S512x1, extractStridedSlice S512x1 ![0, 64] v93 slices_S512x66_o0_64_S512x1⟩,
       ⟨S512x1, logistic (extractStridedSlice S512x1 ![0, 65] v93 slices_S512x66_o0_65_S512x1)⟩]
      concatenates_S512x64_S512x1_S512x1_S512x66_d1) shapeCasts_S512x66_S1x512x66 (ix3 u r q) = _
  rw [shapeCast_ab_1ab_apply]
  refine (concatenate_apply_piece (t := S512x66) (1 : Fin 2)
    [⟨S512x64, v95⟩, ⟨S512x1, extractStridedSlice S512x1 ![0, 64] v93 slices_S512x66_o0_64_S512x1⟩,
     ⟨S512x1, logistic (extractStridedSlice S512x1 ![0, 65] v93 slices_S512x66_o0_65_S512x1)⟩]
    concatenates_S512x64_S512x1_S512x1_S512x66_d1 (ix2 r q) 1 (by show 1 < 3; omega) S512x1
    (extractStridedSlice S512x1 ![0, 64] v93 slices_S512x66_o0_64_S512x1) rfl rfl 64 rfl (ix2 r (0 : Fin 1))
    (fun b hb => by match b with | ⟨0, _⟩ => rfl | ⟨1, _⟩ => exact absurd rfl hb)
    (by show 64 + 0 = q.val; omega)).trans ?_
  exact extractStridedSlice_apply _ v93 _ _ (ix2 r q) (fun c => by
    match c with
    | ⟨0, _⟩ => show r.val = 0 + r.val; omega
    | ⟨1, _⟩ => show q.val = 64 + 0; omega)

theorem pay4_apply_65 (v93 : FVec Ideal S512x66 .f32) (v95 : FVec Ideal S512x64 .f32) (u : Fin 1) (r : Fin 512) (q : Fin 66)
    (h : q.val = 65) : k0_pay4 (F := Ideal) v93 v95 (ix3 u r q) = Ideal.logistic (v93 (ix2 r q)) := by
  show shapeCast S1x512x66 (concatenate S512x66 1
      [⟨S512x64, v95⟩, ⟨S512x1, extractStridedSlice S512x1 ![0, 64] v93 slices_S512x66_o0_64_S512x1⟩,
       ⟨S512x1, logistic (extractStridedSlice S512x1 ![0, 65] v93 slices_S512x66_o0_65_S512x1)⟩]
      concatenates_S512x64_S512x1_S512x1_S512x66_d1) shapeCasts_S512x66_S1x512x66 (ix3 u r q) = _
  rw [shapeCast_ab_1ab_apply]
  refine (concatenate_apply_piece (t := S512x66) (1 : Fin 2)
    [⟨S512x64, v95⟩, ⟨S512x1, extractStridedSlice S512x1 ![0, 64] v93 slices_S512x66_o0_64_S512x1⟩,
     ⟨S512x1, logistic (extractStridedSlice S512x1 ![0, 65] v93 slices_S512x66_o0_65_S512x1)⟩]
    concatenates_S512x64_S512x1_S512x1_S512x66_d1 (ix2 r q) 2 (by show 2 < 3; omega) S512x1
    (logistic (extractStridedSlice S512x1 ![0, 65] v93 slices_S512x66_o0_65_S512x1)) rfl rfl 65 rfl (ix2 r (0 : Fin 1))
    (fun b hb => by match b with | ⟨0, _⟩ => rfl | ⟨1, _⟩ => exact absurd rfl hb)
    (by show 65 + 0 = q.val; omega)).trans ?_
  show Ideal.logistic (extractStridedSlice S512x1 ![0, 65] v93 slices_S512x66_o0_65_S512x1 (ix2 r (0 : Fin 1))) = _
  exact congrArg Ideal.logistic (extractStridedSlice_apply _ v93 _ _ (ix2 r q) (fun c => by
    match c with
    | ⟨0, _⟩ => show r.val = 0 + r.val; omega
    | ⟨1, _⟩ => show q.val = 65 + 0; omega))

/-- The next-state tile: the head's first 64 columns plus the scaled observation. -/
theorem sliceAdd_apply (v93 : FVec Ideal S512x66 .f32) (v4 : FVec Ideal S512x64 .f32) (r : Fin 512) (o : Fin 64) :
    addf (extractStridedSlice S512x64 ![0, 0] v93 slices_S512x66_o0_0_S512x64) v4 (ix2 r o)
      = v93 (ix2 r (⟨o.val, by omega⟩ : Fin 66)) + v4 (ix2 r o) := by
  rw [addf_apply]
  exact congrArg (· + v4 (ix2 r o)) (extractStridedSlice_apply _ v93 _ _ (ix2 r (⟨o.val, by omega⟩ : Fin 66)) (fun c => by
    match c with
    | ⟨0, _⟩ => show r.val = 0 + r.val; omega
    | ⟨1, _⟩ => show o.val = 0 + o.val; omega))

theorem pay7_eq (v4 : FVec Ideal S512x64 .f32) (v50 : FVec Ideal S512x512 .f32) (l10 : FVec Ideal S1x512x512 .bf16)
    (l11 : FVec Ideal S1x512 .f32) (l12 : FVec Ideal S1x512x512 .bf16) (l13 : FVec Ideal S1x512 .f32)
    (l14 : FVec Ideal S1x512x66 .bf16) (l15 : FVec Ideal S1x66 .f32) :
    k0_pay7 (F := Ideal) v4 v50 l10 l11 l12 l13 l14 l15
      = addf (extractStridedSlice S512x64 ![0, 0] (k0_pay6 (F := Ideal) v50 l10 l11 l12 l13 l14 l15) slices_S512x66_o0_0_S512x64) v4 := rfl

section
variable (x : Obs) (a : Act) (w : Wts) (s : Scl) (p : Fin 16) (b : Fin 4096)
  (v0 : FVec Ideal S512x64 .f32) (v1 : FVec Ideal S64 .f32) (v6 : FVec Ideal S512x32 .f32)
  (l4 : FVec Ideal S1x64x256 .bf16) (l5 : FVec Ideal S1x256 .f32) (l6 : FVec Ideal S1x32x256 .bf16) (l7 : FVec Ideal S1x256 .f32)
  (l8 : FVec Ideal S1x512x512 .bf16) (l9 : FVec Ideal S1x512 .f32) (l10 : FVec Ideal S1x512x512 .bf16) (l11 : FVec Ideal S1x512 .f32)
  (l12 : FVec Ideal S1x512x512 .bf16) (l13 : FVec Ideal S1x512 .f32) (l14 : FVec Ideal S1x512x66 .bf16) (l15 : FVec Ideal S1x66 .f32)
  (r : Fin 512)
  (hv0 : ∀ o : Fin 64, v0 (ix2 r o) = x (ix2 b o)) (hv1 : ∀ o : Fin 64, v1 (ix1 o) = s (ix1 o))
  (hv6 : ∀ q : Fin 32, v6 (ix2 r q) = a (ix2 b q))
  (hl4 : ∀ (o : Fin 64) (j : Fin 256), l4 (ix3 (0 : Fin 1) o j) = wt w p (j.val * 64 + o.val))
  (hl5 : ∀ j : Fin 256, l5 (ix2 (0 : Fin 1) j) = wt w p (16384 + j.val))
  (hl6 : ∀ (q : Fin 32) (j : Fin 256), l6 (ix3 (0 : Fin 1) q j) = wt w p (16640 + j.val * 32 + q.val))
  (hl7 : ∀ j : Fin 256, l7 (ix2 (0 : Fin 1) j) = wt w p (24832 + j.val))
  (hl8 : ∀ h k : Fin 512, l8 (ix3 (0 : Fin 1) h k) = wt w p (25088 + k.val * 512 + h.val))
  (hl9 : ∀ k : Fin 512, l9 (ix2 (0 : Fin 1) k) = wt w p (287232 + k.val))
  (hl10 : ∀ h k : Fin 512, l10 (ix3 (0 : Fin 1) h k) = wt w p (287744 + k.val * 512 + h.val))
  (hl11 : ∀ k : Fin 512, l11 (ix2 (0 : Fin 1) k) = wt w p (549888 + k.val))
  (hl12 : ∀ h k : Fin 512, l12 (ix3 (0 : Fin 1) h k) = wt w p (550400 + k.val * 512 + h.val))
  (hl13 : ∀ k : Fin 512, l13 (ix2 (0 : Fin 1) k) = wt w p (812544 + k.val))
  (hl14 : ∀ (h : Fin 512) (q : Fin 66), l14 (ix3 (0 : Fin 1) h q) = wt w p (headW q h))
  (hl15 : ∀ q : Fin 66, l15 (ix2 (0 : Fin 1) q) = wt w p (headB q))

include hv0 hv1 in
/-- The scaled observation tile's row r is the network's scaled observation of batch row b. -/
theorem pay1_spec (o : Fin 64) : k0_pay1 (F := Ideal) v0 v1 (ix2 r o) = xs x s b o := by
  rw [pay1_apply, hv0, hv1]; rfl

include hv0 hv1 hv6 hl4 hl5 hl6 hl7 in
/-- The first activation's row r is the network's first activation of (p, b). -/
theorem firstAct_spec (k : Fin 512) :
    firstAct (k0_pay2 (F := Ideal) v0 v1) (k0_pay3 (F := Ideal) v6) l4 l5 l6 l7 (ix2 r k) = y0 x a w s p b k := by
  unfold y0
  by_cases hk : k.val < 256
  · rw [firstAct_left _ _ _ _ _ _ r k hk, dif_pos hk]
    refine congrArg lr ?_
    unfold hObs
    rw [hl5]
    refine congrArg (· + wt w p (16384 + k.val)) (Finset.sum_congr rfl fun o _ => ?_)
    rw [hl4, mul_comm]
    exact congrArg (wt w p (k.val * 64 + o.val) * ·) (pay1_spec x s b v0 v1 r hv0 hv1 o)
  · rw [firstAct_right _ _ _ _ _ _ r k hk, dif_neg hk]
    refine congrArg lr ?_
    unfold hAct
    rw [hl7]
    refine congrArg (· + wt w p (24832 + (k.val - 256))) (Finset.sum_congr rfl fun q _ => ?_)
    rw [hl6, mul_comm]
    exact congrArg (wt w p (16640 + (k.val - 256) * 32 + q.val) * ·) (hv6 q)

include hv0 hv1 hv6 hl4 hl5 hl6 hl7 hl8 hl9 in
theorem act1_spec (k : Fin 512) : hidden (firstAct (k0_pay2 (F := Ideal) v0 v1) (k0_pay3 (F := Ideal) v6) l4 l5 l6 l7) l8 l9 (ix2 r k) = y1 x a w s p b k := by
  rw [hidden_layer w p 25088 287232 _ l8 l9 hl8 hl9 r k]
  unfold y1
  exact congrArg (fun y => layer w 25088 287232 y p k) (funext fun h => firstAct_spec x a w s p b v0 v1 v6 l4 l5 l6 l7 r hv0 hv1 hv6 hl4 hl5 hl6 hl7 h)

include hv0 hv1 hv6 hl4 hl5 hl6 hl7 hl8 hl9 hl10 hl11 in
theorem act2_spec (k : Fin 512) : hidden (hidden (firstAct (k0_pay2 (F := Ideal) v0 v1) (k0_pay3 (F := Ideal) v6) l4 l5 l6 l7) l8 l9) l10 l11 (ix2 r k) = y2 x a w s p b k := by
  rw [hidden_layer w p 287744 549888 _ l10 l11 hl10 hl11 r k]
  unfold y2
  exact congrArg (fun y => layer w 287744 549888 y p k) (funext fun h => act1_spec x a w s p b v0 v1 v6 l4 l5 l6 l7 l8 l9 r hv0 hv1 hv6 hl4 hl5 hl6 hl7 hl8 hl9 h)

include hv0 hv1 hv6 hl4 hl5 hl6 hl7 hl8 hl9 hl10 hl11 hl12 hl13 in
theorem act3_spec (k : Fin 512) : hidden (hidden (hidden (firstAct (k0_pay2 (F := Ideal) v0 v1) (k0_pay3 (F := Ideal) v6) l4 l5 l6 l7) l8 l9) l10 l11) l12 l13 (ix2 r k) = y3 x a w s p b k := by
  rw [hidden_layer w p 550400 812544 _ l12 l13 hl12 hl13 r k]
  unfold y3
  exact congrArg (fun y => layer w 550400 812544 y p k) (funext fun h => act2_spec x a w s p b v0 v1 v6 l4 l5 l6 l7 l8 l9 l10 l11 r hv0 hv1 hv6 hl4 hl5 hl6 hl7 hl8 hl9 hl10 hl11 h)

include hv0 hv1 hv6 hl4 hl5 hl6 hl7 hl8 hl9 hl10 hl11 hl12 hl13 hl14 hl15 in
/-- The fused head at column q: the last activation against the head's column, plus its bias. -/
theorem head_spec (q : Fin 66) :
    head (hidden (hidden (hidden (firstAct (k0_pay2 (F := Ideal) v0 v1) (k0_pay3 (F := Ideal) v6) l4 l5 l6 l7) l8 l9) l10 l11) l12 l13) l14 l15 (ix2 r q) = (∑ h : Fin 512, y3 x a w s p b h * wt w p (headW q h)) + wt w p (headB q) := by
  rw [head_apply, hl15]
  refine congrArg (· + wt w p (headB q)) (Finset.sum_congr rfl fun h _ => ?_)
  rw [hl14, act3_spec x a w s p b v0 v1 v6 l4 l5 l6 l7 l8 l9 l10 l11 l12 l13 r hv0 hv1 hv6 hl4 hl5 hl6 hl7 hl8 hl9 hl10 hl11 hl12 hl13 h]

include hv0 hv1 hv6 hl4 hl5 hl6 hl7 hl8 hl9 hl10 hl11 hl12 hl13 hl14 hl15 in
/-- The block the trip stores, at (u, r, q): entry q of the combined row of (p, b). -/
theorem stored_spec (u : Fin 1) (q : Fin 66) :
    k0_pay4 (F := Ideal) (k0_pay6 (F := Ideal) (k0_pay5 (F := Ideal) (k0_pay2 (F := Ideal) v0 v1) (k0_pay3 (F := Ideal) v6) l4 l5 l6 l7 l8 l9) l10 l11 l12 l13 l14 l15)
        (k0_pay7 (F := Ideal) (k0_pay1 (F := Ideal) v0 v1) (k0_pay5 (F := Ideal) (k0_pay2 (F := Ideal) v0 v1) (k0_pay3 (F := Ideal) v6) l4 l5 l6 l7 l8 l9) l10 l11 l12 l13 l14 l15) (ix3 u r q)
      = comb x a w s p b q := by
  have hhead : ∀ q' : Fin 66, (k0_pay6 (F := Ideal) (k0_pay5 (F := Ideal) (k0_pay2 (F := Ideal) v0 v1) (k0_pay3 (F := Ideal) v6) l4 l5 l6 l7 l8 l9) l10 l11 l12 l13 l14 l15) (ix2 r q')
      = (∑ h : Fin 512, y3 x a w s p b h * wt w p (headW q' h)) + wt w p (headB q') := fun q' => by
    rw [pay5_eq, pay6_eq]; exact head_spec x a w s p b v0 v1 v6 l4 l5 l6 l7 l8 l9 l10 l11 l12 l13 l14 l15 r hv0 hv1 hv6 hl4 hl5 hl6 hl7 hl8 hl9 hl10 hl11 hl12 hl13 hl14 hl15 q'
  by_cases h1 : q.val < 64
  · rw [comb_lt x a w s p b q h1, pay4_apply_lt _ _ u r q h1, pay7_eq, sliceAdd_apply, hhead,
      pay1_spec x s b v0 v1 r hv0 hv1]
    unfold nsHead headW headB
    simp only [if_pos h1]
  · by_cases h2 : q.val = 64
    · rw [comb_64 x a w s p b q h2, pay4_apply_64 _ _ u r q h2, hhead]
      unfold rwHead headW headB
      simp only [if_neg h1, if_pos h2]
    · have h3 : q.val = 65 := by have := q.isLt; omega
      rw [comb_65 x a w s p b q h3, pay4_apply_65 _ _ u r q h3, hhead]
      unfold dnHead headW headB
      simp only [if_neg h1, if_neg h2]

end

end Cert.KernelIdeal.Trip

end
-- ==== Proof.LibFlat.lean ====
/-
  A flat row of numbers read as a matrix: columns off … off+n−1 of an [R, N] array, reshaped to [R, A, C]
  (n = A·C), hold at (p, j, o) the array's entry (p, off + j·C + o). And two broadcasts of a per-member vector
  over a batch axis.
-/
import Idealize.ShloMosaic.Lib.ValueLayout

namespace Cert.LibFlat

open Idealize.ShloMosaic Idealize.ShloMosaic.ValueIdx

variable {α : Type}

/-- An [R, n] array reshaped to [R, A, C] reads, at (p, j, o), its entry (p, j·C + o). -/
theorem reshape_split_apply {R n A C : ℕ} (y : (⟨2, ![R, n]⟩ : Shape).Idx → α)
    (h : (⟨2, ![R, n]⟩ : Shape).ShapeCasts ⟨3, ![R, A, C]⟩) (hn : n = A * C)
    (p : Fin R) (j : Fin A) (o : Fin C) (c : Fin n) (hc : c.val = j.val * C + o.val) :
    shapeCast ⟨3, ![R, A, C]⟩ y h (ix3 p j o) = y (ix2 p c) :=
  shapeCast_apply y h _ _ (by
    rw [Shape.rowMajor_val_two, Shape.rowMajor_val_three]
    show p.val * n + c.val = (p.val * A + j.val) * C + o.val
    rw [hc, hn]; ring)

/-- Columns off … off+n−1 of an [R, N] array, reshaped to [R, A, C], read at (p, j, o) the array's entry
    (p, off + j·C + o). -/
theorem slice_split_apply {R N n A C : ℕ} (off : ℕ) (w : (⟨2, ![R, N]⟩ : Shape).Idx → α)
    (hs : (⟨2, ![R, N]⟩ : Shape).Slices ![0, off] ⟨2, ![R, n]⟩)
    (hc : (⟨2, ![R, n]⟩ : Shape).ShapeCasts ⟨3, ![R, A, C]⟩) (hn : n = A * C)
    (p : Fin R) (j : Fin A) (o : Fin C) (hlt : j.val * C + o.val < n) (k : Fin N)
    (hk : k.val = off + (j.val * C + o.val)) :
    shapeCast ⟨3, ![R, A, C]⟩ (extractStridedSlice ⟨2, ![R, n]⟩ ![0, off] w hs) hc (ix3 p j o) = w (ix2 p k) :=
  (reshape_split_apply _ hc hn p j o ⟨j.val * C + o.val, hlt⟩ rfl).trans
    (slice2_axis1_apply off w hs p ⟨j.val * C + o.val, hlt⟩ k hk)

end Cert.LibFlat
-- ==== Proof.KWeights.lean ====
/-
  The weight arrays the kernel is handed, as functions of the flat weight array, and where each entry sits in
  a member's row.  Every matrix is cut from the row, reshaped to its rows and columns, and transposed so that the
  contracted axis comes first; the fused head lays the next-state matrix, the reward row and the done row side by
  side, and its bias likewise.  The changes of number format are identities on the extended reals.
-/
import proofs.«150989_j51316269252874_2_alg».proof.Proof.Gen.KernelIdeal
import proofs.«150989_j51316269252874_2_alg».proof.Proof.LibFlat
import proofs.«150989_j51316269252874_2_alg».proof.Proof.SpecComb

noncomputable section

namespace Cert.KernelIdeal.Weights

open Idealize.ShloMosaic Idealize.ShloMosaic.ValueIdx Cert.KernelIdeal Cert.KernelIdeal.Gen Cert.LibFlat Cert.Spec

section Defs
variable {F : FTy → Type} [FloatOps F] (w : FVec F S16x846914 .f32)

/-- The observation layer's matrix, input-major. -/
def wObsT : FVec F S16x64x256 .bf16 :=
  truncf .bf16 (transpose S16x64x256 [0, 2, 1]
    (shapeCast S16x256x64 (extractStridedSlice S16x16384 ![0, 0] w slices_S16x846914_S16x16384_0_0) shapeCasts_S16x16384_S16x256x64)
    transposes_S16x256x64_S16x64x256_0_2_1) bitsLt_bf16_f32
def bObs : FVec F S16x256 .f32 := extractStridedSlice S16x256 ![0, 16384] w slices_S16x846914_S16x256_0_16384
/-- The action layer's matrix, input-major. -/
def wActT : FVec F S16x32x256 .bf16 :=
  truncf .bf16 (transpose S16x32x256 [0, 2, 1]
    (shapeCast S16x256x32 (extractStridedSlice S16x8192 ![0, 16640] w slices_S16x846914_S16x8192_0_16640) shapeCasts_S16x8192_S16x256x32)
    transposes_S16x256x32_S16x32x256_0_2_1) bitsLt_bf16_f32
def bAct : FVec F S16x256 .f32 := extractStridedSlice S16x256 ![0, 24832] w slices_S16x846914_S16x256_0_24832
/-- The three hidden matrices, input-major, and their biases. -/
def wH0T : FVec F S16x512x512 .bf16 :=
  truncf .bf16 (transpose S16x512x512 [0, 2, 1]
    (shapeCast S16x512x512 (extractStridedSlice S16x262144 ![0, 25088] w slices_S16x846914_S16x262144_0_25088) shapeCasts_S16x262144_S16x512x512)
    transposes_S16x512x512_S16x512x512_0_2_1) bitsLt_bf16_f32
def bH0 : FVec F S16x512 .f32 := extractStridedSlice S16x512 ![0, 287232] w slices_S16x846914_S16x512_0_287232
def wH1T : FVec F S16x512x512 .bf16 :=
  truncf .bf16 (transpose S16x512x512 [0, 2, 1]
    (shapeCast S16x512x512 (extractStridedSlice S16x262144 ![0, 287744] w slices_S16x846914_S16x262144_0_287744) shapeCasts_S16x262144_S16x512x512)
    transposes_S16x512x512_S16x512x512_0_2_1) bitsLt_bf16_f32
def bH1 : FVec F S16x512 .f32 := extractStridedSlice S16x512 ![0, 549888] w slices_S16x846914_S16x512_0_549888
def wH2T : FVec F S16x512x512 .bf16 :=
  truncf .bf16 (transpose S16x512x512 [0, 2, 1]
    (shapeCast S16x512x512 (extractStridedSlice S16x262144 ![0, 550400] w slices_S16x846914_S16x262144_0_550400) shapeCasts_S16x262144_S16x512x512)
    transposes_S16x512x512_S16x512x512_0_2_1) bitsLt_bf16_f32
def bH2 : FVec F S16x512 .f32 := extractStridedSlice S16x512 ![0, 812544] w slices_S16x846914_S16x512_0_812544
/-- The three heads' matrices, input-major. -/
def wStateT : FVec F S16x512x64 .f32 :=
  transpose S16x512x64 [0, 2, 1]
    (shapeCast S16x64x512 (extractStridedSlice S16x32768 ![0, 813056] w slices_S16x846914_S16x32768_0_813056) shapeCasts_S16x32768_S16x64x512)
    transposes_S16x64x512_S16x512x64_0_2_1
def wRewT : FVec F S16x512x1 .f32 :=
  transpose S16x512x1 [0, 2, 1]
    (shapeCast S16x1x512 (extractStridedSlice S16x512 ![0, 845888] w slices_S16x846914_S16x512_0_845888) shapeCasts_S16x512_S16x1x512)
    transposes_S16x1x512_S16x512x1_0_2_1
def wDoneT : FVec F S16x512x1 .f32 :=
  transpose S16x512x1 [0, 2, 1]
    (shapeCast S16x1x512 (extractStridedSlice S16x512 ![0, 846401] w slices_S16x846914_S16x512_0_846401) shapeCasts_S16x512_S16x1x512)
    transposes_S16x1x512_S16x512x1_0_2_1
/-- The fused head: the three side by side along the output axis. -/
def wHeadT : FVec F S16x512x66 .bf16 :=
  truncf .bf16 (concatenate S16x512x66 2 [⟨S16x512x64, wStateT w⟩, ⟨S16x512x1, wRewT w⟩, ⟨S16x512x1, wDoneT w⟩]
    concatenates_S16x512x64_S16x512x1_S16x512x1_S16x512x66_d2) bitsLt_bf16_f32
def bHead : FVec F S16x66 .f32 :=
  concatenate S16x66 1
    [⟨S16x64, extractStridedSlice S16x64 ![0, 845824] w slices_S16x846914_S16x64_0_845824⟩,
     ⟨S16x1, extractStridedSlice S16x1 ![0, 846400] w slices_S16x846914_S16x1_0_846400⟩,
     ⟨S16x1, extractStridedSlice S16x1 ![0, 846913] w slices_S16x846914_S16x1_0_846913⟩]
    concatenates_S16x64_S16x1_S16x1_S16x66_d1
end Defs

section Read
variable (w : Wts) (p : Fin 16)

theorem wObsT_apply (o : Fin 64) (j : Fin 256) : wObsT (F := Ideal) w (ix3 p o j) = wt w p (j.val * 64 + o.val) := by
  unfold wObsT
  rw [truncf_apply, transpose_ix3_021_apply,
    slice_split_apply 0 w _ _ (by norm_num) p j o (by omega) ⟨0 + (j.val * 64 + o.val), by omega⟩ rfl,
    wt_eq w p _ (by omega)]
  exact congrArg (fun n => w (ix2 p n)) (Fin.ext (by simp only; omega))

theorem bObs_apply (j : Fin 256) : bObs (F := Ideal) w (ix2 p j) = wt w p (16384 + j.val) := by
  unfold bObs
  rw [slice2_axis1_apply 16384 w _ p j ⟨16384 + j.val, by omega⟩ rfl, wt_eq w p _ (by omega)]

theorem wActT_apply (q : Fin 32) (j : Fin 256) : wActT (F := Ideal) w (ix3 p q j) = wt w p (16640 + j.val * 32 + q.val) := by
  unfold wActT
  rw [truncf_apply, transpose_ix3_021_apply,
    slice_split_apply 16640 w _ _ (by norm_num) p j q (by omega) ⟨16640 + (j.val * 32 + q.val), by omega⟩ rfl,
    wt_eq w p _ (by omega)]
  exact congrArg (fun n => w (ix2 p n)) (Fin.ext (by simp only; omega))

theorem bAct_apply (j : Fin 256) : bAct (F := Ideal) w (ix2 p j) = wt w p (24832 + j.val) := by
  unfold bAct
  rw [slice2_axis1_apply 24832 w _ p j ⟨24832 + j.val, by omega⟩ rfl, wt_eq w p _ (by omega)]

theorem wH0T_apply (h k : Fin 512) : wH0T (F := Ideal) w (ix3 p h k) = wt w p (25088 + k.val * 512 + h.val) := by
  unfold wH0T
  rw [truncf_apply, transpose_ix3_021_apply,
    slice_split_apply 25088 w _ _ (by norm_num) p k h (by omega) ⟨25088 + (k.val * 512 + h.val), by omega⟩ rfl,
    wt_eq w p _ (by omega)]
  exact congrArg (fun n => w (ix2 p n)) (Fin.ext (by simp only; omega))

theorem bH0_apply (k : Fin 512) : bH0 (F := Ideal) w (ix2 p k) = wt w p (287232 + k.val) := by
  unfold bH0
  rw [slice2_axis1_apply 287232 w _ p k ⟨287232 + k.val, by omega⟩ rfl, wt_eq w p _ (by omega)]

theorem wH1T_apply (h k : Fin 512) : wH1T (F := Ideal) w (ix3 p h k) = wt w p (287744 + k.val * 512 + h.val) := by
  unfold wH1T
  rw [truncf_apply, transpose_ix3_021_apply,
    slice_split_apply 287744 w _ _ (by norm_num) p k h (by omega) ⟨287744 + (k.val * 512 + h.val), by omega⟩ rfl,
    wt_eq w p _ (by omega)]
  exact congrArg (fun n => w (ix2 p n)) (Fin.ext (by simp only; omega))

theorem bH1_apply (k : Fin 512) : bH1 (F := Ideal) w (ix2 p k) = wt w p (549888 + k.val) := by
  unfold bH1
  rw [slice2_axis1_apply 549888 w _ p k ⟨549888 + k.val, by omega⟩ rfl, wt_eq w p _ (by omega)]

theorem wH2T_apply (h k : Fin 512) : wH2T (F := Ideal) w (ix3 p h k) = wt w p (550400 + k.val * 512 + h.val) := by
  unfold wH2T
  rw [truncf_apply, transpose_ix3_021_apply,
    slice_split_apply 550400 w _ _ (by norm_num) p k h (by omega) ⟨550400 + (k.val * 512 + h.val), by omega⟩ rfl,
    wt_eq w p _ (by omega)]
  exact congrArg (fun n => w (ix2 p n)) (Fin.ext (by simp only; omega))

theorem bH2_apply (k : Fin 512) : bH2 (F := Ideal) w (ix2 p k) = wt w p (812544 + k.val) := by
  unfold bH2
  rw [slice2_axis1_apply 812544 w _ p k ⟨812544 + k.val, by omega⟩ rfl, wt_eq w p _ (by omega)]

theorem wStateT_apply (h : Fin 512) (o : Fin 64) : wStateT (F := Ideal) w (ix3 p h o) = wt w p (813056 + o.val * 512 + h.val) := by
  unfold wStateT
  rw [transpose_ix3_021_apply,
    slice_split_apply 813056 w _ _ (by norm_num) p o h (by omega) ⟨813056 + (o.val * 512 + h.val), by omega⟩ rfl,
    wt_eq w p _ (by omega)]
  exact congrArg (fun n => w (ix2 p n)) (Fin.ext (by simp only; omega))

theorem wRewT_apply (h : Fin 512) (u : Fin 1) : wRewT (F := Ideal) w (ix3 p h u) = wt w p (845888 + h.val) := by
  unfold wRewT
  have hu : u.val = 0 := by omega
  rw [transpose_ix3_021_apply,
    slice_split_apply 845888 w _ _ (by norm_num) p u h (by omega) ⟨845888 + (u.val * 512 + h.val), by omega⟩ rfl,
    wt_eq w p _ (by omega)]
  exact congrArg (fun n => w (ix2 p n)) (Fin.ext (by simp only; omega))

theorem wDoneT_apply (h : Fin 512) (u : Fin 1) : wDoneT (F := Ideal) w (ix3 p h u) = wt w p (846401 + h.val) := by
  unfold wDoneT
  have hu : u.val = 0 := by omega
  rw [transpose_ix3_021_apply,
    slice_split_apply 846401 w _ _ (by norm_num) p u h (by omega) ⟨846401 + (u.val * 512 + h.val), by omega⟩ rfl,
    wt_eq w p _ (by omega)]
  exact congrArg (fun n => w (ix2 p n)) (Fin.ext (by simp only; omega))

/-- The fused head's matrix at (p, h, q): the flat row at the head's position for column q and input h. -/
theorem wHeadT_apply (h : Fin 512) (q : Fin 66) : wHeadT (F := Ideal) w (ix3 p h q) = wt w p (headW q h) := by
  unfold wHeadT headW
  rw [truncf_apply]
  by_cases h1 : q.val < 64
  · rw [if_pos h1]
    refine (concatenate_apply_piece (t := S16x512x66) (2 : Fin 3) [⟨S16x512x64, wStateT (F := Ideal) w⟩, ⟨S16x512x1, wRewT (F := Ideal) w⟩, ⟨S16x512x1, wDoneT (F := Ideal) w⟩] concatenates_S16x512x64_S16x512x1_S16x512x1_S16x512x66_d2
      (ix3 p h q) 0 (by show 0 < 3; omega) S16x512x64 _ rfl rfl 0 rfl (ix3 p h (⟨q.val, h1⟩ : Fin 64))
      (fun b hb => by match b with | ⟨0, _⟩ => rfl | ⟨1, _⟩ => rfl | ⟨2, _⟩ => exact absurd rfl hb)
      (by show 0 + q.val = q.val; omega)).trans ?_
    exact wStateT_apply w p h ⟨q.val, h1⟩
  · rw [if_neg h1]
    by_cases h2 : q.val = 64
    · rw [if_pos h2]
      refine (concatenate_apply_piece (t := S16x512x66) (2 : Fin 3) [⟨S16x512x64, wStateT (F := Ideal) w⟩, ⟨S16x512x1, wRewT (F := Ideal) w⟩, ⟨S16x512x1, wDoneT (F := Ideal) w⟩] concatenates_S16x512x64_S16x512x1_S16x512x1_S16x512x66_d2
        (ix3 p h q) 1 (by show 1 < 3; omega) S16x512x1 _ rfl rfl 64 rfl (ix3 p h (0 : Fin 1))
        (fun b hb => by match b with | ⟨0, _⟩ => rfl | ⟨1, _⟩ => rfl | ⟨2, _⟩ => exact absurd rfl hb)
        (by show 64 + 0 = q.val; omega)).trans ?_
      exact wRewT_apply w p h 0
    · rw [if_neg h2]
      have h3 : q.val = 65 := by have := q.isLt; omega
      refine (concatenate_apply_piece (t := S16x512x66) (2 : Fin 3) [⟨S16x512x64, wStateT (F := Ideal) w⟩, ⟨S16x512x1, wRewT (F := Ideal) w⟩, ⟨S16x512x1, wDoneT (F := Ideal) w⟩] concatenates_S16x512x64_S16x512x1_S16x512x1_S16x512x66_d2
        (ix3 p h q) 2 (by show 2 < 3; omega) S16x512x1 _ rfl rfl 65 rfl (ix3 p h (0 : Fin 1))
        (fun b hb => by match b with | ⟨0, _⟩ => rfl | ⟨1, _⟩ => rfl | ⟨2, _⟩ => exact absurd rfl hb)
        (by show 65 + 0 = q.val; omega)).trans ?_
      exact wDoneT_apply w p h 0

/-- The fused head's bias at (p, q). -/
theorem bHead_apply (q : Fin 66) : bHead (F := Ideal) w (ix2 p q) = wt w p (headB q) := by
  unfold bHead headB
  by_cases h1 : q.val < 64
  · rw [if_pos h1]
    refine (concatenate_apply_piece (t := S16x66) (1 : Fin 2) [⟨S16x64, extractStridedSlice S16x64 ![0, 845824] w slices_S16x846914_S16x64_0_845824⟩, ⟨S16x1, extractStridedSlice S16x1 ![0, 846400] w slices_S16x846914_S16x1_0_846400⟩, ⟨S16x1, extractStridedSlice S16x1 ![0, 846913] w slices_S16x846914_S16x1_0_846913⟩] concatenates_S16x64_S16x1_S16x1_S16x66_d1
      (ix2 p q) 0 (by show 0 < 3; omega) S16x64 _ rfl rfl 0 rfl (ix2 p (⟨q.val, h1⟩ : Fin 64))
      (fun b hb => by match b with | ⟨0, _⟩ => rfl | ⟨1, _⟩ => exact absurd rfl hb)
      (by show 0 + q.val = q.val; omega)).trans ?_
    rw [slice2_axis1_apply 845824 w _ p ⟨q.val, h1⟩ ⟨845824 + q.val, by omega⟩ rfl, wt_eq w p _ (by omega)]
  · rw [if_neg h1]
    by_cases h2 : q.val = 64
    · rw [if_pos h2]
      refine (concatenate_apply_piece (t := S16x66) (1 : Fin 2) [⟨S16x64, extractStridedSlice S16x64 ![0, 845824] w slices_S16x846914_S16x64_0_845824⟩, ⟨S16x1, extractStridedSlice S16x1 ![0, 846400] w slices_S16x846914_S16x1_0_846400⟩, ⟨S16x1, extractStridedSlice S16x1 ![0, 846913] w slices_S16x846914_S16x1_0_846913⟩] concatenates_S16x64_S16x1_S16x1_S16x66_d1
        (ix2 p q) 1 (by show 1 < 3; omega) S16x1 _ rfl rfl 64 rfl (ix2 p (0 : Fin 1))
        (fun b hb => by match b with | ⟨0, _⟩ => rfl | ⟨1, _⟩ => exact absurd rfl hb)
        (by show 64 + 0 = q.val; omega)).trans ?_
      rw [slice2_axis1_apply 846400 w _ p (0 : Fin 1) ⟨846400, by omega⟩ rfl, wt_eq w p _ (by omega)]
    · rw [if_neg h2]
      have h3 : q.val = 65 := by have := q.isLt; omega
      refine (concatenate_apply_piece (t := S16x66) (1 : Fin 2) [⟨S16x64, extractStridedSlice S16x64 ![0, 845824] w slices_S16x846914_S16x64_0_845824⟩, ⟨S16x1, extractStridedSlice S16x1 ![0, 846400] w slices_S16x846914_S16x1_0_846400⟩, ⟨S16x1, extractStridedSlice S16x1 ![0, 846913] w slices_S16x846914_S16x1_0_846913⟩] concatenates_S16x64_S16x1_S16x1_S16x66_d1
        (ix2 p q) 2 (by show 2 < 3; omega) S16x1 _ rfl rfl 65 rfl (ix2 p (0 : Fin 1))
        (fun b hb => by match b with | ⟨0, _⟩ => rfl | ⟨1, _⟩ => exact absurd rfl hb)
        (by show 65 + 0 = q.val; omega)).trans ?_
      rw [slice2_axis1_apply 846913 w _ p (0 : Fin 1) ⟨846913, by omega⟩ rfl, wt_eq w p _ (by omega)]

end Read

end Cert.KernelIdeal.Weights

end
-- ==== Proof.KIdealEntry.lean ====
/- What the weight windows' arrays hold when the region is entered.

   Twelve of the pallas_call's operands are written by the forty host operations before it: each is a chain of a
   slice of the flat weight array, a reshape, a transposition and a rounding to bf16 (the matrices), a plain slice
   (the biases), or a concatenation of three such along the output axis (the fused head). Reading the fold of the
   forty operations at each operand's buffer gives that chain applied to the flat weight array as launched, since no
   operation writes the flat array and each intermediate buffer is written once. -/
import proofs.«150989_j51316269252874_2_alg».proof.Proof.KIdealKit
import proofs.«150989_j51316269252874_2_alg».proof.Proof.KWeights

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A three-operand host operation's result with each operand's contents at its own buffer, so that the operands can
    be read on in turn. -/
theorem nary3_result {x a b y : Ref sig .tc}
    (f : ((k : Fin 3) → ((![x, a, b] : Fin 3 → Ref sig .tc) k).ty.Contents (Elt F)) → y.ty.Contents (Elt F)) (hxs hy)
    (V : Valuation τ sig (Elt F)) :
    (StableHlo.nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [StableHlo.nary_result]; congr 1; funext k; fin_cases k <;> rfl

/-- The same, in the form a single rewriting pass can use (the result buffer is not used to index the lemma). -/
theorem nary3_result' {x a b y : Ref sig .tc}
    (f : ((k : Fin 3) → ((![x, a, b] : Fin 3 → Ref sig .tc) k).ty.Contents (Elt F)) → y.ty.Contents (Elt F)) (hxs hy)
    (V : Valuation τ sig (Elt F)) :
    (StableHlo.nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  nary3_result f hxs hy V

/-- The same reading in one pass, each shared intermediate visited once: for the two operands that are concatenations
    of three chains. -/
local macro "read_entry_shared" : tactic =>
  `(tactic| (simp (disch := decide) only [StableHlo.after_cons, StableHlo.after_nil,
      StableHlo.unary_result', StableHlo.reshape_result', nary3_result',
      StableHlo.unary_result_ne', StableHlo.reshape_result_ne', StableHlo.nary_result_ne']))

/-- Read a buffer after a line of host operations: each operation's result at its own buffer is its function of its
    operands' contents, at any other buffer what was there. -/
local macro "read_entry" : tactic =>
  `(tactic| (simp only [StableHlo.after_cons, StableHlo.after_nil]
             repeat (first
               | rw [nary3_result] | rw [StableHlo.unary_result] | rw [StableHlo.reshape_result]
               | (rw [StableHlo.unary_result_ne]; rotate_left; decide)
               | (rw [StableHlo.reshape_result_ne]; rotate_left; decide)
               | (rw [StableHlo.nary_result_ne]; rotate_left; decide))))

/-- Window 3: the observation layer's matrix, as the region finds it. -/
theorem entry_main_v25 (c : Dev nD) :
    (entryAt m c main_v25 : S16x64x256.Idx → Elt F .bf16) = Weights.wObsT (m ((c.tc : Thread nD τ).loc main_arg2)) := by
  show StableHlo.after hostOps0 (fun b => m (c, b)) (Proc.devRef .tc main_v25) = _
  read_entry
  rfl

/-- Window 4: the observation layer's bias, as the region finds it. -/
theorem entry_main_v2 (c : Dev nD) :
    (entryAt m c main_v2 : S16x256.Idx → Elt F .f32) = Weights.bObs (m ((c.tc : Thread nD τ).loc main_arg2)) := by
  show StableHlo.after hostOps0 (fun b => m (c, b)) (Proc.devRef .tc main_v2) = _
  read_entry
  rfl

/-- Window 5: the action layer's matrix, as the region finds it. -/
theorem entry_main_v27 (c : Dev nD) :
    (entryAt m c main_v27 : S16x32x256.Idx → Elt F .bf16) = Weights.wActT (m ((c.tc : Thread nD τ).loc main_arg2)) := by
  show StableHlo.after hostOps0 (fun b => m (c, b)) (Proc.devRef .tc main_v27) = _
  read_entry
  rfl

/-- Window 6: the action layer's bias, as the region finds it. -/
theorem entry_main_v5 (c : Dev nD) :
    (entryAt m c main_v5 : S16x256.Idx → Elt F .f32) = Weights.bAct (m ((c.tc : Thread nD τ).loc main_arg2)) := by
  show StableHlo.after hostOps0 (fun b => m (c, b)) (Proc.devRef .tc main_v5) = _
  read_entry
  rfl

/-- Window 7: the first hidden matrix, as the region finds it. -/
theorem entry_main_v29 (c : Dev nD) :
    (entryAt m c main_v29 : S16x512x512.Idx → Elt F .bf16) = Weights.wH0T (m ((c.tc : Thread nD τ).loc main_arg2)) := by
  show StableHlo.after hostOps0 (fun b => m (c, b)) (Proc.devRef .tc main_v29) = _
  read_entry
  rfl

/-- Window 8: the first hidden bias, as the region finds it. -/
theorem entry_main_v8 (c : Dev nD) :
    (entryAt m c main_v8 : S16x512.Idx → Elt F .f32) = Weights.bH0 (m ((c.tc : Thread nD τ).loc main_arg2)) := by
  show StableHlo.after hostOps0 (fun b => m (c, b)) (Proc.devRef .tc main_v8) = _
  read_entry
  rfl

/-- Window 9: the second hidden matrix, as the region finds it. -/
theorem entry_main_v31 (c : Dev nD) :
    (entryAt m c main_v31 : S16x512x512.Idx → Elt F .bf16) = Weights.wH1T (m ((c.tc : Thread nD τ).loc main_arg2)) := by
  show StableHlo.after hostOps0 (fun b => m (c, b)) (Proc.devRef .tc main_v31) = _
  read_entry
  rfl

/-- Window 10: the second hidden bias, as the region finds it. -/
theorem entry_main_v11 (c : Dev nD) :
    (entryAt m c main_v11 : S16x512.Idx → Elt F .f32) = Weights.bH1 (m ((c.tc : Thread nD τ).loc main_arg2)) := by
  show StableHlo.after hostOps0 (fun b => m (c, b)) (Proc.devRef .tc main_v11) = _
  read_entry
  rfl

/-- Window 11: the third hidden matrix, as the region finds it. -/
theorem entry_main_v33 (c : Dev nD) :
    (entryAt m c main_v33 : S16x512x512.Idx → Elt F .bf16) = Weights.wH2T (m ((c.tc : Thread nD τ).loc main_arg2)) := by
  show StableHlo.after hostOps0 (fun b => m (c, b)) (Proc.devRef .tc main_v33) = _
  read_entry
  rfl

/-- Window 12: the third hidden bias, as the region finds it. -/
theorem entry_main_v14 (c : Dev nD) :
    (entryAt m c main_v14 : S16x512.Idx → Elt F .f32) = Weights.bH2 (m ((c.tc : Thread nD τ).loc main_arg2)) := by
  show StableHlo.after hostOps0 (fun b => m (c, b)) (Proc.devRef .tc main_v14) = _
  read_entry
  rfl

/-- Window 13: the fused head's matrix, as the region finds it. -/
theorem entry_main_v38 (c : Dev nD) :
    (entryAt m c main_v38 : S16x512x66.Idx → Elt F .bf16) = Weights.wHeadT (m ((c.tc : Thread nD τ).loc main_arg2)) := by
  show StableHlo.after hostOps0 (fun b => m (c, b)) (Proc.devRef .tc main_v38) = _
  read_entry_shared
  rfl

/-- Window 14: the fused head's bias, as the region finds it. -/
theorem entry_main_v39 (c : Dev nD) :
    (entryAt m c main_v39 : S16x66.Idx → Elt F .f32) = Weights.bHead (m ((c.tc : Thread nD τ).loc main_arg2)) := by
  show StableHlo.after hostOps0 (fun b => m (c, b)) (Proc.devRef .tc main_v39) = _
  read_entry_shared
  rfl

end Cert.KernelIdeal.Frame

end
-- ==== Proof.KIdealTail.lean ====
/- From the output block at each grid point to the three results of @main.

   The pallas_call's output is an array f32[16, 4096, 66] (member, batch row, column), written back at the eight grid
   points in blocks [16, 512, 66] at block index (0, t, 0): the eight blocks tile the array along the batch axis, the
   block covering batch row b being b / 512. So if what the body leaves at every point t is block t of ONE array G,
   the array ends holding G. The nine host operations after the region then cut G into columns 0–63 (the next
   state), column 64 (the reward) and column 65 (the done logit's logistic), move the batch axis in front of the
   member axis, and divide the next state by the scaling vector broadcast along batch and member. -/
import proofs.«150989_j51316269252874_2_alg».proof.Proof.KIdealFrame
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three results as functions of the output array -/

/-- Columns 0–63 of the output array, batch-major, divided by the scaling vector. -/
def tailNext (G : FVec F S16x4096x66 .f32) (s : FVec F S64 .f32) : FVec F S4096x16x64 .f32 :=
  Host.divf (transpose S4096x16x64 [1, 0, 2] (extractStridedSlice S16x4096x64 ![0, 0, 0] G slices_S16x4096x66_S16x4096x64_0_0_0) transposes_S16x4096x64_S4096x16x64_1_0_2)
    (broadcastInDim S4096x16x64 ![0, 1, 2] bcast_S1x1x64_S4096x16x64_0_1_2 (broadcastInDim S1x1x64 ![2] bcast_S64_S1x1x64_2 s))
/-- Column 64 of the output array, batch-major. -/
def tailReward (G : FVec F S16x4096x66 .f32) : FVec F S4096x16x1 .f32 :=
  transpose S4096x16x1 [1, 0, 2] (extractStridedSlice S16x4096x1 ![0, 0, 64] G slices_S16x4096x66_S16x4096x1_0_0_64) transposes_S16x4096x1_S4096x16x1_1_0_2
/-- Column 65 of the output array, batch-major. -/
def tailDone (G : FVec F S16x4096x66 .f32) : FVec F S4096x16x1 .f32 :=
  transpose S4096x16x1 [1, 0, 2] (extractStridedSlice S16x4096x1 ![0, 0, 65] G slices_S16x4096x66_S16x4096x1_0_0_65) transposes_S16x4096x1_S4096x16x1_1_0_2

/-! ## The eight blocks tile the output array -/

/-- The output window's block index at grid point `t` is (0, t, 0). -/
theorem outIndex : ∀ t : Fin cfg0.N, win0_15.index t (0 : Fin 3) = 0 ∧ win0_15.index t (1 : Fin 3) = t.val ∧ win0_15.index t (2 : Fin 3) = 0 :=
  (by decide +kernel : ∀ t : Fin grid0.N, _)

/-- An index of the output array is in point `t`'s block iff each coordinate is in the block's range on its axis. -/
theorem mem_outBlock (t : Fin cfg0.N) (i : S16x4096x66.Idx) :
    i ∈ ((cfg0.win 15).blk t).view.set ↔ ∀ a : Fin 3, win0_15.index t a * S16x512x66.size a ≤ (i a).val ∧ (i a).val < win0_15.index t a * S16x512x66.size a + S16x512x66.size a := by
  show i ∈ ((View.whole main_v40).slice (win0_15.rect t)).set ↔ _
  rw [View.set_slice_whole, Rect.mem_set_unit]
  exact Iff.rfl

/-- Every index of the output array is in the block of the point its batch row falls in, and every point writes back. -/
theorem outBlocks_cover (i : S16x4096x66.Idx) :
    ∃ t : Fin cfg0.N, (cfg0.win 15).flush t = true ∧ i ∈ ((cfg0.win 15).blk t).view.set := by
  have hN : cfg0.N = 8 := N_0
  have h0 : (i 0).val < 16 := (i 0).isLt
  have h1 : (i 1).val < 4096 := (i 1).isLt
  have h2 : (i 2).val < 66 := (i 2).isLt
  obtain ⟨t, ht⟩ : ∃ t : Fin cfg0.N, t.val = (i 1).val / 512 := ⟨⟨(i 1).val / 512, by omega⟩, rfl⟩
  obtain ⟨e0, e1, e2⟩ := outIndex t
  refine ⟨t, flush0_15 t, ?_⟩
  rw [mem_outBlock]
  intro a
  match a with
  | ⟨0, _⟩ => show win0_15.index t (0 : Fin 3) * 16 ≤ (i 0).val ∧ (i 0).val < win0_15.index t (0 : Fin 3) * 16 + 16; omega
  | ⟨1, _⟩ => show win0_15.index t (1 : Fin 3) * 512 ≤ (i 1).val ∧ (i 1).val < win0_15.index t (1 : Fin 3) * 512 + 512; omega
  | ⟨2, _⟩ => show win0_15.index t (2 : Fin 3) * 66 ≤ (i 2).val ∧ (i 2).val < win0_15.index t (2 : Fin 3) * 66 + 66; omega

section Named

variable (G : Dev nD → FVec F S16x4096x66 .f32)
  (hG : ∀ (c : Dev nD) (t : Fin cfg0.N), outAfter m c t = ((cfg0.win 15).blk t).view.read (Elt F) (G c))
include hG

/-- What grid point `t` writes back is block `t` of `G`. -/
theorem outFlushed (c : Dev nD) (t : Fin cfg0.N) :
    (pdata m 0 c).flushed 15 t = ((cfg0.win 15).blk t).view.read (Elt F) (G c) := by
  show (cfg0.win 15).cut (grid0.coords t) ((pdata m 0 c).after 15 t) = _
  rw [pdata_after_out, hG]

/-- So the output array ends holding `G`. -/
theorem outFinal (c : Dev nD) : (pdata m 0 c).arrAt 15 cfg0.N = G c :=
  (pdata m 0 c).arrAt_eq_of_cover 15 (G c) (fun t _ => outFlushed m G hG c t) outBlocks_cover

/-- What the nine later operations see at the output array: `G`. -/
theorem seen_out (c : Dev nD) :
    Pipeline.withArrays spec0 c (entry m c) (fun w => (pdata m 0 c).arrAt w cfg0.N) (Proc.devRef .tc main_v40) = G c :=
  (Pipeline.withArrays_arr spec0 launch0.win.arr_inj c _ _ 15).trans (outFinal m G hG c)

omit hG in
/-- And at the scaling vector (window 2's array, only read by the region): as launched. -/
theorem seen_scale (c : Dev nD) :
    Pipeline.withArrays spec0 c (entry m c) (fun w => (pdata m 0 c).arrAt w cfg0.N) (Proc.devRef .tc main_arg3) = m ((c.tc : Thread nD τ).loc main_arg3) :=
  (Pipeline.withArrays_arr spec0 launch0.win.arr_inj c _ _ 2).trans
    (((pdata m 0 c).arrAt_in 2 rfl _).trans ((pdata_A m c 2).trans (entryAt_main_arg3 m c)))

/-- The first result: the next state. -/
theorem tailAt_next (c : Dev nD) :
    Pipeline.afterTail₀ cfgs (pdata m) 0 (entry m) [hostOps1] c main_v47 = tailNext (G c) (m ((c.tc : Thread nD τ).loc main_arg3)) := by
  unfold Pipeline.afterTail₀
  show StableHlo.after hostOps1 (Pipeline.withArrays spec0 c (entry m c) (fun w => (pdata m 0 c).arrAt w cfg0.N)) (Proc.devRef .tc main_v47) = _
  after_results
  rw [seen_out m G hG c, seen_scale m c]
  rfl

/-- The second result: the reward. -/
theorem tailAt_reward (c : Dev nD) :
    Pipeline.afterTail₀ cfgs (pdata m) 0 (entry m) [hostOps1] c main_v48 = tailReward (G c) := by
  unfold Pipeline.afterTail₀
  show StableHlo.after hostOps1 (Pipeline.withArrays spec0 c (entry m c) (fun w => (pdata m 0 c).arrAt w cfg0.N)) (Proc.devRef .tc main_v48) = _
  after_results
  rw [seen_out m G hG c]
  rfl

/-- The third result: the done probability. -/
theorem tailAt_done (c : Dev nD) :
    Pipeline.afterTail₀ cfgs (pdata m) 0 (entry m) [hostOps1] c main_v49 = tailDone (G c) := by
  unfold Pipeline.afterTail₀
  show StableHlo.after hostOps1 (Pipeline.withArrays spec0 c (entry m c) (fun w => (pdata m 0 c).arrAt w cfg0.N)) (Proc.devRef .tc main_v49) = _
  after_results
  rw [seen_out m G hG c]
  rfl

/-- The kernel program's run, read: the three results at the tail's functions of `G` and the scaling vector, the four
    argument arrays as launched. -/
theorem run_named :
    θ_run defs (onTc (τ := τ) (main (F := F))) ⟨m, fun _ => 0, ρ⟩ (fun r => ∀ c : Dev nD,
      r.2.mem ((c.tc : Thread nD τ).loc main_v47) = tailNext (G c) (m ((c.tc : Thread nD τ).loc main_arg3))
      ∧ r.2.mem ((c.tc : Thread nD τ).loc main_v48) = tailReward (G c)
      ∧ r.2.mem ((c.tc : Thread nD τ).loc main_v49) = tailDone (G c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v47 (Pipeline.mem_restRefs_of main_v47 (by decide) (by decide))).trans (tailAt_next m G hG c),
     ((h c).2 main_v48 (Pipeline.mem_restRefs_of main_v48 (by decide) (by decide))).trans (tailAt_reward m G hG c),
     ((h c).2 main_v49 (Pipeline.mem_restRefs_of main_v49 (by decide) (by decide))).trans (tailAt_done m G hG c),
     ((h c).1 0).trans (((pdata m 0 c).arrAt_in 0 rfl _).trans ((pdata_A m c 0).trans (entryAt_main_arg0 m c))),
     ((h c).1 1).trans (((pdata m 0 c).arrAt_in 1 rfl _).trans ((pdata_A m c 1).trans (entryAt_main_arg1 m c))),
     ((h c).2 main_arg2 (Pipeline.mem_restRefs_of main_arg2 (by decide) (by decide))).trans (tailAt_main_arg2 m (pdata m) c),
     ((h c).1 2).trans (((pdata m 0 c).arrAt_in 2 rfl _).trans ((pdata_A m c 2).trans (entryAt_main_arg3 m c)))⟩)
    (run_main m ρ)

end Named

end Cert.KernelIdeal.Frame

end
-- ==== Proof.KBlockRead.lean ====
/-
  What each input window's block holds at a grid point. The batch arrays (observations, actions) are cut into
  eight blocks of 512 rows: the block at point t holds rows t·512 … t·512 + 511. Every other input window is
  its whole array at every point.
-/
import proofs.«150989_j51316269252874_2_alg».proof.Proof.KIdealKit
import Idealize.ShloMosaic.Lib.ValueLayout

set_option maxRecDepth 16384

noncomputable section

namespace Cert.KernelIdeal.Frame

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ)

/-- The batch windows' block index at point t is (t, 0). -/
theorem batch_index : ∀ t : Fin cfg0.N,
    win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- A grid point is below 8. -/
theorem point_lt (t : Fin cfg0.N) : t.val < 8 := by
  have h : t.val < grid0.N := t.isLt
  rw [N_0] at h; exact h

/-- The observation window's block at point t holds rows t·512 … t·512 + 511 of the observations. -/
theorem blockAt_0 (c : Dev nD) (t : Fin cfg0.N) (r : Fin 512) (o : Fin 64) :
    blockAt m c 0 t (ix2 r o)
      = (entryAt m c main_arg0 : S4096x64.Idx → Elt F .f32)
          (ix2 (⟨t.val * 512 + r.val, by have := point_lt t; have := r.isLt; omega⟩ : Fin 4096) o) := by
  obtain ⟨e0, e1, -, -⟩ := batch_index t
  unfold blockAt
  show (entryAt m c main_arg0 : S4096x64.Idx → Elt F .f32) (((cfg0.win 0).blk t).view.emb (ix2 r o)) = _
  refine congrArg (entryAt m c main_arg0 : S4096x64.Idx → Elt F .f32) ?_
  funext a; apply Fin.ext
  match a with
  | ⟨0, _⟩ => show win0_0.index t (0 : Fin 2) * 512 + 1 * r.val = t.val * 512 + r.val; omega
  | ⟨1, _⟩ => show win0_0.index t (1 : Fin 2) * 64 + 1 * o.val = o.val; omega

/-- The action window's block at point t holds rows t·512 … t·512 + 511 of the actions. -/
theorem blockAt_1 (c : Dev nD) (t : Fin cfg0.N) (r : Fin 512) (q : Fin 32) :
    blockAt m c 1 t (ix2 r q)
      = (entryAt m c main_arg1 : S4096x32.Idx → Elt F .f32)
          (ix2 (⟨t.val * 512 + r.val, by have := point_lt t; have := r.isLt; omega⟩ : Fin 4096) q) := by
  obtain ⟨-, -, e0, e1⟩ := batch_index t
  unfold blockAt
  show (entryAt m c main_arg1 : S4096x32.Idx → Elt F .f32) (((cfg0.win 1).blk t).view.emb (ix2 r q)) = _
  refine congrArg (entryAt m c main_arg1 : S4096x32.Idx → Elt F .f32) ?_
  funext a; apply Fin.ext
  match a with
  | ⟨0, _⟩ => show win0_1.index t (0 : Fin 2) * 512 + 1 * r.val = t.val * 512 + r.val; omega
  | ⟨1, _⟩ => show win0_1.index t (1 : Fin 2) * 32 + 1 * q.val = q.val; omega

/-- Every other input window's block index is 0 on every axis, at every point. -/
theorem whole_index : ∀ t : Fin cfg0.N,
    win0_2.index t (0 : Fin 1) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0
    ∧ win0_6.index t (0 : Fin 2) = 0 ∧ win0_6.index t (1 : Fin 2) = 0
    ∧ win0_7.index t (0 : Fin 3) = 0 ∧ win0_7.index t (1 : Fin 3) = 0 ∧ win0_7.index t (2 : Fin 3) = 0
    ∧ win0_8.index t (0 : Fin 2) = 0 ∧ win0_8.index t (1 : Fin 2) = 0
    ∧ win0_9.index t (0 : Fin 3) = 0 ∧ win0_9.index t (1 : Fin 3) = 0 ∧ win0_9.index t (2 : Fin 3) = 0
    ∧ win0_10.index t (0 : Fin 2) = 0 ∧ win0_10.index t (1 : Fin 2) = 0
    ∧ win0_11.index t (0 : Fin 3) = 0 ∧ win0_11.index t (1 : Fin 3) = 0 ∧ win0_11.index t (2 : Fin 3) = 0
    ∧ win0_12.index t (0 : Fin 2) = 0 ∧ win0_12.index t (1 : Fin 2) = 0
    ∧ win0_13.index t (0 : Fin 3) = 0 ∧ win0_13.index t (1 : Fin 3) = 0 ∧ win0_13.index t (2 : Fin 3) = 0
    ∧ win0_14.index t (0 : Fin 2) = 0 ∧ win0_14.index t (1 : Fin 2) = 0 :=
  (by decide +kernel : ∀ t : Fin grid0.N, _)

/-- Window 2 is the scalings, whole at every point. -/
theorem blockAt_2 (c : Dev nD) (t : Fin cfg0.N) : blockAt m c 2 t = (entryAt m c main_arg3 : S64.Idx → Elt F .f32) := by
  obtain ⟨h0, -, -, -, -, -, -, -, -, -, -, -, -, -, -, -, -, -, -, -, -, -, -, -, -, -, -, -, -, -, -⟩ := whole_index t
  funext j
  unfold blockAt
  show (entryAt m c main_arg3 : S64.Idx → Elt F .f32) (((cfg0.win 2).blk t).view.emb j) = _
  refine congrArg (entryAt m c main_arg3 : S64.Idx → Elt F .f32) ?_
  funext a; apply Fin.ext
  match a with
  | ⟨0, _⟩ => show win0_2.index t (0 : Fin 1) * 64 + 1 * (j 0).val = (j 0).val; omega

/-- Window 3 is the observation matrix, transposed and rounded, whole at every point. -/
theorem blockAt_3 (c : Dev nD) (t : Fin cfg0.N) : blockAt m c 3 t = (entryAt m c main_v25 : S16x64x256.Idx → Elt F .bf16) := by
  obtain ⟨-, h0, h1, h2, -, -, -, -, -, -, -, -, -, -, -, -, -, -, -, -, -, -, -, -, -, -, -, -, -, -, -⟩ := whole_index t
  funext j
  unfold blockAt
  show (entryAt m c main_v25 : S16x64x256.Idx → Elt F .bf16) (((cfg0.win 3).blk t).view.emb j) = _
  refine congrArg (entryAt m c main_v25 : S16x64x256.Idx → Elt F .bf16) ?_
  funext a; apply Fin.ext
  match a with
  | ⟨0, _⟩ => show win0_3.index t (0 : Fin 3) * 16 + 1 * (j 0).val = (j 0).val; omega
  | ⟨1, _⟩ => show win0_3.index t (1 : Fin 3) * 64 + 1 * (j 1).val = (j 1).val; omega
  | ⟨2, _⟩ => show win0_3.index t (2 : Fin 3) * 256 + 1 * (j 2).val = (j 2).val; omega

/-- Window 4 is the observation bias, whole at every point. -/
theorem blockAt_4 (c : Dev nD) (t : Fin cfg0.N) : blockAt m c 4 t = (entryAt m c main_v2 : S16x256.Idx → Elt F .f32) := by
  obtain ⟨-, -, -, -, h0, h1, -, -, -, -, -, -, -, -, -, -, -, -, -, -, -, -, -, -, -, -, -, -, -, -, -⟩ := whole_index t
  funext j
  unfold blockAt
  show (entryAt m c main_v2 : S16x256.Idx → Elt F .f32) (((cfg0.win 4).blk t).view.emb j) = _
  refine congrArg (entryAt m c main_v2 : S16x256.Idx → Elt F .f32) ?_
  funext a; apply Fin.ext
  match a with
  | ⟨0, _⟩ => show win0_4.index t (0 : Fin 2) * 16 + 1 * (j 0).val = (j 0).val; omega
  | ⟨1, _⟩ => show win0_4.index t (1 : Fin 2) * 256 + 1 * (j 1).val = (j 1).val; omega

/-- Window 5 is the action matrix, transposed and rounded, whole at every point. -/
theorem blockAt_5 (c : Dev nD) (t : Fin cfg0.N) : blockAt m c 5 t = (entryAt m c main_v27 : S16x32x256.Idx → Elt F .bf16) := by
  obtain ⟨-, -, -, -, -, -, h0, h1, h2, -, -, -, -, -, -, -, -, -, -, -, -, -, -, -, -, -, -, -, -, -, -⟩ := whole_index t
  funext j
  unfold blockAt
  show (entryAt m c main_v27 : S16x32x256.Idx → Elt F .bf16) (((cfg0.win 5).blk t).view.emb j) = _
  refine congrArg (entryAt m c main_v27 : S16x32x256.Idx → Elt F .bf16) ?_
  funext a; apply Fin.ext
  match a with
  | ⟨0, _⟩ => show win0_5.index t (0 : Fin 3) * 16 + 1 * (j 0).val = (j 0).val; omega
  | ⟨1, _⟩ => show win0_5.index t (1 : Fin 3) * 32 + 1 * (j 1).val = (j 1).val; omega
  | ⟨2, _⟩ => show win0_5.index t (2 : Fin 3) * 256 + 1 * (j 2).val = (j 2).val; omega

/-- Window 6 is the action bias, whole at every point. -/
theorem blockAt_6 (c : Dev nD) (t : Fin cfg0.N) : blockAt m c 6 t = (entryAt m c main_v5 : S16x256.Idx → Elt F .f32) := by
  obtain ⟨-, -, -, -, -, -, -, -, -, h0, h1, -, -, -, -, -, -, -, -, -, -, -, -, -, -, -, -, -, -, -, -⟩ := whole_index t
  funext j
  unfold blockAt
  show (entryAt m c main_v5 : S16x256.Idx → Elt F .f32) (((cfg0.win 6).blk t).view.emb j) = _
  refine congrArg (entryAt m c main_v5 : S16x256.Idx → Elt F .f32) ?_
  funext a; apply Fin.ext
  match a with
  | ⟨0, _⟩ => show win0_6.index t (0 : Fin 2) * 16 + 1 * (j 0).val = (j 0).val; omega
  | ⟨1, _⟩ => show win0_6.index t (1 : Fin 2) * 256 + 1 * (j 1).val = (j 1).val; omega

/-- Window 7 is the first hidden matrix, whole at every point. -/
theorem blockAt_7 (c : Dev nD) (t : Fin cfg0.N) : blockAt m c 7 t = (entryAt m c main_v29 : S16x512x512.Idx → Elt F .bf16) := by
  obtain ⟨-, -, -, -, -, -, -, -, -, -, -, h0, h1, h2, -, -, -, -, -, -, -, -, -, -, -, -, -, -, -, -, -⟩ := whole_index t
  funext j
  unfold blockAt
  show (entryAt m c main_v29 : S16x512x512.Idx → Elt F .bf16) (((cfg0.win 7).blk t).view.emb j) = _
  refine congrArg (entryAt m c main_v29 : S16x512x512.Idx → Elt F .bf16) ?_
  funext a; apply Fin.ext
  match a with
  | ⟨0, _⟩ => show win0_7.index t (0 : Fin 3) * 16 + 1 * (j 0).val = (j 0).val; omega
  | ⟨1, _⟩ => show win0_7.index t (1 : Fin 3) * 512 + 1 * (j 1).val = (j 1).val; omega
  | ⟨2, _⟩ => show win0_7.index t (2 : Fin 3) * 512 + 1 * (j 2).val = (j 2).val; omega

/-- Window 8 is the first hidden bias, whole at every point. -/
theorem blockAt_8 (c : Dev nD) (t : Fin cfg0.N) : blockAt m c 8 t = (entryAt m c main_v8 : S16x512.Idx → Elt F .f32) := by
  obtain ⟨-, -, -, -, -, -, -, -, -, -, -, -, -, -, h0, h1, -, -, -, -, -, -, -, -, -, -, -, -, -, -, -⟩ := whole_index t
  funext j
  unfold blockAt
  show (entryAt m c main_v8 : S16x512.Idx → Elt F .f32) (((cfg0.win 8).blk t).view.emb j) = _
  refine congrArg (entryAt m c main_v8 : S16x512.Idx → Elt F .f32) ?_
  funext a; apply Fin.ext
  match a with
  | ⟨0, _⟩ => show win0_8.index t (0 : Fin 2) * 16 + 1 * (j 0).val = (j 0).val; omega
  | ⟨1, _⟩ => show win0_8.index t (1 : Fin 2) * 512 + 1 * (j 1).val = (j 1).val; omega

/-- Window 9 is the second hidden matrix, whole at every point. -/
theorem blockAt_9 (c : Dev nD) (t : Fin cfg0.N) : blockAt m c 9 t = (entryAt m c main_v31 : S16x512x512.Idx → Elt F .bf16) := by
  obtain ⟨-, -, -, -, -, -, -, -, -, -, -, -, -, -, -, -, h0, h1, h2, -, -, -, -, -, -, -, -, -, -, -, -⟩ := whole_index t
  funext j
  unfold blockAt
  show (entryAt m c main_v31 : S16x512x512.Idx → Elt F .bf16) (((cfg0.win 9).blk t).view.emb j) = _
  refine congrArg (entryAt m c main_v31 : S16x512x512.Idx → Elt F .bf16) ?_
  funext a; apply Fin.ext
  match a with
  | ⟨0, _⟩ => show win0_9.index t (0 : Fin 3) * 16 + 1 * (j 0).val = (j 0).val; omega
  | ⟨1, _⟩ => show win0_9.index t (1 : Fin 3) * 512 + 1 * (j 1).val = (j 1).val; omega
  | ⟨2, _⟩ => show win0_9.index t (2 : Fin 3) * 512 + 1 * (j 2).val = (j 2).val; omega

/-- Window 10 is the second hidden bias, whole at every point. -/
theorem blockAt_10 (c : Dev nD) (t : Fin cfg0.N) : blockAt m c 10 t = (entryAt m c main_v11 : S16x512.Idx → Elt F .f32) := by
  obtain ⟨-, -, -, -, -, -, -, -, -, -, -, -, -, -, -, -, -, -, -, h0, h1, -, -, -, -, -, -, -, -, -, -⟩ := whole_index t
  funext j
  unfold blockAt
  show (entryAt m c main_v11 : S16x512.Idx → Elt F .f32) (((cfg0.win 10).blk t).view.emb j) = _
  refine congrArg (entryAt m c main_v11 : S16x512.Idx → Elt F .f32) ?_
  funext a; apply Fin.ext
  match a with
  | ⟨0, _⟩ => show win0_10.index t (0 : Fin 2) * 16 + 1 * (j 0).val = (j 0).val; omega
  | ⟨1, _⟩ => show win0_10.index t (1 : Fin 2) * 512 + 1 * (j 1).val = (j 1).val; omega

/-- Window 11 is the third hidden matrix, whole at every point. -/
theorem blockAt_11 (c : Dev nD) (t : Fin cfg0.N) : blockAt m c 11 t = (entryAt m c main_v33 : S16x512x512.Idx → Elt F .bf16) := by
  obtain ⟨-, -, -, -, -, -, -, -, -, -, -, -, -, -, -, -, -, -, -, -, -, h0, h1, h2, -, -, -, -, -, -, -⟩ := whole_index t
  funext j
  unfold blockAt
  show (entryAt m c main_v33 : S16x512x512.Idx → Elt F .bf16) (((cfg0.win 11).blk t).view.emb j) = _
  refine congrArg (entryAt m c main_v33 : S16x512x512.Idx → Elt F .bf16) ?_
  funext a; apply Fin.ext
  match a with
  | ⟨0, _⟩ => show win0_11.index t (0 : Fin 3) * 16 + 1 * (j 0).val = (j 0).val; omega
  | ⟨1, _⟩ => show win0_11.index t (1 : Fin 3) * 512 + 1 * (j 1).val = (j 1).val; omega
  | ⟨2, _⟩ => show win0_11.index t (2 : Fin 3) * 512 + 1 * (j 2).val = (j 2).val; omega

/-- Window 12 is the third hidden bias, whole at every point. -/
theorem blockAt_12 (c : Dev nD) (t : Fin cfg0.N) : blockAt m c 12 t = (entryAt m c main_v14 : S16x512.Idx → Elt F .f32) := by
  obtain ⟨-, -, -, -, -, -, -, -, -, -, -, -, -, -, -, -, -, -, -, -, -, -, -, -, h0, h1, -, -, -, -, -⟩ := whole_index t
  funext j
  unfold blockAt
  show (entryAt m c main_v14 : S16x512.Idx → Elt F .f32) (((cfg0.win 12).blk t).view.emb j) = _
  refine congrArg (entryAt m c main_v14 : S16x512.Idx → Elt F .f32) ?_
  funext a; apply Fin.ext
  match a with
  | ⟨0, _⟩ => show win0_12.index t (0 : Fin 2) * 16 + 1 * (j 0).val = (j 0).val; omega
  | ⟨1, _⟩ => show win0_12.index t (1 : Fin 2) * 512 + 1 * (j 1).val = (j 1).val; omega

/-- Window 13 is the fused head matrix, whole at every point. -/
theorem blockAt_13 (c : Dev nD) (t : Fin cfg0.N) : blockAt m c 13 t = (entryAt m c main_v38 : S16x512x66.Idx → Elt F .bf16) := by
  obtain ⟨-, -, -, -, -, -, -, -, -, -, -, -, -, -, -, -, -, -, -, -, -, -, -, -, -, -, h0, h1, h2, -, -⟩ := whole_index t
  funext j
  unfold blockAt
  show (entryAt m c main_v38 : S16x512x66.Idx → Elt F .bf16) (((cfg0.win 13).blk t).view.emb j) = _
  refine congrArg (entryAt m c main_v38 : S16x512x66.Idx → Elt F .bf16) ?_
  funext a; apply Fin.ext
  match a with
  | ⟨0, _⟩ => show win0_13.index t (0 : Fin 3) * 16 + 1 * (j 0).val = (j 0).val; omega
  | ⟨1, _⟩ => show win0_13.index t (1 : Fin 3) * 512 + 1 * (j 1).val = (j 1).val; omega
  | ⟨2, _⟩ => show win0_13.index t (2 : Fin 3) * 66 + 1 * (j 2).val = (j 2).val; omega

/-- Window 14 is the fused head bias, whole at every point. -/
theorem blockAt_14 (c : Dev nD) (t : Fin cfg0.N) : blockAt m c 14 t = (entryAt m c main_v39 : S16x66.Idx → Elt F .f32) := by
  obtain ⟨-, -, -, -, -, -, -, -, -, -, -, -, -, -, -, -, -, -, -, -, -, -, -, -, -, -, -, -, -, h0, h1⟩ := whole_index t
  funext j
  unfold blockAt
  show (entryAt m c main_v39 : S16x66.Idx → Elt F .f32) (((cfg0.win 14).blk t).view.emb j) = _
  refine congrArg (entryAt m c main_v39 : S16x66.Idx → Elt F .f32) ?_
  funext a; apply Fin.ext
  match a with
  | ⟨0, _⟩ => show win0_14.index t (0 : Fin 2) * 16 + 1 * (j 0).val = (j 0).val; omega
  | ⟨1, _⟩ => show win0_14.index t (1 : Fin 2) * 66 + 1 * (j 1).val = (j 1).val; omega

end Cert.KernelIdeal.Frame

end
-- ==== Proof.KBlockReadOut.lean ====
/-
  The output window's block read of an array [16, 4096, 66]: at point t the block is rows t·512 … t·512 + 511
  of the batch axis, every member and every column, so its entry (p, r, q) is the array's entry (p, t·512 + r, q).
-/
import proofs.«150989_j51316269252874_2_alg».proof.Proof.KIdealTail
import proofs.«150989_j51316269252874_2_alg».proof.Proof.KBlockRead

set_option maxRecDepth 16384

noncomputable section

namespace Cert.KernelIdeal.Frame

open Cert.KernelIdeal Cert.KernelIdeal.Gen
open Idealize.ShloMosaic Idealize.ShloMosaic.TcCoe Idealize.ShloMosaic.ValueIdx

variable {F : FTy → Type} [FloatOps F]

/-- The output block at point t, read of any array, at (p, r, q) is the array at (p, t·512 + r, q). -/
theorem outBlock_read (G : S16x4096x66.Idx → Elt F .f32) (t : Fin cfg0.N) (p : Fin 16) (r : Fin 512) (q : Fin 66) :
    ((cfg0.win 15).blk t).view.read (Elt F) G (ix3 p r q)
      = G (ix3 p (⟨t.val * 512 + r.val, by have := point_lt t; have := r.isLt; omega⟩ : Fin 4096) q) := by
  obtain ⟨e0, e1, e2⟩ := outIndex t
  show G (((cfg0.win 15).blk t).view.emb (ix3 p r q)) = _
  refine congrArg G ?_
  funext a; apply Fin.ext
  match a with
  | ⟨0, _⟩ => show win0_15.index t (0 : Fin 3) * 16 + 1 * p.val = p.val; omega
  | ⟨1, _⟩ => show win0_15.index t (1 : Fin 3) * 512 + 1 * r.val = t.val * 512 + r.val; omega
  | ⟨2, _⟩ => show win0_15.index t (2 : Fin 3) * 66 + 1 * q.val = q.val; omega

end Cert.KernelIdeal.Frame

end
-- ==== Proof.KSlab.lean ====
/-
  A load of one member's slab of a whole per-member array, read at an index. The member loop's trip k reads,
  through a unit-stride rectangle whose first axis starts at k and has extent one, the slab k of each weight and
  bias array; at an index (u, …) of the slab (u the only value of the leading axis) that is the array at (k, …).
  The same rectangle places the trip's stored block: its index (0, h, q) lands at (k, h, q).
-/
import proofs.«150989_j51316269252874_2_alg».proof.Proof.Gen.KernelIdeal
import Idealize.ShloMosaic.Lib.Pipeline.FrameBody
import Idealize.ShloMosaic.Lib.ValueIdx

noncomputable section

namespace Cert.KernelIdeal.Frame

open Cert.KernelIdeal Cert.KernelIdeal.Gen Idealize.ShloMosaic Idealize.ShloMosaic.ValueIdx

variable {Val : EltTy → Type} {e : EltTy}

/-- A trip of the member loop as a member: the loop has at most sixteen trips. -/
abbrev member (k : Fin k0_t1_loop.trips) : Fin 16 := ⟨k.val, Nat.lt_of_lt_of_le k.isLt k0_t1_abs.2.1⟩

/-- Slab k of the observation block of the first layer's weights, [16, 64, 256], at (u, o, j): the array at (k, o, j). -/
theorem ld_off1 (X : S16x64x256.Idx → Val e) (k : Fin k0_t1_loop.trips)
    (inb : ∀ a, k0_off1 k a + S1x64x256.size a ≤ S16x64x256.size a) (u : Fin 1) (o : Fin 64) (j : Fin 256) :
    View.ld X (Rect.unit (s := S16x64x256) (k0_off1 k) S1x64x256.size inb) (ix3 u o j) = X (ix3 (member k) o j) := by
  refine congrArg X (funext fun a => Fin.ext ?_)
  have hu : u.val = 0 := by omega
  match a with
  | ⟨0, h0⟩ => show k0_off1 k ⟨0, h0⟩ + 1 * u.val = k.val; rw [k0_off1_eq k, hu]; rfl
  | ⟨1, h1⟩ => show k0_off1 k ⟨1, h1⟩ + 1 * o.val = o.val; rw [k0_off1_eq k]; show 0 + 1 * o.val = o.val; omega
  | ⟨2, h2⟩ => show k0_off1 k ⟨2, h2⟩ + 1 * j.val = j.val; rw [k0_off1_eq k]; show 0 + 1 * j.val = j.val; omega

/-- Slab k of a first-layer bias, [16, 256], at (u, j): the array at (k, j). -/
theorem ld_off2 (X : S16x256.Idx → Val e) (k : Fin k0_t1_loop.trips)
    (inb : ∀ a, k0_off2 k a + S1x256.size a ≤ S16x256.size a) (u : Fin 1) (j : Fin 256) :
    View.ld X (Rect.unit (s := S16x256) (k0_off2 k) S1x256.size inb) (ix2 u j) = X (ix2 (member k) j) := by
  refine congrArg X (funext fun a => Fin.ext ?_)
  have hu : u.val = 0 := by omega
  match a with
  | ⟨0, h0⟩ => show k0_off2 k ⟨0, h0⟩ + 1 * u.val = k.val; rw [k0_off2_eq k, hu]; rfl
  | ⟨1, h1⟩ => show k0_off2 k ⟨1, h1⟩ + 1 * j.val = j.val; rw [k0_off2_eq k]; show 0 + 1 * j.val = j.val; omega

/-- Slab k of the action block of the first layer's weights, [16, 32, 256], at (u, q, j): the array at (k, q, j). -/
theorem ld_off3 (X : S16x32x256.Idx → Val e) (k : Fin k0_t1_loop.trips)
    (inb : ∀ a, k0_off3 k a + S1x32x256.size a ≤ S16x32x256.size a) (u : Fin 1) (q : Fin 32) (j : Fin 256) :
    View.ld X (Rect.unit (s := S16x32x256) (k0_off3 k) S1x32x256.size inb) (ix3 u q j) = X (ix3 (member k) q j) := by
  refine congrArg X (funext fun a => Fin.ext ?_)
  have hu : u.val = 0 := by omega
  match a with
  | ⟨0, h0⟩ => show k0_off3 k ⟨0, h0⟩ + 1 * u.val = k.val; rw [k0_off3_eq k, hu]; rfl
  | ⟨1, h1⟩ => show k0_off3 k ⟨1, h1⟩ + 1 * q.val = q.val; rw [k0_off3_eq k]; show 0 + 1 * q.val = q.val; omega
  | ⟨2, h2⟩ => show k0_off3 k ⟨2, h2⟩ + 1 * j.val = j.val; rw [k0_off3_eq k]; show 0 + 1 * j.val = j.val; omega

/-- Slab k of a hidden layer's weights, [16, 512, 512], at (u, h, k'): the array at (k, h, k'). -/
theorem ld_off4 (X : S16x512x512.Idx → Val e) (k : Fin k0_t1_loop.trips)
    (inb : ∀ a, k0_off4 k a + S1x512x512.size a ≤ S16x512x512.size a) (u : Fin 1) (h : Fin 512) (k' : Fin 512) :
    View.ld X (Rect.unit (s := S16x512x512) (k0_off4 k) S1x512x512.size inb) (ix3 u h k') = X (ix3 (member k) h k') := by
  refine congrArg X (funext fun a => Fin.ext ?_)
  have hu : u.val = 0 := by omega
  match a with
  | ⟨0, h0⟩ => show k0_off4 k ⟨0, h0⟩ + 1 * u.val = k.val; rw [k0_off4_eq k, hu]; rfl
  | ⟨1, h1⟩ => show k0_off4 k ⟨1, h1⟩ + 1 * h.val = h.val; rw [k0_off4_eq k]; show 0 + 1 * h.val = h.val; omega
  | ⟨2, h2⟩ => show k0_off4 k ⟨2, h2⟩ + 1 * k'.val = k'.val; rw [k0_off4_eq k]; show 0 + 1 * k'.val = k'.val; omega

/-- Slab k of a hidden layer's bias, [16, 512], at (u, k'): the array at (k, k'). -/
theorem ld_off5 (X : S16x512.Idx → Val e) (k : Fin k0_t1_loop.trips)
    (inb : ∀ a, k0_off5 k a + S1x512.size a ≤ S16x512.size a) (u : Fin 1) (k' : Fin 512) :
    View.ld X (Rect.unit (s := S16x512) (k0_off5 k) S1x512.size inb) (ix2 u k') = X (ix2 (member k) k') := by
  refine congrArg X (funext fun a => Fin.ext ?_)
  have hu : u.val = 0 := by omega
  match a with
  | ⟨0, h0⟩ => show k0_off5 k ⟨0, h0⟩ + 1 * u.val = k.val; rw [k0_off5_eq k, hu]; rfl
  | ⟨1, h1⟩ => show k0_off5 k ⟨1, h1⟩ + 1 * k'.val = k'.val; rw [k0_off5_eq k]; show 0 + 1 * k'.val = k'.val; omega

/-- Slab k of the head's weights, or the member's block of the result, [16, 512, 66], at (u, h, q): the array at (k, h, q). -/
theorem ld_off6 (X : S16x512x66.Idx → Val e) (k : Fin k0_t1_loop.trips)
    (inb : ∀ a, k0_off6 k a + S1x512x66.size a ≤ S16x512x66.size a) (u : Fin 1) (h : Fin 512) (q : Fin 66) :
    View.ld X (Rect.unit (s := S16x512x66) (k0_off6 k) S1x512x66.size inb) (ix3 u h q) = X (ix3 (member k) h q) := by
  refine congrArg X (funext fun a => Fin.ext ?_)
  have hu : u.val = 0 := by omega
  match a with
  | ⟨0, h0⟩ => show k0_off6 k ⟨0, h0⟩ + 1 * u.val = k.val; rw [k0_off6_eq k, hu]; rfl
  | ⟨1, h1⟩ => show k0_off6 k ⟨1, h1⟩ + 1 * h.val = h.val; rw [k0_off6_eq k]; show 0 + 1 * h.val = h.val; omega
  | ⟨2, h2⟩ => show k0_off6 k ⟨2, h2⟩ + 1 * q.val = q.val; rw [k0_off6_eq k]; show 0 + 1 * q.val = q.val; omega

/-- Slab k of the head's bias, [16, 66], at (u, q): the array at (k, q). -/
theorem ld_off7 (X : S16x66.Idx → Val e) (k : Fin k0_t1_loop.trips)
    (inb : ∀ a, k0_off7 k a + S1x66.size a ≤ S16x66.size a) (u : Fin 1) (q : Fin 66) :
    View.ld X (Rect.unit (s := S16x66) (k0_off7 k) S1x66.size inb) (ix2 u q) = X (ix2 (member k) q) := by
  refine congrArg X (funext fun a => Fin.ext ?_)
  have hu : u.val = 0 := by omega
  match a with
  | ⟨0, h0⟩ => show k0_off7 k ⟨0, h0⟩ + 1 * u.val = k.val; rw [k0_off7_eq k, hu]; rfl
  | ⟨1, h1⟩ => show k0_off7 k ⟨1, h1⟩ + 1 * q.val = q.val; rw [k0_off7_eq k]; show 0 + 1 * q.val = q.val; omega

/-- The trip's stored block in the result array: the block's index (0, h, q) is the array's (k, h, q). -/
theorem emb_off6 (k : Fin k0_t1_loop.trips) (inb : ∀ a, k0_off6 k a + S1x512x66.size a ≤ S16x512x66.size a) (y : S1x512x66.Idx) :
    (Rect.unit (s := S16x512x66) (k0_off6 k) S1x512x66.size inb).emb y = ix3 (member k) (y 1) (y 2) := by
  funext a
  refine Fin.ext ?_
  have hy : (y 0).val = 0 := by have h : (y 0).val < 1 := (y 0).isLt; omega
  match a with
  | ⟨0, h0⟩ => show k0_off6 k ⟨0, h0⟩ + 1 * (y 0).val = k.val; rw [k0_off6_eq k, hy]; rfl
  | ⟨1, h1⟩ => show k0_off6 k ⟨1, h1⟩ + 1 * (y 1).val = (y 1).val; rw [k0_off6_eq k]; show 0 + 1 * (y 1).val = (y 1).val; omega
  | ⟨2, h2⟩ => show k0_off6 k ⟨2, h2⟩ + 1 * (y 2).val = (y 2).val; rw [k0_off6_eq k]; show 0 + 1 * (y 2).val = (y 2).val; omega

end Cert.KernelIdeal.Frame

end
-- ==== Proof.KValue.lean ====
/-
  What the body leaves in the output tile at a grid point is that tile of the network's combined array: at tile
  t, position (p, r, q) holds entry q of member p's combined row at batch row t·512 + r.  The tile's three direct
  inputs are rows t·512 … t·512 + 511 of the observations and actions and the scalings; the slabs trip p loads are
  member p's rows of the weight arrays, whose entries are positions of the member's flat row.
-/
import proofs.«150989_j51316269252874_2_alg».proof.Proof.KBlock
import proofs.«150989_j51316269252874_2_alg».proof.Proof.KTrip3
import proofs.«150989_j51316269252874_2_alg».proof.Proof.KWeights
import proofs.«150989_j51316269252874_2_alg».proof.Proof.KIdealEntry
import proofs.«150989_j51316269252874_2_alg».proof.Proof.KIdealTail
import proofs.«150989_j51316269252874_2_alg».proof.Proof.KBlockRead
import proofs.«150989_j51316269252874_2_alg».proof.Proof.KBlockReadOut
import proofs.«150989_j51316269252874_2_alg».proof.Proof.KSlab

set_option maxRecDepth 16384

noncomputable section

namespace Cert.KernelIdeal.Frame

open Cert.KernelIdeal Cert.KernelIdeal.Gen
open Idealize.ShloMosaic Idealize.ShloMosaic.TcCoe Idealize.ShloMosaic.ValueIdx Idealize.SL.Sem
open Cert.Spec Cert.KernelIdeal.Trip Cert.KernelIdeal.Weights

variable (m : (ℓ : Loc nD τ sig) → Buf (Elt Ideal) ℓ)

/-- The four argument arrays on core c. -/
abbrev argX (c : Dev nD) : Obs := m ((c.tc : Thread nD τ).loc main_arg0)
abbrev argA (c : Dev nD) : Act := m ((c.tc : Thread nD τ).loc main_arg1)
abbrev argW (c : Dev nD) : Wts := m ((c.tc : Thread nD τ).loc main_arg2)
abbrev argS (c : Dev nD) : Scl := m ((c.tc : Thread nD τ).loc main_arg3)

/-- A whole-tile load reads the tile. -/
theorem ld_whole2 {Val : EltTy → Type} {e : EltTy} {a b : ℕ} (X : (⟨2, ![a, b]⟩ : Shape).Idx → Val e)
    (inb : ∀ i, (![0, 0] : Fin 2 → ℕ) i + (⟨2, ![a, b]⟩ : Shape).size i ≤ (⟨2, ![a, b]⟩ : Shape).size i) :
    View.ld (Val := Val) X (Rect.unit (s := ⟨2, ![a, b]⟩) ![0, 0] (⟨2, ![a, b]⟩ : Shape).size inb) = X :=
  View.ld_unit_zero (funext fun i => by match i with | ⟨0, _⟩ => rfl | ⟨1, _⟩ => rfl) inb X
theorem ld_whole1 {Val : EltTy → Type} {e : EltTy} {a : ℕ} (X : (⟨1, ![a]⟩ : Shape).Idx → Val e)
    (inb : ∀ i, (![0] : Fin 1 → ℕ) i + (⟨1, ![a]⟩ : Shape).size i ≤ (⟨1, ![a]⟩ : Shape).size i) :
    View.ld (Val := Val) X (Rect.unit (s := ⟨1, ![a]⟩) ![0] (⟨1, ![a]⟩ : Shape).size inb) = X :=
  View.ld_unit_zero (funext fun i => by match i with | ⟨0, _⟩ => rfl) inb X

/-- The body's output tile at grid point t, position (p, r, q). -/
theorem outAfter_apply (c : Dev nD) (t : Fin cfg0.N) (p : Fin 16) (r : Fin 512) (q : Fin 66) :
    outAfter (F := Ideal) m c t (ix3 p r q)
      = comb (argX m c) (argA m c) (argW m c) (argS m c) p
          (⟨t.val * 512 + r.val, by have := point_lt t; have := r.isLt; omega⟩ : Fin 4096) q := by
  unfold outAfter
  rw [outLeft_apply]
  unfold tripPay storedOf
  have hk16 : (member (⟨p.val, by rw [trips_eq]; exact p.isLt⟩ : Fin k0_t1_loop.trips)) = p := Fin.ext rfl
  generalize hkk : (⟨p.val, by rw [trips_eq]; exact p.isLt⟩ : Fin k0_t1_loop.trips) = k at hk16 ⊢
  refine stored_spec (argX m c) (argA m c) (argW m c) (argS m c) p
    (⟨t.val * 512 + r.val, by have := point_lt t; have := r.isLt; omega⟩ : Fin 4096)
    (View.readAt (Elt Ideal) (stageAt_0 t).view (Rect.unit (s := S512x64) ![0, 0] S512x64.size inb_S512x64_S512x64_0_0).toLoadRect ((stageWhole_0 t).unread (blockAt m c 0 t))) (View.readAt (Elt Ideal) (stageAt_2 t).view (Rect.unit (s := S64) ![0] S64.size inb_S64_S64_0).toLoadRect ((stageWhole_2 t).unread (blockAt m c 2 t))) (View.readAt (Elt Ideal) (stageAt_1 t).view (Rect.unit (s := S512x32) ![0, 0] S512x32.size inb_S512x32_S512x32_0_0).toLoadRect ((stageWhole_1 t).unread (blockAt m c 1 t))) (View.ld (blockAt m c 3 t) (Rect.unit (s := S16x64x256) (k0_off1 k) S1x64x256.size (k0_off1_inb k))) (View.ld (blockAt m c 4 t) (Rect.unit (s := S16x256) (k0_off2 k) S1x256.size (k0_off2_inb k))) (View.ld (blockAt m c 5 t) (Rect.unit (s := S16x32x256) (k0_off3 k) S1x32x256.size (k0_off3_inb k))) (View.ld (blockAt m c 6 t) (Rect.unit (s := S16x256) (k0_off2 k) S1x256.size (k0_off2_inb k))) (View.ld (blockAt m c 7 t) (Rect.unit (s := S16x512x512) (k0_off4 k) S1x512x512.size (k0_off4_inb k))) (View.ld (blockAt m c 8 t) (Rect.unit (s := S16x512) (k0_off5 k) S1x512.size (k0_off5_inb k))) (View.ld (blockAt m c 9 t) (Rect.unit (s := S16x512x512) (k0_off4 k) S1x512x512.size (k0_off4_inb k))) (View.ld (blockAt m c 10 t) (Rect.unit (s := S16x512) (k0_off5 k) S1x512.size (k0_off5_inb k))) (View.ld (blockAt m c 11 t) (Rect.unit (s := S16x512x512) (k0_off4 k) S1x512x512.size (k0_off4_inb k))) (View.ld (blockAt m c 12 t) (Rect.unit (s := S16x512) (k0_off5 k) S1x512.size (k0_off5_inb k))) (View.ld (blockAt m c 13 t) (Rect.unit (s := S16x512x66) (k0_off6 k) S1x512x66.size (k0_off6_inb k))) (View.ld (blockAt m c 14 t) (Rect.unit (s := S16x66) (k0_off7 k) S1x66.size (k0_off7_inb k))) r
    ?hv0 ?hv1 ?hv6 ?hl4 ?hl5 ?hl6 ?hl7 ?hl8 ?hl9 ?hl10 ?hl11 ?hl12 ?hl13 ?hl14 ?hl15 (0 : Fin 1) q
  case hv0 => intro o; rw [readAt_unread, ld_whole2, blockAt_0, entryAt_main_arg0]
  case hv1 => intro o; rw [readAt_unread, ld_whole1, blockAt_2, entryAt_main_arg3]
  case hv6 => intro o; rw [readAt_unread, ld_whole2, blockAt_1, entryAt_main_arg1]
  case hl4 => intro o j; rw [ld_off1, blockAt_3, entry_main_v25, hk16]; exact wObsT_apply _ p o j
  case hl5 => intro j; rw [ld_off2, blockAt_4, entry_main_v2, hk16]; exact bObs_apply _ p j
  case hl6 => intro o j; rw [ld_off3, blockAt_5, entry_main_v27, hk16]; exact wActT_apply _ p o j
  case hl7 => intro j; rw [ld_off2, blockAt_6, entry_main_v5, hk16]; exact bAct_apply _ p j
  case hl8 => intro h k'; rw [ld_off4, blockAt_7, entry_main_v29, hk16]; exact wH0T_apply _ p h k'
  case hl9 => intro k'; rw [ld_off5, blockAt_8, entry_main_v8, hk16]; exact bH0_apply _ p k'
  case hl10 => intro h k'; rw [ld_off4, blockAt_9, entry_main_v31, hk16]; exact wH1T_apply _ p h k'
  case hl11 => intro k'; rw [ld_off5, blockAt_10, entry_main_v11, hk16]; exact bH1_apply _ p k'
  case hl12 => intro h k'; rw [ld_off4, blockAt_11, entry_main_v33, hk16]; exact wH2T_apply _ p h k'
  case hl13 => intro k'; rw [ld_off5, blockAt_12, entry_main_v14, hk16]; exact bH2_apply _ p k'
  case hl14 => intro h q'; rw [ld_off6, blockAt_13, entry_main_v38, hk16]; exact wHeadT_apply _ p h q'
  case hl15 => intro q'; rw [ld_off7, blockAt_14, entry_main_v39, hk16]; exact bHead_apply _ p q'

/-- At every grid point the output tile is the output window's block of the combined array. -/
theorem outAfter_comb (c : Dev nD) (t : Fin cfg0.N) :
    outAfter (F := Ideal) m c t
      = ((cfg0.win 15).blk t).view.read (Elt Ideal) (combArr (argX m c) (argA m c) (argW m c) (argS m c)) := by
  funext y
  obtain ⟨p, r, q, rfl⟩ : ∃ (p : Fin 16) (r : Fin 512) (q : Fin 66), y = ix3 p r q := ⟨y 0, y 1, y 2, eq_ix3 y⟩
  rw [outAfter_apply, outBlock_read, combArr_apply]

end Cert.KernelIdeal.Frame

end
-- ==== Proof.KTailVal.lean ====
/-
  The kernel's last host lines on the combined array. The kernel leaves, for member p and batch row b, a row
  of 66 numbers: the 64 next-state entries before the final quotient, the reward, the done probability. The
  host cuts the three pieces out, puts the batch axis first, and divides the next-state piece by the scalings:
  next(b, p, o) = comb(p, b, o) / s(o), reward(b, p) = comb(p, b, 64), done(b, p) = comb(p, b, 65).
-/
import proofs.«150989_j51316269252874_2_alg».proof.Proof.Gen.KernelIdeal
import proofs.«150989_j51316269252874_2_alg».proof.Proof.SpecComb
import Idealize.ShloMosaic.Lib.ValueLayout

namespace Cert.KernelIdeal.TailVal

open Idealize.ShloMosaic Idealize.ShloMosaic.ValueIdx Cert.KernelIdeal Cert.Spec
open Cert.KernelIdeal.Facts₀

variable [Facts]

/-- The host's quotient at an entry is the extended reals'. -/
theorem hostDivf_apply {sh : Shape} {φ : FTy} (f g : FVec Ideal sh φ) (i : sh.Idx) :
    Host.divf f g i = Ideal.div (f i) (g i) := rfl

/-- The scalings on every row of every member. -/
theorem scalings_apply (s : Cert.Spec.Scl) (b : Fin 4096) (p : Fin 16) (o : Fin 64) :
    broadcastInDim S4096x16x64 ![0, 1, 2] bcast_S1x1x64_S4096x16x64_0_1_2
      (broadcastInDim S1x1x64 ![2] bcast_S64_S1x1x64_2 s) (ix3 b p o) = s (ix1 o) := by
  refine (broadcastInDim_apply _ _ _ (ix3 b p o) (ix3 (0 : Fin 1) (0 : Fin 1) o)
    (fun c => match c with | ⟨0, _⟩ => rfl | ⟨1, _⟩ => rfl | ⟨2, _⟩ => rfl)).trans ?_
  exact broadcastInDim_apply _ _ s (ix3 (0 : Fin 1) (0 : Fin 1) o) (ix1 o) (fun c => match c with | ⟨0, _⟩ => rfl)

/-- The first 64 columns, batch axis first, divided by the scalings: the next state. -/
theorem tail_next_spec (x : Cert.Spec.Obs) (a : Cert.Spec.Act) (w : Cert.Spec.Wts) (s : Cert.Spec.Scl) :
    Host.divf (F := Ideal) (φ := .f32)
      (transpose S4096x16x64 [1, 0, 2]
        (extractStridedSlice S16x4096x64 ![0, 0, 0] (Cert.Spec.combArr x a w s) slices_S16x4096x66_S16x4096x64_0_0_0)
        transposes_S16x4096x64_S4096x16x64_1_0_2)
      (broadcastInDim S4096x16x64 ![0, 1, 2] bcast_S1x1x64_S4096x16x64_0_1_2
        (broadcastInDim S1x1x64 ![2] bcast_S64_S1x1x64_2 s))
      = Cert.Spec.next x a w s := by
  funext i
  obtain ⟨b, p, o, rfl⟩ : ∃ (b : Fin 4096) (p : Fin 16) (o : Fin 64), i = ix3 b p o := ⟨i 0, i 1, i 2, eq_ix3 i⟩
  have ho := o.isLt
  rw [next_apply, hostDivf_apply, scalings_apply]
  refine congrArg (Ideal.div · (s (ix1 o))) ?_
  refine (transpose_apply _ _ _ (ix3 b p o) (ix3 p b o)
    (fun c => match c with | ⟨0, _⟩ => rfl | ⟨1, _⟩ => rfl | ⟨2, _⟩ => rfl)).trans ?_
  refine (extractStridedSlice_apply _ _ _ (ix3 p b o) (ix3 p b (⟨o.val, by omega⟩ : Fin 66))
    (fun c => match c with
      | ⟨0, _⟩ => by show p.val = 0 + p.val; omega
      | ⟨1, _⟩ => by show b.val = 0 + b.val; omega
      | ⟨2, _⟩ => by show o.val = 0 + o.val; omega)).trans ?_
  rw [combArr_apply, comb_lt x a w s p b _ ho]

/-- Column 64, batch axis first: the reward. -/
theorem tail_reward_spec (x : Cert.Spec.Obs) (a : Cert.Spec.Act) (w : Cert.Spec.Wts) (s : Cert.Spec.Scl) :
    transpose S4096x16x1 [1, 0, 2]
      (extractStridedSlice S16x4096x1 ![0, 0, 64] (Cert.Spec.combArr x a w s) slices_S16x4096x66_S16x4096x1_0_0_64)
      transposes_S16x4096x1_S4096x16x1_1_0_2
      = Cert.Spec.reward x a w s := by
  funext i
  obtain ⟨b, p, u, rfl⟩ : ∃ (b : Fin 4096) (p : Fin 16) (u : Fin 1), i = ix3 b p u := ⟨i 0, i 1, i 2, eq_ix3 i⟩
  have hu := u.isLt
  rw [reward_apply]
  refine (transpose_apply _ _ _ (ix3 b p u) (ix3 p b u)
    (fun c => match c with | ⟨0, _⟩ => rfl | ⟨1, _⟩ => rfl | ⟨2, _⟩ => rfl)).trans ?_
  refine (extractStridedSlice_apply _ _ _ (ix3 p b u) (ix3 p b (⟨64, by omega⟩ : Fin 66))
    (fun c => match c with
      | ⟨0, _⟩ => by show p.val = 0 + p.val; omega
      | ⟨1, _⟩ => by show b.val = 0 + b.val; omega
      | ⟨2, _⟩ => by show 64 = 64 + u.val; omega)).trans ?_
  rw [combArr_apply, comb_64 x a w s p b _ rfl]

/-- Column 65, batch axis first: the done probability. -/
theorem tail_done_spec (x : Cert.Spec.Obs) (a : Cert.Spec.Act) (w : Cert.Spec.Wts) (s : Cert.Spec.Scl) :
    transpose S4096x16x1 [1, 0, 2]
      (extractStridedSlice S16x4096x1 ![0, 0, 65] (Cert.Spec.combArr x a w s) slices_S16x4096x66_S16x4096x1_0_0_65)
      transposes_S16x4096x1_S4096x16x1_1_0_2
      = Cert.Spec.done x a w s := by
  funext i
  obtain ⟨b, p, u, rfl⟩ : ∃ (b : Fin 4096) (p : Fin 16) (u : Fin 1), i = ix3 b p u := ⟨i 0, i 1, i 2, eq_ix3 i⟩
  have hu := u.isLt
  rw [done_apply]
  refine (transpose_apply _ _ _ (ix3 b p u) (ix3 p b u)
    (fun c => match c with | ⟨0, _⟩ => rfl | ⟨1, _⟩ => rfl | ⟨2, _⟩ => rfl)).trans ?_
  refine (extractStridedSlice_apply _ _ _ (ix3 p b u) (ix3 p b (⟨65, by omega⟩ : Fin 66))
    (fun c => match c with
      | ⟨0, _⟩ => by show p.val = 0 + p.val; omega
      | ⟨1, _⟩ => by show b.val = 0 + b.val; omega
      | ⟨2, _⟩ => by show 65 = 65 + u.val; omega)).trans ?_
  rw [combArr_apply, comb_65 x a w s p b _ rfl]

end Cert.KernelIdeal.TailVal
-- ==== Proof.RefOps.lean ====
/-
  The reference program's @main as a list of its host operations, in order, cut into stretches that follow the
  network's layers; each call of the leaky rectifier is written out at its call site over that call's own
  buffers (its body's six operations and the selection its inner call makes). @main is the straight line of
  these operations, so its run is the fold of their results over the launch contents.
-/
import proofs.«150989_j51316269252874_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The fold over a line cut in two, and buffers a line leaves alone -/

/-- The fold over two lines run one after the other is the second's fold over the first's. -/
theorem after_concat {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_concat l₁ l₂]

/-- Every operation of the line writes only references of the list W. -/
abbrev WritesIn {Val : EltTy → Type} (l : List (HloOp τ sig Val)) (W : List (Ref sig .tc)) : Prop :=
  l.Forall fun op => op.writes ⊆ (W.map (Proc.devRef (τ := τ) .tc)).toFinset

/-- An operation whose one written buffer is a reference of the list writes within the list. -/
theorem writes_sub_of_mem {Val : EltTy → Type} {op : HloOp τ sig Val} {y : Ref sig .tc} {W : List (Ref sig .tc)}
    (hw : op.writes = {Proc.devRef .tc y}) (hy : y ∈ W) :
    op.writes ⊆ (W.map (Proc.devRef (τ := τ) .tc)).toFinset := by
  rw [hw, Finset.singleton_subset_iff, List.mem_toFinset]; exact List.mem_map_of_mem hy

/-- Two lines that write within two lists, one after the other, write within the lists' concatenation. -/
theorem writesIn_append {Val : EltTy → Type} {l₁ l₂ : List (HloOp τ sig Val)} {W₁ W₂ : List (Ref sig .tc)}
    (h₁ : WritesIn l₁ W₁) (h₂ : WritesIn l₂ W₂) : WritesIn (l₁ ++ l₂) (W₁ ++ W₂) :=
  List.forall_iff_forall_mem.mpr fun op h => by
    rw [List.map_append, List.toFinset_append]
    rcases List.mem_append.mp h with h | h
    · exact (List.forall_iff_forall_mem.mp h₁ op h).trans Finset.subset_union_left
    · exact (List.forall_iff_forall_mem.mp h₂ op h).trans Finset.subset_union_right

/-- A buffer the second of two lines does not write holds, after both, what the first left there. -/
theorem after_concat_of_not_mem {Val : EltTy → Type} {l₁ l₂ : List (HloOp τ sig Val)} {W₂ : List (Ref sig .tc)} (h₂ : WritesIn l₂ W₂)
    (V : Valuation τ sig Val) {r : Ref sig .tc} (hr : r ∉ W₂) :
    after (l₁ ++ l₂) V (Proc.devRef .tc r) = after l₁ V (Proc.devRef .tc r) := by
  rw [after_concat]; exact after_of_writes_sub l₂ _ h₂ hr

/-- What a buffer held before a line that does not write it, read off what it holds after. -/
theorem before_of_after {Val : EltTy → Type} {l : List (HloOp τ sig Val)} {W : List (Ref sig .tc)} (hW : WritesIn l W)
    (U : Valuation τ sig Val) (r : Ref sig .tc) (hr : r ∉ W) {v : (Proc.devRef (τ := τ) .tc r).ty.Contents Val}
    (h : after l U (Proc.devRef .tc r) = v) : U (Proc.devRef .tc r) = v :=
  (after_of_writes_sub l U hW hr).symm.trans h

/-- The flat weight array cut into the layers' weights and biases: twelve slices of `w` and, for the matrices, their reshapes (values %0 … %23). -/
abbrev opsW : List (HloOp τ sig (Elt F)) :=
  [ StableHlo.unary main_arg2 main_v0 ((extractStridedSlice S16x16384 ![0, 0] · slices_S16x846914_S16x16384_0_0) : (⟨S16x846914, .f32⟩ : BufTy).Contents (Elt F) → (⟨S16x16384, .f32⟩ : BufTy).Contents (Elt F)),
    StableHlo.reshape main_v0 main_v1 rfl shapeCasts_S16x16384_S16x256x64,
    StableHlo.unary main_arg2 main_v2 ((extractStridedSlice S16x256 ![0, 16384] · slices_S16x846914_S16x256_0_16384) : (⟨S16x846914, .f32⟩ : BufTy).Contents (Elt F) → (⟨S16x256, .f32⟩ : BufTy).Contents (Elt F)),
    StableHlo.unary main_arg2 main_v3 ((extractStridedSlice S16x8192 ![0, 16640] · slices_S16x846914_S16x8192_0_16640) : (⟨S16x846914, .f32⟩ : BufTy).Contents (Elt F) → (⟨S16x8192, .f32⟩ : BufTy).Contents (Elt F)),
    StableHlo.reshape main_v3 main_v4 rfl shapeCasts_S16x8192_S16x256x32,
    StableHlo.unary main_arg2 main_v5 ((extractStridedSlice S16x256 ![0, 24832] · slices_S16x846914_S16x256_0_24832) : (⟨S16x846914, .f32⟩ : BufTy).Contents (Elt F) → (⟨S16x256, .f32⟩ : BufTy).Contents (Elt F)),
    StableHlo.unary main_arg2 main_v6 ((extractStridedSlice S16x262144 ![0, 25088] · slices_S16x846914_S16x262144_0_25088) : (⟨S16x846914, .f32⟩ : BufTy).Contents (Elt F) → (⟨S16x262144, .f32⟩ : BufTy).Contents (Elt F)),
    StableHlo.reshape main_v6 main_v7 rfl shapeCasts_S16x262144_S16x512x512,
    StableHlo.unary main_arg2 main_v8 ((extractStridedSlice S16x512 ![0, 287232] · slices_S16x846914_S16x512_0_287232) : (⟨S16x846914, .f32⟩ : BufTy).Contents (Elt F) → (⟨S16x512, .f32⟩ : BufTy).Contents (Elt F)),
    StableHlo.unary main_arg2 main_v9 ((extractStridedSlice S16x262144 ![0, 287744] · slices_S16x846914_S16x262144_0_287744) : (⟨S16x846914, .f32⟩ : BufTy).Contents (Elt F) → (⟨S16x262144, .f32⟩ : BufTy).Contents (Elt F)),
    StableHlo.reshape main_v9 main_v10 rfl shapeCasts_S16x262144_S16x512x512,
    StableHlo.unary main_arg2 main_v11 ((extractStridedSlice S16x512 ![0, 549888] · slices_S16x846914_S16x512_0_549888) : (⟨S16x846914, .f32⟩ : BufTy).Contents (Elt F) → (⟨S16x512, .f32⟩ : BufTy).Contents (Elt F)),
    StableHlo.unary main_arg2 main_v12 ((extractStridedSlice S16x262144 ![0, 550400] · slices_S16x846914_S16x262144_0_550400) : (⟨S16x846914, .f32⟩ : BufTy).Contents (Elt F) → (⟨S16x262144, .f32⟩ : BufTy).Contents (Elt F)),
    StableHlo.reshape main_v12 main_v13 rfl shapeCasts_S16x262144_S16x512x512,
    StableHlo.unary main_arg2 main_v14 ((extractStridedSlice S16x512 ![0, 812544] · slices_S16x846914_S16x512_0_812544) : (⟨S16x846914, .f32⟩ : BufTy).Contents (Elt F) → (⟨S16x512, .f32⟩ : BufTy).Contents (Elt F)),
    StableHlo.unary main_arg2 main_v15 ((extractStridedSlice S16x32768 ![0, 813056] · slices_S16x846914_S16x32768_0_813056) : (⟨S16x846914, .f32⟩ : BufTy).Contents (Elt F) → (⟨S16x32768, .f32⟩ : BufTy).Contents (Elt F)),
    StableHlo.reshape main_v15 main_v16 rfl shapeCasts_S16x32768_S16x64x512,
    StableHlo.unary main_arg2 main_v17 ((extractStridedSlice S16x64 ![0, 845824] · slices_S16x846914_S16x64_0_845824) : (⟨S16x846914, .f32⟩ : BufTy).Contents (Elt F) → (⟨S16x64, .f32⟩ : BufTy).Contents (Elt F)),
    StableHlo.unary main_arg2 main_v18 ((extractStridedSlice S16x512 ![0, 845888] · slices_S16x846914_S16x512_0_845888) : (⟨S16x846914, .f32⟩ : BufTy).Contents (Elt F) → (⟨S16x512, .f32⟩ : BufTy).Contents (Elt F)),
    StableHlo.reshape main_v18 main_v19 rfl shapeCasts_S16x512_S16x1x512,
    StableHlo.unary main_arg2 main_v20 ((extractStridedSlice S16x1 ![0, 846400] · slices_S16x846914_S16x1_0_846400) : (⟨S16x846914, .f32⟩ : BufTy).Contents (Elt F) → (⟨S16x1, .f32⟩ : BufTy).Contents (Elt F)),
    StableHlo.unary main_arg2 main_v21 ((extractStridedSlice S16x512 ![0, 846401] · slices_S16x846914_S16x512_0_846401) : (⟨S16x846914, .f32⟩ : BufTy).Contents (Elt F) → (⟨S16x512, .f32⟩ : BufTy).Contents (Elt F)),
    StableHlo.reshape main_v21 main_v22 rfl shapeCasts_S16x512_S16x1x512,
    StableHlo.unary main_arg2 main_v23 ((extractStridedSlice S16x1 ![0, 846913] · slices_S16x846914_S16x1_0_846913) : (⟨S16x846914, .f32⟩ : BufTy).Contents (Elt F) → (⟨S16x1, .f32⟩ : BufTy).Contents (Elt F)) ]

/-- The input layer before the join: the observations scaled, the two input products with their biases added (values %24 … %36). -/
abbrev opsIn : List (HloOp τ sig (Elt F)) :=
  [ StableHlo.unary main_arg3 main_v24 (broadcastInDim S1x64 ![1] bcast_S64_S1x64_1 : (⟨S64, .f32⟩ : BufTy).Contents (Elt F) → (⟨S1x64, .f32⟩ : BufTy).Contents (Elt F)),
    StableHlo.unary main_v24 main_v25 (broadcastInDim S4096x64 ![0, 1] bcast_S1x64_S4096x64_0_1 : (⟨S1x64, .f32⟩ : BufTy).Contents (Elt F) → (⟨S4096x64, .f32⟩ : BufTy).Contents (Elt F)),
    StableHlo.binary main_arg0 main_v25 main_v26 (mulf : (⟨S4096x64, .f32⟩ : BufTy).Contents (Elt F) → (⟨S4096x64, .f32⟩ : BufTy).Contents (Elt F) → (⟨S4096x64, .f32⟩ : BufTy).Contents (Elt F)),
    StableHlo.binary main_v1 main_v26 main_v27 ((fun l r => Host.dotGeneral dot_S16x256x64_S4096x64_S16x256x4096_2_1_01_0_n_n none l r) : (⟨S16x256x64, .f32⟩ : BufTy).Contents (Elt F) → (⟨S4096x64, .f32⟩ : BufTy).Contents (Elt F) → (⟨S16x256x4096, .f32⟩ : BufTy).Contents (Elt F)),
    StableHlo.unary main_v27 main_v28 ((transpose S16x4096x256 [0, 2, 1] · transposes_S16x256x4096_S16x4096x256_0_2_1) : (⟨S16x256x4096, .f32⟩ : BufTy).Contents (Elt F) → (⟨S16x4096x256, .f32⟩ : BufTy).Contents (Elt F)),
    StableHlo.unary main_v2 main_v29 (broadcastInDim S16x1x256 ![0, 2] bcast_S16x256_S16x1x256_0_2 : (⟨S16x256, .f32⟩ : BufTy).Contents (Elt F) → (⟨S16x1x256, .f32⟩ : BufTy).Contents (Elt F)),
    StableHlo.unary main_v29 main_v30 (broadcastInDim S16x4096x256 ![0, 1, 2] bcast_S16x1x256_S16x4096x256_0_1_2 : (⟨S16x1x256, .f32⟩ : BufTy).Contents (Elt F) → (⟨S16x4096x256, .f32⟩ : BufTy).Contents (Elt F)),
    StableHlo.binary main_v28 main_v30 main_v31 (addf : (⟨S16x4096x256, .f32⟩ : BufTy).Contents (Elt F) → (⟨S16x4096x256, .f32⟩ : BufTy).Contents (Elt F) → (⟨S16x4096x256, .f32⟩ : BufTy).Contents (Elt F)),
    StableHlo.binary main_v4 main_arg1 main_v32 ((fun l r => Host.dotGeneral dot_S16x256x32_S4096x32_S16x256x4096_2_1_01_0_n_n none l r) : (⟨S16x256x32, .f32⟩ : BufTy).Contents (Elt F) → (⟨S4096x32, .f32⟩ : BufTy).Contents (Elt F) → (⟨S16x256x4096, .f32⟩ : BufTy).Contents (Elt F)),
    StableHlo.unary main_v32 main_v33 ((transpose S16x4096x256 [0, 2, 1] · transposes_S16x256x4096_S16x4096x256_0_2_1) : (⟨S16x256x4096, .f32⟩ : BufTy).Contents (Elt F) → (⟨S16x4096x256, .f32⟩ : BufTy).Contents (Elt F)),
    StableHlo.unary main_v5 main_v34 (broadcastInDim S16x1x256 ![0, 2] bcast_S16x256_S16x1x256_0_2 : (⟨S16x256, .f32⟩ : BufTy).Contents (Elt F) → (⟨S16x1x256, .f32⟩ : BufTy).Contents (Elt F)),
    StableHlo.unary main_v34 main_v35 (broadcastInDim S16x4096x256 ![0, 1, 2] bcast_S16x1x256_S16x4096x256_0_1_2 : (⟨S16x1x256, .f32⟩ : BufTy).Contents (Elt F) → (⟨S16x4096x256, .f32⟩ : BufTy).Contents (Elt F)),
    StableHlo.binary main_v33 main_v35 main_v36 (addf : (⟨S16x4096x256, .f32⟩ : BufTy).Contents (Elt F) → (⟨S16x4096x256, .f32⟩ : BufTy).Contents (Elt F) → (⟨S16x4096x256, .f32⟩ : BufTy).Contents (Elt F)) ]

/-- The two halves of the input layer joined along the feature axis (value %37). -/
abbrev opsCat : List (HloOp τ sig (Elt F)) :=
  [ StableHlo.binary main_v31 main_v36 main_v37 ((fun a b => concatenate S16x4096x512 2 [⟨S16x4096x256, a⟩, ⟨S16x4096x256, b⟩] concatenates_S16x4096x256_S16x4096x256_S16x4096x512_d2) : (⟨S16x4096x256, .f32⟩ : BufTy).Contents (Elt F) → (⟨S16x4096x256, .f32⟩ : BufTy).Contents (Elt F) → (⟨S16x4096x512, .f32⟩ : BufTy).Contents (Elt F)) ]

/-- The first leaky rectifier, its body in line: zero and the slope broadcast, the comparison, the scaled copy, the selection (into %38). -/
abbrev opsL0 : List (HloOp τ sig (Elt F)) :=
  [ TRef.nullary main_call0.cst (constant S_ .f32 0x00000000#32),
    TRef.unary main_call0.cst main_call0.v0 (broadcastInDim S16x4096x512 ![] bcast_S_S16x4096x512),
    TRef.binary (.of main_v37) main_call0.v0 main_call0.v1 (cmpf .oge),
    TRef.nullary main_call0.cst_0 (constant S_ .f32 0x3C23D70A#32),
    TRef.unary main_call0.cst_0 main_call0.v2 (broadcastInDim S16x4096x512 ![] bcast_S_S16x4096x512),
    TRef.binary main_call0.v2 (.of main_v37) main_call0.v3 mulf,
    TRef.ternary main_call0.v1 (.of main_v37) main_call0.v3 main_call0.call0.v0 select ]

/-- The first hidden layer's product and bias (values %39 … %42). -/
abbrev opsH1 : List (HloOp τ sig (Elt F)) :=
  [ StableHlo.binary main_v38 main_v7 main_v39 ((fun l r => Host.dotGeneral dot_S16x4096x512_S16x512x512_S16x4096x512_2_2_1_1_0_0 none l r) : (⟨S16x4096x512, .f32⟩ : BufTy).Contents (Elt F) → (⟨S16x512x512, .f32⟩ : BufTy).Contents (Elt F) → (⟨S16x4096x512, .f32⟩ : BufTy).Contents (Elt F)),
    StableHlo.unary main_v8 main_v40 (broadcastInDim S16x1x512 ![0, 2] bcast_S16x512_S16x1x512_0_2 : (⟨S16x512, .f32⟩ : BufTy).Contents (Elt F) → (⟨S16x1x512, .f32⟩ : BufTy).Contents (Elt F)),
    StableHlo.unary main_v40 main_v41 (broadcastInDim S16x4096x512 ![0, 1, 2] bcast_S16x1x512_S16x4096x512_0_1_2 : (⟨S16x1x512, .f32⟩ : BufTy).Contents (Elt F) → (⟨S16x4096x512, .f32⟩ : BufTy).Contents (Elt F)),
    StableHlo.binary main_v39 main_v41 main_v42 (addf : (⟨S16x4096x512, .f32⟩ : BufTy).Contents (Elt F) → (⟨S16x4096x512, .f32⟩ : BufTy).Contents (Elt F) → (⟨S16x4096x512, .f32⟩ : BufTy).Contents (Elt F)) ]

/-- The second leaky rectifier in line (into %43). -/
abbrev opsL1 : List (HloOp τ sig (Elt F)) :=
  [ TRef.nullary main_call1.cst (constant S_ .f32 0x00000000#32),
    TRef.unary main_call1.cst main_call1.v0 (broadcastInDim S16x4096x512 ![] bcast_S_S16x4096x512),
    TRef.binary (.of main_v42) main_call1.v0 main_call1.v1 (cmpf .oge),
    TRef.nullary main_call1.cst_0 (constant S_ .f32 0x3C23D70A#32),
    TRef.unary main_call1.cst_0 main_call1.v2 (broadcastInDim S16x4096x512 ![] bcast_S_S16x4096x512),
    TRef.binary main_call1.v2 (.of main_v42) main_call1.v3 mulf,
    TRef.ternary main_call1.v1 (.of main_v42) main_call1.v3 main_call1.call0.v0 select ]

/-- The second hidden layer's product and bias (values %44 … %47). -/
abbrev opsH2 : List (HloOp τ sig (Elt F)) :=
  [ StableHlo.binary main_v43 main_v10 main_v44 ((fun l r => Host.dotGeneral dot_S16x4096x512_S16x512x512_S16x4096x512_2_2_1_1_0_0 none l r) : (⟨S16x4096x512, .f32⟩ : BufTy).Contents (Elt F) → (⟨S16x512x512, .f32⟩ : BufTy).Contents (Elt F) → (⟨S16x4096x512, .f32⟩ : BufTy).Contents (Elt F)),
    StableHlo.unary main_v11 main_v45 (broadcastInDim S16x1x512 ![0, 2] bcast_S16x512_S16x1x512_0_2 : (⟨S16x512, .f32⟩ : BufTy).Contents (Elt F) → (⟨S16x1x512, .f32⟩ : BufTy).Contents (Elt F)),
    StableHlo.unary main_v45 main_v46 (broadcastInDim S16x4096x512 ![0, 1, 2] bcast_S16x1x512_S16x4096x512_0_1_2 : (⟨S16x1x512, .f32⟩ : BufTy).Contents (Elt F) → (⟨S16x4096x512, .f32⟩ : BufTy).Contents (Elt F)),
    StableHlo.binary main_v44 main_v46 main_v47 (addf : (⟨S16x4096x512, .f32⟩ : BufTy).Contents (Elt F) → (⟨S16x4096x512, .f32⟩ : BufTy).Contents (Elt F) → (⟨S16x4096x512, .f32⟩ : BufTy).Contents (Elt F)) ]

/-- The third leaky rectifier in line (into %48). -/
abbrev opsL2 : List (HloOp τ sig (Elt F)) :=
  [ TRef.nullary main_call2.cst (constant S_ .f32 0x00000000#32),
    TRef.unary main_call2.cst main_call2.v0 (broadcastInDim S16x4096x512 ![] bcast_S_S16x4096x512),
    TRef.binary (.of main_v47) main_call2.v0 main_call2.v1 (cmpf .oge),
    TRef.nullary main_call2.cst_0 (constant S_ .f32 0x3C23D70A#32),
    TRef.unary main_call2.cst_0 main_call2.v2 (broadcastInDim S16x4096x512 ![] bcast_S_S16x4096x512),
    TRef.binary main_call2.v2 (.of main_v47) main_call2.v3 mulf,
    TRef.ternary main_call2.v1 (.of main_v47) main_call2.v3 main_call2.call0.v0 select ]

/-- The third hidden layer's product and bias (values %49 … %52). -/
abbrev opsH3 : List (HloOp τ sig (Elt F)) :=
  [ StableHlo.binary main_v48 main_v13 main_v49 ((fun l r => Host.dotGeneral dot_S16x4096x512_S16x512x512_S16x4096x512_2_2_1_1_0_0 none l r) : (⟨S16x4096x512, .f32⟩ : BufTy).Contents (Elt F) → (⟨S16x512x512, .f32⟩ : BufTy).Contents (Elt F) → (⟨S16x4096x512, .f32⟩ : BufTy).Contents (Elt F)),
    StableHlo.unary main_v14 main_v50 (broadcastInDim S16x1x512 ![0, 2] bcast_S16x512_S16x1x512_0_2 : (⟨S16x512, .f32⟩ : BufTy).Contents (Elt F) → (⟨S16x1x512, .f32⟩ : BufTy).Contents (Elt F)),
    StableHlo.unary main_v50 main_v51 (broadcastInDim S16x4096x512 ![0, 1, 2] bcast_S16x1x512_S16x4096x512_0_1_2 : (⟨S16x1x512, .f32⟩ : BufTy).Contents (Elt F) → (⟨S16x4096x512, .f32⟩ : BufTy).Contents (Elt F)),
    StableHlo.binary main_v49 main_v51 main_v52 (addf : (⟨S16x4096x512, .f32⟩ : BufTy).Contents (Elt F) → (⟨S16x4096x512, .f32⟩ : BufTy).Contents (Elt F) → (⟨S16x4096x512, .f32⟩ : BufTy).Contents (Elt F)) ]

/-- The fourth leaky rectifier in line (into %53). -/
abbrev opsL3 : List (HloOp τ sig (Elt F)) :=
  [ TRef.nullary main_call3.cst (constant S_ .f32 0x00000000#32),
    TRef.unary main_call3.cst main_call3.v0 (broadcastInDim S16x4096x512 ![] bcast_S_S16x4096x512),
    TRef.binary (.of main_v52) main_call3.v0 main_call3.v1 (cmpf .oge),
    TRef.nullary main_call3.cst_0 (constant S_ .f32 0x3C23D70A#32),
    TRef.unary main_call3.cst_0 main_call3.v2 (broadcastInDim S16x4096x512 ![] bcast_S_S16x4096x512),
    TRef.binary main_call3.v2 (.of main_v52) main_call3.v3 mulf,
    TRef.ternary main_call3.v1 (.of main_v52) main_call3.v3 main_call3.call0.v0 select ]

/-- The next-state head's product and bias, and the scaled observations broadcast over the members (values %54 … %59). -/
abbrev opsE : List (HloOp τ sig (Elt F)) :=
  [ StableHlo.binary main_v53 main_v16 main_v54 ((fun l r => Host.dotGeneral dot_S16x4096x512_S16x64x512_S16x4096x64_2_2_1_1_0_0 none l r) : (⟨S16x4096x512, .f32⟩ : BufTy).Contents (Elt F) → (⟨S16x64x512, .f32⟩ : BufTy).Contents (Elt F) → (⟨S16x4096x64, .f32⟩ : BufTy).Contents (Elt F)),
    StableHlo.unary main_v17 main_v55 (broadcastInDim S16x1x64 ![0, 2] bcast_S16x64_S16x1x64_0_2 : (⟨S16x64, .f32⟩ : BufTy).Contents (Elt F) → (⟨S16x1x64, .f32⟩ : BufTy).Contents (Elt F)),
    StableHlo.unary main_v55 main_v56 (broadcastInDim S16x4096x64 ![0, 1, 2] bcast_S16x1x64_S16x4096x64_0_1_2 : (⟨S16x1x64, .f32⟩ : BufTy).Contents (Elt F) → (⟨S16x4096x64, .f32⟩ : BufTy).Contents (Elt F)),
    StableHlo.binary main_v54 main_v56 main_v57 (addf : (⟨S16x4096x64, .f32⟩ : BufTy).Contents (Elt F) → (⟨S16x4096x64, .f32⟩ : BufTy).Contents (Elt F) → (⟨S16x4096x64, .f32⟩ : BufTy).Contents (Elt F)),
    StableHlo.unary main_v26 main_v58 (broadcastInDim S1x4096x64 ![1, 2] bcast_S4096x64_S1x4096x64_1_2 : (⟨S4096x64, .f32⟩ : BufTy).Contents (Elt F) → (⟨S1x4096x64, .f32⟩ : BufTy).Contents (Elt F)),
    StableHlo.unary main_v58 main_v59 (broadcastInDim S16x4096x64 ![0, 1, 2] bcast_S1x4096x64_S16x4096x64_0_1_2 : (⟨S1x4096x64, .f32⟩ : BufTy).Contents (Elt F) → (⟨S16x4096x64, .f32⟩ : BufTy).Contents (Elt F)) ]

/-- The second window of @main: the residual sum, the reward and done heads, the logistic function spelt out, the three transposes and the division by the scalings (values %60 … %80). -/
abbrev opsF : List (HloOp τ sig (Elt F)) :=
  [ StableHlo.binary main_v57 main_v59 main_v60 (addf : (⟨S16x4096x64, .f32⟩ : BufTy).Contents (Elt F) → (⟨S16x4096x64, .f32⟩ : BufTy).Contents (Elt F) → (⟨S16x4096x64, .f32⟩ : BufTy).Contents (Elt F)),
    StableHlo.binary main_v53 main_v19 main_v61 ((fun l r => Host.dotGeneral dot_S16x4096x512_S16x1x512_S16x4096x1_2_2_1_1_0_0 none l r) : (⟨S16x4096x512, .f32⟩ : BufTy).Contents (Elt F) → (⟨S16x1x512, .f32⟩ : BufTy).Contents (Elt F) → (⟨S16x4096x1, .f32⟩ : BufTy).Contents (Elt F)),
    StableHlo.unary main_v20 main_v62 (broadcastInDim S16x1x1 ![0, 2] bcast_S16x1_S16x1x1_0_2 : (⟨S16x1, .f32⟩ : BufTy).Contents (Elt F) → (⟨S16x1x1, .f32⟩ : BufTy).Contents (Elt F)),
    StableHlo.unary main_v62 main_v63 (broadcastInDim S16x4096x1 ![0, 1, 2] bcast_S16x1x1_S16x4096x1_0_1_2 : (⟨S16x1x1, .f32⟩ : BufTy).Contents (Elt F) → (⟨S16x4096x1, .f32⟩ : BufTy).Contents (Elt F)),
    StableHlo.binary main_v61 main_v63 main_v64 (addf : (⟨S16x4096x1, .f32⟩ : BufTy).Contents (Elt F) → (⟨S16x4096x1, .f32⟩ : BufTy).Contents (Elt F) → (⟨S16x4096x1, .f32⟩ : BufTy).Contents (Elt F)),
    StableHlo.binary main_v53 main_v22 main_v65 ((fun l r => Host.dotGeneral dot_S16x4096x512_S16x1x512_S16x4096x1_2_2_1_1_0_0 none l r) : (⟨S16x4096x512, .f32⟩ : BufTy).Contents (Elt F) → (⟨S16x1x512, .f32⟩ : BufTy).Contents (Elt F) → (⟨S16x4096x1, .f32⟩ : BufTy).Contents (Elt F)),
    StableHlo.unary main_v23 main_v66 (broadcastInDim S16x1x1 ![0, 2] bcast_S16x1_S16x1x1_0_2 : (⟨S16x1, .f32⟩ : BufTy).Contents (Elt F) → (⟨S16x1x1, .f32⟩ : BufTy).Contents (Elt F)),
    StableHlo.unary main_v66 main_v67 (broadcastInDim S16x4096x1 ![0, 1, 2] bcast_S16x1x1_S16x4096x1_0_1_2 : (⟨S16x1x1, .f32⟩ : BufTy).Contents (Elt F) → (⟨S16x4096x1, .f32⟩ : BufTy).Contents (Elt F)),
    StableHlo.binary main_v65 main_v67 main_v68 (addf : (⟨S16x4096x1, .f32⟩ : BufTy).Contents (Elt F) → (⟨S16x4096x1, .f32⟩ : BufTy).Contents (Elt F) → (⟨S16x4096x1, .f32⟩ : BufTy).Contents (Elt F)),
    StableHlo.unary main_v68 main_v69 (Host.negf : (⟨S16x4096x1, .f32⟩ : BufTy).Contents (Elt F) → (⟨S16x4096x1, .f32⟩ : BufTy).Contents (Elt F)),
    StableHlo.unary main_v69 main_v70 (Host.exp : (⟨S16x4096x1, .f32⟩ : BufTy).Contents (Elt F) → (⟨S16x4096x1, .f32⟩ : BufTy).Contents (Elt F)),
    StableHlo.nullary main_cst (constant S_ .f32 0x3F800000#32),
    StableHlo.unary main_cst main_v71 (broadcastInDim S16x4096x1 ![] bcast_S_S16x4096x1 : (⟨S_, .f32⟩ : BufTy).Contents (Elt F) → (⟨S16x4096x1, .f32⟩ : BufTy).Contents (Elt F)),
    StableHlo.binary main_v71 main_v70 main_v72 (addf : (⟨S16x4096x1, .f32⟩ : BufTy).Contents (Elt F) → (⟨S16x4096x1, .f32⟩ : BufTy).Contents (Elt F) → (⟨S16x4096x1, .f32⟩ : BufTy).Contents (Elt F)),
    StableHlo.nullary main_cst_0 (constant S_ .f32 0x3F800000#32),
    StableHlo.unary main_cst_0 main_v73 (broadcastInDim S16x4096x1 ![] bcast_S_S16x4096x1 : (⟨S_, .f32⟩ : BufTy).Contents (Elt F) → (⟨S16x4096x1, .f32⟩ : BufTy).Contents (Elt F)),
    StableHlo.binary main_v73 main_v72 main_v74 (Host.divf : (⟨S16x4096x1, .f32⟩ : BufTy).Contents (Elt F) → (⟨S16x4096x1, .f32⟩ : BufTy).Contents (Elt F) → (⟨S16x4096x1, .f32⟩ : BufTy).Contents (Elt F)),
    StableHlo.unary main_v60 main_v75 ((transpose S4096x16x64 [1, 0, 2] · transposes_S16x4096x64_S4096x16x64_1_0_2) : (⟨S16x4096x64, .f32⟩ : BufTy).Contents (Elt F) → (⟨S4096x16x64, .f32⟩ : BufTy).Contents (Elt F)),
    StableHlo.unary main_arg3 main_v76 (broadcastInDim S1x1x64 ![2] bcast_S64_S1x1x64_2 : (⟨S64, .f32⟩ : BufTy).Contents (Elt F) → (⟨S1x1x64, .f32⟩ : BufTy).Contents (Elt F)),
    StableHlo.unary main_v76 main_v77 (broadcastInDim S4096x16x64 ![0, 1, 2] bcast_S1x1x64_S4096x16x64_0_1_2 : (⟨S1x1x64, .f32⟩ : BufTy).Contents (Elt F) → (⟨S4096x16x64, .f32⟩ : BufTy).Contents (Elt F)),
    StableHlo.binary main_v75 main_v77 main_v78 (Host.divf : (⟨S4096x16x64, .f32⟩ : BufTy).Contents (Elt F) → (⟨S4096x16x64, .f32⟩ : BufTy).Contents (Elt F) → (⟨S4096x16x64, .f32⟩ : BufTy).Contents (Elt F)),
    StableHlo.unary main_v64 main_v79 ((transpose S4096x16x1 [1, 0, 2] · transposes_S16x4096x1_S4096x16x1_1_0_2) : (⟨S16x4096x1, .f32⟩ : BufTy).Contents (Elt F) → (⟨S4096x16x1, .f32⟩ : BufTy).Contents (Elt F)),
    StableHlo.unary main_v74 main_v80 ((transpose S4096x16x1 [1, 0, 2] · transposes_S16x4096x1_S4096x16x1_1_0_2) : (⟨S16x4096x1, .f32⟩ : BufTy).Contents (Elt F) → (⟨S4096x16x1, .f32⟩ : BufTy).Contents (Elt F)) ]

/-! ## What each stretch writes

Every tensor value has a buffer of its own: each operation writes one reference, and no reference twice. -/

/-- The references `opsW` writes, in order. -/
abbrev opsW_W : List (Ref sig .tc) :=
  [main_v0, main_v1, main_v2, main_v3, main_v4, main_v5, main_v6, main_v7, main_v8, main_v9, main_v10, main_v11, main_v12, main_v13, main_v14, main_v15, main_v16, main_v17, main_v18, main_v19, main_v20, main_v21, main_v22, main_v23]
theorem opsW_writes : WritesIn (opsW : List (HloOp τ sig (Elt F))) opsW_W :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- The references `opsIn` writes, in order. -/
abbrev opsIn_W : List (Ref sig .tc) :=
  [main_v24, main_v25, main_v26, main_v27, main_v28, main_v29, main_v30, main_v31, main_v32, main_v33, main_v34, main_v35, main_v36]
theorem opsIn_writes : WritesIn (opsIn : List (HloOp τ sig (Elt F))) opsIn_W :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- The references `opsCat` writes, in order. -/
abbrev opsCat_W : List (Ref sig .tc) :=
  [main_v37]
theorem opsCat_writes : WritesIn (opsCat : List (HloOp τ sig (Elt F))) opsCat_W :=
  writes_sub_of_mem rfl (by decide)

/-- The references `opsL0` writes, in order. -/
abbrev opsL0_W : List (Ref sig .tc) :=
  [main_call0_cst, main_call0_v0, main_call0_v1, main_call0_cst_0, main_call0_v2, main_call0_v3, main_v38]
theorem opsL0_writes : WritesIn (opsL0 : List (HloOp τ sig (Elt F))) opsL0_W :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- The references `opsH1` writes, in order. -/
abbrev opsH1_W : List (Ref sig .tc) :=
  [main_v39, main_v40, main_v41, main_v42]
theorem opsH1_writes : WritesIn (opsH1 : List (HloOp τ sig (Elt F))) opsH1_W :=
  ⟨writes_sub_of_mem rfl (by decide), writes_sub_of_mem rfl (by decide), writes_sub_of_mem rfl (by decide), writes_sub_of_mem rfl (by decide)⟩

/-- The references `opsL1` writes, in order. -/
abbrev opsL1_W : List (Ref sig .tc) :=
  [main_call1_cst, main_call1_v0, main_call1_v1, main_call1_cst_0, main_call1_v2, main_call1_v3, main_v43]
theorem opsL1_writes : WritesIn (opsL1 : List (HloOp τ sig (Elt F))) opsL1_W :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- The references `opsH2` writes, in order. -/
abbrev opsH2_W : List (Ref sig .tc) :=
  [main_v44, main_v45, main_v46, main_v47]
theorem opsH2_writes : WritesIn (opsH2 : List (HloOp τ sig (Elt F))) opsH2_W :=
  ⟨writes_sub_of_mem rfl (by decide), writes_sub_of_mem rfl (by decide), writes_sub_of_mem rfl (by decide), writes_sub_of_mem rfl (by decide)⟩

/-- The references `opsL2` writes, in order. -/
abbrev opsL2_W : List (Ref sig .tc) :=
  [main_call2_cst, main_call2_v0, main_call2_v1, main_call2_cst_0, main_call2_v2, main_call2_v3, main_v48]
theorem opsL2_writes : WritesIn (opsL2 : List (HloOp τ sig (Elt F))) opsL2_W :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- The references `opsH3` writes, in order. -/
abbrev opsH3_W : List (Ref sig .tc) :=
  [main_v49, main_v50, main_v51, main_v52]
theorem opsH3_writes : WritesIn (opsH3 : List (HloOp τ sig (Elt F))) opsH3_W :=
  ⟨writes_sub_of_mem rfl (by decide), writes_sub_of_mem rfl (by decide), writes_sub_of_mem rfl (by decide), writes_sub_of_mem rfl (by decide)⟩

/-- The references `opsL3` writes, in order. -/
abbrev opsL3_W : List (Ref sig .tc) :=
  [main_call3_cst, main_call3_v0, main_call3_v1, main_call3_cst_0, main_call3_v2, main_call3_v3, main_v53]
theorem opsL3_writes : WritesIn (opsL3 : List (HloOp τ sig (Elt F))) opsL3_W :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- The references `opsE` writes, in order. -/
abbrev opsE_W : List (Ref sig .tc) :=
  [main_v54, main_v55, main_v56, main_v57, main_v58, main_v59]
theorem opsE_writes : WritesIn (opsE : List (HloOp τ sig (Elt F))) opsE_W :=
  ⟨writes_sub_of_mem rfl (by decide), writes_sub_of_mem rfl (by decide), writes_sub_of_mem rfl (by decide), writes_sub_of_mem rfl (by decide), writes_sub_of_mem rfl (by decide), writes_sub_of_mem rfl (by decide)⟩

/-- The references `opsF` writes, in order. -/
abbrev opsF_W : List (Ref sig .tc) :=
  [main_v60, main_v61, main_v62, main_v63, main_v64, main_v65, main_v66, main_v67, main_v68, main_v69, main_v70, main_cst, main_v71, main_v72, main_cst_0, main_v73, main_v74, main_v75, main_v76, main_v77, main_v78, main_v79, main_v80]
theorem opsF_writes : WritesIn (opsF : List (HloOp τ sig (Elt F))) opsF_W :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-! ## The line from each stretch to the end -/

/-- The operations from `opsE` on. -/
abbrev fromE : List (HloOp τ sig (Elt F)) := opsE ++ opsF
abbrev fromE_W : List (Ref sig .tc) := opsE_W ++ opsF_W
theorem fromE_writes : WritesIn (fromE : List (HloOp τ sig (Elt F))) fromE_W := writesIn_append opsE_writes opsF_writes

/-- The operations from `opsL3` on. -/
abbrev fromL3 : List (HloOp τ sig (Elt F)) := opsL3 ++ fromE
abbrev fromL3_W : List (Ref sig .tc) := opsL3_W ++ fromE_W
theorem fromL3_writes : WritesIn (fromL3 : List (HloOp τ sig (Elt F))) fromL3_W := writesIn_append opsL3_writes fromE_writes

/-- The operations from `opsH3` on. -/
abbrev fromH3 : List (HloOp τ sig (Elt F)) := opsH3 ++ fromL3
abbrev fromH3_W : List (Ref sig .tc) := opsH3_W ++ fromL3_W
theorem fromH3_writes : WritesIn (fromH3 : List (HloOp τ sig (Elt F))) fromH3_W := writesIn_append opsH3_writes fromL3_writes

/-- The operations from `opsL2` on. -/
abbrev fromL2 : List (HloOp τ sig (Elt F)) := opsL2 ++ fromH3
abbrev fromL2_W : List (Ref sig .tc) := opsL2_W ++ fromH3_W
theorem fromL2_writes : WritesIn (fromL2 : List (HloOp τ sig (Elt F))) fromL2_W := writesIn_append opsL2_writes fromH3_writes

/-- The operations from `opsH2` on. -/
abbrev fromH2 : List (HloOp τ sig (Elt F)) := opsH2 ++ fromL2
abbrev fromH2_W : List (Ref sig .tc) := opsH2_W ++ fromL2_W
theorem fromH2_writes : WritesIn (fromH2 : List (HloOp τ sig (Elt F))) fromH2_W := writesIn_append opsH2_writes fromL2_writes

/-- The operations from `opsL1` on. -/
abbrev fromL1 : List (HloOp τ sig (Elt F)) := opsL1 ++ fromH2
abbrev fromL1_W : List (Ref sig .tc) := opsL1_W ++ fromH2_W
theorem fromL1_writes : WritesIn (fromL1 : List (HloOp τ sig (Elt F))) fromL1_W := writesIn_append opsL1_writes fromH2_writes

/-- The operations from `opsH1` on. -/
abbrev fromH1 : List (HloOp τ sig (Elt F)) := opsH1 ++ fromL1
abbrev fromH1_W : List (Ref sig .tc) := opsH1_W ++ fromL1_W
theorem fromH1_writes : WritesIn (fromH1 : List (HloOp τ sig (Elt F))) fromH1_W := writesIn_append opsH1_writes fromL1_writes

/-- The operations from `opsL0` on. -/
abbrev fromL0 : List (HloOp τ sig (Elt F)) := opsL0 ++ fromH1
abbrev fromL0_W : List (Ref sig .tc) := opsL0_W ++ fromH1_W
theorem fromL0_writes : WritesIn (fromL0 : List (HloOp τ sig (Elt F))) fromL0_W := writesIn_append opsL0_writes fromH1_writes

/-- The operations from `opsCat` on. -/
abbrev fromCat : List (HloOp τ sig (Elt F)) := opsCat ++ fromL0
abbrev fromCat_W : List (Ref sig .tc) := opsCat_W ++ fromL0_W
theorem fromCat_writes : WritesIn (fromCat : List (HloOp τ sig (Elt F))) fromCat_W := writesIn_append opsCat_writes fromL0_writes

/-- The operations from `opsIn` on. -/
abbrev fromIn : List (HloOp τ sig (Elt F)) := opsIn ++ fromCat
abbrev fromIn_W : List (Ref sig .tc) := opsIn_W ++ fromCat_W
theorem fromIn_writes : WritesIn (fromIn : List (HloOp τ sig (Elt F))) fromIn_W := writesIn_append opsIn_writes fromCat_writes

/-- @main's operations, in order. -/
abbrev ops : List (HloOp τ sig (Elt F)) := opsW ++ fromIn
abbrev ops_W : List (Ref sig .tc) := opsW_W ++ fromIn_W
theorem ops_writes : WritesIn (ops : List (HloOp τ sig (Elt F))) ops_W := writesIn_append opsW_writes fromIn_writes

/-- The first window's operations: the stretches up to the next-state head. -/
abbrev ops0 : List (HloOp τ sig (Elt F)) :=
  opsW ++ (opsIn ++ (opsCat ++ (opsL0 ++ (opsH1 ++ (opsL1 ++ (opsH2 ++ (opsL2 ++ (opsH3 ++ (opsL3 ++ (opsE))))))))))

theorem ops_eq : (ops : List (HloOp τ sig (Elt F))) = ops0 ++ opsF := by
  simp only [ops, ops0, fromIn, fromCat, fromL0, fromH1, fromL1, fromH2, fromL2, fromH3, fromL3, fromE, List.append_assoc]

/-! ## The fold, cut before each stretch -/
theorem splitIn (V : Valuation τ sig (Elt F)) : after ops V = after fromIn (after opsW V) :=
  after_concat opsW fromIn V
theorem splitCat (V : Valuation τ sig (Elt F)) : after ops V = after fromCat (after opsIn (after opsW V)) :=
  (splitIn V).trans (after_concat opsIn fromCat _)
theorem splitL0 (V : Valuation τ sig (Elt F)) : after ops V = after fromL0 (after opsCat (after opsIn (after opsW V))) :=
  (splitCat V).trans (after_concat opsCat fromL0 _)
theorem splitH1 (V : Valuation τ sig (Elt F)) : after ops V = after fromH1 (after opsL0 (after opsCat (after opsIn (after opsW V)))) :=
  (splitL0 V).trans (after_concat opsL0 fromH1 _)
theorem splitL1 (V : Valuation τ sig (Elt F)) : after ops V = after fromL1 (after opsH1 (after opsL0 (after opsCat (after opsIn (after opsW V))))) :=
  (splitH1 V).trans (after_concat opsH1 fromL1 _)
theorem splitH2 (V : Valuation τ sig (Elt F)) : after ops V = after fromH2 (after opsL1 (after opsH1 (after opsL0 (after opsCat (after opsIn (after opsW V)))))) :=
  (splitL1 V).trans (after_concat opsL1 fromH2 _)
theorem splitL2 (V : Valuation τ sig (Elt F)) : after ops V = after fromL2 (after opsH2 (after opsL1 (after opsH1 (after opsL0 (after opsCat (after opsIn (after opsW V))))))) :=
  (splitH2 V).trans (after_concat opsH2 fromL2 _)
theorem splitH3 (V : Valuation τ sig (Elt F)) : after ops V = after fromH3 (after opsL2 (after opsH2 (after opsL1 (after opsH1 (after opsL0 (after opsCat (after opsIn (after opsW V)))))))) :=
  (splitL2 V).trans (after_concat opsL2 fromH3 _)
theorem splitL3 (V : Valuation τ sig (Elt F)) : after ops V = after fromL3 (after opsH3 (after opsL2 (after opsH2 (after opsL1 (after opsH1 (after opsL0 (after opsCat (after opsIn (after opsW V))))))))) :=
  (splitH3 V).trans (after_concat opsH3 fromL3 _)
theorem splitE (V : Valuation τ sig (Elt F)) : after ops V = after fromE (after opsL3 (after opsH3 (after opsL2 (after opsH2 (after opsL1 (after opsH1 (after opsL0 (after opsCat (after opsIn (after opsW V)))))))))) :=
  (splitL3 V).trans (after_concat opsL3 fromE _)
theorem splitF (V : Valuation τ sig (Elt F)) : after ops V = after opsF (after opsE (after opsL3 (after opsH3 (after opsL2 (after opsH2 (after opsL1 (after opsH1 (after opsL0 (after opsCat (after opsIn (after opsW V))))))))))) :=
  (splitE V).trans (after_concat opsE opsF _)

/-! ## @main is that straight line -/

set_option maxRecDepth 8192 in
/-- The first window is the line of its operations: each call unfolds to its body's operations at the call's
    buffers, the inner call to its selection. -/
theorem main_part0_eq (c : Dev nD) : main_part0 (F := F) c = seq ops0 := rfl

set_option maxRecDepth 8192 in
/-- The second window is the line of its operations. -/
theorem main_part1_eq (c : Dev nD) : main_part1 (F := F) c = seq opsF := rfl

/-- @main runs its two windows in order, which is the line of all the operations. -/
theorem main_eq (c : Dev nD) : main (F := F) c = seq ops := by
  unfold main
  rw [ops_eq, seq_append, ← main_part0_eq c, ← main_part1_eq c]

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only -/

theorem opsW_sub : (opsW : List (HloOp τ sig (Elt F))).Forall fun op => op.bufs ⊆ tcRefs τ sig :=
  ⟨unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub ..⟩

theorem opsIn_sub : (opsIn : List (HloOp τ sig (Elt F))).Forall fun op => op.bufs ⊆ tcRefs τ sig :=
  ⟨unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub ..⟩

theorem opsCat_sub : (opsCat : List (HloOp τ sig (Elt F))).Forall fun op => op.bufs ⊆ tcRefs τ sig :=
  binary_bufs_sub ..

theorem opsL0_sub : (opsL0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..⟩

theorem opsH1_sub : (opsH1 : List (HloOp τ sig (Elt F))).Forall fun op => op.bufs ⊆ tcRefs τ sig :=
  ⟨binary_bufs_sub .., unary_bufs_sub .., unary_bufs_sub .., binary_bufs_sub ..⟩

theorem opsL1_sub : (opsL1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..⟩

theorem opsH2_sub : (opsH2 : List (HloOp τ sig (Elt F))).Forall fun op => op.bufs ⊆ tcRefs τ sig :=
  ⟨binary_bufs_sub .., unary_bufs_sub .., unary_bufs_sub .., binary_bufs_sub ..⟩

theorem opsL2_sub : (opsL2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..⟩

theorem opsH3_sub : (opsH3 : List (HloOp τ sig (Elt F))).Forall fun op => op.bufs ⊆ tcRefs τ sig :=
  ⟨binary_bufs_sub .., unary_bufs_sub .., unary_bufs_sub .., binary_bufs_sub ..⟩

theorem opsL3_sub : (opsL3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..⟩

theorem opsE_sub : (opsE : List (HloOp τ sig (Elt F))).Forall fun op => op.bufs ⊆ tcRefs τ sig :=
  ⟨binary_bufs_sub .., unary_bufs_sub .., unary_bufs_sub .., binary_bufs_sub .., unary_bufs_sub .., unary_bufs_sub ..⟩

theorem opsF_sub : (opsF : List (HloOp τ sig (Elt F))).Forall fun op => op.bufs ⊆ tcRefs τ sig :=
  ⟨binary_bufs_sub .., binary_bufs_sub .., unary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub ..⟩

theorem ops_sub : (ops : List (HloOp τ sig (Elt F))).Forall fun op => op.bufs ⊆ tcRefs τ sig :=
  List.forall_iff_forall_mem.mpr fun op h => by
    simp only [ops, fromIn, fromCat, fromL0, fromH1, fromL1, fromH2, fromL2, fromH3, fromL3, fromE, List.mem_append] at h
    rcases h with h | h | h | h | h | h | h | h | h | h | h | h
    exacts [List.forall_iff_forall_mem.mp opsW_sub op h, List.forall_iff_forall_mem.mp opsIn_sub op h, List.forall_iff_forall_mem.mp opsCat_sub op h, List.forall_iff_forall_mem.mp opsL0_sub op h, List.forall_iff_forall_mem.mp opsH1_sub op h, List.forall_iff_forall_mem.mp opsL1_sub op h, List.forall_iff_forall_mem.mp opsH2_sub op h, List.forall_iff_forall_mem.mp opsL2_sub op h, List.forall_iff_forall_mem.mp opsH3_sub op h, List.forall_iff_forall_mem.mp opsL3_sub op h, List.forall_iff_forall_mem.mp opsE_sub op h, List.forall_iff_forall_mem.mp opsF_sub op h]

/-- On every device, for any float values, from any memory with zero counters: every weakly fair execution of
    @main terminates, and every buffer ends at the fold of the operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefTerm.lean ====
/-
  The reference network as a composition of pure array functions, one definition per operation of the
  host program, each applied to the stages of its operands. The arguments are the observations x [4096, 64],
  the actions a [4096, 32], the flat per-member weights w [16, 846914] and the observation scalings s [64].
  The stage numbered N is the value the program's N-th tensor takes; `out_next`, `out_reward` and
  `out_done` are the three results.
-/
import proofs.«150989_j51316269252874_2_alg».proof.ReferenceIdeal

noncomputable section

namespace Cert.ReferenceIdeal.Hand

open Idealize.ShloMosaic Cert.ReferenceIdeal
open Cert.ReferenceIdeal.Facts₀ Cert.ReferenceIdeal.Facts

variable {F : FTy → Type} [FloatOps F] [Facts]

/-! ## The activation -/

/-- The zero the activation compares against, on every entry. -/
def lreluZero : FVec F S16x4096x512 .f32 :=
  broadcastInDim S16x4096x512 ![] bcast_S_S16x4096x512 (constant S_ .f32 0x00000000#32)
/-- The activation's slope on the negative side, on every entry. -/
def lreluSlope : FVec F S16x4096x512 .f32 :=
  broadcastInDim S16x4096x512 ![] bcast_S_S16x4096x512 (constant S_ .f32 0x3C23D70A#32)

/-- The leaky rectifier, entry by entry: y where y ≥ 0, slope · y elsewhere. -/
def lrelu (y : FVec F S16x4096x512 .f32) : FVec F S16x4096x512 .f32 :=
  select (cmpf .oge y (broadcastInDim S16x4096x512 ![] bcast_S_S16x4096x512 (constant S_ .f32 0x00000000#32))) y
    (mulf (broadcastInDim S16x4096x512 ![] bcast_S_S16x4096x512 (constant S_ .f32 0x3C23D70A#32)) y)

theorem lrelu_eq (y : FVec F S16x4096x512 .f32) :
    lrelu y = select (cmpf .oge y lreluZero) y (mulf lreluSlope y) := rfl

/-! ## The stages -/

/-- Columns 0 … 16383 of the weights: the first layer's observation block. -/
def v0 (w : FVec F S16x846914 .f32) : FVec F S16x16384 .f32 :=
  extractStridedSlice S16x16384 ![0, 0] w slices_S16x846914_S16x16384_0_0
/-- The observation block as [16, 256, 64]. -/
def v1 (w : FVec F S16x846914 .f32) : FVec F S16x256x64 .f32 :=
  shapeCast S16x256x64 (v0 w) shapeCasts_S16x16384_S16x256x64
/-- The observation block's bias. -/
def v2 (w : FVec F S16x846914 .f32) : FVec F S16x256 .f32 :=
  extractStridedSlice S16x256 ![0, 16384] w slices_S16x846914_S16x256_0_16384
/-- The first layer's action block. -/
def v3 (w : FVec F S16x846914 .f32) : FVec F S16x8192 .f32 :=
  extractStridedSlice S16x8192 ![0, 16640] w slices_S16x846914_S16x8192_0_16640
/-- The action block as [16, 256, 32]. -/
def v4 (w : FVec F S16x846914 .f32) : FVec F S16x256x32 .f32 :=
  shapeCast S16x256x32 (v3 w) shapeCasts_S16x8192_S16x256x32
/-- The action block's bias. -/
def v5 (w : FVec F S16x846914 .f32) : FVec F S16x256 .f32 :=
  extractStridedSlice S16x256 ![0, 24832] w slices_S16x846914_S16x256_0_24832
/-- The first hidden layer's weights. -/
def v6 (w : FVec F S16x846914 .f32) : FVec F S16x262144 .f32 :=
  extractStridedSlice S16x262144 ![0, 25088] w slices_S16x846914_S16x262144_0_25088
/-- The first hidden layer's weights as [16, 512, 512]. -/
def v7 (w : FVec F S16x846914 .f32) : FVec F S16x512x512 .f32 :=
  shapeCast S16x512x512 (v6 w) shapeCasts_S16x262144_S16x512x512
/-- The first hidden layer's bias. -/
def v8 (w : FVec F S16x846914 .f32) : FVec F S16x512 .f32 :=
  extractStridedSlice S16x512 ![0, 287232] w slices_S16x846914_S16x512_0_287232
/-- The second hidden layer's weights. -/
def v9 (w : FVec F S16x846914 .f32) : FVec F S16x262144 .f32 :=
  extractStridedSlice S16x262144 ![0, 287744] w slices_S16x846914_S16x262144_0_287744
/-- The second hidden layer's weights as [16, 512, 512]. -/
def v10 (w : FVec F S16x846914 .f32) : FVec F S16x512x512 .f32 :=
  shapeCast S16x512x512 (v9 w) shapeCasts_S16x262144_S16x512x512
/-- The second hidden layer's bias. -/
def v11 (w : FVec F S16x846914 .f32) : FVec F S16x512 .f32 :=
  extractStridedSlice S16x512 ![0, 549888] w slices_S16x846914_S16x512_0_549888
/-- The third hidden layer's weights. -/
def v12 (w : FVec F S16x846914 .f32) : FVec F S16x262144 .f32 :=
  extractStridedSlice S16x262144 ![0, 550400] w slices_S16x846914_S16x262144_0_550400
/-- The third hidden layer's weights as [16, 512, 512]. -/
def v13 (w : FVec F S16x846914 .f32) : FVec F S16x512x512 .f32 :=
  shapeCast S16x512x512 (v12 w) shapeCasts_S16x262144_S16x512x512
/-- The third hidden layer's bias. -/
def v14 (w : FVec F S16x846914 .f32) : FVec F S16x512 .f32 :=
  extractStridedSlice S16x512 ![0, 812544] w slices_S16x846914_S16x512_0_812544
/-- The next-state head's weights. -/
def v15 (w : FVec F S16x846914 .f32) : FVec F S16x32768 .f32 :=
  extractStridedSlice S16x32768 ![0, 813056] w slices_S16x846914_S16x32768_0_813056
/-- The next-state head's weights as [16, 64, 512]. -/
def v16 (w : FVec F S16x846914 .f32) : FVec F S16x64x512 .f32 :=
  shapeCast S16x64x512 (v15 w) shapeCasts_S16x32768_S16x64x512
/-- The next-state head's bias. -/
def v17 (w : FVec F S16x846914 .f32) : FVec F S16x64 .f32 :=
  extractStridedSlice S16x64 ![0, 845824] w slices_S16x846914_S16x64_0_845824
/-- The reward head's weights. -/
def v18 (w : FVec F S16x846914 .f32) : FVec F S16x512 .f32 :=
  extractStridedSlice S16x512 ![0, 845888] w slices_S16x846914_S16x512_0_845888
/-- The reward head's weights as [16, 1, 512]. -/
def v19 (w : FVec F S16x846914 .f32) : FVec F S16x1x512 .f32 :=
  shapeCast S16x1x512 (v18 w) shapeCasts_S16x512_S16x1x512
/-- The reward head's bias. -/
def v20 (w : FVec F S16x846914 .f32) : FVec F S16x1 .f32 :=
  extractStridedSlice S16x1 ![0, 846400] w slices_S16x846914_S16x1_0_846400
/-- The done head's weights. -/
def v21 (w : FVec F S16x846914 .f32) : FVec F S16x512 .f32 :=
  extractStridedSlice S16x512 ![0, 846401] w slices_S16x846914_S16x512_0_846401
/-- The done head's weights as [16, 1, 512]. -/
def v22 (w : FVec F S16x846914 .f32) : FVec F S16x1x512 .f32 :=
  shapeCast S16x1x512 (v21 w) shapeCasts_S16x512_S16x1x512
/-- The done head's bias. -/
def v23 (w : FVec F S16x846914 .f32) : FVec F S16x1 .f32 :=
  extractStridedSlice S16x1 ![0, 846913] w slices_S16x846914_S16x1_0_846913
/-- The scalings as a row. -/
def v24 (s : FVec F S64 .f32) : FVec F S1x64 .f32 :=
  broadcastInDim S1x64 ![1] bcast_S64_S1x64_1 s
/-- The scalings on every row. -/
def v25 (s : FVec F S64 .f32) : FVec F S4096x64 .f32 :=
  broadcastInDim S4096x64 ![0, 1] bcast_S1x64_S4096x64_0_1 (v24 s)
/-- The scaled observations. -/
def v26 (x : FVec F S4096x64 .f32) (s : FVec F S64 .f32) : FVec F S4096x64 .f32 :=
  mulf x (v25 s)
/-- Observation block times scaled observations, as [16, 256, 4096]. -/
def v27 (x : FVec F S4096x64 .f32) (w : FVec F S16x846914 .f32) (s : FVec F S64 .f32) : FVec F S16x256x4096 .f32 :=
  Host.dotGeneral dot_S16x256x64_S4096x64_S16x256x4096_2_1_01_0_n_n none (v1 w) (v26 x s)
/-- The same with the batch axis second. -/
def v28 (x : FVec F S4096x64 .f32) (w : FVec F S16x846914 .f32) (s : FVec F S64 .f32) : FVec F S16x4096x256 .f32 :=
  transpose S16x4096x256 [0, 2, 1] (v27 x w s) transposes_S16x256x4096_S16x4096x256_0_2_1
def v29 (w : FVec F S16x846914 .f32) : FVec F S16x1x256 .f32 :=
  broadcastInDim S16x1x256 ![0, 2] bcast_S16x256_S16x1x256_0_2 (v2 w)
/-- The observation bias on every batch row. -/
def v30 (w : FVec F S16x846914 .f32) : FVec F S16x4096x256 .f32 :=
  broadcastInDim S16x4096x256 ![0, 1, 2] bcast_S16x1x256_S16x4096x256_0_1_2 (v29 w)
/-- The observation half of the first layer, before the activation. -/
def v31 (x : FVec F S4096x64 .f32) (w : FVec F S16x846914 .f32) (s : FVec F S64 .f32) : FVec F S16x4096x256 .f32 :=
  addf (v28 x w s) (v30 w)
/-- Action block times actions, as [16, 256, 4096]. -/
def v32 (a : FVec F S4096x32 .f32) (w : FVec F S16x846914 .f32) : FVec F S16x256x4096 .f32 :=
  Host.dotGeneral dot_S16x256x32_S4096x32_S16x256x4096_2_1_01_0_n_n none (v4 w) a
def v33 (a : FVec F S4096x32 .f32) (w : FVec F S16x846914 .f32) : FVec F S16x4096x256 .f32 :=
  transpose S16x4096x256 [0, 2, 1] (v32 a w) transposes_S16x256x4096_S16x4096x256_0_2_1
def v34 (w : FVec F S16x846914 .f32) : FVec F S16x1x256 .f32 :=
  broadcastInDim S16x1x256 ![0, 2] bcast_S16x256_S16x1x256_0_2 (v5 w)
def v35 (w : FVec F S16x846914 .f32) : FVec F S16x4096x256 .f32 :=
  broadcastInDim S16x4096x256 ![0, 1, 2] bcast_S16x1x256_S16x4096x256_0_1_2 (v34 w)
/-- The action half of the first layer, before the activation. -/
def v36 (a : FVec F S4096x32 .f32) (w : FVec F S16x846914 .f32) : FVec F S16x4096x256 .f32 :=
  addf (v33 a w) (v35 w)
/-- The two halves side by side. -/
def v37 (x : FVec F S4096x64 .f32) (a : FVec F S4096x32 .f32) (w : FVec F S16x846914 .f32) (s : FVec F S64 .f32) : FVec F S16x4096x512 .f32 :=
  concatenate S16x4096x512 2 [⟨S16x4096x256, v31 x w s⟩, ⟨S16x4096x256, v36 a w⟩] concatenates_S16x4096x256_S16x4096x256_S16x4096x512_d2
/-- The first layer's output. -/
def v38 (x : FVec F S4096x64 .f32) (a : FVec F S4096x32 .f32) (w : FVec F S16x846914 .f32) (s : FVec F S64 .f32) : FVec F S16x4096x512 .f32 :=
  lrelu (v37 x a w s)
/-- The first hidden layer's product. -/
def v39 (x : FVec F S4096x64 .f32) (a : FVec F S4096x32 .f32) (w : FVec F S16x846914 .f32) (s : FVec F S64 .f32) : FVec F S16x4096x512 .f32 :=
  Host.dotGeneral dot_S16x4096x512_S16x512x512_S16x4096x512_2_2_1_1_0_0 none (v38 x a w s) (v7 w)
def v40 (w : FVec F S16x846914 .f32) : FVec F S16x1x512 .f32 :=
  broadcastInDim S16x1x512 ![0, 2] bcast_S16x512_S16x1x512_0_2 (v8 w)
def v41 (w : FVec F S16x846914 .f32) : FVec F S16x4096x512 .f32 :=
  broadcastInDim S16x4096x512 ![0, 1, 2] bcast_S16x1x512_S16x4096x512_0_1_2 (v40 w)
def v42 (x : FVec F S4096x64 .f32) (a : FVec F S4096x32 .f32) (w : FVec F S16x846914 .f32) (s : FVec F S64 .f32) : FVec F S16x4096x512 .f32 :=
  addf (v39 x a w s) (v41 w)
/-- The first hidden layer's output. -/
def v43 (x : FVec F S4096x64 .f32) (a : FVec F S4096x32 .f32) (w : FVec F S16x846914 .f32) (s : FVec F S64 .f32) : FVec F S16x4096x512 .f32 :=
  lrelu (v42 x a w s)
/-- The second hidden layer's product. -/
def v44 (x : FVec F S4096x64 .f32) (a : FVec F S4096x32 .f32) (w : FVec F S16x846914 .f32) (s : FVec F S64 .f32) : FVec F S16x4096x512 .f32 :=
  Host.dotGeneral dot_S16x4096x512_S16x512x512_S16x4096x512_2_2_1_1_0_0 none (v43 x a w s) (v10 w)
def v45 (w : FVec F S16x846914 .f32) : FVec F S16x1x512 .f32 :=
  broadcastInDim S16x1x512 ![0, 2] bcast_S16x512_S16x1x512_0_2 (v11 w)
def v46 (w : FVec F S16x846914 .f32) : FVec F S16x4096x512 .f32 :=
  broadcastInDim S16x4096x512 ![0, 1, 2] bcast_S16x1x512_S16x4096x512_0_1_2 (v45 w)
def v47 (x : FVec F S4096x64 .f32) (a : FVec F S4096x32 .f32) (w : FVec F S16x846914 .f32) (s : FVec F S64 .f32) : FVec F S16x4096x512 .f32 :=
  addf (v44 x a w s) (v46 w)
/-- The second hidden layer's output. -/
def v48 (x : FVec F S4096x64 .f32) (a : FVec F S4096x32 .f32) (w : FVec F S16x846914 .f32) (s : FVec F S64 .f32) : FVec F S16x4096x512 .f32 :=
  lrelu (v47 x a w s)
/-- The third hidden layer's product. -/
def v49 (x : FVec F S4096x64 .f32) (a : FVec F S4096x32 .f32) (w : FVec F S16x846914 .f32) (s : FVec F S64 .f32) : FVec F S16x4096x512 .f32 :=
  Host.dotGeneral dot_S16x4096x512_S16x512x512_S16x4096x512_2_2_1_1_0_0 none (v48 x a w s) (v13 w)
def v50 (w : FVec F S16x846914 .f32) : FVec F S16x1x512 .f32 :=
  broadcastInDim S16x1x512 ![0, 2] bcast_S16x512_S16x1x512_0_2 (v14 w)
def v51 (w : FVec F S16x846914 .f32) : FVec F S16x4096x512 .f32 :=
  broadcastInDim S16x4096x512 ![0, 1, 2] bcast_S16x1x512_S16x4096x512_0_1_2 (v50 w)
def v52 (x : FVec F S4096x64 .f32) (a : FVec F S4096x32 .f32) (w : FVec F S16x846914 .f32) (s : FVec F S64 .f32) : FVec F S16x4096x512 .f32 :=
  addf (v49 x a w s) (v51 w)
/-- The third hidden layer's output. -/
def v53 (x : FVec F S4096x64 .f32) (a : FVec F S4096x32 .f32) (w : FVec F S16x846914 .f32) (s : FVec F S64 .f32) : FVec F S16x4096x512 .f32 :=
  lrelu (v52 x a w s)
/-- The next-state head's product. -/
def v54 (x : FVec F S4096x64 .f32) (a : FVec F S4096x32 .f32) (w : FVec F S16x846914 .f32) (s : FVec F S64 .f32) : FVec F S16x4096x64 .f32 :=
  Host.dotGeneral dot_S16x4096x512_S16x64x512_S16x4096x64_2_2_1_1_0_0 none (v53 x a w s) (v16 w)
def v55 (w : FVec F S16x846914 .f32) : FVec F S16x1x64 .f32 :=
  broadcastInDim S16x1x64 ![0, 2] bcast_S16x64_S16x1x64_0_2 (v17 w)
def v56 (w : FVec F S16x846914 .f32) : FVec F S16x4096x64 .f32 :=
  broadcastInDim S16x4096x64 ![0, 1, 2] bcast_S16x1x64_S16x4096x64_0_1_2 (v55 w)
def v57 (x : FVec F S4096x64 .f32) (a : FVec F S4096x32 .f32) (w : FVec F S16x846914 .f32) (s : FVec F S64 .f32) : FVec F S16x4096x64 .f32 :=
  addf (v54 x a w s) (v56 w)
def v58 (x : FVec F S4096x64 .f32) (s : FVec F S64 .f32) : FVec F S1x4096x64 .f32 :=
  broadcastInDim S1x4096x64 ![1, 2] bcast_S4096x64_S1x4096x64_1_2 (v26 x s)
/-- The scaled observations for every member. -/
def v59 (x : FVec F S4096x64 .f32) (s : FVec F S64 .f32) : FVec F S16x4096x64 .f32 :=
  broadcastInDim S16x4096x64 ![0, 1, 2] bcast_S1x4096x64_S16x4096x64_0_1_2 (v58 x s)
/-- The scaled next state: the head plus the scaled observations. -/
def v60 (x : FVec F S4096x64 .f32) (a : FVec F S4096x32 .f32) (w : FVec F S16x846914 .f32) (s : FVec F S64 .f32) : FVec F S16x4096x64 .f32 :=
  addf (v57 x a w s) (v59 x s)
/-- The reward head's product. -/
def v61 (x : FVec F S4096x64 .f32) (a : FVec F S4096x32 .f32) (w : FVec F S16x846914 .f32) (s : FVec F S64 .f32) : FVec F S16x4096x1 .f32 :=
  Host.dotGeneral dot_S16x4096x512_S16x1x512_S16x4096x1_2_2_1_1_0_0 none (v53 x a w s) (v19 w)
def v62 (w : FVec F S16x846914 .f32) : FVec F S16x1x1 .f32 :=
  broadcastInDim S16x1x1 ![0, 2] bcast_S16x1_S16x1x1_0_2 (v20 w)
def v63 (w : FVec F S16x846914 .f32) : FVec F S16x4096x1 .f32 :=
  broadcastInDim S16x4096x1 ![0, 1, 2] bcast_S16x1x1_S16x4096x1_0_1_2 (v62 w)
/-- The reward. -/
def v64 (x : FVec F S4096x64 .f32) (a : FVec F S4096x32 .f32) (w : FVec F S16x846914 .f32) (s : FVec F S64 .f32) : FVec F S16x4096x1 .f32 :=
  addf (v61 x a w s) (v63 w)
/-- The done head's product. -/
def v65 (x : FVec F S4096x64 .f32) (a : FVec F S4096x32 .f32) (w : FVec F S16x846914 .f32) (s : FVec F S64 .f32) : FVec F S16x4096x1 .f32 :=
  Host.dotGeneral dot_S16x4096x512_S16x1x512_S16x4096x1_2_2_1_1_0_0 none (v53 x a w s) (v22 w)
def v66 (w : FVec F S16x846914 .f32) : FVec F S16x1x1 .f32 :=
  broadcastInDim S16x1x1 ![0, 2] bcast_S16x1_S16x1x1_0_2 (v23 w)
def v67 (w : FVec F S16x846914 .f32) : FVec F S16x4096x1 .f32 :=
  broadcastInDim S16x4096x1 ![0, 1, 2] bcast_S16x1x1_S16x4096x1_0_1_2 (v66 w)
/-- The done head's logit. -/
def v68 (x : FVec F S4096x64 .f32) (a : FVec F S4096x32 .f32) (w : FVec F S16x846914 .f32) (s : FVec F S64 .f32) : FVec F S16x4096x1 .f32 :=
  addf (v65 x a w s) (v67 w)
def v69 (x : FVec F S4096x64 .f32) (a : FVec F S4096x32 .f32) (w : FVec F S16x846914 .f32) (s : FVec F S64 .f32) : FVec F S16x4096x1 .f32 :=
  Host.negf (v68 x a w s)
def v70 (x : FVec F S4096x64 .f32) (a : FVec F S4096x32 .f32) (w : FVec F S16x846914 .f32) (s : FVec F S64 .f32) : FVec F S16x4096x1 .f32 :=
  Host.exp (v69 x a w s)
/-- The literal 1.0. -/
def one : FVec F S_ .f32 :=
  constant S_ .f32 0x3F800000#32
def v71 : FVec F S16x4096x1 .f32 :=
  broadcastInDim S16x4096x1 ![] bcast_S_S16x4096x1 one
/-- 1 + exp(−logit). -/
def v72 (x : FVec F S4096x64 .f32) (a : FVec F S4096x32 .f32) (w : FVec F S16x846914 .f32) (s : FVec F S64 .f32) : FVec F S16x4096x1 .f32 :=
  addf v71 (v70 x a w s)
def v73 : FVec F S16x4096x1 .f32 :=
  broadcastInDim S16x4096x1 ![] bcast_S_S16x4096x1 one
/-- The done probability 1 / (1 + exp(−logit)). -/
def v74 (x : FVec F S4096x64 .f32) (a : FVec F S4096x32 .f32) (w : FVec F S16x846914 .f32) (s : FVec F S64 .f32) : FVec F S16x4096x1 .f32 :=
  Host.divf v73 (v72 x a w s)
def v75 (x : FVec F S4096x64 .f32) (a : FVec F S4096x32 .f32) (w : FVec F S16x846914 .f32) (s : FVec F S64 .f32) : FVec F S4096x16x64 .f32 :=
  transpose S4096x16x64 [1, 0, 2] (v60 x a w s) transposes_S16x4096x64_S4096x16x64_1_0_2
def v76 (s : FVec F S64 .f32) : FVec F S1x1x64 .f32 :=
  broadcastInDim S1x1x64 ![2] bcast_S64_S1x1x64_2 s
def v77 (s : FVec F S64 .f32) : FVec F S4096x16x64 .f32 :=
  broadcastInDim S4096x16x64 ![0, 1, 2] bcast_S1x1x64_S4096x16x64_0_1_2 (v76 s)
/-- The next state, scaled back. -/
def v78 (x : FVec F S4096x64 .f32) (a : FVec F S4096x32 .f32) (w : FVec F S16x846914 .f32) (s : FVec F S64 .f32) : FVec F S4096x16x64 .f32 :=
  Host.divf (v75 x a w s) (v77 s)
/-- The reward, batch axis first. -/
def v79 (x : FVec F S4096x64 .f32) (a : FVec F S4096x32 .f32) (w : FVec F S16x846914 .f32) (s : FVec F S64 .f32) : FVec F S4096x16x1 .f32 :=
  transpose S4096x16x1 [1, 0, 2] (v64 x a w s) transposes_S16x4096x1_S4096x16x1_1_0_2
/-- The done probability, batch axis first. -/
def v80 (x : FVec F S4096x64 .f32) (a : FVec F S4096x32 .f32) (w : FVec F S16x846914 .f32) (s : FVec F S64 .f32) : FVec F S4096x16x1 .f32 :=
  transpose S4096x16x1 [1, 0, 2] (v74 x a w s) transposes_S16x4096x1_S4096x16x1_1_0_2

/-! ## The results -/

/-- The predicted next state, [4096, 16, 64]. -/
def out_next (x : FVec F S4096x64 .f32) (a : FVec F S4096x32 .f32) (w : FVec F S16x846914 .f32) (s : FVec F S64 .f32) :
    FVec F S4096x16x64 .f32 := v78 x a w s
/-- The predicted reward, [4096, 16, 1]. -/
def out_reward (x : FVec F S4096x64 .f32) (a : FVec F S4096x32 .f32) (w : FVec F S16x846914 .f32) (s : FVec F S64 .f32) :
    FVec F S4096x16x1 .f32 := v79 x a w s
/-- The predicted done probability, [4096, 16, 1]. -/
def out_done (x : FVec F S4096x64 .f32) (a : FVec F S4096x32 .f32) (w : FVec F S16x846914 .f32) (s : FVec F S64 .f32) :
    FVec F S4096x16x1 .f32 := v80 x a w s

end Cert.ReferenceIdeal.Hand

end
-- ==== Proof.RefRunW.lean ====
/-
  The reference's run, first stretch: what the twenty-four slices and reshapes of the flat weight array leave in
  their buffers, read at the end of the whole line (no later operation writes them).
-/
import proofs.«150989_j51316269252874_2_alg».proof.Proof.RefOps
import proofs.«150989_j51316269252874_2_alg».proof.Proof.RefTerm

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The weights' slices: once the whole line has run, each layer's weights and biases are the matching columns of `w`, the matrices at their three-axis shapes. -/
theorem end_W {U E : Valuation τ sig (Elt F)} (hE : E = after ops U)
    (w : FVec F S16x846914 .f32)
    (hw : E (main_arg2 : DevRef τ sig) = w) :
    E (main_v1 : DevRef τ sig) = v1 w
      ∧ E (main_v2 : DevRef τ sig) = v2 w
      ∧ E (main_v4 : DevRef τ sig) = v4 w
      ∧ E (main_v5 : DevRef τ sig) = v5 w
      ∧ E (main_v7 : DevRef τ sig) = v7 w
      ∧ E (main_v8 : DevRef τ sig) = v8 w
      ∧ E (main_v10 : DevRef τ sig) = v10 w
      ∧ E (main_v11 : DevRef τ sig) = v11 w
      ∧ E (main_v13 : DevRef τ sig) = v13 w
      ∧ E (main_v14 : DevRef τ sig) = v14 w
      ∧ E (main_v16 : DevRef τ sig) = v16 w
      ∧ E (main_v17 : DevRef τ sig) = v17 w
      ∧ E (main_v19 : DevRef τ sig) = v19 w
      ∧ E (main_v20 : DevRef τ sig) = v20 w
      ∧ E (main_v22 : DevRef τ sig) = v22 w
      ∧ E (main_v23 : DevRef τ sig) = v23 w := by
  subst hE
  have hw := before_of_after ops_writes U main_arg2 (by decide) hw
  subst hw
  refine ⟨(after_concat_of_not_mem fromIn_writes U (by decide)).trans ?_,
    (after_concat_of_not_mem fromIn_writes U (by decide)).trans ?_,
    (after_concat_of_not_mem fromIn_writes U (by decide)).trans ?_,
    (after_concat_of_not_mem fromIn_writes U (by decide)).trans ?_,
    (after_concat_of_not_mem fromIn_writes U (by decide)).trans ?_,
    (after_concat_of_not_mem fromIn_writes U (by decide)).trans ?_,
    (after_concat_of_not_mem fromIn_writes U (by decide)).trans ?_,
    (after_concat_of_not_mem fromIn_writes U (by decide)).trans ?_,
    (after_concat_of_not_mem fromIn_writes U (by decide)).trans ?_,
    (after_concat_of_not_mem fromIn_writes U (by decide)).trans ?_,
    (after_concat_of_not_mem fromIn_writes U (by decide)).trans ?_,
    (after_concat_of_not_mem fromIn_writes U (by decide)).trans ?_,
    (after_concat_of_not_mem fromIn_writes U (by decide)).trans ?_,
    (after_concat_of_not_mem fromIn_writes U (by decide)).trans ?_,
    (after_concat_of_not_mem fromIn_writes U (by decide)).trans ?_,
    (after_concat_of_not_mem fromIn_writes U (by decide)).trans ?_⟩ <;>
    after_results_simp <;> rfl

end Cert.ReferenceIdeal.Hand

end
-- ==== Proof.RefRunIn.lean ====
/-
  The reference's run, input layer: the scaled observations, the two input products with their biases, and their
  join, read at the end of the whole line.
-/
import proofs.«150989_j51316269252874_2_alg».proof.Proof.RefOps
import proofs.«150989_j51316269252874_2_alg».proof.Proof.RefTerm

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The input layer before the join: the scaled observations, and each half's product with its bias added. -/
theorem end_In {U E : Valuation τ sig (Elt F)} (hE : E = after fromIn U)
    (x : FVec F S4096x64 .f32) (a : FVec F S4096x32 .f32) (w : FVec F S16x846914 .f32) (s : FVec F S64 .f32)
    (hx : E (main_arg0 : DevRef τ sig) = x)
    (ha : E (main_arg1 : DevRef τ sig) = a)
    (hs : E (main_arg3 : DevRef τ sig) = s)
    (h1 : E (main_v1 : DevRef τ sig) = v1 w)
    (h2 : E (main_v2 : DevRef τ sig) = v2 w)
    (h4 : E (main_v4 : DevRef τ sig) = v4 w)
    (h5 : E (main_v5 : DevRef τ sig) = v5 w) :
    E (main_v26 : DevRef τ sig) = v26 x s
      ∧ E (main_v31 : DevRef τ sig) = v31 x w s
      ∧ E (main_v36 : DevRef τ sig) = v36 a w := by
  subst hE
  have hx := before_of_after fromIn_writes U main_arg0 (by decide) hx
  have ha := before_of_after fromIn_writes U main_arg1 (by decide) ha
  have hs := before_of_after fromIn_writes U main_arg3 (by decide) hs
  have h1 := before_of_after fromIn_writes U main_v1 (by decide) h1
  have h2 := before_of_after fromIn_writes U main_v2 (by decide) h2
  have h4 := before_of_after fromIn_writes U main_v4 (by decide) h4
  have h5 := before_of_after fromIn_writes U main_v5 (by decide) h5
  subst hx ha hs
  refine ⟨(after_concat_of_not_mem fromCat_writes U (by decide)).trans ?_,
    (after_concat_of_not_mem fromCat_writes U (by decide)).trans ?_,
    (after_concat_of_not_mem fromCat_writes U (by decide)).trans ?_⟩ <;>
    after_results_simp <;> (try simp only [h1, h2, h4, h5]) <;> rfl

/-- The join: the two halves side by side along the feature axis. -/
theorem end_Cat {U E : Valuation τ sig (Elt F)} (hE : E = after fromCat U)
    (p : FVec F S16x4096x256 .f32) (q : FVec F S16x4096x256 .f32)
    (hp : E (main_v31 : DevRef τ sig) = p)
    (hq : E (main_v36 : DevRef τ sig) = q) :
    E (main_v37 : DevRef τ sig) = concatenate S16x4096x512 2 [⟨S16x4096x256, p⟩, ⟨S16x4096x256, q⟩] concatenates_S16x4096x256_S16x4096x256_S16x4096x512_d2 := by
  subst hE
  have hp := before_of_after fromCat_writes U main_v31 (by decide) hp
  have hq := before_of_after fromCat_writes U main_v36 (by decide) hq
  subst hp hq
  refine (after_concat_of_not_mem fromL0_writes U (by decide)).trans ?_
  after_results_simp <;> rfl

end Cert.ReferenceIdeal.Hand

end
-- ==== Proof.RefRunAct.lean ====
/-
  The reference's run, the four leaky rectifiers: each call's seven operations leave the rectifier of the operand
  in the call's result buffer.
-/
import proofs.«150989_j51316269252874_2_alg».proof.Proof.RefOps
import proofs.«150989_j51316269252874_2_alg».proof.Proof.RefTerm

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first leaky rectifier: whatever its operand holds, its result is the rectifier of that. -/
theorem end_L0 {U E : Valuation τ sig (Elt F)} (hE : E = after fromL0 U)
    (y : FVec F S16x4096x512 .f32)
    (hy : E (main_v37 : DevRef τ sig) = y) :
    E (main_v38 : DevRef τ sig) = lrelu y := by
  subst hE
  have hy := before_of_after fromL0_writes U main_v37 (by decide) hy
  subst hy
  refine (after_concat_of_not_mem fromH1_writes U (by decide)).trans ?_
  after_results_simp <;> rfl

/-- The second leaky rectifier: whatever its operand holds, its result is the rectifier of that. -/
theorem end_L1 {U E : Valuation τ sig (Elt F)} (hE : E = after fromL1 U)
    (y : FVec F S16x4096x512 .f32)
    (hy : E (main_v42 : DevRef τ sig) = y) :
    E (main_v43 : DevRef τ sig) = lrelu y := by
  subst hE
  have hy := before_of_after fromL1_writes U main_v42 (by decide) hy
  subst hy
  refine (after_concat_of_not_mem fromH2_writes U (by decide)).trans ?_
  after_results_simp <;> rfl

/-- The third leaky rectifier: whatever its operand holds, its result is the rectifier of that. -/
theorem end_L2 {U E : Valuation τ sig (Elt F)} (hE : E = after fromL2 U)
    (y : FVec F S16x4096x512 .f32)
    (hy : E (main_v47 : DevRef τ sig) = y) :
    E (main_v48 : DevRef τ sig) = lrelu y := by
  subst hE
  have hy := before_of_after fromL2_writes U main_v47 (by decide) hy
  subst hy
  refine (after_concat_of_not_mem fromH3_writes U (by decide)).trans ?_
  after_results_simp <;> rfl

/-- The fourth leaky rectifier: whatever its operand holds, its result is the rectifier of that. -/
theorem end_L3 {U E : Valuation τ sig (Elt F)} (hE : E = after fromL3 U)
    (y : FVec F S16x4096x512 .f32)
    (hy : E (main_v52 : DevRef τ sig) = y) :
    E (main_v53 : DevRef τ sig) = lrelu y := by
  subst hE
  have hy := before_of_after fromL3_writes U main_v52 (by decide) hy
  subst hy
  refine (after_concat_of_not_mem fromE_writes U (by decide)).trans ?_
  after_results_simp <;> rfl

end Cert.ReferenceIdeal.Hand

end
-- ==== Proof.RefRunHid.lean ====
/-
  The reference's run, the three hidden layers before their activations.
-/
import proofs.«150989_j51316269252874_2_alg».proof.Proof.RefOps
import proofs.«150989_j51316269252874_2_alg».proof.Proof.RefTerm

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first hidden layer before its activation: the product with its weights plus its bias on every row. -/
theorem end_H1 {U E : Valuation τ sig (Elt F)} (hE : E = after fromH1 U)
    (x : FVec F S4096x64 .f32) (a : FVec F S4096x32 .f32) (w : FVec F S16x846914 .f32) (s : FVec F S64 .f32)
    (h38 : E (main_v38 : DevRef τ sig) = v38 x a w s)
    (h7 : E (main_v7 : DevRef τ sig) = v7 w)
    (h8 : E (main_v8 : DevRef τ sig) = v8 w) :
    E (main_v42 : DevRef τ sig) = v42 x a w s := by
  subst hE
  have h38 := before_of_after fromH1_writes U main_v38 (by decide) h38
  have h7 := before_of_after fromH1_writes U main_v7 (by decide) h7
  have h8 := before_of_after fromH1_writes U main_v8 (by decide) h8
  refine (after_concat_of_not_mem fromL1_writes U (by decide)).trans ?_
  after_results_simp <;> (try simp only [h38, h7, h8]) <;> rfl

/-- The second hidden layer before its activation: the product with its weights plus its bias on every row. -/
theorem end_H2 {U E : Valuation τ sig (Elt F)} (hE : E = after fromH2 U)
    (x : FVec F S4096x64 .f32) (a : FVec F S4096x32 .f32) (w : FVec F S16x846914 .f32) (s : FVec F S64 .f32)
    (h43 : E (main_v43 : DevRef τ sig) = v43 x a w s)
    (h10 : E (main_v10 : DevRef τ sig) = v10 w)
    (h11 : E (main_v11 : DevRef τ sig) = v11 w) :
    E (main_v47 : DevRef τ sig) = v47 x a w s := by
  subst hE
  have h43 := before_of_after fromH2_writes U main_v43 (by decide) h43
  have h10 := before_of_after fromH2_writes U main_v10 (by decide) h10
  have h11 := before_of_after fromH2_writes U main_v11 (by decide) h11
  refine (after_concat_of_not_mem fromL2_writes U (by decide)).trans ?_
  after_results_simp <;> (try simp only [h43, h10, h11]) <;> rfl

/-- The third hidden layer before its activation: the product with its weights plus its bias on every row. -/
theorem end_H3 {U E : Valuation τ sig (Elt F)} (hE : E = after fromH3 U)
    (x : FVec F S4096x64 .f32) (a : FVec F S4096x32 .f32) (w : FVec F S16x846914 .f32) (s : FVec F S64 .f32)
    (h48 : E (main_v48 : DevRef τ sig) = v48 x a w s)
    (h13 : E (main_v13 : DevRef τ sig) = v13 w)
    (h14 : E (main_v14 : DevRef τ sig) = v14 w) :
    E (main_v52 : DevRef τ sig) = v52 x a w s := by
  subst hE
  have h48 := before_of_after fromH3_writes U main_v48 (by decide) h48
  have h13 := before_of_after fromH3_writes U main_v13 (by decide) h13
  have h14 := before_of_after fromH3_writes U main_v14 (by decide) h14
  refine (after_concat_of_not_mem fromL3_writes U (by decide)).trans ?_
  after_results_simp <;> (try simp only [h48, h13, h14]) <;> rfl

end Cert.ReferenceIdeal.Hand

end
-- ==== Proof.RefRunOut.lean ====
/-
  The reference's run, the three heads and the results.
-/
import proofs.«150989_j51316269252874_2_alg».proof.Proof.RefOps
import proofs.«150989_j51316269252874_2_alg».proof.Proof.RefTerm

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The next-state head with its bias, and the scaled observations on every member. -/
theorem end_E {U E : Valuation τ sig (Elt F)} (hE : E = after fromE U)
    (x : FVec F S4096x64 .f32) (a : FVec F S4096x32 .f32) (w : FVec F S16x846914 .f32) (s : FVec F S64 .f32)
    (h53 : E (main_v53 : DevRef τ sig) = v53 x a w s)
    (h16 : E (main_v16 : DevRef τ sig) = v16 w)
    (h17 : E (main_v17 : DevRef τ sig) = v17 w)
    (h26 : E (main_v26 : DevRef τ sig) = v26 x s) :
    E (main_v57 : DevRef τ sig) = v57 x a w s
      ∧ E (main_v59 : DevRef τ sig) = v59 x s := by
  subst hE
  have h53 := before_of_after fromE_writes U main_v53 (by decide) h53
  have h16 := before_of_after fromE_writes U main_v16 (by decide) h16
  have h17 := before_of_after fromE_writes U main_v17 (by decide) h17
  have h26 := before_of_after fromE_writes U main_v26 (by decide) h26
  refine ⟨(after_concat_of_not_mem opsF_writes U (by decide)).trans ?_,
    (after_concat_of_not_mem opsF_writes U (by decide)).trans ?_⟩ <;>
    after_results_simp <;> (try simp only [h53, h16, h17, h26]) <;> rfl

/-- The second window: the residual sum scaled back, the reward, and the done head through the logistic function, each with the batch axis first. -/
theorem end_F {U E : Valuation τ sig (Elt F)} (hE : E = after opsF U)
    (x : FVec F S4096x64 .f32) (a : FVec F S4096x32 .f32) (w : FVec F S16x846914 .f32) (s : FVec F S64 .f32)
    (hs : E (main_arg3 : DevRef τ sig) = s)
    (h57 : E (main_v57 : DevRef τ sig) = v57 x a w s)
    (h59 : E (main_v59 : DevRef τ sig) = v59 x s)
    (h53 : E (main_v53 : DevRef τ sig) = v53 x a w s)
    (h19 : E (main_v19 : DevRef τ sig) = v19 w)
    (h20 : E (main_v20 : DevRef τ sig) = v20 w)
    (h22 : E (main_v22 : DevRef τ sig) = v22 w)
    (h23 : E (main_v23 : DevRef τ sig) = v23 w) :
    E (main_v78 : DevRef τ sig) = v78 x a w s
      ∧ E (main_v79 : DevRef τ sig) = v79 x a w s
      ∧ E (main_v80 : DevRef τ sig) = v80 x a w s := by
  subst hE
  have hs := before_of_after opsF_writes U main_arg3 (by decide) hs
  have h57 := before_of_after opsF_writes U main_v57 (by decide) h57
  have h59 := before_of_after opsF_writes U main_v59 (by decide) h59
  have h53 := before_of_after opsF_writes U main_v53 (by decide) h53
  have h19 := before_of_after opsF_writes U main_v19 (by decide) h19
  have h20 := before_of_after opsF_writes U main_v20 (by decide) h20
  have h22 := before_of_after opsF_writes U main_v22 (by decide) h22
  have h23 := before_of_after opsF_writes U main_v23 (by decide) h23
  subst hs
  refine ⟨?_,
    ?_,
    ?_⟩ <;>
    after_results_simp <;> (try simp only [h57, h59, h53, h19, h20, h22, h23]) <;> rfl

end Cert.ReferenceIdeal.Hand

end
-- ==== Proof.RefRun.lean ====
/-
  The reference's run: every weakly fair execution of @main terminates, nothing faulting, with the three results
  at the network's values of the four argument arrays and the arguments unchanged. @main is a straight line of host
  operations, so its final buffer contents are the fold of the operations' results over the launch contents; every
  tensor value has a buffer of its own, so at the end of the line each buffer still holds what the one operation
  that writes it left there, computed from what its operands' buffers hold at the end: the stages of the network,
  layer after layer.
-/
import proofs.«150989_j51316269252874_2_alg».proof.Proof.RefOps
import proofs.«150989_j51316269252874_2_alg».proof.Proof.RefTerm
import proofs.«150989_j51316269252874_2_alg».proof.Proof.RefRunW
import proofs.«150989_j51316269252874_2_alg».proof.Proof.RefRunIn
import proofs.«150989_j51316269252874_2_alg».proof.Proof.RefRunAct
import proofs.«150989_j51316269252874_2_alg».proof.Proof.RefRunHid
import proofs.«150989_j51316269252874_2_alg».proof.Proof.RefRunOut

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The line writes none of the four argument buffers. -/
theorem after_ops_arg (V : Valuation τ sig (Elt F)) (r : Ref sig .tc) (hr : r ∉ ops_W) :
    after ops V (r : DevRef τ sig) = V (r : DevRef τ sig) :=
  after_of_writes_sub ops V ops_writes hr

/-- From any contents whose argument buffers hold x, a, w and s, after the whole line the three result buffers hold
    the network's three values: the stages in order, each read at the end of the line from the stages before it. -/
theorem after_ops_results (V : Valuation τ sig (Elt F))
    (x : FVec F S4096x64 .f32) (a : FVec F S4096x32 .f32) (w : FVec F S16x846914 .f32) (s : FVec F S64 .f32)
    (hx : V (main_arg0 : DevRef τ sig) = x) (ha : V (main_arg1 : DevRef τ sig) = a)
    (hw : V (main_arg2 : DevRef τ sig) = w) (hs : V (main_arg3 : DevRef τ sig) = s) :
    after ops V (main_v78 : DevRef τ sig) = out_next x a w s
      ∧ after ops V (main_v79 : DevRef τ sig) = out_reward x a w s
      ∧ after ops V (main_v80 : DevRef τ sig) = out_done x a w s := by
  have hx : after ops V (main_arg0 : DevRef τ sig) = x := (after_ops_arg V main_arg0 (by decide)).trans hx
  have ha : after ops V (main_arg1 : DevRef τ sig) = a := (after_ops_arg V main_arg1 (by decide)).trans ha
  have hw : after ops V (main_arg2 : DevRef τ sig) = w := (after_ops_arg V main_arg2 (by decide)).trans hw
  have hs : after ops V (main_arg3 : DevRef τ sig) = s := (after_ops_arg V main_arg3 (by decide)).trans hs
  generalize hE : after ops V = E at hx ha hw hs ⊢
  obtain ⟨h1, h2, h4, h5, h7, h8, h10, h11, h13, h14, h16, h17, h19, h20, h22, h23⟩ := end_W hE.symm w hw
  obtain ⟨h26, h31, h36⟩ := end_In (hE.symm.trans (splitIn V)) x a w s hx ha hs h1 h2 h4 h5
  have h37 : E (main_v37 : DevRef τ sig) = v37 x a w s := end_Cat (hE.symm.trans (splitCat V)) (v31 x w s) (v36 a w) h31 h36
  have h38 : E (main_v38 : DevRef τ sig) = v38 x a w s := end_L0 (hE.symm.trans (splitL0 V)) (v37 x a w s) h37
  have h42 := end_H1 (hE.symm.trans (splitH1 V)) x a w s h38 h7 h8
  have h43 : E (main_v43 : DevRef τ sig) = v43 x a w s := end_L1 (hE.symm.trans (splitL1 V)) (v42 x a w s) h42
  have h47 := end_H2 (hE.symm.trans (splitH2 V)) x a w s h43 h10 h11
  have h48 : E (main_v48 : DevRef τ sig) = v48 x a w s := end_L2 (hE.symm.trans (splitL2 V)) (v47 x a w s) h47
  have h52 := end_H3 (hE.symm.trans (splitH3 V)) x a w s h48 h13 h14
  have h53 : E (main_v53 : DevRef τ sig) = v53 x a w s := end_L3 (hE.symm.trans (splitL3 V)) (v52 x a w s) h52
  obtain ⟨h57, h59⟩ := end_E (hE.symm.trans (splitE V)) x a w s h53 h16 h17 h26
  exact end_F (hE.symm.trans (splitF V)) x a w s hs h57 h59 h53 h19 h20 h22 h23

/-- On every device, for any float values, from any memory with zero counters: every weakly fair execution of @main
    terminates with the three results at the network's values of the four argument arrays, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      (r.2.mem ((c.tc : Thread nD τ).loc main_v78) = out_next (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_v79) = out_reward (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_v80) = out_done (m ((c.tc : Thread nD τ).loc main_arg0)) (m ((c.tc : Thread nD τ).loc main_arg1)) (m ((c.tc : Thread nD τ).loc main_arg2)) (m ((c.tc : Thread nD τ).loc main_arg3)))
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))) :=
  (θ_run defs _ _).mono (fun _ h c => by
      obtain ⟨e78, e79, e80⟩ := after_ops_results (launchContents m c) _ _ _ _ rfl rfl rfl rfl
      exact ⟨⟨(h c main_v78).trans e78, (h c main_v79).trans e79, (h c main_v80).trans e80⟩,
        (h c main_arg0).trans (after_ops_arg _ main_arg0 (by decide)),
        (h c main_arg1).trans (after_ops_arg _ main_arg1 (by decide)),
        (h c main_arg2).trans (after_ops_arg _ main_arg2 (by decide)),
        (h c main_arg3).trans (after_ops_arg _ main_arg3 (by decide))⟩)
    (run_main m ρ)

end Cert.ReferenceIdeal.Hand

end
-- ==== Proof.RefWeights.lean ====
/-
  The reference's weight tensors read at an index: each is a run of columns of member p's row of the flat
  array, some of them read as a matrix. Positions are those of the network's layout: the observation block
  and its bias, the action block and its bias, three hidden layers, and the three heads.
-/
import proofs.«150989_j51316269252874_2_alg».proof.Proof.RefTerm
import proofs.«150989_j51316269252874_2_alg».proof.Proof.Spec
import proofs.«150989_j51316269252874_2_alg».proof.Proof.LibFlat

namespace Cert.ReferenceIdeal.Hand

open Idealize.ShloMosaic Idealize.ShloMosaic.ValueIdx Cert.ReferenceIdeal Cert.Spec

variable [Facts]

/-- The observation block: entry (j, o) of member p is at position j·64 + o. -/
theorem v1_apply (w : FVec Ideal S16x846914 .f32) (p : Fin 16) (j : Fin 256) (o : Fin 64) :
    v1 w (ix3 p j o) = wt w p (j.val * 64 + o.val) := by
  have h1 := j.isLt
  have h2 := o.isLt
  rw [wt_eq w p _ (by omega)]
  exact LibFlat.slice_split_apply 0 w _ _ rfl p j o (by omega) _
    (by show j.val * 64 + o.val = 0 + (j.val * 64 + o.val); omega)

/-- The observation block's bias. -/
theorem v2_apply (w : FVec Ideal S16x846914 .f32) (p : Fin 16) (k : Fin 256) :
    v2 w (ix2 p k) = wt w p (16384 + k.val) := by
  have h1 := k.isLt
  rw [wt_eq w p _ (by omega)]
  exact slice2_axis1_apply 16384 w _ p k _ (by show 16384 + k.val = 16384 + k.val; omega)

/-- The action block: entry (j, q) of member p is at position 16640 + j·32 + q. -/
theorem v4_apply (w : FVec Ideal S16x846914 .f32) (p : Fin 16) (j : Fin 256) (q : Fin 32) :
    v4 w (ix3 p j q) = wt w p (16640 + j.val * 32 + q.val) := by
  have h1 := j.isLt
  have h2 := q.isLt
  rw [wt_eq w p _ (by omega)]
  exact LibFlat.slice_split_apply 16640 w _ _ rfl p j q (by omega) _
    (by show 16640 + j.val * 32 + q.val = 16640 + (j.val * 32 + q.val); omega)

/-- The action block's bias. -/
theorem v5_apply (w : FVec Ideal S16x846914 .f32) (p : Fin 16) (k : Fin 256) :
    v5 w (ix2 p k) = wt w p (24832 + k.val) := by
  have h1 := k.isLt
  rw [wt_eq w p _ (by omega)]
  exact slice2_axis1_apply 24832 w _ p k _ (by show 24832 + k.val = 24832 + k.val; omega)

/-- The first hidden layer's matrix. -/
theorem v7_apply (w : FVec Ideal S16x846914 .f32) (p : Fin 16) (k : Fin 512) (h : Fin 512) :
    v7 w (ix3 p k h) = wt w p (25088 + k.val * 512 + h.val) := by
  have h1 := k.isLt
  have h2 := h.isLt
  rw [wt_eq w p _ (by omega)]
  exact LibFlat.slice_split_apply 25088 w _ _ rfl p k h (by omega) _
    (by show 25088 + k.val * 512 + h.val = 25088 + (k.val * 512 + h.val); omega)

/-- The first hidden layer's bias. -/
theorem v8_apply (w : FVec Ideal S16x846914 .f32) (p : Fin 16) (k : Fin 512) :
    v8 w (ix2 p k) = wt w p (287232 + k.val) := by
  have h1 := k.isLt
  rw [wt_eq w p _ (by omega)]
  exact slice2_axis1_apply 287232 w _ p k _ (by show 287232 + k.val = 287232 + k.val; omega)

/-- The second hidden layer's matrix. -/
theorem v10_apply (w : FVec Ideal S16x846914 .f32) (p : Fin 16) (k : Fin 512) (h : Fin 512) :
    v10 w (ix3 p k h) = wt w p (287744 + k.val * 512 + h.val) := by
  have h1 := k.isLt
  have h2 := h.isLt
  rw [wt_eq w p _ (by omega)]
  exact LibFlat.slice_split_apply 287744 w _ _ rfl p k h (by omega) _
    (by show 287744 + k.val * 512 + h.val = 287744 + (k.val * 512 + h.val); omega)

/-- The second hidden layer's bias. -/
theorem v11_apply (w : FVec Ideal S16x846914 .f32) (p : Fin 16) (k : Fin 512) :
    v11 w (ix2 p k) = wt w p (549888 + k.val) := by
  have h1 := k.isLt
  rw [wt_eq w p _ (by omega)]
  exact slice2_axis1_apply 549888 w _ p k _ (by show 549888 + k.val = 549888 + k.val; omega)

/-- The third hidden layer's matrix. -/
theorem v13_apply (w : FVec Ideal S16x846914 .f32) (p : Fin 16) (k : Fin 512) (h : Fin 512) :
    v13 w (ix3 p k h) = wt w p (550400 + k.val * 512 + h.val) := by
  have h1 := k.isLt
  have h2 := h.isLt
  rw [wt_eq w p _ (by omega)]
  exact LibFlat.slice_split_apply 550400 w _ _ rfl p k h (by omega) _
    (by show 550400 + k.val * 512 + h.val = 550400 + (k.val * 512 + h.val); omega)

/-- The third hidden layer's bias. -/
theorem v14_apply (w : FVec Ideal S16x846914 .f32) (p : Fin 16) (k : Fin 512) :
    v14 w (ix2 p k) = wt w p (812544 + k.val) := by
  have h1 := k.isLt
  rw [wt_eq w p _ (by omega)]
  exact slice2_axis1_apply 812544 w _ p k _ (by show 812544 + k.val = 812544 + k.val; omega)

/-- The next-state head's matrix. -/
theorem v16_apply (w : FVec Ideal S16x846914 .f32) (p : Fin 16) (o : Fin 64) (h : Fin 512) :
    v16 w (ix3 p o h) = wt w p (813056 + o.val * 512 + h.val) := by
  have h1 := o.isLt
  have h2 := h.isLt
  rw [wt_eq w p _ (by omega)]
  exact LibFlat.slice_split_apply 813056 w _ _ rfl p o h (by omega) _
    (by show 813056 + o.val * 512 + h.val = 813056 + (o.val * 512 + h.val); omega)

/-- The next-state head's bias. -/
theorem v17_apply (w : FVec Ideal S16x846914 .f32) (p : Fin 16) (k : Fin 64) :
    v17 w (ix2 p k) = wt w p (845824 + k.val) := by
  have h1 := k.isLt
  rw [wt_eq w p _ (by omega)]
  exact slice2_axis1_apply 845824 w _ p k _ (by show 845824 + k.val = 845824 + k.val; omega)

/-- The reward head's row. -/
theorem v19_apply (w : FVec Ideal S16x846914 .f32) (p : Fin 16) (u : Fin 1) (h : Fin 512) :
    v19 w (ix3 p u h) = wt w p (845888 + h.val) := by
  have h1 := u.isLt
  have h2 := h.isLt
  rw [wt_eq w p _ (by omega)]
  exact LibFlat.slice_split_apply 845888 w _ _ rfl p u h (by omega) _
    (by show 845888 + h.val = 845888 + (u.val * 512 + h.val); omega)

/-- The reward head's bias. -/
theorem v20_apply (w : FVec Ideal S16x846914 .f32) (p : Fin 16) (k : Fin 1) :
    v20 w (ix2 p k) = wt w p (846400) := by
  have h1 := k.isLt
  rw [wt_eq w p _ (by omega)]
  exact slice2_axis1_apply 846400 w _ p k _ (by show 846400 = 846400 + k.val; omega)

/-- The done head's row. -/
theorem v22_apply (w : FVec Ideal S16x846914 .f32) (p : Fin 16) (u : Fin 1) (h : Fin 512) :
    v22 w (ix3 p u h) = wt w p (846401 + h.val) := by
  have h1 := u.isLt
  have h2 := h.isLt
  rw [wt_eq w p _ (by omega)]
  exact LibFlat.slice_split_apply 846401 w _ _ rfl p u h (by omega) _
    (by show 846401 + h.val = 846401 + (u.val * 512 + h.val); omega)

/-- The done head's bias. -/
theorem v23_apply (w : FVec Ideal S16x846914 .f32) (p : Fin 16) (k : Fin 1) :
    v23 w (ix2 p k) = wt w p (846913) := by
  have h1 := k.isLt
  rw [wt_eq w p _ (by omega)]
  exact slice2_axis1_apply 846913 w _ p k _ (by show 846913 = 846913 + k.val; omega)

end Cert.ReferenceIdeal.Hand
-- ==== Proof.LibBatchDot.lean ====
/-
  Two host contractions read at an index, at the ideal values.
  Batched: for dimension numbers with batch axis 0 on both operands, free axis 1 on both, and axis 2 of both
  contracted, the product of l : [P, B, H] and r : [P, K, H] is, at (p, b, k), the sum over h of
  l(p, b, h) · r(p, k, h).
  Unbatched, the left operand keeping two axes: for dimension numbers contracting axis 2 of l : [P, J, O] with
  axis 1 of r : [B, O], no batch axis, the product is, at (p, j, b), the sum over o of l(p, j, o) · r(b, o).
-/
import Idealize.ShloMosaic.PureOps.Ideal.Laws
import Idealize.ShloMosaic.Lib.ValueIdx

noncomputable section

open scoped BigOperators

namespace Cert.LibBatchDot

open Idealize.ShloMosaic Idealize.ShloMosaic.ValueIdx

/-- A coordinate of an index depends only on the axis's number. -/
theorem coord_congr {s : Shape} (j : s.Idx) (p q : Nat) (hp : p < s.rank) (hq : q < s.rank) (h : p = q) :
    (j ⟨p, hp⟩).val = (j ⟨q, hq⟩).val := by subst h; rfl

section Batched
variable {P B K H : Nat} (d : DotDims ⟨3, ![P, B, H]⟩ ⟨3, ![P, K, H]⟩ ⟨3, ![P, B, K]⟩)
  (hlb : d.lhsBatch = [0]) (hln : d.lhsNonContracting = [1]) (hlc : d.lhsContracting = [2])
  (hrb : d.rhsBatch = [0]) (hrn : d.rhsNonContracting = [1]) (hrc : d.rhsContracting = [2])

include hlc in
theorem contr_rank : d.contr.rank = 1 := by rw [d.rank_contr, hlc]; rfl

include hlc in
theorem contr_size : d.contr.size ⟨0, by rw [contr_rank d hlc]; exact Nat.one_pos⟩ = H := by
  have hp : 0 < d.lhsContracting.length := by rw [hlc]; exact Nat.one_pos
  have := d.size_contr 0 hp
  simp only [hlc] at this
  exact this

include hlb hln hlc in
/-- The left operand's index at output index j and contraction position k is (j₀, j₁, k). -/
theorem lhsIdx_eq (j : (⟨3, ![P, B, K]⟩ : Shape).Idx) (k : d.contr.Idx) :
    d.lhsIdx j k = ix3 (j 0) (j 1) ((contrEquiv1 d H (contr_rank d hlc) (contr_size d hlc)) k) := by
  funext a; apply Fin.ext
  match a with
  | ⟨0, _⟩ =>
    show (d.lhsIdx j k 0).val = (j 0).val
    have hb : (0 : Fin (⟨3, ![P, B, H]⟩ : Shape).rank) ∈ d.lhsBatch := by rw [hlb]; exact List.mem_singleton.mpr rfl
    unfold DotDims.lhsIdx
    rw [dif_pos hb]
    simp only [Fin.val_cast]
    exact coord_congr j _ _ _ _ (by simp [hlb])
  | ⟨1, _⟩ =>
    show (d.lhsIdx j k 1).val = (j 1).val
    have hb : (1 : Fin (⟨3, ![P, B, H]⟩ : Shape).rank) ∉ d.lhsBatch := by
      rw [hlb]; intro h; exact absurd (congrArg Fin.val (List.mem_singleton.mp h)) Nat.one_ne_zero
    have hn : (1 : Fin (⟨3, ![P, B, H]⟩ : Shape).rank) ∈ d.lhsNonContracting := by rw [hln]; exact List.mem_singleton.mpr rfl
    unfold DotDims.lhsIdx
    rw [dif_neg hb, dif_pos hn]
    simp only [Fin.val_cast]
    exact coord_congr j _ _ _ _ (by simp [hlb, hln])
  | ⟨2, _⟩ =>
    show (d.lhsIdx j k 2).val = _
    rw [d.lhsIdx_val_of_single hlc j k]
    simp [contrEquiv1]

include hlb hln hlc hrb hrn hrc in
/-- The right operand's index at output index j and contraction position k is (j₀, j₂, k). -/
theorem rhsIdx_eq (j : (⟨3, ![P, B, K]⟩ : Shape).Idx) (k : d.contr.Idx) :
    d.rhsIdx j k = ix3 (j 0) (j 2) ((contrEquiv1 d H (contr_rank d hlc) (contr_size d hlc)) k) := by
  funext a; apply Fin.ext
  match a with
  | ⟨0, _⟩ =>
    show (d.rhsIdx j k 0).val = (j 0).val
    have hb : (0 : Fin (⟨3, ![P, K, H]⟩ : Shape).rank) ∈ d.rhsBatch := by rw [hrb]; exact List.mem_singleton.mpr rfl
    unfold DotDims.rhsIdx
    rw [dif_pos hb]
    simp only [Fin.val_cast]
    exact coord_congr j _ _ _ _ (by simp [hrb])
  | ⟨1, _⟩ =>
    show (d.rhsIdx j k 1).val = (j 2).val
    have hb : (1 : Fin (⟨3, ![P, K, H]⟩ : Shape).rank) ∉ d.rhsBatch := by
      rw [hrb]; intro h; exact absurd (congrArg Fin.val (List.mem_singleton.mp h)) Nat.one_ne_zero
    have hn : (1 : Fin (⟨3, ![P, K, H]⟩ : Shape).rank) ∈ d.rhsNonContracting := by rw [hrn]; exact List.mem_singleton.mpr rfl
    unfold DotDims.rhsIdx
    rw [dif_neg hb, dif_pos hn]
    simp only [Fin.val_cast]
    exact coord_congr j _ _ _ _ (by simp [hlb, hln, hrn])
  | ⟨2, _⟩ =>
    show (d.rhsIdx j k 2).val = _
    rw [d.rhsIdx_val_of_single hrc j k]
    simp [contrEquiv1]

include hlb hln hlc hrb hrn hrc in
/-- The batched product at (p, b, k) is the sum over h of l(p, b, h) · r(p, k, h). -/
theorem dotGeneral_batched_apply {φ₁ φ₂ : FTy} (prec : Option ContractPrecision)
    (l : FVec Ideal ⟨3, ![P, B, H]⟩ φ₁) (r : FVec Ideal ⟨3, ![P, K, H]⟩ φ₂) (p : Fin P) (b : Fin B) (k : Fin K) :
    Host.dotGeneral d prec l r (ix3 p b k) = ∑ h : Fin H, l (ix3 p b h) * r (ix3 p k h) := by
  refine (Ideal.dotGeneral_apply d prec _ l r (ix3 p b k)).trans ?_
  rw [← Equiv.sum_comp (contrEquiv1 d H (contr_rank d hlc) (contr_size d hlc)) (fun h => l (ix3 p b h) * r (ix3 p k h))]
  refine Finset.sum_congr rfl fun q _ => ?_
  rw [lhsIdx_eq d hlb hln hlc (ix3 p b k) q, rhsIdx_eq d hlb hln hlc hrb hrn hrc (ix3 p b k) q]
  rfl

end Batched

section TwoFree
variable {P J O B : Nat} (d : DotDims ⟨3, ![P, J, O]⟩ ⟨2, ![B, O]⟩ ⟨3, ![P, J, B]⟩)
  (hlb : d.lhsBatch = []) (hln : d.lhsNonContracting = [0, 1]) (hlc : d.lhsContracting = [2])
  (hrb : d.rhsBatch = []) (hrn : d.rhsNonContracting = [0]) (hrc : d.rhsContracting = [1])

include hlc in
theorem contr_rank' : d.contr.rank = 1 := by rw [d.rank_contr, hlc]; rfl

include hlc in
theorem contr_size' : d.contr.size ⟨0, by rw [contr_rank' d hlc]; exact Nat.one_pos⟩ = O := by
  have hp : 0 < d.lhsContracting.length := by rw [hlc]; exact Nat.one_pos
  have := d.size_contr 0 hp
  simp only [hlc] at this
  exact this

include hlb hln hlc in
/-- The left operand's index at output index j and contraction position k is (j₀, j₁, k). -/
theorem lhsIdx_eq' (j : (⟨3, ![P, J, B]⟩ : Shape).Idx) (k : d.contr.Idx) :
    d.lhsIdx j k = ix3 (j 0) (j 1) ((contrEquiv1 d O (contr_rank' d hlc) (contr_size' d hlc)) k) := by
  funext a; apply Fin.ext
  match a with
  | ⟨0, _⟩ =>
    show (d.lhsIdx j k 0).val = (j 0).val
    have hb : (0 : Fin (⟨3, ![P, J, O]⟩ : Shape).rank) ∉ d.lhsBatch := by rw [hlb]; exact List.not_mem_nil
    have hn : (0 : Fin (⟨3, ![P, J, O]⟩ : Shape).rank) ∈ d.lhsNonContracting := by rw [hln]; exact List.mem_cons_self
    unfold DotDims.lhsIdx
    rw [dif_neg hb, dif_pos hn]
    simp only [Fin.val_cast]
    exact coord_congr j _ _ _ _ (by simp [hlb, hln])
  | ⟨1, _⟩ =>
    show (d.lhsIdx j k 1).val = (j 1).val
    have hb : (1 : Fin (⟨3, ![P, J, O]⟩ : Shape).rank) ∉ d.lhsBatch := by rw [hlb]; exact List.not_mem_nil
    have hn : (1 : Fin (⟨3, ![P, J, O]⟩ : Shape).rank) ∈ d.lhsNonContracting := by
      rw [hln]; exact List.mem_cons_of_mem _ (List.mem_singleton.mpr rfl)
    unfold DotDims.lhsIdx
    rw [dif_neg hb, dif_pos hn]
    simp only [Fin.val_cast]
    exact coord_congr j _ _ _ _ (by simp [hlb, hln])
  | ⟨2, _⟩ =>
    show (d.lhsIdx j k 2).val = _
    rw [d.lhsIdx_val_of_single hlc j k]
    simp [contrEquiv1]

include hlb hln hlc hrb hrn hrc in
/-- The right operand's index at output index j and contraction position k is (j₂, k). -/
theorem rhsIdx_eq' (j : (⟨3, ![P, J, B]⟩ : Shape).Idx) (k : d.contr.Idx) :
    d.rhsIdx j k = ix2 (j 2) ((contrEquiv1 d O (contr_rank' d hlc) (contr_size' d hlc)) k) := by
  funext a; apply Fin.ext
  match a with
  | ⟨0, _⟩ =>
    show (d.rhsIdx j k 0).val = (j 2).val
    have hb : (0 : Fin (⟨2, ![B, O]⟩ : Shape).rank) ∉ d.rhsBatch := by rw [hrb]; exact List.not_mem_nil
    have hn : (0 : Fin (⟨2, ![B, O]⟩ : Shape).rank) ∈ d.rhsNonContracting := by rw [hrn]; exact List.mem_singleton.mpr rfl
    unfold DotDims.rhsIdx
    rw [dif_neg hb, dif_pos hn]
    simp only [Fin.val_cast]
    exact coord_congr j _ _ _ _ (by simp [hlb, hln, hrn])
  | ⟨1, _⟩ =>
    show (d.rhsIdx j k 1).val = _
    rw [d.rhsIdx_val_of_single hrc j k]
    simp [contrEquiv1]

include hlb hln hlc hrb hrn hrc in
/-- The product at (p, j, b) is the sum over o of l(p, j, o) · r(b, o). -/
theorem dotGeneral_twoFree_apply {φ₁ φ₂ : FTy} (prec : Option ContractPrecision)
    (l : FVec Ideal ⟨3, ![P, J, O]⟩ φ₁) (r : FVec Ideal ⟨2, ![B, O]⟩ φ₂) (p : Fin P) (j : Fin J) (b : Fin B) :
    Host.dotGeneral d prec l r (ix3 p j b) = ∑ o : Fin O, l (ix3 p j o) * r (ix2 b o) := by
  refine (Ideal.dotGeneral_apply d prec _ l r (ix3 p j b)).trans ?_
  rw [← Equiv.sum_comp (contrEquiv1 d O (contr_rank' d hlc) (contr_size' d hlc)) (fun o => l (ix3 p j o) * r (ix2 b o))]
  refine Finset.sum_congr rfl fun q _ => ?_
  rw [lhsIdx_eq' d hlb hln hlc (ix3 p j b) q, rhsIdx_eq' d hlb hln hlc hrb hrn hrc (ix3 p j b) q]
  rfl

end TwoFree

end Cert.LibBatchDot

end
-- ==== Proof.RefLayer0.lean ====
/-
  The reference's first layer read at an index. The scaled observation is x(b, o) · s(o); the observation half
  at (p, b, j) is Σ_o W(p, j·64 + o) · xs(b, o) plus its bias, the action half Σ_q W(p, 16640 + j·32 + q) · a(b, q)
  plus its bias; the two halves lie side by side along the last axis and the rectifier acts entry by entry.
-/
import proofs.«150989_j51316269252874_2_alg».proof.Proof.RefWeights
import proofs.«150989_j51316269252874_2_alg».proof.Proof.LibBatchDot

open scoped BigOperators

namespace Cert.ReferenceIdeal.Hand

open Idealize.ShloMosaic Idealize.ShloMosaic.ValueIdx Cert.ReferenceIdeal Cert.Spec

variable [Facts]

/-- The rectifier at an entry is the specification's. -/
theorem lrelu_apply (y : FVec Ideal S16x4096x512 .f32) (i : S16x4096x512.Idx) : lrelu y i = lr (y i) := rfl

/-- The scalings on every row. -/
theorem v25_apply (s : FVec Ideal S64 .f32) (b : Fin 4096) (o : Fin 64) : v25 s (ix2 b o) = s (ix1 o) := by
  unfold v25 v24
  refine (broadcastInDim_apply _ _ _ (ix2 b o) (ix2 (0 : Fin 1) o)
    (fun a => match a with | ⟨0, _⟩ => rfl | ⟨1, _⟩ => rfl)).trans ?_
  exact broadcastInDim_apply _ _ s (ix2 (0 : Fin 1) o) (ix1 o) (fun a => match a with | ⟨0, _⟩ => rfl)

/-- The scaled observations. -/
theorem v26_apply (x : FVec Ideal S4096x64 .f32) (s : FVec Ideal S64 .f32) (b : Fin 4096) (o : Fin 64) :
    v26 x s (ix2 b o) = xs x s b o := by
  unfold v26 xs
  rw [mulf_apply, v25_apply]

/-- The observation block times the scaled observations. -/
theorem v27_apply (x : FVec Ideal S4096x64 .f32) (w : FVec Ideal S16x846914 .f32) (s : FVec Ideal S64 .f32)
    (p : Fin 16) (j : Fin 256) (b : Fin 4096) :
    v27 x w s (ix3 p j b) = ∑ o : Fin 64, wt w p (j.val * 64 + o.val) * xs x s b o := by
  unfold v27
  refine (LibBatchDot.dotGeneral_twoFree_apply dot_S16x256x64_S4096x64_S16x256x4096_2_1_01_0_n_n rfl rfl rfl rfl rfl rfl
    none (v1 w) (v26 x s) p j b).trans ?_
  simp only [v1_apply, v26_apply]

/-- The observation bias on every batch row. -/
theorem v30_apply (w : FVec Ideal S16x846914 .f32) (p : Fin 16) (b : Fin 4096) (k : Fin 256) :
    v30 w (ix3 p b k) = wt w p (16384 + k.val) := by
  unfold v30 v29
  refine (broadcastInDim_apply _ _ _ (ix3 p b k) (ix3 p (0 : Fin 1) k)
    (fun a => match a with | ⟨0, _⟩ => rfl | ⟨1, _⟩ => rfl | ⟨2, _⟩ => rfl)).trans ?_
  refine (broadcastInDim_apply _ _ _ (ix3 p (0 : Fin 1) k) (ix2 p k)
    (fun a => match a with | ⟨0, _⟩ => rfl | ⟨1, _⟩ => rfl)).trans ?_
  exact v2_apply w p k

/-- The observation half before the rectifier. -/
theorem v31_apply (x : FVec Ideal S4096x64 .f32) (w : FVec Ideal S16x846914 .f32) (s : FVec Ideal S64 .f32)
    (p : Fin 16) (b : Fin 4096) (j : Fin 256) : v31 x w s (ix3 p b j) = hObs x w s p b j := by
  unfold v31 v28 hObs
  rw [addf_apply, v30_apply]
  refine congrArg (· + wt w p (16384 + j.val)) ?_
  exact (transpose_ix3_021_apply (v27 x w s) _ p b j).trans (v27_apply x w s p j b)

/-- The action block times the actions. -/
theorem v32_apply (a : FVec Ideal S4096x32 .f32) (w : FVec Ideal S16x846914 .f32)
    (p : Fin 16) (j : Fin 256) (b : Fin 4096) :
    v32 a w (ix3 p j b) = ∑ q : Fin 32, wt w p (16640 + j.val * 32 + q.val) * a (ix2 b q) := by
  unfold v32
  refine (LibBatchDot.dotGeneral_twoFree_apply dot_S16x256x32_S4096x32_S16x256x4096_2_1_01_0_n_n rfl rfl rfl rfl rfl rfl
    none (v4 w) a p j b).trans ?_
  simp only [v4_apply]

/-- The action bias on every batch row. -/
theorem v35_apply (w : FVec Ideal S16x846914 .f32) (p : Fin 16) (b : Fin 4096) (k : Fin 256) :
    v35 w (ix3 p b k) = wt w p (24832 + k.val) := by
  unfold v35 v34
  refine (broadcastInDim_apply _ _ _ (ix3 p b k) (ix3 p (0 : Fin 1) k)
    (fun a => match a with | ⟨0, _⟩ => rfl | ⟨1, _⟩ => rfl | ⟨2, _⟩ => rfl)).trans ?_
  refine (broadcastInDim_apply _ _ _ (ix3 p (0 : Fin 1) k) (ix2 p k)
    (fun a => match a with | ⟨0, _⟩ => rfl | ⟨1, _⟩ => rfl)).trans ?_
  exact v5_apply w p k

/-- The action half before the rectifier. -/
theorem v36_apply (a : FVec Ideal S4096x32 .f32) (w : FVec Ideal S16x846914 .f32)
    (p : Fin 16) (b : Fin 4096) (j : Fin 256) : v36 a w (ix3 p b j) = hAct a w p b j := by
  unfold v36 v33 hAct
  rw [addf_apply, v35_apply]
  refine congrArg (· + wt w p (24832 + j.val)) ?_
  exact (transpose_ix3_021_apply (v32 a w) _ p b j).trans (v32_apply a w p j b)

/-- The two halves side by side: the first 256 entries are the observation half. -/
theorem v37_apply_left (x : FVec Ideal S4096x64 .f32) (a : FVec Ideal S4096x32 .f32) (w : FVec Ideal S16x846914 .f32)
    (s : FVec Ideal S64 .f32) (p : Fin 16) (b : Fin 4096) (k : Fin 512) (hk : k.val < 256) :
    v37 x a w s (ix3 p b k) = v31 x w s (ix3 p b ⟨k.val, hk⟩) := by
  unfold v37
  exact concatenate_pair_apply_left 2 (v31 x w s) (v36 a w) _ (ix3 p b k) rfl (ix3 p b ⟨k.val, hk⟩)
    (fun c => match c with | ⟨0, _⟩ => rfl | ⟨1, _⟩ => rfl | ⟨2, _⟩ => rfl)

/-- The last 256 entries are the action half. -/
theorem v37_apply_right (x : FVec Ideal S4096x64 .f32) (a : FVec Ideal S4096x32 .f32) (w : FVec Ideal S16x846914 .f32)
    (s : FVec Ideal S64 .f32) (p : Fin 16) (b : Fin 4096) (k : Fin 512) (hk : ¬ k.val < 256) :
    v37 x a w s (ix3 p b k) = v36 a w (ix3 p b ⟨k.val - 256, by omega⟩) := by
  unfold v37
  exact concatenate_pair_apply_right 2 (v31 x w s) (v36 a w) _ (ix3 p b k) rfl rfl (ix3 p b ⟨k.val - 256, by omega⟩)
    (fun c => match c with
      | ⟨0, _⟩ => fun _ => rfl
      | ⟨1, _⟩ => fun _ => rfl
      | ⟨2, _⟩ => fun h => absurd rfl h)
    (by show (k.val - 256) + 256 = k.val; omega)

/-- The first layer's output is the specification's first activation. -/
theorem v38_apply (x : FVec Ideal S4096x64 .f32) (a : FVec Ideal S4096x32 .f32) (w : FVec Ideal S16x846914 .f32)
    (s : FVec Ideal S64 .f32) (p : Fin 16) (b : Fin 4096) (k : Fin 512) :
    v38 x a w s (ix3 p b k) = y0 x a w s p b k := by
  unfold v38 y0
  rw [lrelu_apply]
  refine congrArg lr ?_
  by_cases hk : k.val < 256
  · rw [dif_pos hk, v37_apply_left x a w s p b k hk, v31_apply]
  · rw [dif_neg hk, v37_apply_right x a w s p b k hk, v36_apply]

end Cert.ReferenceIdeal.Hand
-- ==== Proof.RefHidden.lean ====
/-
  The reference's three hidden layers read at an index: at (p, b, k) each is the rectifier of
  Σ_h y(p, b, h) · W(p)(k, h) plus the bias at k, with y the previous layer's output.
-/
import proofs.«150989_j51316269252874_2_alg».proof.Proof.RefLayer0

open scoped BigOperators

namespace Cert.ReferenceIdeal.Hand

open Idealize.ShloMosaic Idealize.ShloMosaic.ValueIdx Cert.ReferenceIdeal Cert.Spec
open Cert.ReferenceIdeal.Facts₀

variable [Facts]

/-- One hidden layer at an entry, for any input, matrix and bias. -/
theorem hidden_apply (y : FVec Ideal S16x4096x512 .f32) (W : FVec Ideal S16x512x512 .f32) (c : FVec Ideal S16x512 .f32)
    (p : Fin 16) (b : Fin 4096) (k : Fin 512) :
    lrelu (addf (Host.dotGeneral dot_S16x4096x512_S16x512x512_S16x4096x512_2_2_1_1_0_0 none y W)
      (broadcastInDim S16x4096x512 ![0, 1, 2] bcast_S16x1x512_S16x4096x512_0_1_2
        (broadcastInDim S16x1x512 ![0, 2] bcast_S16x512_S16x1x512_0_2 c))) (ix3 p b k)
      = lr ((∑ h : Fin 512, y (ix3 p b h) * W (ix3 p k h)) + c (ix2 p k)) := by
  rw [lrelu_apply, addf_apply]
  refine congrArg lr (congrArg₂ (· + ·) ?_ ?_)
  · exact LibBatchDot.dotGeneral_batched_apply _ rfl rfl rfl rfl rfl rfl none y W p b k
  · refine (broadcastInDim_apply _ _ _ (ix3 p b k) (ix3 p (0 : Fin 1) k)
      (fun a => match a with | ⟨0, _⟩ => rfl | ⟨1, _⟩ => rfl | ⟨2, _⟩ => rfl)).trans ?_
    exact broadcastInDim_apply _ _ c (ix3 p (0 : Fin 1) k) (ix2 p k)
      (fun a => match a with | ⟨0, _⟩ => rfl | ⟨1, _⟩ => rfl)

/-- The first hidden layer's output. -/
theorem v43_apply (x : FVec Ideal S4096x64 .f32) (a : FVec Ideal S4096x32 .f32) (w : FVec Ideal S16x846914 .f32)
    (s : FVec Ideal S64 .f32) (p : Fin 16) (b : Fin 4096) (k : Fin 512) :
    v43 x a w s (ix3 p b k) = y1 x a w s p b k := by
  unfold v43 v42 v39 v41 v40
  rw [hidden_apply]
  unfold y1 layer
  simp only [v38_apply, v7_apply, v8_apply]

/-- The second hidden layer's output. -/
theorem v48_apply (x : FVec Ideal S4096x64 .f32) (a : FVec Ideal S4096x32 .f32) (w : FVec Ideal S16x846914 .f32)
    (s : FVec Ideal S64 .f32) (p : Fin 16) (b : Fin 4096) (k : Fin 512) :
    v48 x a w s (ix3 p b k) = y2 x a w s p b k := by
  unfold v48 v47 v44 v46 v45
  rw [hidden_apply]
  unfold y2 layer
  simp only [v43_apply, v10_apply, v11_apply]

/-- The third hidden layer's output. -/
theorem v53_apply (x : FVec Ideal S4096x64 .f32) (a : FVec Ideal S4096x32 .f32) (w : FVec Ideal S16x846914 .f32)
    (s : FVec Ideal S64 .f32) (p : Fin 16) (b : Fin 4096) (k : Fin 512) :
    v53 x a w s (ix3 p b k) = y3 x a w s p b k := by
  unfold v53 v52 v49 v51 v50
  rw [hidden_apply]
  unfold y3 layer
  simp only [v48_apply, v13_apply, v14_apply]

end Cert.ReferenceIdeal.Hand
-- ==== Proof.RefHeads.lean ====
/-
  The reference's three heads read at an index, and its three results as the specification's.
  Next state at (b, p, o): ((Σ_h y3(p, b, h) · W(p)(o, h) + bias(o)) + xs(b, o)) / s(o).
  Reward at (b, p): Σ_h y3(p, b, h) · W(p)(h) + bias. Done at (b, p): 1 / (1 + exp(−(Σ_h y3(p, b, h) · W(p)(h) + bias))),
  which is the logistic function of the sum.
-/
import proofs.«150989_j51316269252874_2_alg».proof.Proof.RefHidden

open scoped BigOperators

namespace Cert.ReferenceIdeal.Hand

open Idealize.ShloMosaic Idealize.ShloMosaic.ValueIdx Cert.ReferenceIdeal Cert.Spec
open Cert.ReferenceIdeal.Facts₀

variable [Facts]

/-! ## The next state -/

/-- The next-state head's product. -/
theorem v54_apply (x : FVec Ideal S4096x64 .f32) (a : FVec Ideal S4096x32 .f32) (w : FVec Ideal S16x846914 .f32)
    (s : FVec Ideal S64 .f32) (p : Fin 16) (b : Fin 4096) (o : Fin 64) :
    v54 x a w s (ix3 p b o) = ∑ h : Fin 512, y3 x a w s p b h * wt w p (813056 + o.val * 512 + h.val) := by
  unfold v54
  refine (LibBatchDot.dotGeneral_batched_apply dot_S16x4096x512_S16x64x512_S16x4096x64_2_2_1_1_0_0 rfl rfl rfl rfl rfl rfl
    none (v53 x a w s) (v16 w) p b o).trans ?_
  simp only [v53_apply, v16_apply]

/-- The next-state head's bias on every batch row. -/
theorem v56_apply (w : FVec Ideal S16x846914 .f32) (p : Fin 16) (b : Fin 4096) (k : Fin 64) :
    v56 w (ix3 p b k) = wt w p (845824 + k.val) := by
  unfold v56 v55
  refine (broadcastInDim_apply _ _ _ (ix3 p b k) (ix3 p (0 : Fin 1) k)
    (fun a => match a with | ⟨0, _⟩ => rfl | ⟨1, _⟩ => rfl | ⟨2, _⟩ => rfl)).trans ?_
  refine (broadcastInDim_apply _ _ _ (ix3 p (0 : Fin 1) k) (ix2 p k)
    (fun a => match a with | ⟨0, _⟩ => rfl | ⟨1, _⟩ => rfl)).trans ?_
  exact v17_apply w p k

/-- The scaled observations, the same for every member. -/
theorem v59_apply (x : FVec Ideal S4096x64 .f32) (s : FVec Ideal S64 .f32) (p : Fin 16) (b : Fin 4096) (o : Fin 64) :
    v59 x s (ix3 p b o) = xs x s b o := by
  unfold v59 v58
  refine (broadcastInDim_apply _ _ _ (ix3 p b o) (ix3 (0 : Fin 1) b o)
    (fun c => match c with | ⟨0, _⟩ => rfl | ⟨1, _⟩ => rfl | ⟨2, _⟩ => rfl)).trans ?_
  refine (broadcastInDim_apply _ _ _ (ix3 (0 : Fin 1) b o) (ix2 b o)
    (fun c => match c with | ⟨0, _⟩ => rfl | ⟨1, _⟩ => rfl)).trans ?_
  exact v26_apply x s b o

/-- The scaled next state. -/
theorem v60_apply (x : FVec Ideal S4096x64 .f32) (a : FVec Ideal S4096x32 .f32) (w : FVec Ideal S16x846914 .f32)
    (s : FVec Ideal S64 .f32) (p : Fin 16) (b : Fin 4096) (o : Fin 64) :
    v60 x a w s (ix3 p b o) = nsHead x a w s p b o := by
  unfold v60 v57 nsHead
  rw [addf_apply, addf_apply, v54_apply, v56_apply, v59_apply]

/-- The scalings on every row of every member. -/
theorem v77_apply (s : FVec Ideal S64 .f32) (b : Fin 4096) (p : Fin 16) (o : Fin 64) : v77 s (ix3 b p o) = s (ix1 o) := by
  unfold v77 v76
  refine (broadcastInDim_apply _ _ _ (ix3 b p o) (ix3 (0 : Fin 1) (0 : Fin 1) o)
    (fun c => match c with | ⟨0, _⟩ => rfl | ⟨1, _⟩ => rfl | ⟨2, _⟩ => rfl)).trans ?_
  exact broadcastInDim_apply _ _ s (ix3 (0 : Fin 1) (0 : Fin 1) o) (ix1 o) (fun c => match c with | ⟨0, _⟩ => rfl)

/-- The reference's next state is the specification's. -/
theorem out_next_eq (x : FVec Ideal S4096x64 .f32) (a : FVec Ideal S4096x32 .f32) (w : FVec Ideal S16x846914 .f32)
    (s : FVec Ideal S64 .f32) : out_next x a w s = Cert.Spec.next x a w s := by
  funext i
  obtain ⟨b, p, o, rfl⟩ : ∃ (b : Fin 4096) (p : Fin 16) (o : Fin 64), i = ix3 b p o := ⟨i 0, i 1, i 2, eq_ix3 i⟩
  rw [next_apply]
  unfold out_next v78 v75
  show Ideal.div (transpose S4096x16x64 [1, 0, 2] (v60 x a w s) transposes_S16x4096x64_S4096x16x64_1_0_2 (ix3 b p o))
    (v77 s (ix3 b p o)) = _
  rw [v77_apply]
  refine congrArg (Ideal.div · (s (ix1 o))) ?_
  refine (transpose_apply _ _ _ (ix3 b p o) (ix3 p b o)
    (fun c => match c with | ⟨0, _⟩ => rfl | ⟨1, _⟩ => rfl | ⟨2, _⟩ => rfl)).trans ?_
  exact v60_apply x a w s p b o

/-! ## The reward -/

/-- A head with one output row: its product. -/
theorem v61_apply (x : FVec Ideal S4096x64 .f32) (a : FVec Ideal S4096x32 .f32) (w : FVec Ideal S16x846914 .f32)
    (s : FVec Ideal S64 .f32) (p : Fin 16) (b : Fin 4096) (u : Fin 1) :
    v61 x a w s (ix3 p b u) = ∑ h : Fin 512, y3 x a w s p b h * wt w p (845888 + h.val) := by
  unfold v61
  refine (LibBatchDot.dotGeneral_batched_apply dot_S16x4096x512_S16x1x512_S16x4096x1_2_2_1_1_0_0 rfl rfl rfl rfl rfl rfl
    none (v53 x a w s) (v19 w) p b u).trans ?_
  simp only [v53_apply, v19_apply]

/-- The reward head's bias on every batch row. -/
theorem v63_apply (w : FVec Ideal S16x846914 .f32) (p : Fin 16) (b : Fin 4096) (u : Fin 1) :
    v63 w (ix3 p b u) = wt w p 846400 := by
  unfold v63 v62
  refine (broadcastInDim_apply _ _ _ (ix3 p b u) (ix3 p (0 : Fin 1) (0 : Fin 1))
    (fun c => match c with | ⟨0, _⟩ => rfl | ⟨1, _⟩ => rfl | ⟨2, _⟩ => rfl)).trans ?_
  refine (broadcastInDim_apply _ _ _ (ix3 p (0 : Fin 1) (0 : Fin 1)) (ix2 p (0 : Fin 1))
    (fun c => match c with | ⟨0, _⟩ => rfl | ⟨1, _⟩ => rfl)).trans ?_
  exact v20_apply w p 0

/-- The reward. -/
theorem v64_apply (x : FVec Ideal S4096x64 .f32) (a : FVec Ideal S4096x32 .f32) (w : FVec Ideal S16x846914 .f32)
    (s : FVec Ideal S64 .f32) (p : Fin 16) (b : Fin 4096) (u : Fin 1) :
    v64 x a w s (ix3 p b u) = rwHead x a w s p b := by
  unfold v64 rwHead
  rw [addf_apply, v61_apply, v63_apply]

/-- The reference's reward is the specification's. -/
theorem out_reward_eq (x : FVec Ideal S4096x64 .f32) (a : FVec Ideal S4096x32 .f32) (w : FVec Ideal S16x846914 .f32)
    (s : FVec Ideal S64 .f32) : out_reward x a w s = Cert.Spec.reward x a w s := by
  funext i
  obtain ⟨b, p, u, rfl⟩ : ∃ (b : Fin 4096) (p : Fin 16) (u : Fin 1), i = ix3 b p u := ⟨i 0, i 1, i 2, eq_ix3 i⟩
  rw [reward_apply]
  unfold out_reward v79
  refine (transpose_apply _ _ _ (ix3 b p u) (ix3 p b u)
    (fun c => match c with | ⟨0, _⟩ => rfl | ⟨1, _⟩ => rfl | ⟨2, _⟩ => rfl)).trans ?_
  exact v64_apply x a w s p b u

/-! ## The done probability -/

/-- The done head's product. -/
theorem v65_apply (x : FVec Ideal S4096x64 .f32) (a : FVec Ideal S4096x32 .f32) (w : FVec Ideal S16x846914 .f32)
    (s : FVec Ideal S64 .f32) (p : Fin 16) (b : Fin 4096) (u : Fin 1) :
    v65 x a w s (ix3 p b u) = ∑ h : Fin 512, y3 x a w s p b h * wt w p (846401 + h.val) := by
  unfold v65
  refine (LibBatchDot.dotGeneral_batched_apply dot_S16x4096x512_S16x1x512_S16x4096x1_2_2_1_1_0_0 rfl rfl rfl rfl rfl rfl
    none (v53 x a w s) (v22 w) p b u).trans ?_
  simp only [v53_apply, v22_apply]

/-- The done head's bias on every batch row. -/
theorem v67_apply (w : FVec Ideal S16x846914 .f32) (p : Fin 16) (b : Fin 4096) (u : Fin 1) :
    v67 w (ix3 p b u) = wt w p 846913 := by
  unfold v67 v66
  refine (broadcastInDim_apply _ _ _ (ix3 p b u) (ix3 p (0 : Fin 1) (0 : Fin 1))
    (fun c => match c with | ⟨0, _⟩ => rfl | ⟨1, _⟩ => rfl | ⟨2, _⟩ => rfl)).trans ?_
  refine (broadcastInDim_apply _ _ _ (ix3 p (0 : Fin 1) (0 : Fin 1)) (ix2 p (0 : Fin 1))
    (fun c => match c with | ⟨0, _⟩ => rfl | ⟨1, _⟩ => rfl)).trans ?_
  exact v23_apply w p 0

/-- The done head's logit. -/
theorem v68_apply (x : FVec Ideal S4096x64 .f32) (a : FVec Ideal S4096x32 .f32) (w : FVec Ideal S16x846914 .f32)
    (s : FVec Ideal S64 .f32) (p : Fin 16) (b : Fin 4096) (u : Fin 1) :
    v68 x a w s (ix3 p b u) = dnHead x a w s p b := by
  unfold v68 dnHead
  rw [addf_apply, v65_apply, v67_apply]

/-- The word 0x3F800000 reads as 1. -/
theorem ofBits_one_f32 : Ideal.ofBits .f32 0x3F800000#32 = 1 := by
  simp [Ideal.ofBits, Ideal.ieee, -EReal.coe_mul]; norm_num

/-- The host's quotient, exponential and negation at an entry are the extended reals'. -/
theorem hostDivf_apply {s : Shape} {φ : FTy} (f g : FVec Ideal s φ) (i : s.Idx) : Host.divf f g i = Ideal.div (f i) (g i) := rfl
theorem hostExp_apply {s : Shape} {φ : FTy} (f : FVec Ideal s φ) (i : s.Idx) : Host.exp f i = Ideal.exp (f i) := rfl
theorem hostNegf_apply {s : Shape} {φ : FTy} (f : FVec Ideal s φ) (i : s.Idx) : Host.negf f i = -(f i) := rfl

/-- The literal 1.0 on every entry. -/
theorem v71_apply (i : S16x4096x1.Idx) : v71 (F := Ideal) i = 1 := by
  unfold v71 one
  exact ofBits_one_f32
theorem v73_apply (i : S16x4096x1.Idx) : v73 (F := Ideal) i = 1 := by
  unfold v73 one
  exact ofBits_one_f32

/-- The spelled-out sigmoid 1 / (1 + exp(−z)) is the logistic function of the logit. -/
theorem v74_apply (x : FVec Ideal S4096x64 .f32) (a : FVec Ideal S4096x32 .f32) (w : FVec Ideal S16x846914 .f32)
    (s : FVec Ideal S64 .f32) (p : Fin 16) (b : Fin 4096) (u : Fin 1) :
    v74 x a w s (ix3 p b u) = Ideal.logistic (dnHead x a w s p b) := by
  unfold v74 v72 v70 v69
  rw [hostDivf_apply, addf_apply, hostExp_apply, hostNegf_apply, v71_apply, v73_apply, v68_apply]
  rfl

/-- The reference's done probability is the specification's. -/
theorem out_done_eq (x : FVec Ideal S4096x64 .f32) (a : FVec Ideal S4096x32 .f32) (w : FVec Ideal S16x846914 .f32)
    (s : FVec Ideal S64 .f32) : out_done x a w s = Cert.Spec.done x a w s := by
  funext i
  obtain ⟨b, p, u, rfl⟩ : ∃ (b : Fin 4096) (p : Fin 16) (u : Fin 1), i = ix3 b p u := ⟨i 0, i 1, i 2, eq_ix3 i⟩
  rw [done_apply]
  unfold out_done v80
  refine (transpose_apply _ _ _ (ix3 b p u) (ix3 p b u)
    (fun c => match c with | ⟨0, _⟩ => rfl | ⟨1, _⟩ => rfl | ⟨2, _⟩ => rfl)).trans ?_
  exact v74_apply x a w s p b u

end Cert.ReferenceIdeal.Hand
-- ==== Proof.RefValue.lean ====
/-
  The reference's value: its three results are the specification's three functions of the argument arrays.
-/
import proofs.«150989_j51316269252874_2_alg».proof.Proof.RefHeads

namespace Cert.ReferenceIdeal.Hand

open Idealize.ShloMosaic Cert.ReferenceIdeal

variable [Facts]

/-- Next state, reward and done probability of the reference are those of the specification. -/
theorem ref_value (x : FVec Ideal S4096x64 .f32) (a : FVec Ideal S4096x32 .f32) (w : FVec Ideal S16x846914 .f32)
    (s : FVec Ideal S64 .f32) :
    out_next x a w s = Cert.Spec.next x a w s ∧ out_reward x a w s = Cert.Spec.reward x a w s
      ∧ out_done x a w s = Cert.Spec.done x a w s :=
  ⟨out_next_eq x a w s, out_reward_eq x a w s, out_done_eq x a w s⟩

end Cert.ReferenceIdeal.Hand
-- ==== Proof.lean ====
/-
  The certificate of a population of sixteen small networks evaluated on a batch of 4096 rows.

  Both programs compute, for member p and batch row b, a five-layer network whose weights lie one after another
  in the member's row of one flat array: an observation layer and an action layer side by side, three hidden
  layers of width 512, and three heads (next state, reward, done), each layer a matrix product plus a bias with a
  leaky rectifier between layers, the next state offset by the scaled observation and divided by the scalings, the
  done head passed through the logistic function.  The kernel walks the batch in eight tiles of 512 rows and,
  inside a tile, the sixteen members one after another, each member's weights a slab of arrays that the host
  lines before the launch cut from the flat array, reshaped and transposed; it fuses the three heads into one
  matrix of 66 columns and stores one block of 66 columns per member and tile, which the host lines after the
  launch cut apart again.  The reference is the same arithmetic written as batched matrix products over the whole
  arrays.

  On the extended reals the two agree index by index: changes of number format are identities, a matrix product
  is the finite sum over the contracted axis in either program, the fused head's column q is the head it was laid
  from, the logistic function is one function in both spellings, and the only law used beyond reading indices is
  the commutativity of the product in the two input layers, where the kernel multiplies input by weight and the
  reference weight by input.  No finiteness of the inputs is needed.

  The three frames: each program terminates on every fair schedule, faults nowhere and leaves its arguments as
  they were.  For the kernel program this is the launch of the tile pipeline around a body whose member loop is
  passed by its invariant; for the reference it is the run of its host lines with the results dropped.
-/
import proofs.«150989_j51316269252874_2_alg».proof.Defs
import proofs.«150989_j51316269252874_2_alg».proof.Proof.Gen.Kernel
import proofs.«150989_j51316269252874_2_alg».proof.Proof.Gen.KernelIdeal
import proofs.«150989_j51316269252874_2_alg».proof.Proof.Gen.ReferenceIdeal
import proofs.«150989_j51316269252874_2_alg».proof.Proof.Gen.Pre_finite_inputs
import proofs.«150989_j51316269252874_2_alg».proof.Proof.KBitsFrame
import proofs.«150989_j51316269252874_2_alg».proof.Proof.KValue
import proofs.«150989_j51316269252874_2_alg».proof.Proof.KTailVal
import proofs.«150989_j51316269252874_2_alg».proof.Proof.RefRun
import proofs.«150989_j51316269252874_2_alg».proof.Proof.RefValue

noncomputable section

namespace Cert.Proof

open Idealize.ShloMosaic Idealize.SL.Sem

/-- The word-level kernel program runs and keeps its arguments. -/
theorem frame_kernel : Cert.frame_Kernel (hKernel := Cert.Kernel.Gen.facts) (hPre_finite_inputs := Cert.Pre_finite_inputs.Gen.facts) :=
  fun m ρ _ => Cert.Kernel.Frame.frame (F := Bits) m ρ

/-- The idealized kernel program runs and keeps its arguments. -/
theorem frame_kernelIdeal : Cert.frame_KernelIdeal (hKernelIdeal := Cert.KernelIdeal.Gen.facts) (hPre_finite_inputs := Cert.Pre_finite_inputs.Gen.facts) :=
  fun m ρ _ => Cert.KernelIdeal.Frame.frame (F := Ideal) m ρ

/-- The reference runs and keeps its arguments: its run with the results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run (F := Ideal) m ρ)

/-- The idealized kernel program is the kernel program's own text read on the extended reals: nothing was rewritten. -/
theorem preserves : Cert.preserves_Kernel_KernelIdeal := trivial

/-- From memories that agree on the arguments both idealized programs end with the network's three results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.next (Cert.KernelIdeal.Frame.argX m c) (Cert.KernelIdeal.Frame.argA m c) (Cert.KernelIdeal.Frame.argW m c) (Cert.KernelIdeal.Frame.argS m c),
    fun c => Cert.Spec.reward (Cert.KernelIdeal.Frame.argX m c) (Cert.KernelIdeal.Frame.argA m c) (Cert.KernelIdeal.Frame.argW m c) (Cert.KernelIdeal.Frame.argS m c),
    fun c => Cert.Spec.done (Cert.KernelIdeal.Frame.argX m c) (Cert.KernelIdeal.Frame.argA m c) (Cert.KernelIdeal.Frame.argW m c) (Cert.KernelIdeal.Frame.argS m c), ?_, ?_⟩
  · refine (θ_run Cert.KernelIdeal.defs _ _).mono (fun r h c => ?_)
      (Cert.KernelIdeal.Frame.run_named (F := Ideal) m ρ
        (fun c => Cert.Spec.combArr (Cert.KernelIdeal.Frame.argX m c) (Cert.KernelIdeal.Frame.argA m c) (Cert.KernelIdeal.Frame.argW m c) (Cert.KernelIdeal.Frame.argS m c))
        (Cert.KernelIdeal.Frame.outAfter_comb m))
    obtain ⟨h1, h2, h3, h4⟩ := h c
    exact ⟨h1.trans (Cert.KernelIdeal.TailVal.tail_next_spec _ _ _ _), h2.trans (Cert.KernelIdeal.TailVal.tail_reward_spec _ _ _ _),
      h3.trans (Cert.KernelIdeal.TailVal.tail_done_spec _ _ _ _), h4⟩
  · refine (θ_run Cert.ReferenceIdeal.defs _ _).mono (fun r h c => ?_) (Cert.ReferenceIdeal.Hand.run (F := Ideal) m' ρ')
    obtain ⟨⟨h1, h2, h3⟩, h4⟩ := h c
    obtain ⟨e0, e1, e2, e3⟩ := hagree c
    refine ⟨?_, ?_, ?_, h4⟩
    · rw [h1, e0, e1, e2, e3]; exact Cert.ReferenceIdeal.Hand.out_next_eq _ _ _ _
    · rw [h2, e0, e1, e2, e3]; exact Cert.ReferenceIdeal.Hand.out_reward_eq _ _ _ _
    · rw [h3, e0, e1, e2, e3]; exact Cert.ReferenceIdeal.Hand.out_done_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
